-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x400000 : Shape := ⟨2, ![2, 400000]⟩
abbrev S256x256 : Shape := ⟨2, ![256, 256]⟩
abbrev S256 : Shape := ⟨1, ![256]⟩
abbrev S_ : Shape := ⟨0, ![]⟩
abbrev S128x256 : Shape := ⟨2, ![128, 256]⟩
abbrev S128 : Shape := ⟨1, ![128]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S_S_d : S_.ReducesTo [] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg20 : FVec F S256 .f32) (main_arg21 : FVec F S128x256 .f32) (main_arg22 : FVec F S128 .f32) (main_v81 : IVec S_ 1) (main_v84 : IVec S256 1) : IVec S_ 1 :=
  let main_c_33 : IVec S_ 1 := constantI S_ 1 1#1
  let main_v85 : IVec S_ 1 := (fun x v => Host.reduce IntOp.andi x v reducesTo_S256_S_d0 h_S_) main_v84 main_c_33
  let main_v86 : IVec S_ 1 := andi main_v81 main_v85
  let main_v87 : FVec F S256 .f32 := Host.absf main_arg20
  let main_cst_34 : FVec F S_ .f32 := constant S_ .f32 0x7F800000#32
  let main_v88 : FVec F S256 .f32 := broadcastInDim S256 ![] bcast_S_S256 main_cst_34
  let main_v89 : IVec S256 1 := cmpf .olt main_v87 main_v88
  let main_c_35 : IVec S_ 1 := constantI S_ 1 1#1
  let main_v90 : IVec S_ 1 := (fun x v => Host.reduce IntOp.andi x v reducesTo_S256_S_d0 h_S_) main_v89 main_c_35
  let main_v91 : IVec S_ 1 := andi main_v86 main_v90
  let main_v92 : FVec F S128x256 .f32 := Host.absf main_arg21
  let main_cst_36 : FVec F S_ .f32 := constant S_ .f32 0x7F800000#32
  let main_v93 : FVec F S128x256 .f32 := broadcastInDim S128x256 ![] bcast_S_S128x256 main_cst_36
  let main_v94 : IVec S128x256 1 := cmpf .olt main_v92 main_v93
  let main_c_37 : IVec S_ 1 := constantI S_ 1 1#1
  let main_v95 : IVec S_ 1 := (fun x v => Host.reduce IntOp.andi x v reducesTo_S128x256_S_d0_1 h_S_) main_v94 main_c_37
  let main_v96 : IVec S_ 1 := andi main_v91 main_v95
  let main_v97 : FVec F S128 .f32 := Host.absf main_arg22
  let main_cst_38 : FVec F S_ .f32 := constant S_ .f32 0x7F800000#32
  let main_v98 : FVec F S128 .f32 := broadcastInDim S128 ![] bcast_S_S128 main_cst_38
  let main_v99 : IVec S128 1 := cmpf .olt main_v97 main_v98
  let main_c_39 : IVec S_ 1 := constantI S_ 1 1#1
  let main_v100 : IVec S_ 1 := (fun x v => Host.reduce IntOp.andi x v reducesTo_S128_S_d0 h_S_) main_v99 main_c_39
  let main_v101 : IVec S_ 1 := andi main_v96 main_v100
  main_v101

def fn_part4 {F : FTy → Type} [FloatOps F] (main_arg16 : FVec F S256x256 .f32) (main_arg17 : FVec F S256 .f32) (main_arg18 : FVec F S_ .f32) (main_arg19 : FVec F S256 .f32) (main_arg20 : FVec F S256 .f32) (main_arg21 : FVec F S128x256 .f32) (main_arg22 : FVec F S128 .f32) (main_v67 : IVec S_ 1) : IVec S_ 1 :=
  let main_v68 : FVec F S256x256 .f32 := Host.absf main_arg16
  let main_cst_26 : FVec F S_ .f32 := constant S_ .f32 0x7F800000#32
  let main_v69 : FVec F S256x256 .f32 := broadcastInDim S256x256 ![] bcast_S_S256x256 main_cst_26
  let main_v70 : IVec S256x256 1 := cmpf .olt main_v68 main_v69
  let main_c_27 : IVec S_ 1 := constantI S_ 1 1#1
  let main_v71 : IVec S_ 1 := (fun x v => Host.reduce IntOp.andi x v reducesTo_S256x256_S_d0_1 h_S_) main_v70 main_c_27
  let main_v72 : IVec S_ 1 := andi main_v67 main_v71
  let main_v73 : FVec F S256 .f32 := Host.absf main_arg17
  let main_cst_28 : FVec F S_ .f32 := constant S_ .f32 0x7F800000#32
  let main_v74 : FVec F S256 .f32 := broadcastInDim S256 ![] bcast_S_S256 main_cst_28
  let main_v75 : IVec S256 1 := cmpf .olt main_v73 main_v74
  let main_c_29 : IVec S_ 1 := constantI S_ 1 1#1
  let main_v76 : IVec S_ 1 := (fun x v => Host.reduce IntOp.andi x v reducesTo_S256_S_d0 h_S_) main_v75 main_c_29
  let main_v77 : IVec S_ 1 := andi main_v72 main_v76
  let main_v78 : FVec F S_ .f32 := Host.absf main_arg18
  let main_cst_30 : FVec F S_ .f32 := constant S_ .f32 0x7F800000#32
  let main_v79 : IVec S_ 1 := cmpf .olt main_v78 main_cst_30
  let main_c_31 : IVec S_ 1 := constantI S_ 1 1#1
  let main_v80 : IVec S_ 1 := (fun x v => Host.reduce IntOp.andi x v reducesTo_S_S_d h_S_) main_v79 main_c_31
  let main_v81 : IVec S_ 1 := andi main_v77 main_v80
  let main_v82 : FVec F S256 .f32 := Host.absf main_arg19
  let main_cst_32 : FVec F S_ .f32 := constant S_ .f32 0x7F800000#32
  let main_v83 : FVec F S256 .f32 := broadcastInDim S256 ![] bcast_S_S256 main_cst_32
  let main_v84 : IVec S256 1 := cmpf .olt main_v82 main_v83
  fn_part5 (F := F) main_arg20 main_arg21 main_arg22 main_v81 main_v84

def fn_part3 {F : FTy → Type} [FloatOps F] (main_arg13 : FVec F S256 .f32) (main_arg14 : FVec F S256x256 .f32) (main_arg15 : FVec F S256 .f32) (main_arg16 : FVec F S256x256 .f32) (main_arg17 : FVec F S256 .f32) (main_arg18 : FVec F S_ .f32) (main_arg19 : FVec F S256 .f32) (main_arg20 : FVec F S256 .f32) (main_arg21 : FVec F S128x256 .f32) (main_arg22 : FVec F S128 .f32) (main_v47 : IVec S_ 1) (main_v50 : IVec S256x256 1) : IVec S_ 1 :=
  let main_c_19 : IVec S_ 1 := constantI S_ 1 1#1
  let main_v51 : IVec S_ 1 := (fun x v => Host.reduce IntOp.andi x v reducesTo_S256x256_S_d0_1 h_S_) main_v50 main_c_19
  let main_v52 : IVec S_ 1 := andi main_v47 main_v51
  let main_v53 : FVec F S256 .f32 := Host.absf main_arg13
  let main_cst_20 : FVec F S_ .f32 := constant S_ .f32 0x7F800000#32
  let main_v54 : FVec F S256 .f32 := broadcastInDim S256 ![] bcast_S_S256 main_cst_20
  let main_v55 : IVec S256 1 := cmpf .olt main_v53 main_v54
  let main_c_21 : IVec S_ 1 := constantI S_ 1 1#1
  let main_v56 : IVec S_ 1 := (fun x v => Host.reduce IntOp.andi x v reducesTo_S256_S_d0 h_S_) main_v55 main_c_21
  let main_v57 : IVec S_ 1 := andi main_v52 main_v56
  let main_v58 : FVec F S256x256 .f32 := Host.absf main_arg14
  let main_cst_22 : FVec F S_ .f32 := constant S_ .f32 0x7F800000#32
  let main_v59 : FVec F S256x256 .f32 := broadcastInDim S256x256 ![] bcast_S_S256x256 main_cst_22
  let main_v60 : IVec S256x256 1 := cmpf .olt main_v58 main_v59
  let main_c_23 : IVec S_ 1 := constantI S_ 1 1#1
  let main_v61 : IVec S_ 1 := (fun x v => Host.reduce IntOp.andi x v reducesTo_S256x256_S_d0_1 h_S_) main_v60 main_c_23
  let main_v62 : IVec S_ 1 := andi main_v57 main_v61
  let main_v63 : FVec F S256 .f32 := Host.absf main_arg15
  let main_cst_24 : FVec F S_ .f32 := constant S_ .f32 0x7F800000#32
  let main_v64 : FVec F S256 .f32 := broadcastInDim S256 ![] bcast_S_S256 main_cst_24
  let main_v65 : IVec S256 1 := cmpf .olt main_v63 main_v64
  let main_c_25 : IVec S_ 1 := constantI S_ 1 1#1
  let main_v66 : IVec S_ 1 := (fun x v => Host.reduce IntOp.andi x v reducesTo_S256_S_d0 h_S_) main_v65 main_c_25
  let main_v67 : IVec S_ 1 := andi main_v62 main_v66
  fn_part4 (F := F) main_arg16 main_arg17 main_arg18 main_arg19 main_arg20 main_arg21 main_arg22 main_v67

def fn_part2 {F : FTy → Type} [FloatOps F] (main_arg9 : FVec F S_ .f32) (main_arg10 : FVec F S256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S_ .f32) (main_arg19 : FVec F S256 .f32) (main_arg20 : FVec F S256 .f32) (main_arg21 : FVec F S128x256 .f32) (main_arg22 : FVec F S128 .f32) (main_v33 : IVec S_ 1) : IVec S_ 1 :=
  let main_v34 : FVec F S_ .f32 := Host.absf main_arg9
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_v38 : FVec F S256 .f32 := Host.absf main_arg10
  let main_cst_14 : FVec F S_ .f32 := constant S_ .f32 0x7F800000#32
  let main_v39 : FVec F S256 .f32 := broadcastInDim S256 ![] bcast_S_S256 main_cst_14
  let main_v40 : IVec S256 1 := cmpf .olt main_v38 main_v39
  let main_c_15 : IVec S_ 1 := constantI S_ 1 1#1
  let main_v41 : IVec S_ 1 := (fun x v => Host.reduce IntOp.andi x v reducesTo_S256_S_d0 h_S_) main_v40 main_c_15
  let main_v42 : IVec S_ 1 := andi main_v37 main_v41
  let main_v43 : FVec F S256 .f32 := Host.absf main_arg11
  let main_cst_16 : FVec F S_ .f32 := constant S_ .f32 0x7F800000#32
  let main_v44 : FVec F S256 .f32 := broadcastInDim S256 ![] bcast_S_S256 main_cst_16
  let main_v45 : IVec S256 1 := cmpf .olt main_v43 main_v44
  let main_c_17 : IVec S_ 1 := constantI S_ 1 1#1
  let main_v46 : IVec S_ 1 := (fun x v => Host.reduce IntOp.andi x v reducesTo_S256_S_d0 h_S_) main_v45 main_c_17
  let main_v47 : IVec S_ 1 := andi main_v42 main_v46
  let main_v48 : FVec F S256x256 .f32 := Host.absf main_arg12
  let main_cst_18 : FVec F S_ .f32 := constant S_ .f32 0x7F800000#32
  let main_v49 : FVec F S256x256 .f32 := broadcastInDim S256x256 ![] bcast_S_S256x256 main_cst_18
  let main_v50 : IVec S256x256 1 := cmpf .olt main_v48 main_v49
  fn_part3 (F := F) main_arg13 main_arg14 main_arg15 main_arg16 main_arg17 main_arg18 main_arg19 main_arg20 main_arg21 main_arg22 main_v47 main_v50

def fn_part1 {F : FTy → Type} [FloatOps F] (main_arg6 : FVec F S256 .f32) (main_arg7 : FVec F S256x256 .f32) (main_arg8 : FVec F S256 .f32) (main_arg9 : FVec F S_ .f32) (main_arg10 : FVec F S256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S_ .f32) (main_arg19 : FVec F S256 .f32) (main_arg20 : FVec F S256 .f32) (main_arg21 : FVec F S128x256 .f32) (main_arg22 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x256 .f32) (main_arg1 : IVec S2x400000 32) (main_arg2 : IVec S2x400000 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S_ .f32) (main_arg10 : FVec F S256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S_ .f32) (main_arg19 : FVec F S256 .f32) (main_arg20 : FVec F S256 .f32) (main_arg21 : FVec F S128x256 .f32) (main_arg22 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x256 : Shape := ⟨2, ![100000, 256]⟩
abbrev S2x400000 : Shape := ⟨2, ![2, 400000]⟩
abbrev S256x256 : Shape := ⟨2, ![256, 256]⟩
abbrev S256 : Shape := ⟨1, ![256]⟩
abbrev S_ : Shape := ⟨0, ![]⟩
abbrev S128x256 : Shape := ⟨2, ![128, 256]⟩
abbrev S128 : Shape := ⟨1, ![128]⟩
abbrev S1x400000 : Shape := ⟨2, ![1, 400000]⟩
abbrev S400000 : Shape := ⟨1, ![400000]⟩
abbrev S400000x1 : Shape := ⟨2, ![400000, 1]⟩
abbrev S400000x256 : Shape := ⟨2, ![400000, 256]⟩
abbrev S100000 : Shape := ⟨1, ![100000]⟩
abbrev S100000x1 : Shape := ⟨2, ![100000, 1]⟩
abbrev S1x256 : Shape := ⟨2, ![1, 256]⟩
abbrev S1x1 : Shape := ⟨2, ![1, 1]⟩
abbrev S2000x256 : Shape := ⟨2, ![2000, 256]⟩
abbrev S2000 : Shape := ⟨1, ![2000]⟩
abbrev S2000x1 : Shape := ⟨2, ![2000, 1]⟩
abbrev S1x128 : Shape := ⟨2, ![1, 128]⟩
abbrev S100000x128 : Shape := ⟨2, ![100000, 128]⟩
abbrev S2000x128 : Shape := ⟨2, ![2000, 128]⟩
abbrev S256x128 : Shape := ⟨2, ![256, 128]⟩

abbrev nBuf : Space → Nat
  | .hbm => 99
  | .vmem => 40
  | .smem => 0
  | _ => 0

abbrev bufTy : (tb : Table) → Fin (tcTables nBuf tb) → BufTy
  | .hbm, ⟨0, _⟩ => ⟨S100000x256, .f32⟩
  | .hbm, ⟨1, _⟩ => ⟨S2x400000, .i32⟩
  | .hbm, ⟨2, _⟩ => ⟨S2x400000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S128x256, .f32⟩
  | .hbm, ⟨22, _⟩ => ⟨S128, .f32⟩
  | .hbm, ⟨23, _⟩ => ⟨S1x400000, .i32⟩
  | .hbm, ⟨24, _⟩ => ⟨S400000, .i32⟩
  | .hbm, ⟨25, _⟩ => ⟨S1x400000, .i32⟩
  | .hbm, ⟨26, _⟩ => ⟨S400000, .i32⟩
  | .hbm, ⟨27, _⟩ => ⟨S_, .i32⟩
  | .hbm, ⟨28, _⟩ => ⟨S400000, .i32⟩
  | .hbm, ⟨29, _⟩ => ⟨S400000, .i1⟩
  | .hbm, ⟨30, _⟩ => ⟨S_, .i32⟩
  | .hbm, ⟨31, _⟩ => ⟨S400000, .i32⟩
  | .hbm, ⟨32, _⟩ => ⟨S400000, .i32⟩
  | .hbm, ⟨33, _⟩ => ⟨S400000, .i32⟩
  | .hbm, ⟨34, _⟩ => ⟨S400000x1, .i32⟩
  | .hbm, ⟨35, _⟩ => ⟨S400000x256, .f32⟩
  | .hbm, ⟨36, _⟩ => ⟨S_, .f32⟩
  | .hbm, ⟨37, _⟩ => ⟨S100000x256, .f32⟩
  | .hbm, ⟨38, _⟩ => ⟨S400000x1, .i32⟩
  | .hbm, ⟨39, _⟩ => ⟨S100000x256, .f32⟩
  | .hbm, ⟨40, _⟩ => ⟨S_, .f32⟩
  | .hbm, ⟨41, _⟩ => ⟨S400000, .f32⟩
  | .hbm, ⟨42, _⟩ => ⟨S_, .f32⟩
  | .hbm, ⟨43, _⟩ => ⟨S100000, .f32⟩
  | .hbm, ⟨44, _⟩ => ⟨S400000x1, .i32⟩
  | .hbm, ⟨45, _⟩ => ⟨S100000, .f32⟩
  | .hbm, ⟨46, _⟩ => ⟨S_, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x256, .f32⟩
  | .hbm, ⟨52, _⟩ => ⟨S100000x256, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x1, .f32⟩
  | .hbm, ⟨59, _⟩ => ⟨S100000x256, .f32⟩
  | .hbm, ⟨60, _⟩ => ⟨S1x400000, .i32⟩
  | .hbm, ⟨61, _⟩ => ⟨S400000, .i32⟩
  | .hbm, ⟨62, _⟩ => ⟨S1x400000, .i32⟩
  | .hbm, ⟨63, _⟩ => ⟨S400000, .i32⟩
  | .hbm, ⟨64, _⟩ => ⟨S_, .i32⟩
  | .hbm, ⟨65, _⟩ => ⟨S400000, .i32⟩
  | .hbm, ⟨66, _⟩ => ⟨S400000, .i1⟩
  | .hbm, ⟨67, _⟩ => ⟨S_, .i32⟩
  | .hbm, ⟨68, _⟩ => ⟨S400000, .i32⟩
  | .hbm, ⟨69, _⟩ => ⟨S400000, .i32⟩
  | .hbm, ⟨70, _⟩ => ⟨S400000, .i32⟩
  | .hbm, ⟨71, _⟩ => ⟨S400000x1, .i32⟩
  | .hbm, ⟨72, _⟩ => ⟨S400000x256, .f32⟩
  | .hbm, ⟨73, _⟩ => ⟨S_, .f32⟩
  | .hbm, ⟨74, _⟩ => ⟨S100000x256, .f32⟩
  | .hbm, ⟨75, _⟩ => ⟨S400000x1, .i32⟩
  | .hbm, ⟨76, _⟩ => ⟨S100000x256, .f32⟩
  | .hbm, ⟨77, _⟩ => ⟨S_, .f32⟩
  | .hbm, ⟨78, _⟩ => ⟨S400000, .f32⟩
  | .hbm, ⟨79, _⟩ => ⟨S_, .f32⟩
  | .hbm, ⟨80, _⟩ => ⟨S100000, .f32⟩
  | .hbm, ⟨81, _⟩ => ⟨S400000x1, .i32⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S100000x1, .f32⟩
  | .hbm, ⟨88, _⟩ => ⟨S100000x256, .f32⟩
  | .hbm, ⟨89, _⟩ => ⟨S100000x256, .f32⟩
  | .hbm, ⟨90, _⟩ => ⟨S1x256, .f32⟩
  | .hbm, ⟨91, _⟩ => ⟨S1x256, .f32⟩
  | .hbm, ⟨92, _⟩ => ⟨S1x256, .f32⟩
  | .hbm, ⟨93, _⟩ => ⟨S1x256, .f32⟩
  | .hbm, ⟨94, _⟩ => ⟨S1x256, .f32⟩
  | .hbm, ⟨95, _⟩ => ⟨S1x1, .f32⟩
  | .hbm, ⟨96, _⟩ => ⟨S100000x256, .f32⟩
  | .hbm, ⟨97, _⟩ => ⟨S1x128, .f32⟩
  | .hbm, ⟨98, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1x1, .f32⟩
  | .local _ .vmem, ⟨13, _⟩ => ⟨S1x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S256x256, .f32⟩
  | .local _ .vmem, ⟨24, _⟩ => ⟨S1x256, .f32⟩
  | .local _ .vmem, ⟨25, _⟩ => ⟨S256x256, .f32⟩
  | .local _ .vmem, ⟨26, _⟩ => ⟨S1x256, .f32⟩
  | .local _ .vmem, ⟨27, _⟩ => ⟨S256x256, .f32⟩
  | .local _ .vmem, ⟨28, _⟩ => ⟨S1x256, .f32⟩
  | .local _ .vmem, ⟨29, _⟩ => ⟨S1x1, .f32⟩
  | .local _ .vmem, ⟨30, _⟩ => ⟨S1x256, .f32⟩
  | .local _ .vmem, ⟨31, _⟩ => ⟨S1x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S128x256, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_4 : Ref sig .tc := ⟨.hbm, 64, rfl⟩
abbrev main_v33 : Ref sig .tc := ⟨.hbm, 65, rfl⟩
abbrev main_v34 : Ref sig .tc := ⟨.hbm, 66, rfl⟩
abbrev main_c_5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_6 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_7 : Ref sig .tc := ⟨.hbm, 77, rfl⟩
abbrev main_v43 : Ref sig .tc := ⟨.hbm, 78, rfl⟩
abbrev main_cst_8 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_9 : Ref sig .tc := ⟨.hbm, 83, rfl⟩
abbrev main_call1_v0 : Ref sig .tc := ⟨.hbm, 84, rfl⟩
abbrev main_call1_v1 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg12_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg3_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem12_1 : DmaSem sig := 33
abbrev cc2_sem0_0 : DmaSem sig := 34
abbrev cc2_sem0_1 : DmaSem sig := 35
abbrev cc2_sem1_0 : DmaSem sig := 36
abbrev cc2_sem2_0 : DmaSem sig := 37
abbrev cc2_sem3_0 : DmaSem sig := 38
abbrev cc2_sem3_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2000x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  shapeCasts_S256_S1x256 : S256.ShapeCasts S1x256
  shapeCasts_S_S1x1 : S_.ShapeCasts S1x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x256 : S1x1.Broadcasts S2000x256
  reduces_S2000x256_S2000 : S2000x256.Reduces [1] S2000
  shapeCasts_S2000_S2000x1 : S2000.ShapeCasts S2000x1
  broadcasts_S2000x1_S2000x256 : S2000x1.Broadcasts S2000x256
  shapeCasts_S128_S1x128 : S128.ShapeCasts S1x128
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  scatter_S100000_S400000x1_S400000_n_0_0_1_wf : ScatterDims.WF S100000 S400000x1 S400000 [] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x256.size a ≤ S100000x256.size a
  hwx0_12 : ∀ i : grid0.Coords, EltTy.bits .f32 = 32 ∨ (Rect.block (s := S100000x256) S2000x256.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S100000x256.size a
  hwx1_2 : ∀ i : grid1.Coords, EltTy.bits .f32 = 32 ∨ (Rect.block (s := S100000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x256.size a ≤ S100000x256.size a
  hwx1_12 : ∀ i : grid1.Coords, EltTy.bits .f32 = 32 ∨ (Rect.block (s := S100000x256) S2000x256.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)

variable [Facts₀]

def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v21) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg14) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg16) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v28) S2000x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v50) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v53) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v56) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v54) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v55) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v57) S2000x256.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v57) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg21) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x400000 : Shape := ⟨2, ![2, 400000]⟩
abbrev S256x256 : Shape := ⟨2, ![256, 256]⟩
abbrev S256 : Shape := ⟨1, ![256]⟩
abbrev S_ : Shape := ⟨0, ![]⟩
abbrev S128x256 : Shape := ⟨2, ![128, 256]⟩
abbrev S128 : Shape := ⟨1, ![128]⟩
abbrev S1x400000 : Shape := ⟨2, ![1, 400000]⟩
abbrev S400000 : Shape := ⟨1, ![400000]⟩
abbrev S400000x1 : Shape := ⟨2, ![400000, 1]⟩
abbrev S400000x256 : Shape := ⟨2, ![400000, 256]⟩
abbrev S100000 : Shape := ⟨1, ![100000]⟩
abbrev S100000x1 : Shape := ⟨2, ![100000, 1]⟩
abbrev S1x256 : Shape := ⟨2, ![1, 256]⟩
abbrev S256x128 : Shape := ⟨2, ![256, 128]⟩
abbrev S100000x128 : Shape := ⟨2, ![100000, 128]⟩
abbrev S1x128 : Shape := ⟨2, ![1, 128]⟩

abbrev nBuf : Space → Nat
  | .hbm => 240
  | .vmem => 0
  | .smem => 0
  | _ => 0

abbrev hbmTy0_0 (i : Nat) : BufTy := match i % 128 with
  | 0 => ⟨S100000x256, .f32⟩
  | 1 => ⟨S2x400000, .i32⟩
  | 2 => ⟨S2x400000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S_, .f32⟩
  | 10 => ⟨S256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S_, .f32⟩
  | 19 => ⟨S256, .f32⟩
  | 20 => ⟨S256, .f32⟩
  | 21 => ⟨S128x256, .f32⟩
  | 22 => ⟨S128, .f32⟩
  | 23 => ⟨S1x400000, .i32⟩
  | 24 => ⟨S400000, .i32⟩
  | 25 => ⟨S1x400000, .i32⟩
  | 26 => ⟨S400000, .i32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S400000x256, .f32⟩
  | 36 => ⟨S_, .f32⟩
  | 37 => ⟨S100000x256, .f32⟩
  | 38 => ⟨S400000x1, .i32⟩
  | 39 => ⟨S100000x256, .f32⟩
  | 40 => ⟨S_, .f32⟩
  | 41 => ⟨S400000, .f32⟩
  | 42 => ⟨S_, .f32⟩
  | 43 => ⟨S100000, .f32⟩
  | 44 => ⟨S400000x1, .i32⟩
  | 45 => ⟨S100000, .f32⟩
  | 46 => ⟨S_, .f32⟩
  | 47 => ⟨S_, .f32⟩
  | 48 => ⟨S100000, .f32⟩
  | 49 => ⟨S100000, .f32⟩
  | 50 => ⟨S100000x1, .f32⟩
  | 51 => ⟨S100000x256, .f32⟩
  | 52 => ⟨S100000x256, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S256x256, .f32⟩
  | 60 => ⟨S100000x256, .f32⟩
  | 61 => ⟨S1x256, .f32⟩
  | 62 => ⟨S100000x256, .f32⟩
  | 63 => ⟨S100000x256, .f32⟩
  | 64 => ⟨S_, .f32⟩
  | 65 => ⟨S_, .f32⟩
  | 66 => ⟨S256x256, .f32⟩
  | 67 => ⟨S100000x256, .f32⟩
  | 68 => ⟨S1x256, .f32⟩
  | 69 => ⟨S100000x256, .f32⟩
  | 70 => ⟨S100000x256, .f32⟩
  | 71 => ⟨S100000x256, .f32⟩
  | 72 => ⟨S100000x256, .f32⟩
  | 73 => ⟨S100000x256, .f32⟩
  | 74 => ⟨S256x256, .f32⟩
  | 75 => ⟨S100000x256, .f32⟩
  | 76 => ⟨S1x256, .f32⟩
  | 77 => ⟨S100000x256, .f32⟩
  | 78 => ⟨S100000x256, .f32⟩
  | 79 => ⟨S100000x256, .f32⟩
  | 80 => ⟨S100000x256, .f32⟩
  | 81 => ⟨S100000x256, .f32⟩
  | 82 => ⟨S_, .f32⟩
  | 83 => ⟨S100000x256, .f32⟩
  | 84 => ⟨S100000x256, .f32⟩
  | 85 => ⟨S_, .f32⟩
  | 86 => ⟨S100000, .f32⟩
  | 87 => ⟨S100000x1, .f32⟩
  | 88 => ⟨S_, .f32⟩
  | 89 => ⟨S100000x1, .f32⟩
  | 90 => ⟨S100000x1, .f32⟩
  | 91 => ⟨S_, .i32⟩
  | 92 => ⟨S_, .f32⟩
  | 93 => ⟨S100000, .f32⟩
  | 94 => ⟨S100000x1, .f32⟩
  | 95 => ⟨S_, .f32⟩
  | 96 => ⟨S100000x1, .f32⟩
  | 97 => ⟨S100000x1, .f32⟩
  | 98 => ⟨S100000x256, .f32⟩
  | 99 => ⟨S100000x256, .f32⟩
  | 100 => ⟨S100000x256, .f32⟩
  | 101 => ⟨S_, .f32⟩
  | 102 => ⟨S_, .f32⟩
  | 103 => ⟨S_, .f32⟩
  | 104 => ⟨S_, .f32⟩
  | 105 => ⟨S100000, .f32⟩
  | 106 => ⟨S100000x1, .f32⟩
  | 107 => ⟨S100000x1, .f32⟩
  | 108 => ⟨S100000x1, .f32⟩
  | 109 => ⟨S_, .f32⟩
  | 110 => ⟨S_, .i1⟩
  | 111 => ⟨S_, .f32⟩
  | 112 => ⟨S_, .f32⟩
  | 113 => ⟨S100000x1, .f32⟩
  | 114 => ⟨S100000x1, .f32⟩
  | 115 => ⟨S100000x256, .f32⟩
  | 116 => ⟨S100000x256, .f32⟩
  | 117 => ⟨S_, .f32⟩
  | 118 => ⟨S100000x1, .f32⟩
  | 119 => ⟨S100000x1, .f32⟩
  | 120 => ⟨S100000x1, .f32⟩
  | 121 => ⟨S100000x256, .f32⟩
  | 122 => ⟨S100000x256, .f32⟩
  | 123 => ⟨S1x256, .f32⟩
  | 124 => ⟨S100000x256, .f32⟩
  | 125 => ⟨S100000x256, .f32⟩
  | 126 => ⟨S1x256, .f32⟩
  | 127 => ⟨S100000x256, .f32⟩
  | _ => ⟨S100000x256, .f32⟩

abbrev hbmTy0_1 (i : Nat) : BufTy := match i % 128 with
  | 0 => ⟨S100000x256, .f32⟩
  | 1 => ⟨S1x400000, .i32⟩
  | 2 => ⟨S400000, .i32⟩
  | 3 => ⟨S1x400000, .i32⟩
  | 4 => ⟨S400000, .i32⟩
  | 5 => ⟨S_, .i32⟩
  | 6 => ⟨S400000, .i32⟩
  | 7 => ⟨S400000, .i1⟩
  | 8 => ⟨S_, .i32⟩
  | 9 => ⟨S400000, .i32⟩
  | 10 => ⟨S400000, .i32⟩
  | 11 => ⟨S400000, .i32⟩
  | 12 => ⟨S400000x1, .i32⟩
  | 13 => ⟨S400000x256, .f32⟩
  | 14 => ⟨S_, .f32⟩
  | 15 => ⟨S100000x256, .f32⟩
  | 16 => ⟨S400000x1, .i32⟩
  | 17 => ⟨S100000x256, .f32⟩
  | 18 => ⟨S_, .f32⟩
  | 19 => ⟨S400000, .f32⟩
  | 20 => ⟨S_, .f32⟩
  | 21 => ⟨S100000, .f32⟩
  | 22 => ⟨S400000x1, .i32⟩
  | 23 => ⟨S100000, .f32⟩
  | 24 => ⟨S_, .f32⟩
  | 25 => ⟨S_, .f32⟩
  | 26 => ⟨S100000, .f32⟩
  | 27 => ⟨S100000, .f32⟩
  | 28 => ⟨S100000x1, .f32⟩
  | 29 => ⟨S100000x256, .f32⟩
  | 30 => ⟨S100000x256, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S256x256, .f32⟩
  | 38 => ⟨S100000x256, .f32⟩
  | 39 => ⟨S1x256, .f32⟩
  | 40 => ⟨S100000x256, .f32⟩
  | 41 => ⟨S100000x256, .f32⟩
  | 42 => ⟨S_, .f32⟩
  | 43 => ⟨S_, .f32⟩
  | 44 => ⟨S256x256, .f32⟩
  | 45 => ⟨S100000x256, .f32⟩
  | 46 => ⟨S1x256, .f32⟩
  | 47 => ⟨S100000x256, .f32⟩
  | 48 => ⟨S100000x256, .f32⟩
  | 49 => ⟨S100000x256, .f32⟩
  | 50 => ⟨S100000x256, .f32⟩
  | 51 => ⟨S100000x256, .f32⟩
  | 52 => ⟨S256x256, .f32⟩
  | 53 => ⟨S100000x256, .f32⟩
  | 54 => ⟨S1x256, .f32⟩
  | 55 => ⟨S100000x256, .f32⟩
  | 56 => ⟨S100000x256, .f32⟩
  | 57 => ⟨S100000x256, .f32⟩
  | 58 => ⟨S100000x256, .f32⟩
  | 59 => ⟨S100000x256, .f32⟩
  | 60 => ⟨S_, .f32⟩
  | 61 => ⟨S100000x256, .f32⟩
  | 62 => ⟨S100000x256, .f32⟩
  | 63 => ⟨S_, .f32⟩
  | 64 => ⟨S100000, .f32⟩
  | 65 => ⟨S100000x1, .f32⟩
  | 66 => ⟨S_, .f32⟩
  | 67 => ⟨S100000x1, .f32⟩
  | 68 => ⟨S100000x1, .f32⟩
  | 69 => ⟨S_, .i32⟩
  | 70 => ⟨S_, .f32⟩
  | 71 => ⟨S100000, .f32⟩
  | 72 => ⟨S100000x1, .f32⟩
  | 73 => ⟨S_, .f32⟩
  | 74 => ⟨S100000x1, .f32⟩
  | 75 => ⟨S100000x1, .f32⟩
  | 76 => ⟨S100000x256, .f32⟩
  | 77 => ⟨S100000x256, .f32⟩
  | 78 => ⟨S100000x256, .f32⟩
  | 79 => ⟨S_, .f32⟩
  | 80 => ⟨S_, .f32⟩
  | 81 => ⟨S_, .f32⟩
  | 82 => ⟨S_, .f32⟩
  | 83 => ⟨S100000, .f32⟩
  | 84 => ⟨S100000x1, .f32⟩
  | 85 => ⟨S100000x1, .f32⟩
  | 86 => ⟨S100000x1, .f32⟩
  | 87 => ⟨S_, .f32⟩
  | 88 => ⟨S_, .i1⟩
  | 89 => ⟨S_, .f32⟩
  | 90 => ⟨S_, .f32⟩
  | 91 => ⟨S100000x1, .f32⟩
  | 92 => ⟨S100000x1, .f32⟩
  | 93 => ⟨S100000x256, .f32⟩
  | 94 => ⟨S100000x256, .f32⟩
  | 95 => ⟨S_, .f32⟩
  | 96 => ⟨S100000x1, .f32⟩
  | 97 => ⟨S100000x1, .f32⟩
  | 98 => ⟨S100000x1, .f32⟩
  | 99 => ⟨S100000x256, .f32⟩
  | 100 => ⟨S100000x256, .f32⟩
  | 101 => ⟨S1x256, .f32⟩
  | 102 => ⟨S100000x256, .f32⟩
  | 103 => ⟨S100000x256, .f32⟩
  | 104 => ⟨S1x256, .f32⟩
  | 105 => ⟨S100000x256, .f32⟩
  | 106 => ⟨S100000x256, .f32⟩
  | 107 => ⟨S256x128, .f32⟩
  | 108 => ⟨S100000x128, .f32⟩
  | 109 => ⟨S1x128, .f32⟩
  | 110 => ⟨S100000x128, .f32⟩
  | 111 => ⟨S100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_4 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_call1_cst : Ref sig .tc := ⟨.hbm, 82, rfl⟩
abbrev main_call1_v0 : Ref sig .tc := ⟨.hbm, 83, rfl⟩
abbrev main_v48 : Ref sig .tc := ⟨.hbm, 84, rfl⟩
abbrev main_cst_7 : Ref sig .tc := ⟨.hbm, 85, rfl⟩
abbrev main_v49 : Ref sig .tc := ⟨.hbm, 86, rfl⟩
abbrev main_v50 : Ref sig .tc := ⟨.hbm, 87, rfl⟩
abbrev main_cst_8 : Ref sig .tc := ⟨.hbm, 88, rfl⟩
abbrev main_v51 : Ref sig .tc := ⟨.hbm, 89, rfl⟩
abbrev main_v52 : Ref sig .tc := ⟨.hbm, 90, rfl⟩
abbrev main_c_9 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_cst_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_cst_1 : Ref sig .tc := ⟨.hbm, 102, rfl⟩
abbrev main_call2_v8 : Ref sig .tc := ⟨.hbm, 103, rfl⟩
abbrev main_call2_cst_2 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_v12 : Ref sig .tc := ⟨.hbm, 108, rfl⟩
abbrev main_call2_cst_3 : Ref sig .tc := ⟨.hbm, 109, rfl⟩
abbrev main_call2_v13 : Ref sig .tc := ⟨.hbm, 110, rfl⟩
abbrev main_call2_cst_4 : Ref sig .tc := ⟨.hbm, 111, rfl⟩
abbrev main_call2_call0_v0 : Ref sig .tc := ⟨.hbm, 112, rfl⟩
abbrev main_call2_call0_v1 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_10 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_c_11 : Ref sig .tc := ⟨.hbm, 133, rfl⟩
abbrev main_v71 : Ref sig .tc := ⟨.hbm, 134, rfl⟩
abbrev main_v72 : Ref sig .tc := ⟨.hbm, 135, rfl⟩
abbrev main_c_12 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_cst_13 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_cst_14 : Ref sig .tc := ⟨.hbm, 146, rfl⟩
abbrev main_v81 : Ref sig .tc := ⟨.hbm, 147, rfl⟩
abbrev main_cst_15 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_cst_16 : Ref sig .tc := ⟨.hbm, 152, rfl⟩
abbrev main_call3_v0 : Ref sig .tc := ⟨.hbm, 153, rfl⟩
abbrev main_call3_v1 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_17 : Ref sig .tc := ⟨.hbm, 161, rfl⟩
abbrev main_v91 : Ref sig .tc := ⟨.hbm, 162, rfl⟩
abbrev main_cst_18 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_cst_19 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_call4_cst : Ref sig .tc := ⟨.hbm, 188, rfl⟩
abbrev main_call4_v0 : Ref sig .tc := ⟨.hbm, 189, rfl⟩
abbrev main_v115 : Ref sig .tc := ⟨.hbm, 190, rfl⟩
abbrev main_cst_20 : Ref sig .tc := ⟨.hbm, 191, rfl⟩
abbrev main_v116 : Ref sig .tc := ⟨.hbm, 192, rfl⟩
abbrev main_v117 : Ref sig .tc := ⟨.hbm, 193, rfl⟩
abbrev main_cst_21 : Ref sig .tc := ⟨.hbm, 194, rfl⟩
abbrev main_v118 : Ref sig .tc := ⟨.hbm, 195, rfl⟩
abbrev main_v119 : Ref sig .tc := ⟨.hbm, 196, rfl⟩
abbrev main_c_22 : Ref sig .tc := ⟨.hbm, 197, rfl⟩
abbrev main_call5_cst : Ref sig .tc := ⟨.hbm, 198, rfl⟩
abbrev main_call5_v0 : Ref sig .tc := ⟨.hbm, 199, rfl⟩
abbrev main_call5_v1 : Ref sig .tc := ⟨.hbm, 200, rfl⟩
abbrev main_call5_cst_0 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_call5_v5 : Ref sig .tc := ⟨.hbm, 205, rfl⟩
abbrev main_call5_v6 : Ref sig .tc := ⟨.hbm, 206, rfl⟩
abbrev main_call5_v7 : Ref sig .tc := ⟨.hbm, 207, rfl⟩
abbrev main_call5_cst_1 : Ref sig .tc := ⟨.hbm, 208, rfl⟩
abbrev main_call5_v8 : Ref sig .tc := ⟨.hbm, 209, rfl⟩
abbrev main_call5_cst_2 : Ref sig .tc := ⟨.hbm, 210, rfl⟩
abbrev main_call5_v9 : Ref sig .tc := ⟨.hbm, 211, rfl⟩
abbrev main_call5_v10 : Ref sig .tc := ⟨.hbm, 212, rfl⟩
abbrev main_call5_v11 : Ref sig .tc := ⟨.hbm, 213, rfl⟩
abbrev main_call5_v12 : Ref sig .tc := ⟨.hbm, 214, rfl⟩
abbrev main_call5_cst_3 : Ref sig .tc := ⟨.hbm, 215, rfl⟩
abbrev main_call5_v13 : Ref sig .tc := ⟨.hbm, 216, rfl⟩
abbrev main_call5_cst_4 : Ref sig .tc := ⟨.hbm, 217, rfl⟩
abbrev main_call5_call0_v0 : Ref sig .tc := ⟨.hbm, 218, rfl⟩
abbrev main_call5_call0_v1 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_cst_23 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S_S100000x1 : S_.BroadcastsInDim S100000x1 (![] : Fin 0 → Fin S100000x1.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  scatter_S100000_S400000x1_S400000_n_0_0_1_wf : ScatterDims.WF S100000 S400000x1 S400000 [] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KDataB.lean ====
/-
  The three kernel regions' data, at any float instance: for each region, the block of every window at a grid
  point read off the arrays as the region finds them, the rectangle every load and store goes through (the whole
  staging buffer), what the body leaves in the output window's staging buffer — the one stored value, a function
  of the loaded input blocks —, and the pipeline's proof data: the arrays at their entry contents, every input
  buffer left at its block, the output buffer at that value, nothing owed. In the first region two input windows
  read the SAME array (the layer's features and its skip input are both the network input), so each holds half of it.
-/
import proofs.«160845_j81252191306258_1_alg».proof.Proof.Gen.Kernel.Launch
import proofs.«160845_j81252191306258_1_alg».proof.Proof.Gen.Kernel.Skeleton
import proofs.«160845_j81252191306258_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The whole staging buffer of each block shape, as the rectangle the body's loads and stores name. -/
abbrev rA : Rect S2000x256 := Rect.unit (s := S2000x256) ![0, 0] S2000x256.size inb_S2000x256_S2000x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rG : Rect S1x1 := Rect.unit (s := S1x1) ![0, 0] S1x1.size inb_S1x1_S1x1_0_0
abbrev rP : Rect S128x256 := Rect.unit (s := S128x256) ![0, 0] S128x256.size inb_S128x256_S128x256_0_0
abbrev rQ : Rect S1x128 := Rect.unit (s := S1x128) ![0, 0] S1x128.size inb_S1x128_S1x128_0_0
abbrev rO : Rect S2000x128 := Rect.unit (s := S2000x128) ![0, 0] S2000x128.size inb_S2000x128_S2000x128_0_0

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output window's staging buffer after the body: its one store, of the value computed from the loaded blocks. -/
def out0 (x0 : Vec F S2000x256 .f32) (x1 : Vec F S2000x256 .f32) (x2 : Vec F S2000x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S1x1 .f32) (x10 : Vec F S1x256 .f32) (x11 : Vec F S1x256 .f32) : Vec F S2000x256 .f32 :=
  View.canon [⟨rA, k0_pay1 (k0_pay2 (View.ld x0 rA) (View.ld x3 rW) (View.ld x4 rB)) (k0_pay3 (View.ld x1 rA) (View.ld x5 rW) (View.ld x6 rB)) (k0_pay4 (View.ld x2 rA) (View.ld x7 rW) (View.ld x8 rB)) (k0_pay5 (View.ld x9 rG)) k0_pay6 (View.ld x10 rB) (View.ld x11 rB)⟩]

/-- The store covers the buffer. -/
theorem cover0 (p0 : Vec F S2000x256 .f32) (y : S2000x256.Idx) :
    ∃ pc ∈ ([⟨rA, p0⟩] : List (View.Piece (Elt F) S2000x256 .f32)), y ∈ pc.1.set :=
  View.cover_of_tiled [⟨rA, p0⟩] S2000x256.size (by rfl) y

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
  Φ _ := Pipeline.ΦA spec0 c
  q w := match w with
    | ⟨1, _⟩ => fullShare.left
    | ⟨2, _⟩ => fullShare.right
    | ⟨0, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output window's staging buffer after the body: its one store, of the value computed from the loaded blocks. -/
def out1 (x0 : Vec F S2000x256 .f32) (x1 : Vec F S2000x256 .f32) (x2 : Vec F S2000x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S1x1 .f32) (x10 : Vec F S1x256 .f32) (x11 : Vec F S1x256 .f32) : Vec F S2000x256 .f32 :=
  View.canon [⟨rA, k1_pay1 (k1_pay2 (View.ld x0 rA) (View.ld x3 rW) (View.ld x4 rB)) (k1_pay3 (View.ld x1 rA) (View.ld x5 rW) (View.ld x6 rB)) (k1_pay4 (View.ld x2 rA) (View.ld x7 rW) (View.ld x8 rB)) (k1_pay5 (View.ld x9 rG)) (Scalar.ofBits .f32 0x3F800000#32) (View.ld x10 rB) (View.ld x11 rB)⟩]

/-- The store covers the buffer. -/
theorem cover1 (p0 : Vec F S2000x256 .f32) (y : S2000x256.Idx) :
    ∃ pc ∈ ([⟨rA, p0⟩] : List (View.Piece (Elt F) S2000x256 .f32)), y ∈ pc.1.set :=
  View.cover_of_tiled [⟨rA, p0⟩] S2000x256.size (by rfl) y

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q w := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

/-! ## Region 2 -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output window's staging buffer after the body: its one store, of the value computed from the loaded blocks. -/
def out2 (x0 : Vec F S2000x256 .f32) (x1 : Vec F S128x256 .f32) (x2 : Vec F S1x128 .f32) : Vec F S2000x128 .f32 :=
  View.canon [⟨rO, k2_pay1 (View.ld x0 rA) (View.ld x1 rP) (View.ld x2 rQ)⟩]

/-- The store covers the buffer. -/
theorem cover2 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q w := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]

end Cert.Kernel.Hand

end
-- ==== Proof.KBody0B.lean ====
/-
  Region 0: the body's triple and the body obligation. On whole staging buffers — every input window's at read
  contents, the output window's at anything — the body runs to the end leaving the inputs as they were and the
  output buffer at the one value it stores; and at every grid point each input buffer does hold its window's block
  there, fetched at that point or not, because the body leaves input blocks in place and an unfetched window's index
  has not moved.
-/
import proofs.«160845_j81252191306258_1_alg».proof.Proof.KDataB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's staging buffer holds its block -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_4 (c : Dev nD) (t : Fin cfg0.N) (d) : (dat0 V c).before 4 t d = iblk0 V c 4 t :=
  before0_4_of V (dat0 V c) (A_eq0 V c 4) (after0_4 V c) t d

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_5 (c : Dev nD) (t : Fin cfg0.N) (d) : (dat0 V c).before 5 t d = iblk0 V c 5 t :=
  before0_5_of V (dat0 V c) (A_eq0 V c 5) (after0_5 V c) t d

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_6 (c : Dev nD) (t : Fin cfg0.N) (d) : (dat0 V c).before 6 t d = iblk0 V c 6 t :=
  before0_6_of V (dat0 V c) (A_eq0 V c 6) (after0_6 V c) t d

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_7 (c : Dev nD) (t : Fin cfg0.N) (d) : (dat0 V c).before 7 t d = iblk0 V c 7 t :=
  before0_7_of V (dat0 V c) (A_eq0 V c 7) (after0_7 V c) t d

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_8 (c : Dev nD) (t : Fin cfg0.N) (d) : (dat0 V c).before 8 t d = iblk0 V c 8 t :=
  before0_8_of V (dat0 V c) (A_eq0 V c 8) (after0_8 V c) t d

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_9 (c : Dev nD) (t : Fin cfg0.N) (d) : (dat0 V c).before 9 t d = iblk0 V c 9 t :=
  before0_9_of V (dat0 V c) (A_eq0 V c 9) (after0_9 V c) t d

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_10 (c : Dev nD) (t : Fin cfg0.N) (d) : (dat0 V c).before 10 t d = iblk0 V c 10 t :=
  before0_10_of V (dat0 V c) (A_eq0 V c 10) (after0_10 V c) t d

theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_11 (c : Dev nD) (t : Fin cfg0.N) (d) : (dat0 V c).before 11 t d = iblk0 V c 11 t :=
  before0_11_of V (dat0 V c) (A_eq0 V c 11) (after0_11 V c) t d

/-! ## The body's triple -/

set_option maxHeartbeats 4000000 in
theorem sound_kernel0 (c : Dev nD) (E : Set ℕ) (i : grid0.Coords) (arg0 : Memref sig .tc .vmem S2000x256 .f32) (harg0 : arg0.IsWhole) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2000x256 .f32) (harg12 : arg12.IsWhole)
    (x0 : Vec F S2000x256 .f32) (x1 : Vec F S2000x256 .f32) (x2 : Vec F S2000x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S1x1 .f32) (x10 : Vec F S1x256 .f32) (x11 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out0 x0 x1 x2 x3 x4 x5 x6 x7 x8 x9 x10 x11)) -∗ K ⟨⟩))
      ⊢ wp frame (wpE (defs₀ (F := F)) Variants.none c none) E (cc0__combine_kernel i arg0 harg0 arg1 harg1 arg2 harg2 arg3 harg3 arg4 harg4 arg5 harg5 arg6 harg6 arg7 harg7 arg8 harg8 arg9 harg9 arg10 harg10 arg11 harg11 arg12 harg12) K := by
  simp only [cc0__combine_kernel_eq_skeleton]; unfold cc0__combine_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover0 _)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1B.lean ====
/-
  Region 1: the body's triple and the body obligation. On whole staging buffers — every input window's at read
  contents, the output window's at anything — the body runs to the end leaving the inputs as they were and the
  output buffer at the one value it stores; and at every grid point each input buffer does hold its window's block
  there, fetched at that point or not, because the body leaves input blocks in place and an unfetched window's index
  has not moved.
-/
import proofs.«160845_j81252191306258_1_alg».proof.Proof.KDataB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's staging buffer holds its block -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_5 (c : Dev nD) (t : Fin cfg1.N) (d) : (dat1 V c).before 5 t d = iblk1 V c 5 t :=
  before1_5_of V (dat1 V c) (A_eq1 V c 5) (after1_5 V c) t d

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_6 (c : Dev nD) (t : Fin cfg1.N) (d) : (dat1 V c).before 6 t d = iblk1 V c 6 t :=
  before1_6_of V (dat1 V c) (A_eq1 V c 6) (after1_6 V c) t d

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_7 (c : Dev nD) (t : Fin cfg1.N) (d) : (dat1 V c).before 7 t d = iblk1 V c 7 t :=
  before1_7_of V (dat1 V c) (A_eq1 V c 7) (after1_7 V c) t d

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_8 (c : Dev nD) (t : Fin cfg1.N) (d) : (dat1 V c).before 8 t d = iblk1 V c 8 t :=
  before1_8_of V (dat1 V c) (A_eq1 V c 8) (after1_8 V c) t d

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_9 (c : Dev nD) (t : Fin cfg1.N) (d) : (dat1 V c).before 9 t d = iblk1 V c 9 t :=
  before1_9_of V (dat1 V c) (A_eq1 V c 9) (after1_9 V c) t d

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_10 (c : Dev nD) (t : Fin cfg1.N) (d) : (dat1 V c).before 10 t d = iblk1 V c 10 t :=
  before1_10_of V (dat1 V c) (A_eq1 V c 10) (after1_10 V c) t d

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_11 (c : Dev nD) (t : Fin cfg1.N) (d) : (dat1 V c).before 11 t d = iblk1 V c 11 t :=
  before1_11_of V (dat1 V c) (A_eq1 V c 11) (after1_11 V c) t d

/-! ## The body's triple -/

set_option maxHeartbeats 4000000 in
theorem sound_kernel1 (c : Dev nD) (E : Set ℕ) (i : grid1.Coords) (arg0 : Memref sig .tc .vmem S2000x256 .f32) (harg0 : arg0.IsWhole) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2000x256 .f32) (harg12 : arg12.IsWhole)
    (x0 : Vec F S2000x256 .f32) (x1 : Vec F S2000x256 .f32) (x2 : Vec F S2000x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S1x1 .f32) (x10 : Vec F S1x256 .f32) (x11 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out1 x0 x1 x2 x3 x4 x5 x6 x7 x8 x9 x10 x11)) -∗ K ⟨⟩))
      ⊢ wp frame (wpE (defs₀ (F := F)) Variants.none c none) E (cc1__combine_kernel i arg0 harg0 arg1 harg1 arg2 harg2 arg3 harg3 arg4 harg4 arg5 harg5 arg6 harg6 arg7 harg7 arg8 harg8 arg9 harg9 arg10 harg10 arg11 harg11 arg12 harg12) K := by
  simp only [cc1__combine_kernel_eq_skeleton]; unfold cc1__combine_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover1 _)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2B.lean ====
/-
  Region 2: the body's triple and the body obligation. On whole staging buffers — every input window's at read
  contents, the output window's at anything — the body runs to the end leaving the inputs as they were and the
  output buffer at the one value it stores; and at every grid point each input buffer does hold its window's block
  there, fetched at that point or not, because the body leaves input blocks in place and an unfetched window's index
  has not moved.
-/
import proofs.«160845_j81252191306258_1_alg».proof.Proof.KDataB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's staging buffer holds its block -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d

/-! ## The body's triple -/

set_option maxHeartbeats 4000000 in
theorem sound_kernel2 (c : Dev nD) (E : Set ℕ) (i : grid2.Coords) (arg0 : Memref sig .tc .vmem S2000x256 .f32) (harg0 : arg0.IsWhole) (arg1 : Memref sig .tc .vmem S128x256 .f32) (harg1 : arg1.IsWhole) (arg2 : Memref sig .tc .vmem S1x128 .f32) (harg2 : arg2.IsWhole) (arg3 : Memref sig .tc .vmem S2000x128 .f32) (harg3 : arg3.IsWhole)
    (x0 : Vec F S2000x256 .f32) (x1 : Vec F S128x256 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2 x0 x1 x2)) -∗ K ⟨⟩))
      ⊢ wp frame (wpE (defs₀ (F := F)) Variants.none c none) E (cc2__outproj_kernel i arg0 harg0 arg1 harg1 arg2 harg2 arg3 harg3) K := by
  simp only [cc2__outproj_kernel_eq_skeleton]; unfold cc2__outproj_kernel_skel

  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRunB.lean ====
/-
  The run of the whole program at any float instance. The buffers' contents at every boundary between two items of
  the main function are a fold from the launch memory: a stretch of host operations applies them; a kernel region
  changes exactly one buffer, its result array, to what the grid's write-backs leave there. Each region is entered
  from "every unscoped buffer at the fold's contents, nothing owed" and left in the same form one step further, so
  the items chain, and the last contents are read against the final memory: every unscoped buffer ends at the last
  fold's value. The first region reads one array through two windows, each holding half of it.
-/
import proofs.«160845_j81252191306258_1_alg».proof.Proof.KBody0B
import proofs.«160845_j81252191306258_1_alg».proof.Proof.KBody1B
import proofs.«160845_j81252191306258_1_alg».proof.Proof.KBody2B
import proofs.«160845_j81252191306258_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- What region 0 is entered from: the launch memory after the three host stretches before it. -/
abbrev E0 : (c : Dev nD) → (b : Ref sig .tc) → Buf (Elt F) ((c : Thread nD τ).loc b) := fun c b => Gen.V3 m c b
/-- After region 0: its result array at what the write-backs leave. -/
def W4 (c : Dev nD) : Valuation τ sig (Elt F) :=
  Function.update (Gen.V3 m c) (Proc.devRef .tc main_v28) ((dat0 (E0 m) c).arrAt 12 cfg0.N)
abbrev W5 (c : Dev nD) : Valuation τ sig (Elt F) := StableHlo.after hostOps1 (W4 m c)
abbrev W6 (c : Dev nD) : Valuation τ sig (Elt F) := StableHlo.after hostOps1_1 (W5 m c)
abbrev W7 (c : Dev nD) : Valuation τ sig (Elt F) := StableHlo.after hostOps1_2 (W6 m c)
abbrev E1 : (c : Dev nD) → (b : Ref sig .tc) → Buf (Elt F) ((c : Thread nD τ).loc b) := fun c b => W7 m c b
def W8 (c : Dev nD) : Valuation τ sig (Elt F) :=
  Function.update (W7 m c) (Proc.devRef .tc main_v57) ((dat1 (E1 m) c).arrAt 12 cfg1.N)
abbrev W9 (c : Dev nD) : Valuation τ sig (Elt F) := StableHlo.after hostOps2 (W8 m c)
abbrev E2 : (c : Dev nD) → (b : Ref sig .tc) → Buf (Elt F) ((c : Thread nD τ).loc b) := fun c b => W9 m c b
def W10 (c : Dev nD) : Valuation τ sig (Elt F) :=
  Function.update (W9 m c) (Proc.devRef .tc main_v59) ((dat2 (E2 m) c).arrAt 3 cfg2.N)

theorem hF0 (c : Dev nD) (w : Fin cfg0.W) : (dat0 (E0 m) c).arrAt w cfg0.N = W4 m c (Proc.devRef .tc (Pipeline.arrRef spec0 w)) := by
  by_cases hw : w = 12
  · subst hw; unfold W4; rw [Function.update_self]
  · have hin : (cfg0.win w).isOut = false := by revert w; decide
    have hne : Pipeline.arrRef spec0 w ≠ main_v28 := by revert w; decide
    rw [(dat0 (E0 m) c).arrAt_in w hin, A_eq0]; unfold W4
    rw [Function.update_of_ne (StableHlo.devRef_ne_of_ne hne)]
theorem hrest0 (c : Dev nD) : ∀ b, b ∉ Finset.univ.image (Pipeline.arrRef spec0) → W4 m c (Proc.devRef .tc b) = E0 m c b := fun b hb => by
  have hne : b ≠ main_v28 := fun e => hb (Finset.mem_image.mpr ⟨12, Finset.mem_univ _, e.symm⟩)
  unfold W4; rw [Function.update_of_ne (StableHlo.devRef_ne_of_ne hne)]

theorem hF1 (c : Dev nD) (w : Fin cfg1.W) : (dat1 (E1 m) c).arrAt w cfg1.N = W8 m c (Proc.devRef .tc (Pipeline.arrRef spec1 w)) := by
  by_cases hw : w = 12
  · subst hw; unfold W8; rw [Function.update_self]
  · have hin : (cfg1.win w).isOut = false := by revert w; decide
    have hne : Pipeline.arrRef spec1 w ≠ main_v57 := by revert w; decide
    rw [(dat1 (E1 m) c).arrAt_in w hin, A_eq1]; unfold W8
    rw [Function.update_of_ne (StableHlo.devRef_ne_of_ne hne)]
theorem hrest1 (c : Dev nD) : ∀ b, b ∉ Finset.univ.image (Pipeline.arrRef spec1) → W8 m c (Proc.devRef .tc b) = E1 m c b := fun b hb => by
  have hne : b ≠ main_v57 := fun e => hb (Finset.mem_image.mpr ⟨12, Finset.mem_univ _, e.symm⟩)
  unfold W8; rw [Function.update_of_ne (StableHlo.devRef_ne_of_ne hne)]

theorem hF2 (c : Dev nD) (w : Fin cfg2.W) : (dat2 (E2 m) c).arrAt w cfg2.N = W10 m c (Proc.devRef .tc (Pipeline.arrRef spec2 w)) := by
  by_cases hw : w = 3
  · subst hw; unfold W10; rw [Function.update_self]
  · have hin : (cfg2.win w).isOut = false := by revert w; decide
    have hne : Pipeline.arrRef spec2 w ≠ main_v59 := by revert w; decide
    rw [(dat2 (E2 m) c).arrAt_in w hin, A_eq2]; unfold W10
    rw [Function.update_of_ne (StableHlo.devRef_ne_of_ne hne)]
theorem hrest2 (c : Dev nD) : ∀ b, b ∉ Finset.univ.image (Pipeline.arrRef spec2) → W10 m c (Proc.devRef .tc b) = E2 m c b := fun b hb => by
  have hne : b ≠ main_v59 := fun e => hb (Finset.mem_image.mpr ⟨3, Finset.mem_univ _, e.symm⟩)
  unfold W10; rw [Function.update_of_ne (StableHlo.devRef_ne_of_ne hne)]

/-! ## What no item writes ends as launched -/

theorem W10_of (c : Dev nD) (r : Ref sig .tc) (h0 : r ∉ hostOps0_W) (h1 : r ∉ hostOps0_1_W) (h2 : r ∉ hostOps0_2_W)
    (h4 : r ∉ hostOps1_W) (h5 : r ∉ hostOps1_1_W) (h6 : r ∉ hostOps1_2_W) (h8 : r ∉ hostOps2_W)
    (hr : r ∉ ([main_v28, main_v57, main_v59] : List (Ref sig .tc))) :
    W10 m c (Proc.devRef .tc r) = m ((c : Thread nD τ).loc r) := by
  have n28 : r ≠ main_v28 := fun e => hr (e ▸ by simp)
  have n57 : r ≠ main_v57 := fun e => hr (e ▸ by simp)
  have n59 : r ≠ main_v59 := fun e => hr (e ▸ by simp)
  unfold W10; rw [Function.update_of_ne (StableHlo.devRef_ne_of_ne n59)]
  rw [show W9 m c (Proc.devRef .tc r) = W8 m c (Proc.devRef .tc r) from StableHlo.after_of_writes_sub hostOps2 _ hostOps2_writes h8]
  unfold W8; rw [Function.update_of_ne (StableHlo.devRef_ne_of_ne n57)]
  rw [show W7 m c (Proc.devRef .tc r) = W6 m c (Proc.devRef .tc r) from StableHlo.after_of_writes_sub hostOps1_2 _ hostOps1_2_writes h6,
    show W6 m c (Proc.devRef .tc r) = W5 m c (Proc.devRef .tc r) from StableHlo.after_of_writes_sub hostOps1_1 _ hostOps1_1_writes h5,
    show W5 m c (Proc.devRef .tc r) = W4 m c (Proc.devRef .tc r) from StableHlo.after_of_writes_sub hostOps1 _ hostOps1_writes h4]
  unfold W4; rw [Function.update_of_ne (StableHlo.devRef_ne_of_ne n28)]
  exact (Gen.V3_of m c r h2).trans ((Gen.V2_of m c r h1).trans ((Gen.V1_of m c r h0).trans rfl))

/-! ## The proof data family and the thread state -/

def pdats : (p : Fin 3) → (c : Dev nD) → Dat τ (Elt F) Unit ℕ (UR sig nD τ) ℕ (Pipeline.pin (pcfgs (F := F)) Gen.adm p) c
  | ⟨0, _⟩ => fun c => dat0 (E0 m) c
  | ⟨1, _⟩ => fun c => dat1 (E1 m) c
  | ⟨2, _⟩ => fun c => dat2 (E2 m) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as segments -/

/-- Entering region 0: the buffers behind its windows' arrays, each whole, become the windows' arrays at the shares
    the proof data names — the array two windows read is halved between them. -/
theorem entry0 (c : Dev nD) :
    (Pipeline.arrBufs (Ix := Unit) (Name := ℕ) (U := UR sig nD τ) (Lvl := ℕ) spec0 c (E0 m c) : sProp 𝕄)
      ⊢ (dat0 (E0 m) c).arrays ((dat0 (E0 m) c).arrAt · 0) := by
  classical
  have hs : (Finset.univ : Finset (Fin cfg0.W)).image (Pipeline.arrRef spec0) = ((Finset.univ : Finset (Fin cfg0.W)).erase 2).image (Pipeline.arrRef spec0) := by decide
  have hinj : Set.InjOn (Pipeline.arrRef spec0) ↑((Finset.univ : Finset (Fin cfg0.W)).erase 2) := by
    intro a ha b hb h; rw [Finset.mem_coe] at ha hb; revert a b; decide
  have h2 : (2 : Fin cfg0.W) ∈ (Finset.univ : Finset (Fin cfg0.W)) := Finset.mem_univ _
  have h1 : (1 : Fin cfg0.W) ∈ (Finset.univ : Finset (Fin cfg0.W)).erase 2 := by decide
  have hfull' : ∀ w : Fin cfg0.W, w ≠ 1 → w ≠ 2 → (dat0 (E0 m) c).share w = fullShare := fun w => match w with
    | ⟨0, _⟩ => fun _ _ => rfl
    | ⟨1, _⟩ => fun h _ => absurd rfl h
    | ⟨2, _⟩ => fun _ h => absurd rfl h
    | ⟨3, _⟩ => fun _ _ => rfl
    | ⟨4, _⟩ => fun _ _ => rfl
    | ⟨5, _⟩ => fun _ _ => rfl
    | ⟨6, _⟩ => fun _ _ => rfl
    | ⟨7, _⟩ => fun _ _ => rfl
    | ⟨8, _⟩ => fun _ _ => rfl
    | ⟨9, _⟩ => fun _ _ => rfl
    | ⟨10, _⟩ => fun _ _ => rfl
    | ⟨11, _⟩ => fun _ _ => rfl
    | ⟨12, _⟩ => fun _ _ => rfl
  have hfull : ∀ w ∈ ((Finset.univ : Finset (Fin cfg0.W)).erase 2).erase 1, (dat0 (E0 m) c).share w = fullShare := fun w hw =>
    hfull' w (Finset.ne_of_mem_erase hw) (Finset.ne_of_mem_erase (Finset.mem_of_mem_erase hw))
  have eL : (Pipeline.arrBufs (Ix := Unit) (Name := ℕ) (U := UR sig nD τ) (Lvl := ℕ) spec0 c (E0 m c) : sProp 𝕄)
      = iprop((((c.tc : Thread nD τ).loc (Pipeline.arrRef spec0 1)) ↦{fullShare} E0 m c (Pipeline.arrRef spec0 1)) ∗ bigSep (((Finset.univ : Finset (Fin cfg0.W)).erase 2).erase 1) fun w : Fin cfg0.W => (((c.tc : Thread nD τ).loc (Pipeline.arrRef spec0 w)) ↦{fullShare} E0 m c (Pipeline.arrRef spec0 w))) := by
    unfold Pipeline.arrBufs; rw [hs, bigSep_image_of_injOn hinj, bigSep_erase h1]; rfl
  have eR : (dat0 (E0 m) c).arrays ((dat0 (E0 m) c).arrAt · 0)
      = iprop(((cfg0.win 2).arr.view.loc (c.tc : Thread nD τ) ↦[(cfg0.win 2).arr.view.set]{(dat0 (E0 m) c).share 2} (dat0 (E0 m) c).arrAt 2 0) ∗ ((cfg0.win 1).arr.view.loc (c.tc : Thread nD τ) ↦[(cfg0.win 1).arr.view.set]{(dat0 (E0 m) c).share 1} (dat0 (E0 m) c).arrAt 1 0) ∗ bigSep (((Finset.univ : Finset (Fin cfg0.W)).erase 2).erase 1) fun w : Fin cfg0.W => ((cfg0.win w).arr.view.loc (c.tc : Thread nD τ) ↦[(cfg0.win w).arr.view.set]{(dat0 (E0 m) c).share w} (dat0 (E0 m) c).arrAt w 0)) := by
    unfold Dat.arrays; rw [bigSep_erase h2, bigSep_erase h1]; rfl
  rw [eL, eR]
  iintro ⟨H1, Hrest⟩
  ihave Hs := (pointsTo_share (PosShare.mem_left_op_right fullShare)).1 $$ H1
  icases Hs with ⟨Hl, Hr⟩
  isplitl [Hr]
  · rw [(arr_whole0 2).set_eq_univ]; iexact Hr
  isplitl [Hl]
  · rw [(arr_whole0 1).set_eq_univ]; iexact Hl
  have econg : bigSep (((Finset.univ : Finset (Fin cfg0.W)).erase 2).erase 1) (fun w : Fin cfg0.W => (((c.tc : Thread nD τ).loc (Pipeline.arrRef spec0 w)) ↦{fullShare} E0 m c (Pipeline.arrRef spec0 w)))
      = (bigSep (((Finset.univ : Finset (Fin cfg0.W)).erase 2).erase 1) (fun w : Fin cfg0.W => ((cfg0.win w).arr.view.loc (c.tc : Thread nD τ) ↦[(cfg0.win w).arr.view.set]{(dat0 (E0 m) c).share w} (dat0 (E0 m) c).arrAt w 0)) : sProp 𝕄) :=
    bigSep_congr fun w hw => by rw [(arr_whole0 w).set_eq_univ, hfull w hw]; try rfl
  iapply (Entails.of_eq econg)
  iexact Hrest

/-- Leaving region 0: the windows' arrays at their final contents — the inputs as entered, the two halves joined
    again — and the unscoped rest are every unscoped buffer at the next boundary's contents. -/
theorem exit0 (c : Dev nD) :
    iprop((dat0 (E0 m) c).arrays ((dat0 (E0 m) c).arrAt · cfg0.N)
        ∗ Pipeline.unscopedRest (Ix := Unit) (Name := ℕ) (U := UR sig nD τ) (Lvl := ℕ) spec0 c (E0 m c))
      ⊢ (unscopedBufs c (fun b => W4 m c b) : sProp 𝕄) := by
  classical
  have hs : (Finset.univ : Finset (Fin cfg0.W)).image (Pipeline.arrRef spec0) = ((Finset.univ : Finset (Fin cfg0.W)).erase 2).image (Pipeline.arrRef spec0) := by decide
  have hinj : Set.InjOn (Pipeline.arrRef spec0) ↑((Finset.univ : Finset (Fin cfg0.W)).erase 2) := by
    intro a ha b hb h; rw [Finset.mem_coe] at ha hb; revert a b; decide
  have h2 : (2 : Fin cfg0.W) ∈ (Finset.univ : Finset (Fin cfg0.W)) := Finset.mem_univ _
  have h1 : (1 : Fin cfg0.W) ∈ (Finset.univ : Finset (Fin cfg0.W)).erase 2 := by decide
  have hfull' : ∀ w : Fin cfg0.W, w ≠ 1 → w ≠ 2 → (dat0 (E0 m) c).share w = fullShare := fun w => match w with
    | ⟨0, _⟩ => fun _ _ => rfl
    | ⟨1, _⟩ => fun h _ => absurd rfl h
    | ⟨2, _⟩ => fun _ h => absurd rfl h
    | ⟨3, _⟩ => fun _ _ => rfl
    | ⟨4, _⟩ => fun _ _ => rfl
    | ⟨5, _⟩ => fun _ _ => rfl
    | ⟨6, _⟩ => fun _ _ => rfl
    | ⟨7, _⟩ => fun _ _ => rfl
    | ⟨8, _⟩ => fun _ _ => rfl
    | ⟨9, _⟩ => fun _ _ => rfl
    | ⟨10, _⟩ => fun _ _ => rfl
    | ⟨11, _⟩ => fun _ _ => rfl
    | ⟨12, _⟩ => fun _ _ => rfl
  have hfull : ∀ w ∈ ((Finset.univ : Finset (Fin cfg0.W)).erase 2).erase 1, (dat0 (E0 m) c).share w = fullShare := fun w hw =>
    hfull' w (Finset.ne_of_mem_erase hw) (Finset.ne_of_mem_erase (Finset.mem_of_mem_erase hw))
  have hsp : (unscopedBufs c (fun b => W4 m c b) : sProp 𝕄)
      = iprop((Pipeline.arrBufs spec0 c (fun b => W4 m c b) : sProp 𝕄) ∗ Pipeline.unscopedRest spec0 c (fun b => W4 m c b)) :=
    Pipeline.unscopedBufs_split₀ (cfgs := cfgs) (p := 0) winFacts₀0.arr_unscoped c _
  have eL : (Pipeline.arrBufs (Ix := Unit) (Name := ℕ) (U := UR sig nD τ) (Lvl := ℕ) spec0 c (fun b => W4 m c b) : sProp 𝕄)
      = iprop((((c.tc : Thread nD τ).loc (Pipeline.arrRef spec0 1)) ↦{fullShare} (fun b => W4 m c b) (Pipeline.arrRef spec0 1)) ∗ bigSep (((Finset.univ : Finset (Fin cfg0.W)).erase 2).erase 1) fun w : Fin cfg0.W => (((c.tc : Thread nD τ).loc (Pipeline.arrRef spec0 w)) ↦{fullShare} (fun b => W4 m c b) (Pipeline.arrRef spec0 w))) := by
    unfold Pipeline.arrBufs; rw [hs, bigSep_image_of_injOn hinj, bigSep_erase h1]; rfl
  have eR : (dat0 (E0 m) c).arrays ((dat0 (E0 m) c).arrAt · cfg0.N)
      = iprop(((cfg0.win 2).arr.view.loc (c.tc : Thread nD τ) ↦[(cfg0.win 2).arr.view.set]{(dat0 (E0 m) c).share 2} (dat0 (E0 m) c).arrAt 2 cfg0.N) ∗ ((cfg0.win 1).arr.view.loc (c.tc : Thread nD τ) ↦[(cfg0.win 1).arr.view.set]{(dat0 (E0 m) c).share 1} (dat0 (E0 m) c).arrAt 1 cfg0.N) ∗ bigSep (((Finset.univ : Finset (Fin cfg0.W)).erase 2).erase 1) fun w : Fin cfg0.W => ((cfg0.win w).arr.view.loc (c.tc : Thread nD τ) ↦[(cfg0.win w).arr.view.set]{(dat0 (E0 m) c).share w} (dat0 (E0 m) c).arrAt w cfg0.N)) := by
    unfold Dat.arrays; rw [bigSep_erase h2, bigSep_erase h1]; rfl
  rw [hsp, eL, eR]
  iintro ⟨⟨H2, H1, Hrest⟩, HU⟩
  isplitl [H1 H2 Hrest]
  · isplitl [H1 H2]
    · iapply (pointsTo_share (PosShare.mem_left_op_right fullShare)).2
      isplitl [H1]
      · rw [(arr_whole0 1).set_eq_univ, hF0 m c 1]; iexact H1
      · rw [(arr_whole0 2).set_eq_univ, hF0 m c 2]; iexact H2
    have econg : bigSep (((Finset.univ : Finset (Fin cfg0.W)).erase 2).erase 1) (fun w : Fin cfg0.W => ((cfg0.win w).arr.view.loc (c.tc : Thread nD τ) ↦[(cfg0.win w).arr.view.set]{(dat0 (E0 m) c).share w} (dat0 (E0 m) c).arrAt w cfg0.N))
        = (bigSep (((Finset.univ : Finset (Fin cfg0.W)).erase 2).erase 1) (fun w : Fin cfg0.W => (((c.tc : Thread nD τ).loc (Pipeline.arrRef spec0 w)) ↦{fullShare} (fun b => W4 m c b) (Pipeline.arrRef spec0 w))) : sProp 𝕄) :=
      bigSep_congr fun w hw => by rw [(arr_whole0 w).set_eq_univ, hfull w hw, hF0 m c w]; try rfl
    iapply (Entails.of_eq econg)
    iexact Hrest
  · iapply (Entails.of_eq (show (Pipeline.unscopedRest (Ix := Unit) (Name := ℕ) (U := UR sig nD τ) (Lvl := ℕ) spec0 c (E0 m c) : sProp 𝕄)
        = Pipeline.unscopedRest spec0 c (fun b => W4 m c b) from by
      unfold Pipeline.unscopedRest
      exact bigSep_congr fun b hb => by beta_reduce; rw [hrest0 m c b (Finset.mem_sdiff.mp hb).2]))
    iexact HU

set_option backward.isDefEq.respectTransparency.types false in
/-- Region 0 over the thread state: entered from every unscoped buffer at the contents after the first three host
    stretches, left at `W4`. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit : (unscopedBufs c (E0 m c) : sProp 𝕄)
        ⊢ iprop((pdats m 0 c).arrays ((pdats m 0 c).arrAt · 0) ∗ Pipeline.unscopedRest (Ix := Unit) (Name := ℕ) (U := UR sig nD τ) (Lvl := ℕ) spec0 c (E0 m c)) := by
      rw [show (unscopedBufs c (E0 m c) : sProp 𝕄) = iprop((Pipeline.arrBufs spec0 c (E0 m c) : sProp 𝕄) ∗ Pipeline.unscopedRest spec0 c (E0 m c))
        from Pipeline.unscopedBufs_split₀ (cfgs := cfgs) (p := 0) winFacts₀0.arr_unscoped c _]
      exact sep_mono (entry0 m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (E0 m c))
        ⊢ (unscopedBufs c (fun b => W4 m c b) : sProp 𝕄) := exit0 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b => W8 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W9`, left at `W10`. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E2 m c) (fun b => W10 m c b) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

abbrev segs : List (Pipeline.Seg (pcfgs (F := F)) Gen.adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .region (reg1 m),
    .host (hseg hostOps2 hostOps2_sub hostOps2_fresh (W8 m)),
    .region (reg2 m) ]

set_option backward.isDefEq.respectTransparency.types false in
/-- THE RUN: from any memory with zero counters every weakly fair execution of the main function terminates, nothing
    faulting, and every final memory holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) Gen.adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Hand

end
-- ==== Proof.KFrameB.lean ====
/-
  From the run: the program's argument arrays end as launched (no host operation and no region writes one), and the
  result array ends at what the last region's write-backs leave.
-/
import proofs.«160845_j81252191306258_1_alg».proof.Proof.KRunB

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_uc main_arg0 (by decide))).trans (W10_of m c main_arg0 (by decide) (by decide) (by decide) (by decide) (by decide) (by decide) (by decide) (by decide)),
      (h c _ (mem_uc main_arg1 (by decide))).trans (W10_of m c main_arg1 (by decide) (by decide) (by decide) (by decide) (by decide) (by decide) (by decide) (by decide)),
      (h c _ (mem_uc main_arg2 (by decide))).trans (W10_of m c main_arg2 (by decide) (by decide) (by decide) (by decide) (by decide) (by decide) (by decide) (by decide)),
      (h c _ (mem_uc main_arg3 (by decide))).trans (W10_of m c main_arg3 (by decide) (by decide) (by decide) (by decide) (by decide) (by decide) (by decide) (by decide)),
      (h c _ (mem_uc main_arg4 (by decide))).trans (W10_of m c main_arg4 (by decide) (by decide) (by decide) (by decide) (by decide) (by decide) (by decide) (by decide)),
      (h c _ (mem_uc main_arg5 (by decide))).trans (W10_of m c main_arg5 (by decide) (by decide) (by decide) (by decide) (by decide) (by decide) (by decide) (by decide)),
      (h c _ (mem_uc main_arg6 (by decide))).trans (W10_of m c main_arg6 (by decide) (by decide) (by decide) (by decide) (by decide) (by decide) (by decide) (by decide)),
      (h c _ (mem_uc main_arg7 (by decide))).trans (W10_of m c main_arg7 (by decide) (by decide) (by decide) (by decide) (by decide) (by decide) (by decide) (by decide)),
      (h c _ (mem_uc main_arg8 (by decide))).trans (W10_of m c main_arg8 (by decide) (by decide) (by decide) (by decide) (by decide) (by decide) (by decide) (by decide)),
      (h c _ (mem_uc main_arg9 (by decide))).trans (W10_of m c main_arg9 (by decide) (by decide) (by decide) (by decide) (by decide) (by decide) (by decide) (by decide)),
      (h c _ (mem_uc main_arg10 (by decide))).trans (W10_of m c main_arg10 (by decide) (by decide) (by decide) (by decide) (by decide) (by decide) (by decide) (by decide)),
      (h c _ (mem_uc main_arg11 (by decide))).trans (W10_of m c main_arg11 (by decide) (by decide) (by decide) (by decide) (by decide) (by decide) (by decide) (by decide)),
      (h c _ (mem_uc main_arg12 (by decide))).trans (W10_of m c main_arg12 (by decide) (by decide) (by decide) (by decide) (by decide) (by decide) (by decide) (by decide)),
      (h c _ (mem_uc main_arg13 (by decide))).trans (W10_of m c main_arg13 (by decide) (by decide) (by decide) (by decide) (by decide) (by decide) (by decide) (by decide)),
      (h c _ (mem_uc main_arg14 (by decide))).trans (W10_of m c main_arg14 (by decide) (by decide) (by decide) (by decide) (by decide) (by decide) (by decide) (by decide)),
      (h c _ (mem_uc main_arg15 (by decide))).trans (W10_of m c main_arg15 (by decide) (by decide) (by decide) (by decide) (by decide) (by decide) (by decide) (by decide)),
      (h c _ (mem_uc main_arg16 (by decide))).trans (W10_of m c main_arg16 (by decide) (by decide) (by decide) (by decide) (by decide) (by decide) (by decide) (by decide)),
      (h c _ (mem_uc main_arg17 (by decide))).trans (W10_of m c main_arg17 (by decide) (by decide) (by decide) (by decide) (by decide) (by decide) (by decide) (by decide)),
      (h c _ (mem_uc main_arg18 (by decide))).trans (W10_of m c main_arg18 (by decide) (by decide) (by decide) (by decide) (by decide) (by decide) (by decide) (by decide)),
      (h c _ (mem_uc main_arg19 (by decide))).trans (W10_of m c main_arg19 (by decide) (by decide) (by decide) (by decide) (by decide) (by decide) (by decide) (by decide)),
      (h c _ (mem_uc main_arg20 (by decide))).trans (W10_of m c main_arg20 (by decide) (by decide) (by decide) (by decide) (by decide) (by decide) (by decide) (by decide)),
      (h c _ (mem_uc main_arg21 (by decide))).trans (W10_of m c main_arg21 (by decide) (by decide) (by decide) (by decide) (by decide) (by decide) (by decide) (by decide)),
      (h c _ (mem_uc main_arg22 (by decide))).trans (W10_of m c main_arg22 (by decide) (by decide) (by decide) (by decide) (by decide) (by decide) (by decide) (by decide))⟩) (run m ρ)

/-- The result array ends at the last region's final contents, and every argument array as launched. -/
theorem value : θ_run defs (onTc (τ := τ) (main (F := F))) ⟨m, fun _ => 0, ρ⟩ (fun r => ∀ c : Dev nD,
      r.2.mem ((c.tc : Thread nD τ).loc main_v59) = (dat2 (E2 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_uc main_v59 (by decide))).trans (by unfold W10; rw [Function.update_self]),
      (h c _ (mem_uc main_arg0 (by decide))).trans (W10_of m c main_arg0 (by decide) (by decide) (by decide) (by decide) (by decide) (by decide) (by decide) (by decide)),
      (h c _ (mem_uc main_arg1 (by decide))).trans (W10_of m c main_arg1 (by decide) (by decide) (by decide) (by decide) (by decide) (by decide) (by decide) (by decide)),
      (h c _ (mem_uc main_arg2 (by decide))).trans (W10_of m c main_arg2 (by decide) (by decide) (by decide) (by decide) (by decide) (by decide) (by decide) (by decide)),
      (h c _ (mem_uc main_arg3 (by decide))).trans (W10_of m c main_arg3 (by decide) (by decide) (by decide) (by decide) (by decide) (by decide) (by decide) (by decide)),
      (h c _ (mem_uc main_arg4 (by decide))).trans (W10_of m c main_arg4 (by decide) (by decide) (by decide) (by decide) (by decide) (by decide) (by decide) (by decide)),
      (h c _ (mem_uc main_arg5 (by decide))).trans (W10_of m c main_arg5 (by decide) (by decide) (by decide) (by decide) (by decide) (by decide) (by decide) (by decide)),
      (h c _ (mem_uc main_arg6 (by decide))).trans (W10_of m c main_arg6 (by decide) (by decide) (by decide) (by decide) (by decide) (by decide) (by decide) (by decide)),
      (h c _ (mem_uc main_arg7 (by decide))).trans (W10_of m c main_arg7 (by decide) (by decide) (by decide) (by decide) (by decide) (by decide) (by decide) (by decide)),
      (h c _ (mem_uc main_arg8 (by decide))).trans (W10_of m c main_arg8 (by decide) (by decide) (by decide) (by decide) (by decide) (by decide) (by decide) (by decide)),
      (h c _ (mem_uc main_arg9 (by decide))).trans (W10_of m c main_arg9 (by decide) (by decide) (by decide) (by decide) (by decide) (by decide) (by decide) (by decide)),
      (h c _ (mem_uc main_arg10 (by decide))).trans (W10_of m c main_arg10 (by decide) (by decide) (by decide) (by decide) (by decide) (by decide) (by decide) (by decide)),
      (h c _ (mem_uc main_arg11 (by decide))).trans (W10_of m c main_arg11 (by decide) (by decide) (by decide) (by decide) (by decide) (by decide) (by decide) (by decide)),
      (h c _ (mem_uc main_arg12 (by decide))).trans (W10_of m c main_arg12 (by decide) (by decide) (by decide) (by decide) (by decide) (by decide) (by decide) (by decide)),
      (h c _ (mem_uc main_arg13 (by decide))).trans (W10_of m c main_arg13 (by decide) (by decide) (by decide) (by decide) (by decide) (by decide) (by decide) (by decide)),
      (h c _ (mem_uc main_arg14 (by decide))).trans (W10_of m c main_arg14 (by decide) (by decide) (by decide) (by decide) (by decide) (by decide) (by decide) (by decide)),
      (h c _ (mem_uc main_arg15 (by decide))).trans (W10_of m c main_arg15 (by decide) (by decide) (by decide) (by decide) (by decide) (by decide) (by decide) (by decide)),
      (h c _ (mem_uc main_arg16 (by decide))).trans (W10_of m c main_arg16 (by decide) (by decide) (by decide) (by decide) (by decide) (by decide) (by decide) (by decide)),
      (h c _ (mem_uc main_arg17 (by decide))).trans (W10_of m c main_arg17 (by decide) (by decide) (by decide) (by decide) (by decide) (by decide) (by decide) (by decide)),
      (h c _ (mem_uc main_arg18 (by decide))).trans (W10_of m c main_arg18 (by decide) (by decide) (by decide) (by decide) (by decide) (by decide) (by decide) (by decide)),
      (h c _ (mem_uc main_arg19 (by decide))).trans (W10_of m c main_arg19 (by decide) (by decide) (by decide) (by decide) (by decide) (by decide) (by decide) (by decide)),
      (h c _ (mem_uc main_arg20 (by decide))).trans (W10_of m c main_arg20 (by decide) (by decide) (by decide) (by decide) (by decide) (by decide) (by decide) (by decide)),
      (h c _ (mem_uc main_arg21 (by decide))).trans (W10_of m c main_arg21 (by decide) (by decide) (by decide) (by decide) (by decide) (by decide) (by decide) (by decide)),
      (h c _ (mem_uc main_arg22 (by decide))).trans (W10_of m c main_arg22 (by decide) (by decide) (by decide) (by decide) (by decide) (by decide) (by decide) (by decide))⟩) (run m ρ)

end Cert.Kernel.Hand

end
-- ==== Proof.KData.lean ====
/-
  The three kernel regions' data, at any float instance: for each region, the block of every window at a grid
  point read off the arrays as the region finds them, the rectangle every load and store goes through (the whole
  staging buffer), what the body leaves in the output window's staging buffer — the one stored value, a function
  of the loaded input blocks —, and the pipeline's proof data: the arrays at their entry contents, every input
  buffer left at its block, the output buffer at that value, nothing owed. In the first region two input windows
  read the SAME array (the layer's features and its skip input are both the network input), so each holds half of it.
-/
import proofs.«160845_j81252191306258_1_alg».proof.Proof.Gen.KernelIdeal.Launch
import proofs.«160845_j81252191306258_1_alg».proof.Proof.Gen.KernelIdeal.Skeleton
import proofs.«160845_j81252191306258_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The whole staging buffer of each block shape, as the rectangle the body's loads and stores name. -/
abbrev rA : Rect S2000x256 := Rect.unit (s := S2000x256) ![0, 0] S2000x256.size inb_S2000x256_S2000x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rG : Rect S1x1 := Rect.unit (s := S1x1) ![0, 0] S1x1.size inb_S1x1_S1x1_0_0
abbrev rP : Rect S128x256 := Rect.unit (s := S128x256) ![0, 0] S128x256.size inb_S128x256_S128x256_0_0
abbrev rQ : Rect S1x128 := Rect.unit (s := S1x128) ![0, 0] S1x128.size inb_S1x128_S1x128_0_0
abbrev rO : Rect S2000x128 := Rect.unit (s := S2000x128) ![0, 0] S2000x128.size inb_S2000x128_S2000x128_0_0

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output window's staging buffer after the body: its one store, of the value computed from the loaded blocks. -/
def out0 (x0 : Vec F S2000x256 .f32) (x1 : Vec F S2000x256 .f32) (x2 : Vec F S2000x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S1x1 .f32) (x10 : Vec F S1x256 .f32) (x11 : Vec F S1x256 .f32) : Vec F S2000x256 .f32 :=
  View.canon [⟨rA, k0_pay1 (k0_pay2 (View.ld x0 rA) (View.ld x3 rW) (View.ld x4 rB)) (k0_pay3 (View.ld x1 rA) (View.ld x5 rW) (View.ld x6 rB)) (k0_pay4 (View.ld x2 rA) (View.ld x7 rW) (View.ld x8 rB)) (k0_pay5 (View.ld x9 rG)) k0_pay6 (View.ld x10 rB) (View.ld x11 rB)⟩]

/-- The store covers the buffer. -/
theorem cover0 (p0 : Vec F S2000x256 .f32) (y : S2000x256.Idx) :
    ∃ pc ∈ ([⟨rA, p0⟩] : List (View.Piece (Elt F) S2000x256 .f32)), y ∈ pc.1.set :=
  View.cover_of_tiled [⟨rA, p0⟩] S2000x256.size (by rfl) y

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
  Φ _ := Pipeline.ΦA spec0 c
  q w := match w with
    | ⟨1, _⟩ => fullShare.left
    | ⟨2, _⟩ => fullShare.right
    | ⟨0, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output window's staging buffer after the body: its one store, of the value computed from the loaded blocks. -/
def out1 (x0 : Vec F S2000x256 .f32) (x1 : Vec F S2000x256 .f32) (x2 : Vec F S2000x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S1x1 .f32) (x10 : Vec F S1x256 .f32) (x11 : Vec F S1x256 .f32) : Vec F S2000x256 .f32 :=
  View.canon [⟨rA, k1_pay1 (k1_pay2 (View.ld x0 rA) (View.ld x3 rW) (View.ld x4 rB)) (k1_pay3 (View.ld x1 rA) (View.ld x5 rW) (View.ld x6 rB)) (k1_pay4 (View.ld x2 rA) (View.ld x7 rW) (View.ld x8 rB)) (k1_pay5 (View.ld x9 rG)) (Scalar.ofBits .f32 0x3F800000#32) (View.ld x10 rB) (View.ld x11 rB)⟩]

/-- The store covers the buffer. -/
theorem cover1 (p0 : Vec F S2000x256 .f32) (y : S2000x256.Idx) :
    ∃ pc ∈ ([⟨rA, p0⟩] : List (View.Piece (Elt F) S2000x256 .f32)), y ∈ pc.1.set :=
  View.cover_of_tiled [⟨rA, p0⟩] S2000x256.size (by rfl) y

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q w := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

/-! ## Region 2 -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output window's staging buffer after the body: its one store, of the value computed from the loaded blocks. -/
def out2 (x0 : Vec F S2000x256 .f32) (x1 : Vec F S128x256 .f32) (x2 : Vec F S1x128 .f32) : Vec F S2000x128 .f32 :=
  View.canon [⟨rO, k2_pay1 (View.ld x0 rA) (View.ld x1 rP) (View.ld x2 rQ)⟩]

/-- The store covers the buffer. -/
theorem cover2 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q w := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]

end Cert.KernelIdeal.Hand

end
-- ==== Proof.KBody0.lean ====
/-
  Region 0: the body's triple and the body obligation. On whole staging buffers — every input window's at read
  contents, the output window's at anything — the body runs to the end leaving the inputs as they were and the
  output buffer at the one value it stores; and at every grid point each input buffer does hold its window's block
  there, fetched at that point or not, because the body leaves input blocks in place and an unfetched window's index
  has not moved.
-/
import proofs.«160845_j81252191306258_1_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's staging buffer holds its block -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_4 (c : Dev nD) (t : Fin cfg0.N) (d) : (dat0 V c).before 4 t d = iblk0 V c 4 t :=
  before0_4_of V (dat0 V c) (A_eq0 V c 4) (after0_4 V c) t d

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_5 (c : Dev nD) (t : Fin cfg0.N) (d) : (dat0 V c).before 5 t d = iblk0 V c 5 t :=
  before0_5_of V (dat0 V c) (A_eq0 V c 5) (after0_5 V c) t d

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_6 (c : Dev nD) (t : Fin cfg0.N) (d) : (dat0 V c).before 6 t d = iblk0 V c 6 t :=
  before0_6_of V (dat0 V c) (A_eq0 V c 6) (after0_6 V c) t d

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_7 (c : Dev nD) (t : Fin cfg0.N) (d) : (dat0 V c).before 7 t d = iblk0 V c 7 t :=
  before0_7_of V (dat0 V c) (A_eq0 V c 7) (after0_7 V c) t d

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_8 (c : Dev nD) (t : Fin cfg0.N) (d) : (dat0 V c).before 8 t d = iblk0 V c 8 t :=
  before0_8_of V (dat0 V c) (A_eq0 V c 8) (after0_8 V c) t d

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_9 (c : Dev nD) (t : Fin cfg0.N) (d) : (dat0 V c).before 9 t d = iblk0 V c 9 t :=
  before0_9_of V (dat0 V c) (A_eq0 V c 9) (after0_9 V c) t d

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_10 (c : Dev nD) (t : Fin cfg0.N) (d) : (dat0 V c).before 10 t d = iblk0 V c 10 t :=
  before0_10_of V (dat0 V c) (A_eq0 V c 10) (after0_10 V c) t d

theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_11 (c : Dev nD) (t : Fin cfg0.N) (d) : (dat0 V c).before 11 t d = iblk0 V c 11 t :=
  before0_11_of V (dat0 V c) (A_eq0 V c 11) (after0_11 V c) t d

/-! ## The body's triple -/

set_option maxHeartbeats 4000000 in
theorem sound_kernel0 (c : Dev nD) (E : Set ℕ) (i : grid0.Coords) (arg0 : Memref sig .tc .vmem S2000x256 .f32) (harg0 : arg0.IsWhole) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2000x256 .f32) (harg12 : arg12.IsWhole)
    (x0 : Vec F S2000x256 .f32) (x1 : Vec F S2000x256 .f32) (x2 : Vec F S2000x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S1x1 .f32) (x10 : Vec F S1x256 .f32) (x11 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out0 x0 x1 x2 x3 x4 x5 x6 x7 x8 x9 x10 x11)) -∗ K ⟨⟩))
      ⊢ wp frame (wpE (defs₀ (F := F)) Variants.none c none) E (cc0__combine_kernel i arg0 harg0 arg1 harg1 arg2 harg2 arg3 harg3 arg4 harg4 arg5 harg5 arg6 harg6 arg7 harg7 arg8 harg8 arg9 harg9 arg10 harg10 arg11 harg11 arg12 harg12) K := by
  simp only [cc0__combine_kernel_eq_skeleton]; unfold cc0__combine_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover0 _)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KBody1.lean ====
/-
  Region 1: the body's triple and the body obligation. On whole staging buffers — every input window's at read
  contents, the output window's at anything — the body runs to the end leaving the inputs as they were and the
  output buffer at the one value it stores; and at every grid point each input buffer does hold its window's block
  there, fetched at that point or not, because the body leaves input blocks in place and an unfetched window's index
  has not moved.
-/
import proofs.«160845_j81252191306258_1_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's staging buffer holds its block -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_5 (c : Dev nD) (t : Fin cfg1.N) (d) : (dat1 V c).before 5 t d = iblk1 V c 5 t :=
  before1_5_of V (dat1 V c) (A_eq1 V c 5) (after1_5 V c) t d

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_6 (c : Dev nD) (t : Fin cfg1.N) (d) : (dat1 V c).before 6 t d = iblk1 V c 6 t :=
  before1_6_of V (dat1 V c) (A_eq1 V c 6) (after1_6 V c) t d

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_7 (c : Dev nD) (t : Fin cfg1.N) (d) : (dat1 V c).before 7 t d = iblk1 V c 7 t :=
  before1_7_of V (dat1 V c) (A_eq1 V c 7) (after1_7 V c) t d

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_8 (c : Dev nD) (t : Fin cfg1.N) (d) : (dat1 V c).before 8 t d = iblk1 V c 8 t :=
  before1_8_of V (dat1 V c) (A_eq1 V c 8) (after1_8 V c) t d

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_9 (c : Dev nD) (t : Fin cfg1.N) (d) : (dat1 V c).before 9 t d = iblk1 V c 9 t :=
  before1_9_of V (dat1 V c) (A_eq1 V c 9) (after1_9 V c) t d

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_10 (c : Dev nD) (t : Fin cfg1.N) (d) : (dat1 V c).before 10 t d = iblk1 V c 10 t :=
  before1_10_of V (dat1 V c) (A_eq1 V c 10) (after1_10 V c) t d

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_11 (c : Dev nD) (t : Fin cfg1.N) (d) : (dat1 V c).before 11 t d = iblk1 V c 11 t :=
  before1_11_of V (dat1 V c) (A_eq1 V c 11) (after1_11 V c) t d

/-! ## The body's triple -/

set_option maxHeartbeats 4000000 in
theorem sound_kernel1 (c : Dev nD) (E : Set ℕ) (i : grid1.Coords) (arg0 : Memref sig .tc .vmem S2000x256 .f32) (harg0 : arg0.IsWhole) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2000x256 .f32) (harg12 : arg12.IsWhole)
    (x0 : Vec F S2000x256 .f32) (x1 : Vec F S2000x256 .f32) (x2 : Vec F S2000x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S1x1 .f32) (x10 : Vec F S1x256 .f32) (x11 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out1 x0 x1 x2 x3 x4 x5 x6 x7 x8 x9 x10 x11)) -∗ K ⟨⟩))
      ⊢ wp frame (wpE (defs₀ (F := F)) Variants.none c none) E (cc1__combine_kernel i arg0 harg0 arg1 harg1 arg2 harg2 arg3 harg3 arg4 harg4 arg5 harg5 arg6 harg6 arg7 harg7 arg8 harg8 arg9 harg9 arg10 harg10 arg11 harg11 arg12 harg12) K := by
  simp only [cc1__combine_kernel_eq_skeleton]; unfold cc1__combine_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover1 _)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KBody2.lean ====
/-
  Region 2: the body's triple and the body obligation. On whole staging buffers — every input window's at read
  contents, the output window's at anything — the body runs to the end leaving the inputs as they were and the
  output buffer at the one value it stores; and at every grid point each input buffer does hold its window's block
  there, fetched at that point or not, because the body leaves input blocks in place and an unfetched window's index
  has not moved.
-/
import proofs.«160845_j81252191306258_1_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's staging buffer holds its block -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d

/-! ## The body's triple -/

set_option maxHeartbeats 4000000 in
theorem sound_kernel2 (c : Dev nD) (E : Set ℕ) (i : grid2.Coords) (arg0 : Memref sig .tc .vmem S2000x256 .f32) (harg0 : arg0.IsWhole) (arg1 : Memref sig .tc .vmem S128x256 .f32) (harg1 : arg1.IsWhole) (arg2 : Memref sig .tc .vmem S1x128 .f32) (harg2 : arg2.IsWhole) (arg3 : Memref sig .tc .vmem S2000x128 .f32) (harg3 : arg3.IsWhole)
    (x0 : Vec F S2000x256 .f32) (x1 : Vec F S128x256 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2 x0 x1 x2)) -∗ K ⟨⟩))
      ⊢ wp frame (wpE (defs₀ (F := F)) Variants.none c none) E (cc2__outproj_kernel i arg0 harg0 arg1 harg1 arg2 harg2 arg3 harg3) K := by
  simp only [cc2__outproj_kernel_eq_skeleton]; unfold cc2__outproj_kernel_skel

  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KRun.lean ====
/-
  The run of the whole program at any float instance. The buffers' contents at every boundary between two items of
  the main function are a fold from the launch memory: a stretch of host operations applies them; a kernel region
  changes exactly one buffer, its result array, to what the grid's write-backs leave there. Each region is entered
  from "every unscoped buffer at the fold's contents, nothing owed" and left in the same form one step further, so
  the items chain, and the last contents are read against the final memory: every unscoped buffer ends at the last
  fold's value. The first region reads one array through two windows, each holding half of it.
-/
import proofs.«160845_j81252191306258_1_alg».proof.Proof.KBody0
import proofs.«160845_j81252191306258_1_alg».proof.Proof.KBody1
import proofs.«160845_j81252191306258_1_alg».proof.Proof.KBody2
import proofs.«160845_j81252191306258_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- What region 0 is entered from: the launch memory after the three host stretches before it. -/
abbrev E0 : (c : Dev nD) → (b : Ref sig .tc) → Buf (Elt F) ((c : Thread nD τ).loc b) := fun c b => Gen.V3 m c b
/-- After region 0: its result array at what the write-backs leave. -/
def W4 (c : Dev nD) : Valuation τ sig (Elt F) :=
  Function.update (Gen.V3 m c) (Proc.devRef .tc main_v28) ((dat0 (E0 m) c).arrAt 12 cfg0.N)
abbrev W5 (c : Dev nD) : Valuation τ sig (Elt F) := StableHlo.after hostOps1 (W4 m c)
abbrev W6 (c : Dev nD) : Valuation τ sig (Elt F) := StableHlo.after hostOps1_1 (W5 m c)
abbrev W7 (c : Dev nD) : Valuation τ sig (Elt F) := StableHlo.after hostOps1_2 (W6 m c)
abbrev E1 : (c : Dev nD) → (b : Ref sig .tc) → Buf (Elt F) ((c : Thread nD τ).loc b) := fun c b => W7 m c b
def W8 (c : Dev nD) : Valuation τ sig (Elt F) :=
  Function.update (W7 m c) (Proc.devRef .tc main_v57) ((dat1 (E1 m) c).arrAt 12 cfg1.N)
abbrev W9 (c : Dev nD) : Valuation τ sig (Elt F) := StableHlo.after hostOps2 (W8 m c)
abbrev E2 : (c : Dev nD) → (b : Ref sig .tc) → Buf (Elt F) ((c : Thread nD τ).loc b) := fun c b => W9 m c b
def W10 (c : Dev nD) : Valuation τ sig (Elt F) :=
  Function.update (W9 m c) (Proc.devRef .tc main_v59) ((dat2 (E2 m) c).arrAt 3 cfg2.N)

theorem hF0 (c : Dev nD) (w : Fin cfg0.W) : (dat0 (E0 m) c).arrAt w cfg0.N = W4 m c (Proc.devRef .tc (Pipeline.arrRef spec0 w)) := by
  by_cases hw : w = 12
  · subst hw; unfold W4; rw [Function.update_self]
  · have hin : (cfg0.win w).isOut = false := by revert w; decide
    have hne : Pipeline.arrRef spec0 w ≠ main_v28 := by revert w; decide
    rw [(dat0 (E0 m) c).arrAt_in w hin, A_eq0]; unfold W4
    rw [Function.update_of_ne (StableHlo.devRef_ne_of_ne hne)]
theorem hrest0 (c : Dev nD) : ∀ b, b ∉ Finset.univ.image (Pipeline.arrRef spec0) → W4 m c (Proc.devRef .tc b) = E0 m c b := fun b hb => by
  have hne : b ≠ main_v28 := fun e => hb (Finset.mem_image.mpr ⟨12, Finset.mem_univ _, e.symm⟩)
  unfold W4; rw [Function.update_of_ne (StableHlo.devRef_ne_of_ne hne)]

theorem hF1 (c : Dev nD) (w : Fin cfg1.W) : (dat1 (E1 m) c).arrAt w cfg1.N = W8 m c (Proc.devRef .tc (Pipeline.arrRef spec1 w)) := by
  by_cases hw : w = 12
  · subst hw; unfold W8; rw [Function.update_self]
  · have hin : (cfg1.win w).isOut = false := by revert w; decide
    have hne : Pipeline.arrRef spec1 w ≠ main_v57 := by revert w; decide
    rw [(dat1 (E1 m) c).arrAt_in w hin, A_eq1]; unfold W8
    rw [Function.update_of_ne (StableHlo.devRef_ne_of_ne hne)]
theorem hrest1 (c : Dev nD) : ∀ b, b ∉ Finset.univ.image (Pipeline.arrRef spec1) → W8 m c (Proc.devRef .tc b) = E1 m c b := fun b hb => by
  have hne : b ≠ main_v57 := fun e => hb (Finset.mem_image.mpr ⟨12, Finset.mem_univ _, e.symm⟩)
  unfold W8; rw [Function.update_of_ne (StableHlo.devRef_ne_of_ne hne)]

theorem hF2 (c : Dev nD) (w : Fin cfg2.W) : (dat2 (E2 m) c).arrAt w cfg2.N = W10 m c (Proc.devRef .tc (Pipeline.arrRef spec2 w)) := by
  by_cases hw : w = 3
  · subst hw; unfold W10; rw [Function.update_self]
  · have hin : (cfg2.win w).isOut = false := by revert w; decide
    have hne : Pipeline.arrRef spec2 w ≠ main_v59 := by revert w; decide
    rw [(dat2 (E2 m) c).arrAt_in w hin, A_eq2]; unfold W10
    rw [Function.update_of_ne (StableHlo.devRef_ne_of_ne hne)]
theorem hrest2 (c : Dev nD) : ∀ b, b ∉ Finset.univ.image (Pipeline.arrRef spec2) → W10 m c (Proc.devRef .tc b) = E2 m c b := fun b hb => by
  have hne : b ≠ main_v59 := fun e => hb (Finset.mem_image.mpr ⟨3, Finset.mem_univ _, e.symm⟩)
  unfold W10; rw [Function.update_of_ne (StableHlo.devRef_ne_of_ne hne)]

/-! ## What no item writes ends as launched -/

theorem W10_of (c : Dev nD) (r : Ref sig .tc) (h0 : r ∉ hostOps0_W) (h1 : r ∉ hostOps0_1_W) (h2 : r ∉ hostOps0_2_W)
    (h4 : r ∉ hostOps1_W) (h5 : r ∉ hostOps1_1_W) (h6 : r ∉ hostOps1_2_W) (h8 : r ∉ hostOps2_W)
    (hr : r ∉ ([main_v28, main_v57, main_v59] : List (Ref sig .tc))) :
    W10 m c (Proc.devRef .tc r) = m ((c : Thread nD τ).loc r) := by
  have n28 : r ≠ main_v28 := fun e => hr (e ▸ by simp)
  have n57 : r ≠ main_v57 := fun e => hr (e ▸ by simp)
  have n59 : r ≠ main_v59 := fun e => hr (e ▸ by simp)
  unfold W10; rw [Function.update_of_ne (StableHlo.devRef_ne_of_ne n59)]
  rw [show W9 m c (Proc.devRef .tc r) = W8 m c (Proc.devRef .tc r) from StableHlo.after_of_writes_sub hostOps2 _ hostOps2_writes h8]
  unfold W8; rw [Function.update_of_ne (StableHlo.devRef_ne_of_ne n57)]
  rw [show W7 m c (Proc.devRef .tc r) = W6 m c (Proc.devRef .tc r) from StableHlo.after_of_writes_sub hostOps1_2 _ hostOps1_2_writes h6,
    show W6 m c (Proc.devRef .tc r) = W5 m c (Proc.devRef .tc r) from StableHlo.after_of_writes_sub hostOps1_1 _ hostOps1_1_writes h5,
    show W5 m c (Proc.devRef .tc r) = W4 m c (Proc.devRef .tc r) from StableHlo.after_of_writes_sub hostOps1 _ hostOps1_writes h4]
  unfold W4; rw [Function.update_of_ne (StableHlo.devRef_ne_of_ne n28)]
  exact (Gen.V3_of m c r h2).trans ((Gen.V2_of m c r h1).trans ((Gen.V1_of m c r h0).trans rfl))

/-! ## The proof data family and the thread state -/

def pdats : (p : Fin 3) → (c : Dev nD) → Dat τ (Elt F) Unit ℕ (UR sig nD τ) ℕ (Pipeline.pin (pcfgs (F := F)) Gen.adm p) c
  | ⟨0, _⟩ => fun c => dat0 (E0 m) c
  | ⟨1, _⟩ => fun c => dat1 (E1 m) c
  | ⟨2, _⟩ => fun c => dat2 (E2 m) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as segments -/

/-- Entering region 0: the buffers behind its windows' arrays, each whole, become the windows' arrays at the shares
    the proof data names — the array two windows read is halved between them. -/
theorem entry0 (c : Dev nD) :
    (Pipeline.arrBufs (Ix := Unit) (Name := ℕ) (U := UR sig nD τ) (Lvl := ℕ) spec0 c (E0 m c) : sProp 𝕄)
      ⊢ (dat0 (E0 m) c).arrays ((dat0 (E0 m) c).arrAt · 0) := by
  classical
  have hs : (Finset.univ : Finset (Fin cfg0.W)).image (Pipeline.arrRef spec0) = ((Finset.univ : Finset (Fin cfg0.W)).erase 2).image (Pipeline.arrRef spec0) := by decide
  have hinj : Set.InjOn (Pipeline.arrRef spec0) ↑((Finset.univ : Finset (Fin cfg0.W)).erase 2) := by
    intro a ha b hb h; rw [Finset.mem_coe] at ha hb; revert a b; decide
  have h2 : (2 : Fin cfg0.W) ∈ (Finset.univ : Finset (Fin cfg0.W)) := Finset.mem_univ _
  have h1 : (1 : Fin cfg0.W) ∈ (Finset.univ : Finset (Fin cfg0.W)).erase 2 := by decide
  have hfull' : ∀ w : Fin cfg0.W, w ≠ 1 → w ≠ 2 → (dat0 (E0 m) c).share w = fullShare := fun w => match w with
    | ⟨0, _⟩ => fun _ _ => rfl
    | ⟨1, _⟩ => fun h _ => absurd rfl h
    | ⟨2, _⟩ => fun _ h => absurd rfl h
    | ⟨3, _⟩ => fun _ _ => rfl
    | ⟨4, _⟩ => fun _ _ => rfl
    | ⟨5, _⟩ => fun _ _ => rfl
    | ⟨6, _⟩ => fun _ _ => rfl
    | ⟨7, _⟩ => fun _ _ => rfl
    | ⟨8, _⟩ => fun _ _ => rfl
    | ⟨9, _⟩ => fun _ _ => rfl
    | ⟨10, _⟩ => fun _ _ => rfl
    | ⟨11, _⟩ => fun _ _ => rfl
    | ⟨12, _⟩ => fun _ _ => rfl
  have hfull : ∀ w ∈ ((Finset.univ : Finset (Fin cfg0.W)).erase 2).erase 1, (dat0 (E0 m) c).share w = fullShare := fun w hw =>
    hfull' w (Finset.ne_of_mem_erase hw) (Finset.ne_of_mem_erase (Finset.mem_of_mem_erase hw))
  have eL : (Pipeline.arrBufs (Ix := Unit) (Name := ℕ) (U := UR sig nD τ) (Lvl := ℕ) spec0 c (E0 m c) : sProp 𝕄)
      = iprop((((c.tc : Thread nD τ).loc (Pipeline.arrRef spec0 1)) ↦{fullShare} E0 m c (Pipeline.arrRef spec0 1)) ∗ bigSep (((Finset.univ : Finset (Fin cfg0.W)).erase 2).erase 1) fun w : Fin cfg0.W => (((c.tc : Thread nD τ).loc (Pipeline.arrRef spec0 w)) ↦{fullShare} E0 m c (Pipeline.arrRef spec0 w))) := by
    unfold Pipeline.arrBufs; rw [hs, bigSep_image_of_injOn hinj, bigSep_erase h1]; rfl
  have eR : (dat0 (E0 m) c).arrays ((dat0 (E0 m) c).arrAt · 0)
      = iprop(((cfg0.win 2).arr.view.loc (c.tc : Thread nD τ) ↦[(cfg0.win 2).arr.view.set]{(dat0 (E0 m) c).share 2} (dat0 (E0 m) c).arrAt 2 0) ∗ ((cfg0.win 1).arr.view.loc (c.tc : Thread nD τ) ↦[(cfg0.win 1).arr.view.set]{(dat0 (E0 m) c).share 1} (dat0 (E0 m) c).arrAt 1 0) ∗ bigSep (((Finset.univ : Finset (Fin cfg0.W)).erase 2).erase 1) fun w : Fin cfg0.W => ((cfg0.win w).arr.view.loc (c.tc : Thread nD τ) ↦[(cfg0.win w).arr.view.set]{(dat0 (E0 m) c).share w} (dat0 (E0 m) c).arrAt w 0)) := by
    unfold Dat.arrays; rw [bigSep_erase h2, bigSep_erase h1]; rfl
  rw [eL, eR]
  iintro ⟨H1, Hrest⟩
  ihave Hs := (pointsTo_share (PosShare.mem_left_op_right fullShare)).1 $$ H1
  icases Hs with ⟨Hl, Hr⟩
  isplitl [Hr]
  · rw [(arr_whole0 2).set_eq_univ]; iexact Hr
  isplitl [Hl]
  · rw [(arr_whole0 1).set_eq_univ]; iexact Hl
  have econg : bigSep (((Finset.univ : Finset (Fin cfg0.W)).erase 2).erase 1) (fun w : Fin cfg0.W => (((c.tc : Thread nD τ).loc (Pipeline.arrRef spec0 w)) ↦{fullShare} E0 m c (Pipeline.arrRef spec0 w)))
      = (bigSep (((Finset.univ : Finset (Fin cfg0.W)).erase 2).erase 1) (fun w : Fin cfg0.W => ((cfg0.win w).arr.view.loc (c.tc : Thread nD τ) ↦[(cfg0.win w).arr.view.set]{(dat0 (E0 m) c).share w} (dat0 (E0 m) c).arrAt w 0)) : sProp 𝕄) :=
    bigSep_congr fun w hw => by rw [(arr_whole0 w).set_eq_univ, hfull w hw]; try rfl
  iapply (Entails.of_eq econg)
  iexact Hrest

/-- Leaving region 0: the windows' arrays at their final contents — the inputs as entered, the two halves joined
    again — and the unscoped rest are every unscoped buffer at the next boundary's contents. -/
theorem exit0 (c : Dev nD) :
    iprop((dat0 (E0 m) c).arrays ((dat0 (E0 m) c).arrAt · cfg0.N)
        ∗ Pipeline.unscopedRest (Ix := Unit) (Name := ℕ) (U := UR sig nD τ) (Lvl := ℕ) spec0 c (E0 m c))
      ⊢ (unscopedBufs c (fun b => W4 m c b) : sProp 𝕄) := by
  classical
  have hs : (Finset.univ : Finset (Fin cfg0.W)).image (Pipeline.arrRef spec0) = ((Finset.univ : Finset (Fin cfg0.W)).erase 2).image (Pipeline.arrRef spec0) := by decide
  have hinj : Set.InjOn (Pipeline.arrRef spec0) ↑((Finset.univ : Finset (Fin cfg0.W)).erase 2) := by
    intro a ha b hb h; rw [Finset.mem_coe] at ha hb; revert a b; decide
  have h2 : (2 : Fin cfg0.W) ∈ (Finset.univ : Finset (Fin cfg0.W)) := Finset.mem_univ _
  have h1 : (1 : Fin cfg0.W) ∈ (Finset.univ : Finset (Fin cfg0.W)).erase 2 := by decide
  have hfull' : ∀ w : Fin cfg0.W, w ≠ 1 → w ≠ 2 → (dat0 (E0 m) c).share w = fullShare := fun w => match w with
    | ⟨0, _⟩ => fun _ _ => rfl
    | ⟨1, _⟩ => fun h _ => absurd rfl h
    | ⟨2, _⟩ => fun _ h => absurd rfl h
    | ⟨3, _⟩ => fun _ _ => rfl
    | ⟨4, _⟩ => fun _ _ => rfl
    | ⟨5, _⟩ => fun _ _ => rfl
    | ⟨6, _⟩ => fun _ _ => rfl
    | ⟨7, _⟩ => fun _ _ => rfl
    | ⟨8, _⟩ => fun _ _ => rfl
    | ⟨9, _⟩ => fun _ _ => rfl
    | ⟨10, _⟩ => fun _ _ => rfl
    | ⟨11, _⟩ => fun _ _ => rfl
    | ⟨12, _⟩ => fun _ _ => rfl
  have hfull : ∀ w ∈ ((Finset.univ : Finset (Fin cfg0.W)).erase 2).erase 1, (dat0 (E0 m) c).share w = fullShare := fun w hw =>
    hfull' w (Finset.ne_of_mem_erase hw) (Finset.ne_of_mem_erase (Finset.mem_of_mem_erase hw))
  have hsp : (unscopedBufs c (fun b => W4 m c b) : sProp 𝕄)
      = iprop((Pipeline.arrBufs spec0 c (fun b => W4 m c b) : sProp 𝕄) ∗ Pipeline.unscopedRest spec0 c (fun b => W4 m c b)) :=
    Pipeline.unscopedBufs_split₀ (cfgs := cfgs) (p := 0) winFacts₀0.arr_unscoped c _
  have eL : (Pipeline.arrBufs (Ix := Unit) (Name := ℕ) (U := UR sig nD τ) (Lvl := ℕ) spec0 c (fun b => W4 m c b) : sProp 𝕄)
      = iprop((((c.tc : Thread nD τ).loc (Pipeline.arrRef spec0 1)) ↦{fullShare} (fun b => W4 m c b) (Pipeline.arrRef spec0 1)) ∗ bigSep (((Finset.univ : Finset (Fin cfg0.W)).erase 2).erase 1) fun w : Fin cfg0.W => (((c.tc : Thread nD τ).loc (Pipeline.arrRef spec0 w)) ↦{fullShare} (fun b => W4 m c b) (Pipeline.arrRef spec0 w))) := by
    unfold Pipeline.arrBufs; rw [hs, bigSep_image_of_injOn hinj, bigSep_erase h1]; rfl
  have eR : (dat0 (E0 m) c).arrays ((dat0 (E0 m) c).arrAt · cfg0.N)
      = iprop(((cfg0.win 2).arr.view.loc (c.tc : Thread nD τ) ↦[(cfg0.win 2).arr.view.set]{(dat0 (E0 m) c).share 2} (dat0 (E0 m) c).arrAt 2 cfg0.N) ∗ ((cfg0.win 1).arr.view.loc (c.tc : Thread nD τ) ↦[(cfg0.win 1).arr.view.set]{(dat0 (E0 m) c).share 1} (dat0 (E0 m) c).arrAt 1 cfg0.N) ∗ bigSep (((Finset.univ : Finset (Fin cfg0.W)).erase 2).erase 1) fun w : Fin cfg0.W => ((cfg0.win w).arr.view.loc (c.tc : Thread nD τ) ↦[(cfg0.win w).arr.view.set]{(dat0 (E0 m) c).share w} (dat0 (E0 m) c).arrAt w cfg0.N)) := by
    unfold Dat.arrays; rw [bigSep_erase h2, bigSep_erase h1]; rfl
  rw [hsp, eL, eR]
  iintro ⟨⟨H2, H1, Hrest⟩, HU⟩
  isplitl [H1 H2 Hrest]
  · isplitl [H1 H2]
    · iapply (pointsTo_share (PosShare.mem_left_op_right fullShare)).2
      isplitl [H1]
      · rw [(arr_whole0 1).set_eq_univ, hF0 m c 1]; iexact H1
      · rw [(arr_whole0 2).set_eq_univ, hF0 m c 2]; iexact H2
    have econg : bigSep (((Finset.univ : Finset (Fin cfg0.W)).erase 2).erase 1) (fun w : Fin cfg0.W => ((cfg0.win w).arr.view.loc (c.tc : Thread nD τ) ↦[(cfg0.win w).arr.view.set]{(dat0 (E0 m) c).share w} (dat0 (E0 m) c).arrAt w cfg0.N))
        = (bigSep (((Finset.univ : Finset (Fin cfg0.W)).erase 2).erase 1) (fun w : Fin cfg0.W => (((c.tc : Thread nD τ).loc (Pipeline.arrRef spec0 w)) ↦{fullShare} (fun b => W4 m c b) (Pipeline.arrRef spec0 w))) : sProp 𝕄) :=
      bigSep_congr fun w hw => by rw [(arr_whole0 w).set_eq_univ, hfull w hw, hF0 m c w]; try rfl
    iapply (Entails.of_eq econg)
    iexact Hrest
  · iapply (Entails.of_eq (show (Pipeline.unscopedRest (Ix := Unit) (Name := ℕ) (U := UR sig nD τ) (Lvl := ℕ) spec0 c (E0 m c) : sProp 𝕄)
        = Pipeline.unscopedRest spec0 c (fun b => W4 m c b) from by
      unfold Pipeline.unscopedRest
      exact bigSep_congr fun b hb => by beta_reduce; rw [hrest0 m c b (Finset.mem_sdiff.mp hb).2]))
    iexact HU

set_option backward.isDefEq.respectTransparency.types false in
/-- Region 0 over the thread state: entered from every unscoped buffer at the contents after the first three host
    stretches, left at `W4`. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit : (unscopedBufs c (E0 m c) : sProp 𝕄)
        ⊢ iprop((pdats m 0 c).arrays ((pdats m 0 c).arrAt · 0) ∗ Pipeline.unscopedRest (Ix := Unit) (Name := ℕ) (U := UR sig nD τ) (Lvl := ℕ) spec0 c (E0 m c)) := by
      rw [show (unscopedBufs c (E0 m c) : sProp 𝕄) = iprop((Pipeline.arrBufs spec0 c (E0 m c) : sProp 𝕄) ∗ Pipeline.unscopedRest spec0 c (E0 m c))
        from Pipeline.unscopedBufs_split₀ (cfgs := cfgs) (p := 0) winFacts₀0.arr_unscoped c _]
      exact sep_mono (entry0 m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (E0 m c))
        ⊢ (unscopedBufs c (fun b => W4 m c b) : sProp 𝕄) := exit0 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b => W8 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W9`, left at `W10`. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E2 m c) (fun b => W10 m c b) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

abbrev segs : List (Pipeline.Seg (pcfgs (F := F)) Gen.adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .region (reg1 m),
    .host (hseg hostOps2 hostOps2_sub hostOps2_fresh (W8 m)),
    .region (reg2 m) ]

set_option backward.isDefEq.respectTransparency.types false in
/-- THE RUN: from any memory with zero counters every weakly fair execution of the main function terminates, nothing
    faulting, and every final memory holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) Gen.adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.KFrame.lean ====
/-
  From the run: the program's argument arrays end as launched (no host operation and no region writes one), and the
  result array ends at what the last region's write-backs leave.
-/
import proofs.«160845_j81252191306258_1_alg».proof.Proof.KRun

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_uc main_arg0 (by decide))).trans (W10_of m c main_arg0 (by decide) (by decide) (by decide) (by decide) (by decide) (by decide) (by decide) (by decide)),
      (h c _ (mem_uc main_arg1 (by decide))).trans (W10_of m c main_arg1 (by decide) (by decide) (by decide) (by decide) (by decide) (by decide) (by decide) (by decide)),
      (h c _ (mem_uc main_arg2 (by decide))).trans (W10_of m c main_arg2 (by decide) (by decide) (by decide) (by decide) (by decide) (by decide) (by decide) (by decide)),
      (h c _ (mem_uc main_arg3 (by decide))).trans (W10_of m c main_arg3 (by decide) (by decide) (by decide) (by decide) (by decide) (by decide) (by decide) (by decide)),
      (h c _ (mem_uc main_arg4 (by decide))).trans (W10_of m c main_arg4 (by decide) (by decide) (by decide) (by decide) (by decide) (by decide) (by decide) (by decide)),
      (h c _ (mem_uc main_arg5 (by decide))).trans (W10_of m c main_arg5 (by decide) (by decide) (by decide) (by decide) (by decide) (by decide) (by decide) (by decide)),
      (h c _ (mem_uc main_arg6 (by decide))).trans (W10_of m c main_arg6 (by decide) (by decide) (by decide) (by decide) (by decide) (by decide) (by decide) (by decide)),
      (h c _ (mem_uc main_arg7 (by decide))).trans (W10_of m c main_arg7 (by decide) (by decide) (by decide) (by decide) (by decide) (by decide) (by decide) (by decide)),
      (h c _ (mem_uc main_arg8 (by decide))).trans (W10_of m c main_arg8 (by decide) (by decide) (by decide) (by decide) (by decide) (by decide) (by decide) (by decide)),
      (h c _ (mem_uc main_arg9 (by decide))).trans (W10_of m c main_arg9 (by decide) (by decide) (by decide) (by decide) (by decide) (by decide) (by decide) (by decide)),
      (h c _ (mem_uc main_arg10 (by decide))).trans (W10_of m c main_arg10 (by decide) (by decide) (by decide) (by decide) (by decide) (by decide) (by decide) (by decide)),
      (h c _ (mem_uc main_arg11 (by decide))).trans (W10_of m c main_arg11 (by decide) (by decide) (by decide) (by decide) (by decide) (by decide) (by decide) (by decide)),
      (h c _ (mem_uc main_arg12 (by decide))).trans (W10_of m c main_arg12 (by decide) (by decide) (by decide) (by decide) (by decide) (by decide) (by decide) (by decide)),
      (h c _ (mem_uc main_arg13 (by decide))).trans (W10_of m c main_arg13 (by decide) (by decide) (by decide) (by decide) (by decide) (by decide) (by decide) (by decide)),
      (h c _ (mem_uc main_arg14 (by decide))).trans (W10_of m c main_arg14 (by decide) (by decide) (by decide) (by decide) (by decide) (by decide) (by decide) (by decide)),
      (h c _ (mem_uc main_arg15 (by decide))).trans (W10_of m c main_arg15 (by decide) (by decide) (by decide) (by decide) (by decide) (by decide) (by decide) (by decide)),
      (h c _ (mem_uc main_arg16 (by decide))).trans (W10_of m c main_arg16 (by decide) (by decide) (by decide) (by decide) (by decide) (by decide) (by decide) (by decide)),
      (h c _ (mem_uc main_arg17 (by decide))).trans (W10_of m c main_arg17 (by decide) (by decide) (by decide) (by decide) (by decide) (by decide) (by decide) (by decide)),
      (h c _ (mem_uc main_arg18 (by decide))).trans (W10_of m c main_arg18 (by decide) (by decide) (by decide) (by decide) (by decide) (by decide) (by decide) (by decide)),
      (h c _ (mem_uc main_arg19 (by decide))).trans (W10_of m c main_arg19 (by decide) (by decide) (by decide) (by decide) (by decide) (by decide) (by decide) (by decide)),
      (h c _ (mem_uc main_arg20 (by decide))).trans (W10_of m c main_arg20 (by decide) (by decide) (by decide) (by decide) (by decide) (by decide) (by decide) (by decide)),
      (h c _ (mem_uc main_arg21 (by decide))).trans (W10_of m c main_arg21 (by decide) (by decide) (by decide) (by decide) (by decide) (by decide) (by decide) (by decide)),
      (h c _ (mem_uc main_arg22 (by decide))).trans (W10_of m c main_arg22 (by decide) (by decide) (by decide) (by decide) (by decide) (by decide) (by decide) (by decide))⟩) (run m ρ)

/-- The result array ends at the last region's final contents, and every argument array as launched. -/
theorem value : θ_run defs (onTc (τ := τ) (main (F := F))) ⟨m, fun _ => 0, ρ⟩ (fun r => ∀ c : Dev nD,
      r.2.mem ((c.tc : Thread nD τ).loc main_v59) = (dat2 (E2 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_uc main_v59 (by decide))).trans (by unfold W10; rw [Function.update_self]),
      (h c _ (mem_uc main_arg0 (by decide))).trans (W10_of m c main_arg0 (by decide) (by decide) (by decide) (by decide) (by decide) (by decide) (by decide) (by decide)),
      (h c _ (mem_uc main_arg1 (by decide))).trans (W10_of m c main_arg1 (by decide) (by decide) (by decide) (by decide) (by decide) (by decide) (by decide) (by decide)),
      (h c _ (mem_uc main_arg2 (by decide))).trans (W10_of m c main_arg2 (by decide) (by decide) (by decide) (by decide) (by decide) (by decide) (by decide) (by decide)),
      (h c _ (mem_uc main_arg3 (by decide))).trans (W10_of m c main_arg3 (by decide) (by decide) (by decide) (by decide) (by decide) (by decide) (by decide) (by decide)),
      (h c _ (mem_uc main_arg4 (by decide))).trans (W10_of m c main_arg4 (by decide) (by decide) (by decide) (by decide) (by decide) (by decide) (by decide) (by decide)),
      (h c _ (mem_uc main_arg5 (by decide))).trans (W10_of m c main_arg5 (by decide) (by decide) (by decide) (by decide) (by decide) (by decide) (by decide) (by decide)),
      (h c _ (mem_uc main_arg6 (by decide))).trans (W10_of m c main_arg6 (by decide) (by decide) (by decide) (by decide) (by decide) (by decide) (by decide) (by decide)),
      (h c _ (mem_uc main_arg7 (by decide))).trans (W10_of m c main_arg7 (by decide) (by decide) (by decide) (by decide) (by decide) (by decide) (by decide) (by decide)),
      (h c _ (mem_uc main_arg8 (by decide))).trans (W10_of m c main_arg8 (by decide) (by decide) (by decide) (by decide) (by decide) (by decide) (by decide) (by decide)),
      (h c _ (mem_uc main_arg9 (by decide))).trans (W10_of m c main_arg9 (by decide) (by decide) (by decide) (by decide) (by decide) (by decide) (by decide) (by decide)),
      (h c _ (mem_uc main_arg10 (by decide))).trans (W10_of m c main_arg10 (by decide) (by decide) (by decide) (by decide) (by decide) (by decide) (by decide) (by decide)),
      (h c _ (mem_uc main_arg11 (by decide))).trans (W10_of m c main_arg11 (by decide) (by decide) (by decide) (by decide) (by decide) (by decide) (by decide) (by decide)),
      (h c _ (mem_uc main_arg12 (by decide))).trans (W10_of m c main_arg12 (by decide) (by decide) (by decide) (by decide) (by decide) (by decide) (by decide) (by decide)),
      (h c _ (mem_uc main_arg13 (by decide))).trans (W10_of m c main_arg13 (by decide) (by decide) (by decide) (by decide) (by decide) (by decide) (by decide) (by decide)),
      (h c _ (mem_uc main_arg14 (by decide))).trans (W10_of m c main_arg14 (by decide) (by decide) (by decide) (by decide) (by decide) (by decide) (by decide) (by decide)),
      (h c _ (mem_uc main_arg15 (by decide))).trans (W10_of m c main_arg15 (by decide) (by decide) (by decide) (by decide) (by decide) (by decide) (by decide) (by decide)),
      (h c _ (mem_uc main_arg16 (by decide))).trans (W10_of m c main_arg16 (by decide) (by decide) (by decide) (by decide) (by decide) (by decide) (by decide) (by decide)),
      (h c _ (mem_uc main_arg17 (by decide))).trans (W10_of m c main_arg17 (by decide) (by decide) (by decide) (by decide) (by decide) (by decide) (by decide) (by decide)),
      (h c _ (mem_uc main_arg18 (by decide))).trans (W10_of m c main_arg18 (by decide) (by decide) (by decide) (by decide) (by decide) (by decide) (by decide) (by decide)),
      (h c _ (mem_uc main_arg19 (by decide))).trans (W10_of m c main_arg19 (by decide) (by decide) (by decide) (by decide) (by decide) (by decide) (by decide) (by decide)),
      (h c _ (mem_uc main_arg20 (by decide))).trans (W10_of m c main_arg20 (by decide) (by decide) (by decide) (by decide) (by decide) (by decide) (by decide) (by decide)),
      (h c _ (mem_uc main_arg21 (by decide))).trans (W10_of m c main_arg21 (by decide) (by decide) (by decide) (by decide) (by decide) (by decide) (by decide) (by decide)),
      (h c _ (mem_uc main_arg22 (by decide))).trans (W10_of m c main_arg22 (by decide) (by decide) (by decide) (by decide) (by decide) (by decide) (by decide) (by decide))⟩) (run m ρ)

end Cert.KernelIdeal.Hand

end
-- ==== Proof.RefTerm.lean ====
/-
  The reference program's value as one closed term of its arguments.

  Every definition below is the composition, in the program's own order and with the program's own
  operations, shape records and side conditions, of a run of consecutive operations of the reference's
  @main (the calls to the outlined functions replaced by their bodies), read at the extended reals:

  • `agg h ei`    — the neighbourhood mean: gather the rows of `h` at the edges' second endpoints
                     (a negative index wrapped once by the row count), add them into the rows named by the
                     first endpoints, and divide each row by max(1, number of edges arriving at it).
  • `refLayer`    — one layer: the three affine maps, the gate, the rectifier and the row normalisation.
  • `refProj`     — the output projection.
  • `refOut`      — the whole program: two layers (the second set of parameters first), then the projection.
-/
import proofs.«160845_j81252191306258_1_alg».proof.ReferenceIdeal
import Idealize.ShloMosaic.PureOps.Ideal

noncomputable section

namespace Cert.ReferenceIdeal.Hand

open Idealize.ShloMosaic Cert.ReferenceIdeal
open Cert.ReferenceIdeal.Facts₀

variable [Facts₀]

/-- An array of node feature rows. -/
abbrev TNode : Type := (⟨S100000x256, .f32⟩ : BufTy).Contents (Elt Ideal)
/-- One value per node, kept as a column. -/
abbrev TCol : Type := (⟨S100000x1, .f32⟩ : BufTy).Contents (Elt Ideal)
/-- A square weight matrix. -/
abbrev TW : Type := (⟨S256x256, .f32⟩ : BufTy).Contents (Elt Ideal)
/-- A bias, scale or shift row. -/
abbrev TB : Type := (⟨S256, .f32⟩ : BufTy).Contents (Elt Ideal)
/-- A scalar. -/
abbrev TS : Type := (⟨S_, .f32⟩ : BufTy).Contents (Elt Ideal)
/-- The edge list: row 0 the receiving nodes, row 1 the sending nodes. -/
abbrev TE : Type := (⟨S2x400000, .i32⟩ : BufTy).Contents (Elt Ideal)

/-- Operations %0 … %21: the mean over each node's incoming edges of the sender's feature row
    (a node with no incoming edge divides its zero sum by 1). -/
def agg (h : TNode) (ei : TE) : TNode :=
  Host.divf (F := Ideal) (φ := .f32)
    (Host.scatterAdd (F := Ideal) (φ := .f32) scatter_S100000x256_S400000x1_S400000x256_1_0_0_1
      (broadcastInDim S100000x256 ![] bcast_S_S100000x256 (constant (F := Ideal) S_ .f32 0x00000000#32))
      (broadcastInDim S400000x1 ![0] bcast_S400000_S400000x1_0
        (shapeCast S400000 (extractStridedSlice S1x400000 ![0, 0] ei slices_S2x400000_S1x400000_0_0) shapeCasts_S1x400000_S400000))
      (Host.gather gather_S100000x256_S400000x1_S400000x256_1_0_n_n_0_1_1256 h
        (broadcastInDim S400000x1 ![0] bcast_S400000_S400000x1_0
          (select
            (cmpi .slt
              (shapeCast S400000 (extractStridedSlice S1x400000 ![1, 0] ei slices_S2x400000_S1x400000_1_0) shapeCasts_S1x400000_S400000)
              (broadcastInDim S400000 ![] bcast_S_S400000 (constantI S_ 32 0#32)))
            (addi
              (shapeCast S400000 (extractStridedSlice S1x400000 ![1, 0] ei slices_S2x400000_S1x400000_1_0) shapeCasts_S1x400000_S400000)
              (broadcastInDim S400000 ![] bcast_S_S400000 (constantI S_ 32 100000#32)))
            (shapeCast S400000 (extractStridedSlice S1x400000 ![1, 0] ei slices_S2x400000_S1x400000_1_0) shapeCasts_S1x400000_S400000)))))
    (broadcastInDim S100000x256 ![0, 1] bcast_S100000x1_S100000x256_0_1
      (broadcastInDim S100000x1 ![0] bcast_S100000_S100000x1_0
        (maximumf (F := Ideal) (φ := .f32)
          (broadcastInDim S100000 ![] bcast_S_S100000 (id (constant (F := Ideal) S_ .f32 0x3F800000#32)))
          (Host.scatterAdd (F := Ideal) (φ := .f32) scatter_S100000_S400000x1_S400000_n_0_0_1
            (broadcastInDim S100000 ![] bcast_S_S100000 (constant (F := Ideal) S_ .f32 0x00000000#32))
            (broadcastInDim S400000x1 ![0] bcast_S400000_S400000x1_0
              (shapeCast S400000 (extractStridedSlice S1x400000 ![1, 0] ei slices_S2x400000_S1x400000_1_0) shapeCasts_S1x400000_S400000))
            (broadcastInDim S400000 ![] bcast_S_S400000 (constant (F := Ideal) S_ .f32 0x3F800000#32))))))

/-- Operations %22 … %25: the gate's weight 1 / (1 + e^(−g)). -/
def sigm (gate : TS) : TS :=
  Host.divf (F := Ideal) (φ := .f32) (constant (F := Ideal) S_ .f32 0x3F800000#32)
    (addf (F := Ideal) (φ := .f32) (constant (F := Ideal) S_ .f32 0x3F800000#32) (Host.exp (F := Ideal) (φ := .f32) (Host.negf (F := Ideal) (φ := .f32) gate)))

/-- A transpose, a dot_general and the bias broadcast and added (%26 … %30, and twice more): `v · wᵀ + b`. -/
def affine (v : TNode) (w : TW) (b : TB) : TNode :=
  addf (F := Ideal) (φ := .f32)
    (Host.dotGeneral (F := Ideal) (φ₁ := .f32) (φ₂ := .f32) dot_S100000x256_S256x256_S100000x256_1_0_0_1_n_n none v
      (transpose S256x256 [1, 0] w transposes_S256x256_S256x256_1_0))
    (broadcastInDim S100000x256 ![0, 1] bcast_S1x256_S100000x256_0_1 (broadcastInDim S1x256 ![1] bcast_S256_S1x256_1 b))

/-- Operations %26 … %47: the gated sum of the three affine maps. -/
def gated (a h x : TNode) (wl : TW) (bl : TB) (w0 : TW) (b0 : TB) (w1 : TW) (b1 : TB) (gate : TS) : TNode :=
  addf (F := Ideal) (φ := .f32)
    (addf (F := Ideal) (φ := .f32) (affine a wl bl)
      (mulf (F := Ideal) (φ := .f32)
        (broadcastInDim S100000x256 ![] bcast_S_S100000x256
          (subf (F := Ideal) (φ := .f32) (constant (F := Ideal) S_ .f32 0x3F800000#32) (sigm gate)))
        (affine h w0 b0)))
    (mulf (F := Ideal) (φ := .f32) (broadcastInDim S100000x256 ![] bcast_S_S100000x256 (sigm gate)) (affine x w1 b1))

/-- Operation %48 (the rectifier's body): the maximum with a zero array. -/
def relu (v : TNode) : TNode :=
  maximumf (F := Ideal) (φ := .f32) v (broadcastInDim S100000x256 ![] bcast_S_S100000x256 (constant (F := Ideal) S_ .f32 0x00000000#32))

/-- A row sum from zero (%49; twice more inside the variance). -/
def rowSum (v : TNode) : (⟨S100000, .f32⟩ : BufTy).Contents (Elt Ideal) :=
  Host.reduceAdd (F := Ideal) (φ := .f32) v (constant (F := Ideal) S_ .f32 0x00000000#32) reducesTo_S100000x256_S100000_d1 h_S_

/-- Operations %49 … %52 (and the variance's first four): the row sum as a column, divided by 256. -/
def rowMean (v : TNode) : TCol :=
  Host.divf (F := Ideal) (φ := .f32) (broadcastInDim S100000x1 ![0] bcast_S100000_S100000x1_0 (rowSum v))
    (broadcastInDim S100000x1 ![] bcast_S_S100000x1 (constant (F := Ideal) S_ .f32 0x43800000#32))

/-- The variance's divisor as printed: 256 minus the degrees-of-freedom correction 0, converted from an integer. -/
def ddofDen : TS :=
  subf (F := Ideal) (φ := .f32) (constant (F := Ideal) S_ .f32 0x43800000#32) (sitofp (F := Ideal) .f32 (constantI S_ 32 0#32))

/-- Operation %53 (the variance's body, its selection's body inside it): the row sum of the squared
    deviations from the row mean over the divisor, selected against a constant word where the divisor
    is not positive. -/
def rowVar (v : TNode) : TCol :=
  select
    (broadcastInDim S100000x1 ![] bcast_S_S100000x1
      (cmpf (F := Ideal) (φ := .f32) .ogt ddofDen (constant (F := Ideal) S_ .f32 0x00000000#32)))
    (Host.divf (F := Ideal) (φ := .f32)
      (broadcastInDim S100000x1 ![0] bcast_S100000_S100000x1_0
        (rowSum
          (mulf (F := Ideal) (φ := .f32)
            (subf (F := Ideal) (φ := .f32) v (broadcastInDim S100000x256 ![0, 1] bcast_S100000x1_S100000x256_0_1 (rowMean v)))
            (subf (F := Ideal) (φ := .f32) v (broadcastInDim S100000x256 ![0, 1] bcast_S100000x1_S100000x256_0_1 (rowMean v))))))
      (broadcastInDim S100000x1 ![] bcast_S_S100000x1 ddofDen))
    (broadcastInDim S100000x1 ![] bcast_S_S100000x1 (id (constant (F := Ideal) S_ .f32 0x7FC00000#32)))

/-- Operations %49 … %66: centre each row, divide by the square root of its variance plus ε, scale and shift. -/
def normed (r : TNode) (lns lnb : TB) : TNode :=
  addf (F := Ideal) (φ := .f32)
    (mulf (F := Ideal) (φ := .f32)
      (Host.divf (F := Ideal) (φ := .f32)
        (subf (F := Ideal) (φ := .f32) r (broadcastInDim S100000x256 ![0, 1] bcast_S100000x1_S100000x256_0_1 (rowMean r)))
        (broadcastInDim S100000x256 ![0, 1] bcast_S100000x1_S100000x256_0_1
          (Host.sqrt (F := Ideal) (φ := .f32)
            (addf (F := Ideal) (φ := .f32) (rowVar r)
              (broadcastInDim S100000x1 ![] bcast_S_S100000x1 (constant (F := Ideal) S_ .f32 0x3727C5AC#32))))))
      (broadcastInDim S100000x256 ![0, 1] bcast_S1x256_S100000x256_0_1 (broadcastInDim S1x256 ![1] bcast_S256_S1x256_1 lns)))
    (broadcastInDim S100000x256 ![0, 1] bcast_S1x256_S100000x256_0_1 (broadcastInDim S1x256 ![1] bcast_S256_S1x256_1 lnb))

/-- Operations %22 … %66: one layer, from the aggregated rows `a`, the layer's input rows `h` and the
    network's input rows `x`. -/
def refLayer (a h x : TNode) (wl : TW) (bl : TB) (w0 : TW) (b0 : TB) (w1 : TW) (b1 : TB) (gate : TS) (lns lnb : TB) : TNode :=
  normed (relu (gated a h x wl bl w0 b0 w1 b1 gate)) lns lnb

/-- Operations %134 … %138: the output projection `h · Woutᵀ + bout`. -/
def refProj (h : TNode) (wout : (⟨S128x256, .f32⟩ : BufTy).Contents (Elt Ideal)) (bout : (⟨S128, .f32⟩ : BufTy).Contents (Elt Ideal)) :
    (⟨S100000x128, .f32⟩ : BufTy).Contents (Elt Ideal) :=
  addf (F := Ideal) (φ := .f32)
    (Host.dotGeneral (F := Ideal) (φ₁ := .f32) (φ₂ := .f32) dot_S100000x256_S256x128_S100000x128_1_0_0_1_n_n none h
      (transpose S256x128 [1, 0] wout transposes_S128x256_S256x128_1_0))
    (broadcastInDim S100000x128 ![0, 1] bcast_S1x128_S100000x128_0_1 (broadcastInDim S1x128 ![1] bcast_S128_S1x128_1 bout))

/-- The whole program of its 23 arguments, in @main's argument order: the layer with the second parameter
    set runs first, on the input rows; the layer with the first parameter set runs on its output. -/
def refOut (x : TNode) (e0 e1 : TE)
    (wl0 : TW) (bl0 : TB) (w00 : TW) (b00 : TB) (w10 : TW) (b10 : TB) (gate0 : TS) (lns0 lnb0 : TB)
    (wl1 : TW) (bl1 : TB) (w01 : TW) (b01 : TB) (w11 : TW) (b11 : TB) (gate1 : TS) (lns1 lnb1 : TB)
    (wout : (⟨S128x256, .f32⟩ : BufTy).Contents (Elt Ideal)) (bout : (⟨S128, .f32⟩ : BufTy).Contents (Elt Ideal)) :
    (⟨S100000x128, .f32⟩ : BufTy).Contents (Elt Ideal) :=
  refProj
    (refLayer (agg (refLayer (agg x e1) x x wl1 bl1 w01 b01 w11 b11 gate1 lns1 lnb1) e0)
      (refLayer (agg x e1) x x wl1 bl1 w01 b01 w11 b11 gate1 lns1 lnb1) x
      wl0 bl0 w00 b00 w10 b10 gate0 lns0 lnb0)
    wout bout

end Cert.ReferenceIdeal.Hand

end
-- ==== Proof.KHost.lean ====
/-
  What the kernel regions are entered with, at the extended reals. Before each layer's kernel the host computes the
  neighbourhood mean of the current features (a gather, two scatter-adds and a division) and reshapes the bias,
  scale and shift rows and the gate to the two-dimensional forms the kernel's windows read; before the projection
  kernel it reshapes the output bias; nothing else touches the argument arrays. So every window of every region
  holds a named function of the program's arguments and of the earlier regions' results.

  Each stretch of host operations is first read from ARBITRARY contents (the buffer it ends in is the composed
  function of the contents at the buffers it reads; a reshape that adds a leading unit axis reads, at (0, j), the
  operand at j), then at the contents each region is actually entered from.
-/
import proofs.«160845_j81252191306258_1_alg».proof.Proof.KRun
import proofs.«160845_j81252191306258_1_alg».proof.Proof.RefTerm
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

section Agg
open Cert.KernelIdeal Idealize.ShloMosaic
open Cert.KernelIdeal.Facts₀
variable [Facts₀]

/-- An array of node feature rows; the edge list. -/
abbrev TNodeK : Type := (⟨S100000x256, .f32⟩ : BufTy).Contents (Elt Ideal)
abbrev TEK : Type := (⟨S2x400000, .i32⟩ : BufTy).Contents (Elt Ideal)

/-- The mean over each node's incoming edges of the sender's feature row (a node with no incoming edge divides
    its zero sum by 1): the host operations before a layer's kernel, composed in the program's order. -/
def aggK (h : TNodeK) (ei : TEK) : TNodeK :=
  Host.divf (F := Ideal) (φ := .f32)
    (Host.scatterAdd (F := Ideal) (φ := .f32) scatter_S100000x256_S400000x1_S400000x256_1_0_0_1
      (broadcastInDim S100000x256 ![] bcast_S_S100000x256 (constant (F := Ideal) S_ .f32 0x00000000#32))
      (broadcastInDim S400000x1 ![0] bcast_S400000_S400000x1_0
        (shapeCast S400000 (extractStridedSlice S1x400000 ![0, 0] ei slices_S2x400000_S1x400000_0_0) shapeCasts_S1x400000_S400000))
      (Host.gather gather_S100000x256_S400000x1_S400000x256_1_0_n_n_0_1_1256 h
        (broadcastInDim S400000x1 ![0] bcast_S400000_S400000x1_0
          (select
            (cmpi .slt
              (shapeCast S400000 (extractStridedSlice S1x400000 ![1, 0] ei slices_S2x400000_S1x400000_1_0) shapeCasts_S1x400000_S400000)
              (broadcastInDim S400000 ![] bcast_S_S400000 (constantI S_ 32 0#32)))
            (addi
              (shapeCast S400000 (extractStridedSlice S1x400000 ![1, 0] ei slices_S2x400000_S1x400000_1_0) shapeCasts_S1x400000_S400000)
              (broadcastInDim S400000 ![] bcast_S_S400000 (constantI S_ 32 100000#32)))
            (shapeCast S400000 (extractStridedSlice S1x400000 ![1, 0] ei slices_S2x400000_S1x400000_1_0) shapeCasts_S1x400000_S400000)))))
    (broadcastInDim S100000x256 ![0, 1] bcast_S100000x1_S100000x256_0_1
      (broadcastInDim S100000x1 ![0] bcast_S100000_S100000x1_0
        (maximumf (F := Ideal) (φ := .f32)
          (broadcastInDim S100000 ![] bcast_S_S100000 (id (constant (F := Ideal) S_ .f32 0x3F800000#32)))
          (Host.scatterAdd (F := Ideal) (φ := .f32) scatter_S100000_S400000x1_S400000_n_0_0_1
            (broadcastInDim S100000 ![] bcast_S_S100000 (constant (F := Ideal) S_ .f32 0x00000000#32))
            (broadcastInDim S400000x1 ![0] bcast_S400000_S400000x1_0
              (shapeCast S400000 (extractStridedSlice S1x400000 ![1, 0] ei slices_S2x400000_S1x400000_1_0) shapeCasts_S1x400000_S400000))
            (broadcastInDim S400000 ![] bcast_S_S400000 (constant (F := Ideal) S_ .f32 0x3F800000#32))))))

end Agg

open Cert.KernelIdeal Cert.KernelIdeal.Gen
open Idealize.ShloMosaic Idealize.ShloMosaic.TcCoe Idealize.ShloMosaic.ValueIdx Idealize.ShloMosaic.StableHlo
open Idealize.SL.Sem

/-- The contents of the device's buffers, at the extended reals. -/
abbrev VlK : Type := Valuation τ sig (Elt Ideal)

/-! ## The host operations before region 0, from arbitrary contents -/

/-- A buffer none of the three stretches writes keeps its contents through them. -/
theorem host0_keep (V : VlK) (r : Ref sig .tc) (h0 : r ∉ hostOps0_W) (h1 : r ∉ hostOps0_1_W) (h2 : r ∉ hostOps0_2_W) :
    StableHlo.after hostOps0_2 (StableHlo.after hostOps0_1 (StableHlo.after hostOps0 V)) (Proc.devRef .tc r : DevRef τ sig) = V (Proc.devRef .tc r : DevRef τ sig) :=
  (StableHlo.after_of_writes_sub hostOps0_2 _ hostOps0_2_writes h2).trans
    ((StableHlo.after_of_writes_sub hostOps0_1 _ hostOps0_1_writes h1).trans
      (StableHlo.after_of_writes_sub hostOps0 _ hostOps0_writes h0))

set_option maxHeartbeats 4000000 in
/-- The neighbourhood mean of the rows in `main_arg0` along the edges in `main_arg2`. -/
theorem host0_agg (V : VlK) :
    StableHlo.after hostOps0_2 (StableHlo.after hostOps0_1 (StableHlo.after hostOps0 V)) (Proc.devRef .tc main_v21 : DevRef τ sig) = aggK (V (Proc.devRef .tc main_arg0 : DevRef τ sig)) (V (Proc.devRef .tc main_arg2 : DevRef τ sig)) := by
  simp only [hostOps0, hostOps0_1, hostOps0_2]
  after_results_simp
  rfl

/-- The row `main_arg13` viewed as one row of a matrix. -/
theorem host0_main_v22 (V : VlK) (j : Fin 256) :
    (StableHlo.after hostOps0_2 (StableHlo.after hostOps0_1 (StableHlo.after hostOps0 V)) (Proc.devRef .tc main_v22 : DevRef τ sig) : (⟨S1x256, .f32⟩ : BufTy).Contents (Elt Ideal)) (ix2 0 j)
      = (V (Proc.devRef .tc main_arg13 : DevRef τ sig) : (⟨S256, .f32⟩ : BufTy).Contents (Elt Ideal)) (ix1 j) := by
  have h : (StableHlo.after hostOps0_2 (StableHlo.after hostOps0_1 (StableHlo.after hostOps0 V)) (Proc.devRef .tc main_v22 : DevRef τ sig) : (⟨S1x256, .f32⟩ : BufTy).Contents (Elt Ideal))
      = shapeCast S1x256 (V (Proc.devRef .tc main_arg13 : DevRef τ sig) : (⟨S256, .f32⟩ : BufTy).Contents (Elt Ideal)) shapeCasts_S256_S1x256 := by
    simp only [hostOps0, hostOps0_1, hostOps0_2]
    after_results_simp
    rfl
  exact (congrFun h (ix2 0 j)).trans (shapeCast_a_1a_apply _ shapeCasts_S256_S1x256 0 j)

/-- The row `main_arg15` viewed as one row of a matrix. -/
theorem host0_main_v23 (V : VlK) (j : Fin 256) :
    (StableHlo.after hostOps0_2 (StableHlo.after hostOps0_1 (StableHlo.after hostOps0 V)) (Proc.devRef .tc main_v23 : DevRef τ sig) : (⟨S1x256, .f32⟩ : BufTy).Contents (Elt Ideal)) (ix2 0 j)
      = (V (Proc.devRef .tc main_arg15 : DevRef τ sig) : (⟨S256, .f32⟩ : BufTy).Contents (Elt Ideal)) (ix1 j) := by
  have h : (StableHlo.after hostOps0_2 (StableHlo.after hostOps0_1 (StableHlo.after hostOps0 V)) (Proc.devRef .tc main_v23 : DevRef τ sig) : (⟨S1x256, .f32⟩ : BufTy).Contents (Elt Ideal))
      = shapeCast S1x256 (V (Proc.devRef .tc main_arg15 : DevRef τ sig) : (⟨S256, .f32⟩ : BufTy).Contents (Elt Ideal)) shapeCasts_S256_S1x256 := by
    simp only [hostOps0, hostOps0_1, hostOps0_2]
    after_results_simp
    rfl
  exact (congrFun h (ix2 0 j)).trans (shapeCast_a_1a_apply _ shapeCasts_S256_S1x256 0 j)

/-- The row `main_arg17` viewed as one row of a matrix. -/
theorem host0_main_v24 (V : VlK) (j : Fin 256) :
    (StableHlo.after hostOps0_2 (StableHlo.after hostOps0_1 (StableHlo.after hostOps0 V)) (Proc.devRef .tc main_v24 : DevRef τ sig) : (⟨S1x256, .f32⟩ : BufTy).Contents (Elt Ideal)) (ix2 0 j)
      = (V (Proc.devRef .tc main_arg17 : DevRef τ sig) : (⟨S256, .f32⟩ : BufTy).Contents (Elt Ideal)) (ix1 j) := by
  have h : (StableHlo.after hostOps0_2 (StableHlo.after hostOps0_1 (StableHlo.after hostOps0 V)) (Proc.devRef .tc main_v24 : DevRef τ sig) : (⟨S1x256, .f32⟩ : BufTy).Contents (Elt Ideal))
      = shapeCast S1x256 (V (Proc.devRef .tc main_arg17 : DevRef τ sig) : (⟨S256, .f32⟩ : BufTy).Contents (Elt Ideal)) shapeCasts_S256_S1x256 := by
    simp only [hostOps0, hostOps0_1, hostOps0_2]
    after_results_simp
    rfl
  exact (congrFun h (ix2 0 j)).trans (shapeCast_a_1a_apply _ shapeCasts_S256_S1x256 0 j)

/-- The row `main_arg19` viewed as one row of a matrix. -/
theorem host0_main_v25 (V : VlK) (j : Fin 256) :
    (StableHlo.after hostOps0_2 (StableHlo.after hostOps0_1 (StableHlo.after hostOps0 V)) (Proc.devRef .tc main_v25 : DevRef τ sig) : (⟨S1x256, .f32⟩ : BufTy).Contents (Elt Ideal)) (ix2 0 j)
      = (V (Proc.devRef .tc main_arg19 : DevRef τ sig) : (⟨S256, .f32⟩ : BufTy).Contents (Elt Ideal)) (ix1 j) := by
  have h : (StableHlo.after hostOps0_2 (StableHlo.after hostOps0_1 (StableHlo.after hostOps0 V)) (Proc.devRef .tc main_v25 : DevRef τ sig) : (⟨S1x256, .f32⟩ : BufTy).Contents (Elt Ideal))
      = shapeCast S1x256 (V (Proc.devRef .tc main_arg19 : DevRef τ sig) : (⟨S256, .f32⟩ : BufTy).Contents (Elt Ideal)) shapeCasts_S256_S1x256 := by
    simp only [hostOps0, hostOps0_1, hostOps0_2]
    after_results_simp
    rfl
  exact (congrFun h (ix2 0 j)).trans (shapeCast_a_1a_apply _ shapeCasts_S256_S1x256 0 j)

/-- The row `main_arg20` viewed as one row of a matrix. -/
theorem host0_main_v26 (V : VlK) (j : Fin 256) :
    (StableHlo.after hostOps0_2 (StableHlo.after hostOps0_1 (StableHlo.after hostOps0 V)) (Proc.devRef .tc main_v26 : DevRef τ sig) : (⟨S1x256, .f32⟩ : BufTy).Contents (Elt Ideal)) (ix2 0 j)
      = (V (Proc.devRef .tc main_arg20 : DevRef τ sig) : (⟨S256, .f32⟩ : BufTy).Contents (Elt Ideal)) (ix1 j) := by
  have h : (StableHlo.after hostOps0_2 (StableHlo.after hostOps0_1 (StableHlo.after hostOps0 V)) (Proc.devRef .tc main_v26 : DevRef τ sig) : (⟨S1x256, .f32⟩ : BufTy).Contents (Elt Ideal))
      = shapeCast S1x256 (V (Proc.devRef .tc main_arg20 : DevRef τ sig) : (⟨S256, .f32⟩ : BufTy).Contents (Elt Ideal)) shapeCasts_S256_S1x256 := by
    simp only [hostOps0, hostOps0_1, hostOps0_2]
    after_results_simp
    rfl
  exact (congrFun h (ix2 0 j)).trans (shapeCast_a_1a_apply _ shapeCasts_S256_S1x256 0 j)

/-- The scalar `main_arg18` viewed as a one-by-one matrix. -/
theorem host0_main_v27 (V : VlK) :
    (StableHlo.after hostOps0_2 (StableHlo.after hostOps0_1 (StableHlo.after hostOps0 V)) (Proc.devRef .tc main_v27 : DevRef τ sig) : (⟨S1x1, .f32⟩ : BufTy).Contents (Elt Ideal)) (ix2 0 0)
      = (V (Proc.devRef .tc main_arg18 : DevRef τ sig) : (⟨S_, .f32⟩ : BufTy).Contents (Elt Ideal)) ix0 := by
  have h : (StableHlo.after hostOps0_2 (StableHlo.after hostOps0_1 (StableHlo.after hostOps0 V)) (Proc.devRef .tc main_v27 : DevRef τ sig) : (⟨S1x1, .f32⟩ : BufTy).Contents (Elt Ideal))
      = shapeCast S1x1 (V (Proc.devRef .tc main_arg18 : DevRef τ sig) : (⟨S_, .f32⟩ : BufTy).Contents (Elt Ideal)) shapeCasts_S_S1x1 := by
    simp only [hostOps0, hostOps0_1, hostOps0_2]
    after_results_simp
    rfl
  refine (congrFun h (ix2 0 0)).trans ?_
  unfold shapeCast
  exact congrArg _ (eq_ix0 _)

/-! ## The host operations before region 1, from arbitrary contents -/

/-- A buffer none of the three stretches writes keeps its contents through them. -/
theorem host1_keep (V : VlK) (r : Ref sig .tc) (h0 : r ∉ hostOps1_W) (h1 : r ∉ hostOps1_1_W) (h2 : r ∉ hostOps1_2_W) :
    StableHlo.after hostOps1_2 (StableHlo.after hostOps1_1 (StableHlo.after hostOps1 V)) (Proc.devRef .tc r : DevRef τ sig) = V (Proc.devRef .tc r : DevRef τ sig) :=
  (StableHlo.after_of_writes_sub hostOps1_2 _ hostOps1_2_writes h2).trans
    ((StableHlo.after_of_writes_sub hostOps1_1 _ hostOps1_1_writes h1).trans
      (StableHlo.after_of_writes_sub hostOps1 _ hostOps1_writes h0))

set_option maxHeartbeats 4000000 in
/-- The neighbourhood mean of the rows in `main_v28` along the edges in `main_arg1`. -/
theorem host1_agg (V : VlK) :
    StableHlo.after hostOps1_2 (StableHlo.after hostOps1_1 (StableHlo.after hostOps1 V)) (Proc.devRef .tc main_v50 : DevRef τ sig) = aggK (V (Proc.devRef .tc main_v28 : DevRef τ sig)) (V (Proc.devRef .tc main_arg1 : DevRef τ sig)) := by
  simp only [hostOps1, hostOps1_1, hostOps1_2]
  after_results_simp
  rfl

/-- The row `main_arg4` viewed as one row of a matrix. -/
theorem host1_main_v51 (V : VlK) (j : Fin 256) :
    (StableHlo.after hostOps1_2 (StableHlo.after hostOps1_1 (StableHlo.after hostOps1 V)) (Proc.devRef .tc main_v51 : DevRef τ sig) : (⟨S1x256, .f32⟩ : BufTy).Contents (Elt Ideal)) (ix2 0 j)
      = (V (Proc.devRef .tc main_arg4 : DevRef τ sig) : (⟨S256, .f32⟩ : BufTy).Contents (Elt Ideal)) (ix1 j) := by
  have h : (StableHlo.after hostOps1_2 (StableHlo.after hostOps1_1 (StableHlo.after hostOps1 V)) (Proc.devRef .tc main_v51 : DevRef τ sig) : (⟨S1x256, .f32⟩ : BufTy).Contents (Elt Ideal))
      = shapeCast S1x256 (V (Proc.devRef .tc main_arg4 : DevRef τ sig) : (⟨S256, .f32⟩ : BufTy).Contents (Elt Ideal)) shapeCasts_S256_S1x256 := by
    simp only [hostOps1, hostOps1_1, hostOps1_2]
    after_results_simp
    rfl
  exact (congrFun h (ix2 0 j)).trans (shapeCast_a_1a_apply _ shapeCasts_S256_S1x256 0 j)

/-- The row `main_arg6` viewed as one row of a matrix. -/
theorem host1_main_v52 (V : VlK) (j : Fin 256) :
    (StableHlo.after hostOps1_2 (StableHlo.after hostOps1_1 (StableHlo.after hostOps1 V)) (Proc.devRef .tc main_v52 : DevRef τ sig) : (⟨S1x256, .f32⟩ : BufTy).Contents (Elt Ideal)) (ix2 0 j)
      = (V (Proc.devRef .tc main_arg6 : DevRef τ sig) : (⟨S256, .f32⟩ : BufTy).Contents (Elt Ideal)) (ix1 j) := by
  have h : (StableHlo.after hostOps1_2 (StableHlo.after hostOps1_1 (StableHlo.after hostOps1 V)) (Proc.devRef .tc main_v52 : DevRef τ sig) : (⟨S1x256, .f32⟩ : BufTy).Contents (Elt Ideal))
      = shapeCast S1x256 (V (Proc.devRef .tc main_arg6 : DevRef τ sig) : (⟨S256, .f32⟩ : BufTy).Contents (Elt Ideal)) shapeCasts_S256_S1x256 := by
    simp only [hostOps1, hostOps1_1, hostOps1_2]
    after_results_simp
    rfl
  exact (congrFun h (ix2 0 j)).trans (shapeCast_a_1a_apply _ shapeCasts_S256_S1x256 0 j)

/-- The row `main_arg8` viewed as one row of a matrix. -/
theorem host1_main_v53 (V : VlK) (j : Fin 256) :
    (StableHlo.after hostOps1_2 (StableHlo.after hostOps1_1 (StableHlo.after hostOps1 V)) (Proc.devRef .tc main_v53 : DevRef τ sig) : (⟨S1x256, .f32⟩ : BufTy).Contents (Elt Ideal)) (ix2 0 j)
      = (V (Proc.devRef .tc main_arg8 : DevRef τ sig) : (⟨S256, .f32⟩ : BufTy).Contents (Elt Ideal)) (ix1 j) := by
  have h : (StableHlo.after hostOps1_2 (StableHlo.after hostOps1_1 (StableHlo.after hostOps1 V)) (Proc.devRef .tc main_v53 : DevRef τ sig) : (⟨S1x256, .f32⟩ : BufTy).Contents (Elt Ideal))
      = shapeCast S1x256 (V (Proc.devRef .tc main_arg8 : DevRef τ sig) : (⟨S256, .f32⟩ : BufTy).Contents (Elt Ideal)) shapeCasts_S256_S1x256 := by
    simp only [hostOps1, hostOps1_1, hostOps1_2]
    after_results_simp
    rfl
  exact (congrFun h (ix2 0 j)).trans (shapeCast_a_1a_apply _ shapeCasts_S256_S1x256 0 j)

/-- The row `main_arg10` viewed as one row of a matrix. -/
theorem host1_main_v54 (V : VlK) (j : Fin 256) :
    (StableHlo.after hostOps1_2 (StableHlo.after hostOps1_1 (StableHlo.after hostOps1 V)) (Proc.devRef .tc main_v54 : DevRef τ sig) : (⟨S1x256, .f32⟩ : BufTy).Contents (Elt Ideal)) (ix2 0 j)
      = (V (Proc.devRef .tc main_arg10 : DevRef τ sig) : (⟨S256, .f32⟩ : BufTy).Contents (Elt Ideal)) (ix1 j) := by
  have h : (StableHlo.after hostOps1_2 (StableHlo.after hostOps1_1 (StableHlo.after hostOps1 V)) (Proc.devRef .tc main_v54 : DevRef τ sig) : (⟨S1x256, .f32⟩ : BufTy).Contents (Elt Ideal))
      = shapeCast S1x256 (V (Proc.devRef .tc main_arg10 : DevRef τ sig) : (⟨S256, .f32⟩ : BufTy).Contents (Elt Ideal)) shapeCasts_S256_S1x256 := by
    simp only [hostOps1, hostOps1_1, hostOps1_2]
    after_results_simp
    rfl
  exact (congrFun h (ix2 0 j)).trans (shapeCast_a_1a_apply _ shapeCasts_S256_S1x256 0 j)

/-- The row `main_arg11` viewed as one row of a matrix. -/
theorem host1_main_v55 (V : VlK) (j : Fin 256) :
    (StableHlo.after hostOps1_2 (StableHlo.after hostOps1_1 (StableHlo.after hostOps1 V)) (Proc.devRef .tc main_v55 : DevRef τ sig) : (⟨S1x256, .f32⟩ : BufTy).Contents (Elt Ideal)) (ix2 0 j)
      = (V (Proc.devRef .tc main_arg11 : DevRef τ sig) : (⟨S256, .f32⟩ : BufTy).Contents (Elt Ideal)) (ix1 j) := by
  have h : (StableHlo.after hostOps1_2 (StableHlo.after hostOps1_1 (StableHlo.after hostOps1 V)) (Proc.devRef .tc main_v55 : DevRef τ sig) : (⟨S1x256, .f32⟩ : BufTy).Contents (Elt Ideal))
      = shapeCast S1x256 (V (Proc.devRef .tc main_arg11 : DevRef τ sig) : (⟨S256, .f32⟩ : BufTy).Contents (Elt Ideal)) shapeCasts_S256_S1x256 := by
    simp only [hostOps1, hostOps1_1, hostOps1_2]
    after_results_simp
    rfl
  exact (congrFun h (ix2 0 j)).trans (shapeCast_a_1a_apply _ shapeCasts_S256_S1x256 0 j)

/-- The scalar `main_arg9` viewed as a one-by-one matrix. -/
theorem host1_main_v56 (V : VlK) :
    (StableHlo.after hostOps1_2 (StableHlo.after hostOps1_1 (StableHlo.after hostOps1 V)) (Proc.devRef .tc main_v56 : DevRef τ sig) : (⟨S1x1, .f32⟩ : BufTy).Contents (Elt Ideal)) (ix2 0 0)
      = (V (Proc.devRef .tc main_arg9 : DevRef τ sig) : (⟨S_, .f32⟩ : BufTy).Contents (Elt Ideal)) ix0 := by
  have h : (StableHlo.after hostOps1_2 (StableHlo.after hostOps1_1 (StableHlo.after hostOps1 V)) (Proc.devRef .tc main_v56 : DevRef τ sig) : (⟨S1x1, .f32⟩ : BufTy).Contents (Elt Ideal))
      = shapeCast S1x1 (V (Proc.devRef .tc main_arg9 : DevRef τ sig) : (⟨S_, .f32⟩ : BufTy).Contents (Elt Ideal)) shapeCasts_S_S1x1 := by
    simp only [hostOps1, hostOps1_1, hostOps1_2]
    after_results_simp
    rfl
  refine (congrFun h (ix2 0 0)).trans ?_
  unfold shapeCast
  exact congrArg _ (eq_ix0 _)

/-! ## The host operation before region 2, from arbitrary contents -/

/-- The output bias viewed as one row of a matrix. -/
theorem host2_main_v58 (V : VlK) (j : Fin 128) :
    (StableHlo.after hostOps2 V (Proc.devRef .tc main_v58 : DevRef τ sig) : (⟨S1x128, .f32⟩ : BufTy).Contents (Elt Ideal)) (ix2 0 j)
      = (V (Proc.devRef .tc main_arg22 : DevRef τ sig) : (⟨S128, .f32⟩ : BufTy).Contents (Elt Ideal)) (ix1 j) := by
  have h : (StableHlo.after hostOps2 V (Proc.devRef .tc main_v58 : DevRef τ sig) : (⟨S1x128, .f32⟩ : BufTy).Contents (Elt Ideal))
      = shapeCast S1x128 (V (Proc.devRef .tc main_arg22 : DevRef τ sig) : (⟨S128, .f32⟩ : BufTy).Contents (Elt Ideal)) shapeCasts_S128_S1x128 := by
    simp only [hostOps2]
    after_results_simp
    rfl
  exact (congrFun h (ix2 0 j)).trans (shapeCast_a_1a_apply _ shapeCasts_S128_S1x128 0 j)

variable (m : (ℓ : Loc nD τ sig) → Buf (Elt Ideal) ℓ) (c : Dev nD)

/-- The program's argument `r` as launched. -/
abbrev arg (r : Ref sig .tc) : Buf (Elt Ideal) ((c : Thread nD τ).loc r) := m ((c : Thread nD τ).loc r)

/-! ## What region 0 is entered with -/

/-- A buffer the host operations before region 0 do not write is as launched. -/
theorem E0_of (r : Ref sig .tc) (h0 : r ∉ hostOps0_W) (h1 : r ∉ hostOps0_1_W) (h2 : r ∉ hostOps0_2_W) :
    E0 m c r = arg m c r :=
  host0_keep (Gen.V0 m c) r h0 h1 h2

/-- The aggregated rows: the neighbourhood mean of the input rows along the second edge list. -/
theorem E0_v21 : E0 m c main_v21 = aggK (arg m c main_arg0) (arg m c main_arg2) :=
  host0_agg (Gen.V0 m c)

theorem E0_arg0 : E0 m c main_arg0 = arg m c main_arg0 := E0_of m c main_arg0 (by decide) (by decide) (by decide)
theorem E0_arg12 : E0 m c main_arg12 = arg m c main_arg12 := E0_of m c main_arg12 (by decide) (by decide) (by decide)
theorem E0_arg14 : E0 m c main_arg14 = arg m c main_arg14 := E0_of m c main_arg14 (by decide) (by decide) (by decide)
theorem E0_arg16 : E0 m c main_arg16 = arg m c main_arg16 := E0_of m c main_arg16 (by decide) (by decide) (by decide)

theorem E0_v22 (j : Fin 256) : E0 m c main_v22 (ix2 0 j) = arg m c main_arg13 (ix1 j) := host0_main_v22 (Gen.V0 m c) j
theorem E0_v23 (j : Fin 256) : E0 m c main_v23 (ix2 0 j) = arg m c main_arg15 (ix1 j) := host0_main_v23 (Gen.V0 m c) j
theorem E0_v24 (j : Fin 256) : E0 m c main_v24 (ix2 0 j) = arg m c main_arg17 (ix1 j) := host0_main_v24 (Gen.V0 m c) j
theorem E0_v25 (j : Fin 256) : E0 m c main_v25 (ix2 0 j) = arg m c main_arg19 (ix1 j) := host0_main_v25 (Gen.V0 m c) j
theorem E0_v26 (j : Fin 256) : E0 m c main_v26 (ix2 0 j) = arg m c main_arg20 (ix1 j) := host0_main_v26 (Gen.V0 m c) j
theorem E0_v27 : E0 m c main_v27 (ix2 0 0) = arg m c main_arg18 ix0 := host0_main_v27 (Gen.V0 m c)

/-! ## What region 1 is entered with -/

/-- After region 0, a buffer that is not its result array and that the earlier host operations do not write is as launched. -/
theorem W4_of (r : Ref sig .tc) (hne : r ≠ main_v28) (h0 : r ∉ hostOps0_W) (h1 : r ∉ hostOps0_1_W) (h2 : r ∉ hostOps0_2_W) :
    W4 m c (Proc.devRef .tc r : DevRef τ sig) = arg m c r := by
  unfold W4
  rw [Function.update_of_ne (StableHlo.devRef_ne_of_ne hne)]
  exact host0_keep (Gen.V0 m c) r h0 h1 h2

/-- After region 0 its result array holds what the grid's write-backs leave. -/
theorem W4_v28 : W4 m c (Proc.devRef .tc main_v28 : DevRef τ sig) = (dat0 (E0 m) c).arrAt 12 cfg0.N := by
  unfold W4
  rw [Function.update_self]

/-- A buffer that no item before region 1 writes is as launched. -/
theorem E1_of (r : Ref sig .tc) (hne : r ≠ main_v28) (h0 : r ∉ hostOps0_W) (h1 : r ∉ hostOps0_1_W) (h2 : r ∉ hostOps0_2_W)
    (h4 : r ∉ hostOps1_W) (h5 : r ∉ hostOps1_1_W) (h6 : r ∉ hostOps1_2_W) :
    E1 m c r = arg m c r :=
  (host1_keep (W4 m c) r h4 h5 h6).trans (W4_of m c r hne h0 h1 h2)

/-- The first layer's output reaches region 1 as region 0 left it. -/
theorem E1_v28 : E1 m c main_v28 = (dat0 (E0 m) c).arrAt 12 cfg0.N :=
  (host1_keep (W4 m c) main_v28 (by decide) (by decide) (by decide)).trans (W4_v28 m c)

/-- The aggregated rows: the neighbourhood mean of the first layer's output along the first edge list. -/
theorem E1_v50 : E1 m c main_v50 = aggK (W4 m c (Proc.devRef .tc main_v28 : DevRef τ sig)) (arg m c main_arg1) :=
  (host1_agg (W4 m c)).trans (by rw [W4_of m c main_arg1 (by decide) (by decide) (by decide) (by decide)])

theorem E1_arg0 : E1 m c main_arg0 = arg m c main_arg0 := E1_of m c main_arg0 (by decide) (by decide) (by decide) (by decide) (by decide) (by decide) (by decide)
theorem E1_arg3 : E1 m c main_arg3 = arg m c main_arg3 := E1_of m c main_arg3 (by decide) (by decide) (by decide) (by decide) (by decide) (by decide) (by decide)
theorem E1_arg5 : E1 m c main_arg5 = arg m c main_arg5 := E1_of m c main_arg5 (by decide) (by decide) (by decide) (by decide) (by decide) (by decide) (by decide)
theorem E1_arg7 : E1 m c main_arg7 = arg m c main_arg7 := E1_of m c main_arg7 (by decide) (by decide) (by decide) (by decide) (by decide) (by decide) (by decide)

theorem E1_v51 (j : Fin 256) : E1 m c main_v51 (ix2 0 j) = arg m c main_arg4 (ix1 j) :=
  (host1_main_v51 (W4 m c) j).trans (by rw [W4_of m c main_arg4 (by decide) (by decide) (by decide) (by decide)])
theorem E1_v52 (j : Fin 256) : E1 m c main_v52 (ix2 0 j) = arg m c main_arg6 (ix1 j) :=
  (host1_main_v52 (W4 m c) j).trans (by rw [W4_of m c main_arg6 (by decide) (by decide) (by decide) (by decide)])
theorem E1_v53 (j : Fin 256) : E1 m c main_v53 (ix2 0 j) = arg m c main_arg8 (ix1 j) :=
  (host1_main_v53 (W4 m c) j).trans (by rw [W4_of m c main_arg8 (by decide) (by decide) (by decide) (by decide)])
theorem E1_v54 (j : Fin 256) : E1 m c main_v54 (ix2 0 j) = arg m c main_arg10 (ix1 j) :=
  (host1_main_v54 (W4 m c) j).trans (by rw [W4_of m c main_arg10 (by decide) (by decide) (by decide) (by decide)])
theorem E1_v55 (j : Fin 256) : E1 m c main_v55 (ix2 0 j) = arg m c main_arg11 (ix1 j) :=
  (host1_main_v55 (W4 m c) j).trans (by rw [W4_of m c main_arg11 (by decide) (by decide) (by decide) (by decide)])
theorem E1_v56 : E1 m c main_v56 (ix2 0 0) = arg m c main_arg9 ix0 :=
  (host1_main_v56 (W4 m c)).trans (by rw [W4_of m c main_arg9 (by decide) (by decide) (by decide) (by decide)])

/-! ## What region 2 is entered with -/

/-- After region 1, a buffer that is neither region's result array and that no host operation so far writes is as launched. -/
theorem W8_of (r : Ref sig .tc) (hne : r ≠ main_v28) (hne' : r ≠ main_v57) (h0 : r ∉ hostOps0_W) (h1 : r ∉ hostOps0_1_W)
    (h2 : r ∉ hostOps0_2_W) (h4 : r ∉ hostOps1_W) (h5 : r ∉ hostOps1_1_W) (h6 : r ∉ hostOps1_2_W) :
    W8 m c (Proc.devRef .tc r : DevRef τ sig) = arg m c r := by
  unfold W8
  rw [Function.update_of_ne (StableHlo.devRef_ne_of_ne hne')]
  exact E1_of m c r hne h0 h1 h2 h4 h5 h6

/-- The second layer's output reaches region 2 as region 1 left it. -/
theorem E2_v57 : E2 m c main_v57 = (dat1 (E1 m) c).arrAt 12 cfg1.N :=
  (StableHlo.after_of_writes_sub hostOps2 (W8 m c) hostOps2_writes (by decide : main_v57 ∉ hostOps2_W)).trans (by
    unfold W8
    rw [Function.update_self])

theorem E2_arg21 : E2 m c main_arg21 = arg m c main_arg21 :=
  (StableHlo.after_of_writes_sub hostOps2 (W8 m c) hostOps2_writes (by decide : main_arg21 ∉ hostOps2_W)).trans
    (W8_of m c main_arg21 (by decide) (by decide) (by decide) (by decide) (by decide) (by decide) (by decide) (by decide))

theorem E2_v58 (j : Fin 128) : E2 m c main_v58 (ix2 0 j) = arg m c main_arg22 (ix1 j) :=
  (host2_main_v58 (W8 m c) j).trans (by rw [W8_of m c main_arg22 (by decide) (by decide) (by decide) (by decide) (by decide) (by decide) (by decide) (by decide)])

/-! ## The two programs' neighbourhood means are one function -/

/-- The kernel program's host operations before a layer and the reference's first operations of a layer compose to
    the same function: the same operations over the same shape records, in the same order. -/
theorem aggK_eq [Cert.ReferenceIdeal.Facts₀] (h : TNodeK) (e : TEK) : aggK h e = Cert.ReferenceIdeal.Hand.agg h e := rfl

end Cert.KernelIdeal.Hand

end
-- ==== Proof.Spec.lean ====
/-
  The network, as mathematics on the extended reals, row by row.

  A node's feature row has 256 entries. One message-passing layer sends the rows
  `a` (the aggregated neighbour features of the node), `h` (the node's current features) and
  `x` (its input features) to

      pre j  = (∑ k, a k · Wl j k + bl j) + (1 − σ(g)) · (∑ k, h k · W0 j k + b0 j) + σ(g) · (∑ k, x k · W1 j k + b1 j)
      r j    = max (pre j) 0
      μ      = (∑ j, r j) / 256
      d j    = r j − μ
      v      = (∑ j, d j · d j) / 256
      out j  = d j · (v + ε)^(−1/2) · s j + t j

  where σ(g) = 1 / (1 + e^(−g)), ε is the f32 nearest 1e-5, and `s`, `t` are the scale and shift of the
  normalisation. The output projection sends a row `h` to `∑ k, h k · W j k + b j` for the 128 output columns.
  Each entry of a layer's output depends on ONE row of each of its three inputs, which is what lets a
  row-tiled computation and a whole-array one be compared row by row.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A 256 × 256 weight matrix, entry (output column, input column). -/
abbrev W256 := (⟨2, ![256, 256]⟩ : Shape).Idx → EReal
/-- The 128 × 256 output weight matrix. -/
abbrev W128 := (⟨2, ![128, 256]⟩ : Shape).Idx → EReal
/-- A feature row. -/
abbrev Row := Fin 256 → EReal

/-- The literal 256 as the f32 word both programs divide by. -/
abbrev c256 : EReal := Ideal.ofBits .f32 0x43800000#32
/-- The normalisation's ε, the f32 word nearest 1e-5. -/
abbrev cEps : EReal := Ideal.ofBits .f32 0x3727C5AC#32

/-- One affine map `row · Wᵀ + b` at output column `j`. -/
def lin (a : Row) (w : W256) (b : Row) (j : Fin 256) : EReal :=
  (∑ k : Fin 256, a k * w (ix2 j k)) + b j

/-- The gated sum of the three affine maps at column `j`: σ is `Ideal.logistic g`. -/
def pre (a h x : Row) (wl w0 w1 : W256) (bl b0 b1 : Row) (g : EReal) (j : Fin 256) : EReal :=
  lin a wl bl j + (1 - Ideal.logistic g) * lin h w0 b0 j + Ideal.logistic g * lin x w1 b1 j

/-- After the rectifier. -/
def act (a h x : Row) (wl w0 w1 : W256) (bl b0 b1 : Row) (g : EReal) (j : Fin 256) : EReal :=
  max (pre a h x wl w0 w1 bl b0 b1 g j) 0

/-- The row's mean of the rectified values. -/
def mean (r : Row) : EReal := Ideal.div (∑ j : Fin 256, r j) c256

/-- The centred row. -/
def centred (r : Row) (j : Fin 256) : EReal := r j - mean r

/-- The row's (biased) variance. -/
def var (r : Row) : EReal := Ideal.div (∑ j : Fin 256, centred r j * centred r j) c256

/-- The normalised row, scaled and shifted: `d · rsqrt (v + ε) · s + t`. -/
def norm (r s t : Row) (j : Fin 256) : EReal :=
  centred r j * Ideal.rsqrt (var r + cEps) * s j + t j

/-- One layer on one node's rows. -/
def layerRow (a h x : Row) (wl w0 w1 : W256) (bl b0 b1 : Row) (g : EReal) (s t : Row) (j : Fin 256) : EReal :=
  norm (act a h x wl w0 w1 bl b0 b1 g) s t j

/-- The output projection on one node's row, at output column `j`. -/
def projRow (h : Row) (w : W128) (b : Fin 128 → EReal) (j : Fin 128) : EReal :=
  (∑ k : Fin 256, h k * w (ix2 j k)) + b j

/-- Row `i` of an array of `n` feature rows. -/
def rowOf {n : Nat} (A : (⟨2, ![n, 256]⟩ : Shape).Idx → EReal) (i : Fin n) : Row := fun k => A (ix2 i k)

/-- One layer on whole arrays of `n` rows. -/
def layer {n : Nat} (A H X : (⟨2, ![n, 256]⟩ : Shape).Idx → EReal) (wl w0 w1 : W256) (bl b0 b1 : Row) (g : EReal) (s t : Row) :
    (⟨2, ![n, 256]⟩ : Shape).Idx → EReal :=
  fun i => layerRow (rowOf A (i 0)) (rowOf H (i 0)) (rowOf X (i 0)) wl w0 w1 bl b0 b1 g s t (i 1)

/-- The output projection on a whole array of `n` rows. -/
def proj {n : Nat} (H : (⟨2, ![n, 256]⟩ : Shape).Idx → EReal) (w : W128) (b : Fin 128 → EReal) :
    (⟨2, ![n, 128]⟩ : Shape).Idx → EReal :=
  fun i => projRow (rowOf H (i 0)) w b (i 1)

end Cert.Spec

end
-- ==== Proof.KPayLib.lean ====
/-
  The layer kernel's stored value, entry by entry: the parts both layer kernels share.

  A layer kernel loads a block of 2000 rows of each of three feature arrays, three 256 × 256 weight matrices
  with their bias rows, the gate, and the scale and shift rows, and stores one block. Each affine map is a
  matrix product into a zero accumulator, taken after rounding both operands to bf16 (the identity on the
  extended reals) and after transposing the weights, plus the bias row broadcast over the block's rows: at the
  entry (p, q) the sum over the 256 input columns k of v[p,k] · W[q,k], plus b[q]. The three are mixed by the
  logistic function of the gate, rectified, and each row is normalised: the row sums are reductions over the
  column axis, the mean and the variance their quotients by 256, and the centred row is multiplied by the
  reciprocal square root of the variance plus ε, then scaled and shifted. These are the specification's
  formulas read on the block's rows.
-/
import proofs.«160845_j81252191306258_1_alg».proof.Proof.KData
import proofs.«160845_j81252191306258_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

open scoped BigOperators

namespace Cert.KernelIdeal.HandValue

open Cert.KernelIdeal Cert.KernelIdeal.Gen Cert.KernelIdeal.Hand
open Idealize.ShloMosaic Idealize.ShloMosaic.ValueIdx

/-- The staging rectangles start at the origin. -/
theorem hzL : (![0, 0] : Fin 2 → Nat) = fun _ => 0 := funext fun a => by fin_cases a <;> rfl

/-! ## Re-indexing -/

section Layout
variable {α : Type}

/-- A one-entry matrix broadcast to a matrix reads its entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A column broadcast over `b` columns reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` cast to a column reads, at `(p, 0)`, the vector at `p`. -/
theorem shapeCast_a_a1_apply {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

end Layout

/-! ## The matrix product -/

/-- The layer's dimension numbers: rows × 256 times 256 × 256. -/
abbrev DL : DotDims S2000x256 S256x256 S2000x256 := dot_S2000x256_S256x256_S2000x256_1_0_0_1_n_n

theorem dl_lhs0 (j : S2000x256.Idx) (k : DL.contr.Idx) : (DL.lhsIdx j k 0 : ℕ) = j 0 := by
  simp [DotDims.lhsIdx, DL, dot_S2000x256_S256x256_S2000x256_1_0_0_1_n_n]; rfl
theorem dl_rhs1 (j : S2000x256.Idx) (k : DL.contr.Idx) : (DL.rhsIdx j k 1 : ℕ) = j 1 := by
  simp [DotDims.rhsIdx, DL, dot_S2000x256_S256x256_S2000x256_1_0_0_1_n_n]; rfl

/-- The product into the zero accumulator at (p, q): the sum over the contracted column. -/
theorem mmL (l : FVec Ideal S2000x256 .bf16) (r : FVec Ideal S256x256 .bf16) (p : Fin 2000) (q : Fin 256) :
    matmul DL none l r (constant (F := Ideal) S2000x256 .f32 0x00000000#32) (ix2 p q)
      = ∑ k : Fin 256, l (ix2 p k) * r (ix2 k q) := by
  refine (Ideal.matmul_constant_zero_apply DL none l r (ix2 p q)).trans ?_
  rw [← Equiv.sum_comp (contrEquiv1 DL 256 rfl rfl).symm]
  refine Finset.sum_congr rfl fun k _ => ?_
  have hl : DL.lhsIdx (ix2 p q) ((contrEquiv1 DL 256 rfl rfl).symm k) = ix2 p k :=
    funext fun a => Fin.ext (match a with
      | ⟨0, _⟩ => dl_lhs0 _ _
      | ⟨1, _⟩ => (DL.lhsIdx_val_of_single (cl := 1) rfl _ _).trans (contrEquiv1_symm_val DL 256 rfl rfl k))
  have hr : DL.rhsIdx (ix2 p q) ((contrEquiv1 DL 256 rfl rfl).symm k) = ix2 k q :=
    funext fun a => Fin.ext (match a with
      | ⟨0, _⟩ => (DL.rhsIdx_val_of_single (cr := 0) rfl _ _).trans (contrEquiv1_symm_val DL 256 rfl rfl k)
      | ⟨1, _⟩ => dl_rhs1 _ _)
  rw [hl, hr]

/-! ## One affine map -/

/-- The affine map as each layer kernel writes it, from the loaded block, weights and bias row. -/
def kaff (v : FVec Ideal S2000x256 .f32) (w : Vec Ideal S256x256 .f32) (b : Vec Ideal S1x256 .f32) : FVec Ideal S2000x256 .f32 :=
  addf
    (matmul DL none (truncf (F := Ideal) (φ := .f32) .bf16 v bitsLt_bf16_f32)
      (transpose S256x256 [1, 0] (truncf (F := Ideal) (φ := .f32) .bf16 w bitsLt_bf16_f32) transposes_S256x256_p1_0_S256x256)
      (constant (F := Ideal) S2000x256 .f32 0x00000000#32))
    (broadcastTo S2000x256 (shapeCast S1x256 b shapeCasts_S1x256_S1x256) broadcasts_S1x256_S2000x256)

/-- At (p, q): the sum over the input columns, plus the bias. -/
theorem kaff_apply (v : FVec Ideal S2000x256 .f32) (w : Vec Ideal S256x256 .f32) (b : Vec Ideal S1x256 .f32) (p : Fin 2000) (q : Fin 256) :
    kaff v w b (ix2 p q) = (∑ k : Fin 256, v (ix2 p k) * w (ix2 q k)) + b (ix2 (0 : Fin 1) q) := by
  unfold kaff
  refine congrArg₂ (· + ·) ?_ ?_
  · refine (mmL _ _ p q).trans ?_
    refine Finset.sum_congr rfl fun k _ => ?_
    refine congrArg₂ (· * ·) rfl ?_
    exact transpose_ix2_apply (truncf (F := Ideal) (φ := .f32) .bf16 w bitsLt_bf16_f32) transposes_S256x256_p1_0_S256x256 k q
  · refine (broadcastTo_1b_ab_apply _ broadcasts_S1x256_S2000x256 p q).trans ?_
    exact congrFun (shapeCast_self b shapeCasts_S1x256_S1x256) (ix2 0 q)

/-- … which is the specification's affine map on row p. -/
theorem kaff_eq_lin (v : FVec Ideal S2000x256 .f32) (w : Vec Ideal S256x256 .f32) (b : Vec Ideal S1x256 .f32) (p : Fin 2000) (q : Fin 256) :
    kaff v w b (ix2 p q) = Cert.Spec.lin (Cert.Spec.rowOf (n := 2000) v p) w (fun j => b (ix2 (0 : Fin 1) j)) q :=
  kaff_apply v w b p q

/-! ## The gate's mix -/

/-- The gated sum of the three affine maps, from the gate's weight and the one-entry matrix holding 1. -/
def kmix (A H X : FVec Ideal S2000x256 .f32) (σ one : FVec Ideal S1x1 .f32) : FVec Ideal S2000x256 .f32 :=
  addf (addf A (mulf (broadcastTo S2000x256 (subf one σ) broadcasts_S1x1_S2000x256) H))
    (mulf (broadcastTo S2000x256 σ broadcasts_S1x1_S2000x256) X)

theorem kmix_apply (A H X : FVec Ideal S2000x256 .f32) (σ one : FVec Ideal S1x1 .f32) (p : Fin 2000) (q : Fin 256) :
    kmix A H X σ one (ix2 p q)
      = A (ix2 p q) + (one (ix2 (0 : Fin 1) (0 : Fin 1)) - σ (ix2 (0 : Fin 1) (0 : Fin 1))) * H (ix2 p q)
        + σ (ix2 (0 : Fin 1) (0 : Fin 1)) * X (ix2 p q) := by
  unfold kmix
  rw [addf_apply, addf_apply, mulf_apply, mulf_apply, broadcastTo_11_ab_apply, broadcastTo_11_ab_apply, subf_apply]

/-! ## Rectifier and row normalisation -/

/-- The rectifier. -/
def krelu (m : FVec Ideal S2000x256 .f32) : FVec Ideal S2000x256 .f32 :=
  maximumf m (broadcast S2000x256 (Scalar.ofBits (F := Ideal) .f32 0x00000000#32))

theorem krelu_apply (m : FVec Ideal S2000x256 .f32) (p : Fin 2000) (q : Fin 256) :
    krelu m (ix2 p q) = max (m (ix2 p q)) 0 := by
  unfold krelu
  rw [maximumf_apply, broadcast_apply]
  show max _ (Ideal.ofBits .f32 0x00000000#32) = _
  rw [Ideal.ofBits_zero_f32]

/-- A row sum as the kernel takes it: the reduction over the column axis from the zero word. -/
def krowSum (r : FVec Ideal S2000x256 .f32) : FVec Ideal S2000 .f32 :=
  multiReduction .add [1] S2000 r 0x00000000#32 reduces_S2000x256_S2000 (.inl rfl) rfl

theorem krowSum_apply (r : FVec Ideal S2000x256 .f32) (p : Fin 2000) : krowSum r (ix1 p) = ∑ k : Fin 256, r (ix2 p k) := by
  unfold krowSum
  refine (Ideal.multiReduction_add_single r 0x00000000#32 reduces_S2000x256_S2000 (.inl rfl) rfl (ix1 p)).trans ?_
  refine Finset.sum_congr rfl fun k _ => ?_
  exact congrArg r (funext fun a => Fin.ext (by match a with | ⟨0, _⟩ => rfl | ⟨1, _⟩ => rfl))

/-- A row sum as a column, over 256. -/
def kmean (r : FVec Ideal S2000x256 .f32) : FVec Ideal S2000x1 .f32 :=
  divf (shapeCast S2000x1 (krowSum r) shapeCasts_S2000_S2000x1) (broadcast S2000x1 (Scalar.ofBits (F := Ideal) .f32 0x43800000#32))

theorem kmean_apply (r : FVec Ideal S2000x256 .f32) (p : Fin 2000) :
    kmean r (ix2 p (0 : Fin 1)) = Ideal.div (∑ k : Fin 256, r (ix2 p k)) (Ideal.ofBits .f32 0x43800000#32) := by
  unfold kmean
  rw [divf_apply, shapeCast_a_a1_apply, krowSum_apply, broadcast_apply]
  rfl

/-- The centred block. -/
def kcent (r : FVec Ideal S2000x256 .f32) : FVec Ideal S2000x256 .f32 :=
  subf r (broadcastTo S2000x256 (kmean r) broadcasts_S2000x1_S2000x256)

theorem kcent_apply (r : FVec Ideal S2000x256 .f32) (p : Fin 2000) (q : Fin 256) :
    kcent r (ix2 p q) = Cert.Spec.centred (fun k => r (ix2 p k)) q := by
  unfold kcent
  rw [subf_apply, broadcastTo_a1_ab_apply, kmean_apply]
  rfl

/-- The normalised, scaled and shifted block. -/
def knorm (r : FVec Ideal S2000x256 .f32) (s t : Vec Ideal S1x256 .f32) : FVec Ideal S2000x256 .f32 :=
  addf
    (mulf
      (mulf (kcent r)
        (broadcastTo S2000x256
          (rsqrt
            (addf (kmean (mulf (kcent r) (kcent r))) (broadcast S2000x1 (Scalar.ofBits (F := Ideal) .f32 0x3727C5AC#32))))
          broadcasts_S2000x1_S2000x256))
      (broadcastTo S2000x256 (shapeCast S1x256 s shapeCasts_S1x256_S1x256) broadcasts_S1x256_S2000x256))
    (broadcastTo S2000x256 (shapeCast S1x256 t shapeCasts_S1x256_S1x256) broadcasts_S1x256_S2000x256)

theorem knorm_apply (r : FVec Ideal S2000x256 .f32) (s t : Vec Ideal S1x256 .f32) (p : Fin 2000) (q : Fin 256) :
    knorm r s t (ix2 p q)
      = Cert.Spec.norm (fun k => r (ix2 p k)) (fun k => s (ix2 (0 : Fin 1) k)) (fun k => t (ix2 (0 : Fin 1) k)) q := by
  have hv : kmean (mulf (kcent r) (kcent r)) (ix2 p (0 : Fin 1)) = Cert.Spec.var (fun k => r (ix2 p k)) := by
    rw [kmean_apply]
    refine congrArg (Ideal.div · _) (Finset.sum_congr rfl fun k _ => ?_)
    rw [mulf_apply, kcent_apply]
  unfold knorm
  rw [addf_apply, mulf_apply, mulf_apply, kcent_apply, broadcastTo_a1_ab_apply]
  show (_ * Ideal.rsqrt (kmean (mulf (kcent r) (kcent r)) (ix2 p (0 : Fin 1)) + Ideal.ofBits .f32 0x3727C5AC#32)) * _ + _ = _
  rw [hv]
  refine congrArg₂ (· + ·) (congrArg₂ (· * ·) rfl ?_) ?_
  · refine (broadcastTo_1b_ab_apply _ broadcasts_S1x256_S2000x256 p q).trans ?_
    exact congrFun (shapeCast_self s shapeCasts_S1x256_S1x256) (ix2 0 q)
  · refine (broadcastTo_1b_ab_apply _ broadcasts_S1x256_S2000x256 p q).trans ?_
    exact congrFun (shapeCast_self t shapeCasts_S1x256_S1x256) (ix2 0 q)

/-- From the three affine maps, the gate's weight and the matrix holding 1 to the stored block: the specification's
    normalisation of the rectified gated sum, row by row. -/
theorem ktail_apply (A H X : FVec Ideal S2000x256 .f32) (σ one : FVec Ideal S1x1 .f32) (s t : Vec Ideal S1x256 .f32)
    (p : Fin 2000) (q : Fin 256) :
    knorm (krelu (kmix A H X σ one)) s t (ix2 p q)
      = Cert.Spec.norm
          (fun k => max (A (ix2 p k) + (one (ix2 (0 : Fin 1) (0 : Fin 1)) - σ (ix2 (0 : Fin 1) (0 : Fin 1))) * H (ix2 p k)
            + σ (ix2 (0 : Fin 1) (0 : Fin 1)) * X (ix2 p k)) 0)
          (fun k => s (ix2 (0 : Fin 1) k)) (fun k => t (ix2 (0 : Fin 1) k)) q := by
  rw [knorm_apply]
  exact congrArg (fun ρ => Cert.Spec.norm ρ (fun k => s (ix2 (0 : Fin 1) k)) (fun k => t (ix2 (0 : Fin 1) k)) q)
    (funext fun k => by rw [krelu_apply, kmix_apply])

end Cert.KernelIdeal.HandValue

end
-- ==== Proof.KPay0.lean ====
/-
  Layer kernel 0's stored block is the specification's layer on the loaded blocks.

  The kernel's stored value is the shared composition of the three affine maps, the gate's mix, the rectifier
  and the row normalisation (the definitions unfold to it); the block's entry (p, q) is then the
  specification's layer on row p of the three loaded blocks, the bias, scale and shift rows read off their
  one-row blocks and the gate off its one-entry block.
-/
import proofs.«160845_j81252191306258_1_alg».proof.Proof.KPayLib

set_option maxRecDepth 16384

noncomputable section

open scoped BigOperators

namespace Cert.KernelIdeal.HandValue

open Cert.KernelIdeal Cert.KernelIdeal.Gen Cert.KernelIdeal.Hand
open Idealize.ShloMosaic Idealize.ShloMosaic.ValueIdx

/-- The stored value is the shared tail on the gated sum. -/
theorem k0_pay1_eq (A H X : FVec Ideal S2000x256 .f32) (σ : FVec Ideal S1x1 .f32) (one : FVec Ideal S1x1 .f32) (s t : Vec Ideal S1x256 .f32) :
    k0_pay1 A H X σ one s t = knorm (krelu (kmix A H X σ one)) s t := rfl

/-- The three affine maps are the shared one (the first after an identity cast of its block). -/
theorem k0_pay2_eq (v : Vec Ideal S2000x256 .f32) (w : Vec Ideal S256x256 .f32) (b : Vec Ideal S1x256 .f32) :
    k0_pay2 v w b = kaff (shapeCast S2000x256 v shapeCasts_S2000x256_S2000x256) w b := rfl
theorem k0_pay3_eq (v : Vec Ideal S2000x256 .f32) (w : Vec Ideal S256x256 .f32) (b : Vec Ideal S1x256 .f32) :
    k0_pay3 v w b = kaff v w b := rfl
theorem k0_pay4_eq (v : Vec Ideal S2000x256 .f32) (w : Vec Ideal S256x256 .f32) (b : Vec Ideal S1x256 .f32) :
    k0_pay4 v w b = kaff v w b := rfl

/-- The gate's weight is the logistic function of the gate's one entry. -/
theorem k0_pay5_apply (g : Vec Ideal S1x1 .f32) :
    k0_pay5 g (ix2 (0 : Fin 1) (0 : Fin 1)) = Ideal.logistic (g (ix2 (0 : Fin 1) (0 : Fin 1))) := by
  unfold k0_pay5
  show Ideal.logistic (shapeCast S1x1 g shapeCasts_S1x1_S1x1 (ix2 (0 : Fin 1) (0 : Fin 1))) = _
  rw [shapeCast_self]

/-- The one-entry matrix holding 1. -/
theorem k0_pay6_apply : k0_pay6 (F := Ideal) (ix2 (0 : Fin 1) (0 : Fin 1)) = 1 := Ideal.ofBits_one_f32

/-- The stored block is the specification's layer of the loaded blocks. -/
theorem out0_eq (x0 x1 x2 : Vec Ideal S2000x256 .f32) (x3 : Vec Ideal S256x256 .f32) (x4 : Vec Ideal S1x256 .f32)
    (x5 : Vec Ideal S256x256 .f32) (x6 : Vec Ideal S1x256 .f32) (x7 : Vec Ideal S256x256 .f32) (x8 : Vec Ideal S1x256 .f32)
    (x9 : Vec Ideal S1x1 .f32) (x10 x11 : Vec Ideal S1x256 .f32) :
    out0 x0 x1 x2 x3 x4 x5 x6 x7 x8 x9 x10 x11
      = Cert.Spec.layer (n := 2000) x0 x1 x2 x3 x5 x7 (fun j => x4 (ix2 0 j)) (fun j => x6 (ix2 0 j)) (fun j => x8 (ix2 0 j))
          (x9 (ix2 0 0)) (fun j => x10 (ix2 0 j)) (fun j => x11 (ix2 0 j)) := by
  unfold out0
  rw [View.canon_unit_zero hzL]
  simp only [View.ld_unit_zero (S := S2000x256) hzL, View.ld_unit_zero (S := S256x256) hzL,
    View.ld_unit_zero (S := S1x256) hzL, View.ld_unit_zero (S := S1x1) hzL]
  funext j
  obtain ⟨p, q, rfl⟩ : ∃ (p : Fin 2000) (q : Fin 256), j = ix2 p q := ⟨j 0, j 1, eq_ix2 j⟩
  rw [k0_pay1_eq, ktail_apply]
  refine congrArg (fun ρ => Cert.Spec.norm ρ (fun k => x10 (ix2 (0 : Fin 1) k)) (fun k => x11 (ix2 (0 : Fin 1) k)) q) (funext fun k => ?_)
  rw [k0_pay2_eq, k0_pay3_eq, k0_pay4_eq, kaff_apply, kaff_apply, kaff_apply, k0_pay5_apply, k0_pay6_apply,
    shapeCast_self]
  rfl

end Cert.KernelIdeal.HandValue

end
-- ==== Proof.KRows.lean ====
/-
  A layer's row function depends on its arguments entry by entry: two calls whose row, weight, bias, gate, scale and
  shift arguments are equal are equal. (Used to compare what a grid point writes back with the whole array's rows.)
-/
import proofs.«160845_j81252191306258_1_alg».proof.Proof.Spec

noncomputable section

namespace Cert.KernelIdeal.HandValue

open Cert.Spec

theorem layerRow_congr {a a' h h' x x' : Row} {wl wl' w0 w0' w1 w1' : W256} {bl bl' b0 b0' b1 b1' : Row} {g g' : EReal}
    {s s' t t' : Row} (j : Fin 256)
    (ha : a = a') (hh : h = h') (hx : x = x') (hwl : wl = wl') (hw0 : w0 = w0') (hw1 : w1 = w1')
    (hbl : bl = bl') (hb0 : b0 = b0') (hb1 : b1 = b1') (hg : g = g') (hs : s = s') (ht : t = t') :
    layerRow a h x wl w0 w1 bl b0 b1 g s t j = layerRow a' h' x' wl' w0' w1' bl' b0' b1' g' s' t' j := by
  rw [ha, hh, hx, hwl, hw0, hw1, hbl, hb0, hb1, hg, hs, ht]

end Cert.KernelIdeal.HandValue

end
-- ==== Proof.KFinal0.lean ====
/-
  The first layer over the whole array.

  The layer kernel runs over 50 grid points; point t reads rows 2000·t … 2000·t + 1999 of the aggregated features, of
  the current features and of the input features and writes the same rows of the result, while the three weight
  matrices, the three bias rows, the gate and the normalisation's scale and shift are the same whole arrays at every
  point. The specification's layer is computed row by row from the same row of its three inputs, so what point t
  writes back is block t of the layer of the whole arrays; the 50 blocks of 2000 rows cover the 100000 rows, hence
  the array after the run is that layer.
-/
import proofs.«160845_j81252191306258_1_alg».proof.Proof.KPay0
import proofs.«160845_j81252191306258_1_alg».proof.Proof.KRows
import Idealize.ShloMosaic.Lib.ValueIdx
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

/-! ## The index maps over the grid: the four row windows are at block t, the nine parameter windows at block 0 -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = t.val ∧ win0_12.index t (1 : Fin 2) = 0 :=
  (by decide +kernel : ∀ t : Fin grid0.N, _)

/-! ## Where an entry of each input block sits in its array, against where the output block's entry sits -/

theorem embRow0_0 (t : Fin cfg0.N) (y : ((cfg0.win 12).xblock (grid0.coords t)).Idx) (k : Fin 256) :
    ((cfg0.win 0).blk t).view.emb (ix2 (y 0) k) = ix2 ((((cfg0.win 12).blk t).view.emb y) 0) k := by
  obtain ⟨e0, e1⟩ := idx0_0 t
  obtain ⟨f0, f1⟩ := idx0_12 t
  have hy0 : (y 0).val < 2000 := (y 0).isLt
  funext a; apply Fin.ext
  match a with
  | ⟨0, _⟩ => show win0_0.index t (0 : Fin 2) * 2000 + 1 * (y 0).val = win0_12.index t (0 : Fin 2) * 2000 + 1 * (y 0).val; omega
  | ⟨1, _⟩ => show win0_0.index t (1 : Fin 2) * 256 + 1 * k.val = k.val; omega
theorem embRow0_1 (t : Fin cfg0.N) (y : ((cfg0.win 12).xblock (grid0.coords t)).Idx) (k : Fin 256) :
    ((cfg0.win 1).blk t).view.emb (ix2 (y 0) k) = ix2 ((((cfg0.win 12).blk t).view.emb y) 0) k := by
  obtain ⟨e0, e1⟩ := idx0_1 t
  obtain ⟨f0, f1⟩ := idx0_12 t
  have hy0 : (y 0).val < 2000 := (y 0).isLt
  funext a; apply Fin.ext
  match a with
  | ⟨0, _⟩ => show win0_1.index t (0 : Fin 2) * 2000 + 1 * (y 0).val = win0_12.index t (0 : Fin 2) * 2000 + 1 * (y 0).val; omega
  | ⟨1, _⟩ => show win0_1.index t (1 : Fin 2) * 256 + 1 * k.val = k.val; omega
theorem embRow0_2 (t : Fin cfg0.N) (y : ((cfg0.win 12).xblock (grid0.coords t)).Idx) (k : Fin 256) :
    ((cfg0.win 2).blk t).view.emb (ix2 (y 0) k) = ix2 ((((cfg0.win 12).blk t).view.emb y) 0) k := by
  obtain ⟨e0, e1⟩ := idx0_2 t
  obtain ⟨f0, f1⟩ := idx0_12 t
  have hy0 : (y 0).val < 2000 := (y 0).isLt
  funext a; apply Fin.ext
  match a with
  | ⟨0, _⟩ => show win0_2.index t (0 : Fin 2) * 2000 + 1 * (y 0).val = win0_12.index t (0 : Fin 2) * 2000 + 1 * (y 0).val; omega
  | ⟨1, _⟩ => show win0_2.index t (1 : Fin 2) * 256 + 1 * k.val = k.val; omega
theorem embMat0_3 (t : Fin cfg0.N) (j : S256x256.Idx) : ((cfg0.win 3).blk t).view.emb j = j := by
  obtain ⟨e0, e1⟩ := idx0_3 t
  funext a; apply Fin.ext
  match a with
  | ⟨0, _⟩ => show win0_3.index t (0 : Fin 2) * 256 + 1 * (j 0).val = (j 0).val; omega
  | ⟨1, _⟩ => show win0_3.index t (1 : Fin 2) * 256 + 1 * (j 1).val = (j 1).val; omega
theorem embMat0_5 (t : Fin cfg0.N) (j : S256x256.Idx) : ((cfg0.win 5).blk t).view.emb j = j := by
  obtain ⟨e0, e1⟩ := idx0_5 t
  funext a; apply Fin.ext
  match a with
  | ⟨0, _⟩ => show win0_5.index t (0 : Fin 2) * 256 + 1 * (j 0).val = (j 0).val; omega
  | ⟨1, _⟩ => show win0_5.index t (1 : Fin 2) * 256 + 1 * (j 1).val = (j 1).val; omega
theorem embMat0_7 (t : Fin cfg0.N) (j : S256x256.Idx) : ((cfg0.win 7).blk t).view.emb j = j := by
  obtain ⟨e0, e1⟩ := idx0_7 t
  funext a; apply Fin.ext
  match a with
  | ⟨0, _⟩ => show win0_7.index t (0 : Fin 2) * 256 + 1 * (j 0).val = (j 0).val; omega
  | ⟨1, _⟩ => show win0_7.index t (1 : Fin 2) * 256 + 1 * (j 1).val = (j 1).val; omega
theorem embVec0_4 (t : Fin cfg0.N) (j : Fin 256) : ((cfg0.win 4).blk t).view.emb (ix2 0 j) = ix2 0 j := by
  obtain ⟨e0, e1⟩ := idx0_4 t
  funext a; apply Fin.ext
  match a with
  | ⟨0, _⟩ => show win0_4.index t (0 : Fin 2) * 1 + 1 * 0 = 0; omega
  | ⟨1, _⟩ => show win0_4.index t (1 : Fin 2) * 256 + 1 * j.val = j.val; omega
theorem embVec0_6 (t : Fin cfg0.N) (j : Fin 256) : ((cfg0.win 6).blk t).view.emb (ix2 0 j) = ix2 0 j := by
  obtain ⟨e0, e1⟩ := idx0_6 t
  funext a; apply Fin.ext
  match a with
  | ⟨0, _⟩ => show win0_6.index t (0 : Fin 2) * 1 + 1 * 0 = 0; omega
  | ⟨1, _⟩ => show win0_6.index t (1 : Fin 2) * 256 + 1 * j.val = j.val; omega
theorem embVec0_8 (t : Fin cfg0.N) (j : Fin 256) : ((cfg0.win 8).blk t).view.emb (ix2 0 j) = ix2 0 j := by
  obtain ⟨e0, e1⟩ := idx0_8 t
  funext a; apply Fin.ext
  match a with
  | ⟨0, _⟩ => show win0_8.index t (0 : Fin 2) * 1 + 1 * 0 = 0; omega
  | ⟨1, _⟩ => show win0_8.index t (1 : Fin 2) * 256 + 1 * j.val = j.val; omega
theorem embVec0_10 (t : Fin cfg0.N) (j : Fin 256) : ((cfg0.win 10).blk t).view.emb (ix2 0 j) = ix2 0 j := by
  obtain ⟨e0, e1⟩ := idx0_10 t
  funext a; apply Fin.ext
  match a with
  | ⟨0, _⟩ => show win0_10.index t (0 : Fin 2) * 1 + 1 * 0 = 0; omega
  | ⟨1, _⟩ => show win0_10.index t (1 : Fin 2) * 256 + 1 * j.val = j.val; omega
theorem embVec0_11 (t : Fin cfg0.N) (j : Fin 256) : ((cfg0.win 11).blk t).view.emb (ix2 0 j) = ix2 0 j := by
  obtain ⟨e0, e1⟩ := idx0_11 t
  funext a; apply Fin.ext
  match a with
  | ⟨0, _⟩ => show win0_11.index t (0 : Fin 2) * 1 + 1 * 0 = 0; omega
  | ⟨1, _⟩ => show win0_11.index t (1 : Fin 2) * 256 + 1 * j.val = j.val; omega
theorem embGate0 (t : Fin cfg0.N) : ((cfg0.win 9).blk t).view.emb (ix2 0 0) = ix2 0 0 := by
  obtain ⟨e0, e1⟩ := idx0_9 t
  funext a; apply Fin.ext
  match a with
  | ⟨0, _⟩ => show win0_9.index t (0 : Fin 2) * 1 + 1 * 0 = 0; omega
  | ⟨1, _⟩ => show win0_9.index t (1 : Fin 2) * 1 + 1 * 0 = 0; omega
theorem embCol0 (t : Fin cfg0.N) (y : ((cfg0.win 12).xblock (grid0.coords t)).Idx) : ((((cfg0.win 12).blk t).view.emb y) 1 : Fin 256) = y 1 := by
  obtain ⟨f0, f1⟩ := idx0_12 t
  exact Fin.ext (by show win0_12.index t (1 : Fin 2) * 256 + 1 * (y 1).val = (y 1).val; omega)

variable (V : (c : Dev nD) → (b : Ref sig .tc) → Buf (Elt Ideal) ((c : Thread nD τ).loc b))

/-- The layer of the whole arrays as the region finds them. -/
abbrev layerAll0 (c : Dev nD) : S100000x256.Idx → EReal :=
  Cert.Spec.layer (n := 100000) (V c main_v21) (V c main_arg0) (V c main_arg0) (V c main_arg12) (V c main_arg14) (V c main_arg16)
    (fun j => V c main_v22 (ix2 0 j)) (fun j => V c main_v23 (ix2 0 j)) (fun j => V c main_v24 (ix2 0 j)) (V c main_v27 (ix2 0 0))
    (fun j => V c main_v25 (ix2 0 j)) (fun j => V c main_v26 (ix2 0 j))

/-! ## Each argument of the row function, as point t's blocks give it and as the whole arrays give it -/

theorem arg0_0 (c : Dev nD) (t : Fin cfg0.N) (y : ((cfg0.win 12).xblock (grid0.coords t)).Idx) :
    (fun k : Fin 256 => (V c main_v21 (((cfg0.win 0).blk t).view.emb (ix2 (y 0) k)) : EReal)) = fun k => V c main_v21 (ix2 ((((cfg0.win 12).blk t).view.emb y) 0) k) :=
  funext fun k => by rw [embRow0_0 t y k] <;> rfl
theorem arg0_1 (c : Dev nD) (t : Fin cfg0.N) (y : ((cfg0.win 12).xblock (grid0.coords t)).Idx) :
    (fun k : Fin 256 => (V c main_arg0 (((cfg0.win 1).blk t).view.emb (ix2 (y 0) k)) : EReal)) = fun k => V c main_arg0 (ix2 ((((cfg0.win 12).blk t).view.emb y) 0) k) :=
  funext fun k => by rw [embRow0_1 t y k] <;> rfl
theorem arg0_2 (c : Dev nD) (t : Fin cfg0.N) (y : ((cfg0.win 12).xblock (grid0.coords t)).Idx) :
    (fun k : Fin 256 => (V c main_arg0 (((cfg0.win 2).blk t).view.emb (ix2 (y 0) k)) : EReal)) = fun k => V c main_arg0 (ix2 ((((cfg0.win 12).blk t).view.emb y) 0) k) :=
  funext fun k => by rw [embRow0_2 t y k] <;> rfl
theorem arg0_3 (c : Dev nD) (t : Fin cfg0.N) :
    (fun j : S256x256.Idx => (V c main_arg12 (((cfg0.win 3).blk t).view.emb j) : EReal)) = V c main_arg12 :=
  funext fun j => by rw [embMat0_3 t j] <;> rfl
theorem arg0_5 (c : Dev nD) (t : Fin cfg0.N) :
    (fun j : S256x256.Idx => (V c main_arg14 (((cfg0.win 5).blk t).view.emb j) : EReal)) = V c main_arg14 :=
  funext fun j => by rw [embMat0_5 t j] <;> rfl
theorem arg0_7 (c : Dev nD) (t : Fin cfg0.N) :
    (fun j : S256x256.Idx => (V c main_arg16 (((cfg0.win 7).blk t).view.emb j) : EReal)) = V c main_arg16 :=
  funext fun j => by rw [embMat0_7 t j] <;> rfl
theorem arg0_4 (c : Dev nD) (t : Fin cfg0.N) :
    (fun j : Fin 256 => (V c main_v22 (((cfg0.win 4).blk t).view.emb (ix2 0 j)) : EReal)) = fun j => V c main_v22 (ix2 0 j) :=
  funext fun j => by rw [embVec0_4 t j] <;> rfl
theorem arg0_6 (c : Dev nD) (t : Fin cfg0.N) :
    (fun j : Fin 256 => (V c main_v23 (((cfg0.win 6).blk t).view.emb (ix2 0 j)) : EReal)) = fun j => V c main_v23 (ix2 0 j) :=
  funext fun j => by rw [embVec0_6 t j] <;> rfl
theorem arg0_8 (c : Dev nD) (t : Fin cfg0.N) :
    (fun j : Fin 256 => (V c main_v24 (((cfg0.win 8).blk t).view.emb (ix2 0 j)) : EReal)) = fun j => V c main_v24 (ix2 0 j) :=
  funext fun j => by rw [embVec0_8 t j] <;> rfl
theorem arg0_10 (c : Dev nD) (t : Fin cfg0.N) :
    (fun j : Fin 256 => (V c main_v25 (((cfg0.win 10).blk t).view.emb (ix2 0 j)) : EReal)) = fun j => V c main_v25 (ix2 0 j) :=
  funext fun j => by rw [embVec0_10 t j] <;> rfl
theorem arg0_11 (c : Dev nD) (t : Fin cfg0.N) :
    (fun j : Fin 256 => (V c main_v26 (((cfg0.win 11).blk t).view.emb (ix2 0 j)) : EReal)) = fun j => V c main_v26 (ix2 0 j) :=
  funext fun j => by rw [embVec0_11 t j] <;> rfl
theorem arg0_9 (c : Dev nD) (t : Fin cfg0.N) :
    (V c main_v27 (((cfg0.win 9).blk t).view.emb (ix2 0 0)) : EReal) = V c main_v27 (ix2 0 0) := by
  rw [embGate0 t] <;> rfl

set_option maxHeartbeats 1000000 in
/-- What point t writes back is block t of the whole arrays' layer. -/
theorem flushed0_eq (c : Dev nD) (t : Fin cfg0.N) :
    (dat0 (F := Ideal) V c).flushed 12 t = ((cfg0.win 12).blk t).view.read (Elt Ideal) (layerAll0 V c) := by
  show (cfg0.win 12).cut (grid0.coords t) ((dat0 (F := Ideal) V c).after 12 t) = _
  rw [after0_12]
  rw [out0_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)]
  funext y
  show Cert.Spec.layerRow (fun k => V c main_v21 (((cfg0.win 0).blk t).view.emb (ix2 (y 0) k))) (fun k => V c main_arg0 (((cfg0.win 1).blk t).view.emb (ix2 (y 0) k)))
        (fun k => V c main_arg0 (((cfg0.win 2).blk t).view.emb (ix2 (y 0) k)))
        (fun j => V c main_arg12 (((cfg0.win 3).blk t).view.emb j)) (fun j => V c main_arg14 (((cfg0.win 5).blk t).view.emb j)) (fun j => V c main_arg16 (((cfg0.win 7).blk t).view.emb j))
        (fun j => V c main_v22 (((cfg0.win 4).blk t).view.emb (ix2 0 j))) (fun j => V c main_v23 (((cfg0.win 6).blk t).view.emb (ix2 0 j))) (fun j => V c main_v24 (((cfg0.win 8).blk t).view.emb (ix2 0 j)))
        (V c main_v27 (((cfg0.win 9).blk t).view.emb (ix2 0 0)))
        (fun j => V c main_v25 (((cfg0.win 10).blk t).view.emb (ix2 0 j))) (fun j => V c main_v26 (((cfg0.win 11).blk t).view.emb (ix2 0 j))) (y 1)
      = Cert.Spec.layerRow (fun k => V c main_v21 (ix2 ((((cfg0.win 12).blk t).view.emb y) 0) k)) (fun k => V c main_arg0 (ix2 ((((cfg0.win 12).blk t).view.emb y) 0) k))
        (fun k => V c main_arg0 (ix2 ((((cfg0.win 12).blk t).view.emb y) 0) k))
        (V c main_arg12) (V c main_arg14) (V c main_arg16)
        (fun j => V c main_v22 (ix2 0 j)) (fun j => V c main_v23 (ix2 0 j)) (fun j => V c main_v24 (ix2 0 j))
        (V c main_v27 (ix2 0 0))
        (fun j => V c main_v25 (ix2 0 j)) (fun j => V c main_v26 (ix2 0 j)) ((((cfg0.win 12).blk t).view.emb y) 1)
  rw [embCol0 t y]
  exact layerRow_congr (y 1) (arg0_0 V c t y) (arg0_1 V c t y) (arg0_2 V c t y) (arg0_3 V c t) (arg0_5 V c t) (arg0_7 V c t)
    (arg0_4 V c t) (arg0_6 V c t) (arg0_8 V c t) (arg0_9 V c t) (arg0_10 V c t) (arg0_11 V c t)

/-- An index of the result array is in point t's block iff each coordinate is in the block's range. -/
theorem mem_blk0 (t : Fin cfg0.N) (i : S100000x256.Idx) :
    i ∈ ((cfg0.win 12).blk t).view.set ↔ ∀ a : Fin 2, win0_12.index t a * S2000x256.size a ≤ (i a).val ∧ (i a).val < win0_12.index t a * S2000x256.size a + S2000x256.size a := by
  show i ∈ ((View.whole main_v28).slice (win0_12.rect t)).set ↔ _
  rw [View.set_slice_whole, Rect.mem_set_unit]
  exact Iff.rfl

/-- Row r of the result is in the block of point r / 2000. -/
theorem cover_all0 (i : S100000x256.Idx) :
    ∃ t : Fin cfg0.N, (cfg0.win 12).flush t = true ∧ i ∈ ((cfg0.win 12).blk t).view.set := by
  have hi0 : (i 0).val < 100000 := (i 0).isLt
  have hi1 : (i 1).val < 256 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨f0, f1⟩ := idx0_12 t
  refine ⟨t, flush0_12 t, ?_⟩
  rw [mem_blk0]
  intro a
  match a with
  | ⟨0, _⟩ => show win0_12.index t (0 : Fin 2) * 2000 ≤ (i 0).val ∧ (i 0).val < win0_12.index t (0 : Fin 2) * 2000 + 2000; omega
  | ⟨1, _⟩ => show win0_12.index t (1 : Fin 2) * 256 ≤ (i 1).val ∧ (i 1).val < win0_12.index t (1 : Fin 2) * 256 + 256; omega

/-- The result array after the first layer kernel's run is the layer of the whole arrays. -/
theorem final0 (c : Dev nD) :
    (dat0 (F := Ideal) V c).arrAt 12 cfg0.N
      = Cert.Spec.layer (n := 100000) (V c main_v21) (V c main_arg0) (V c main_arg0) (V c main_arg12) (V c main_arg14) (V c main_arg16)
          (fun j => V c main_v22 (ix2 0 j)) (fun j => V c main_v23 (ix2 0 j)) (fun j => V c main_v24 (ix2 0 j)) (V c main_v27 (ix2 0 0))
          (fun j => V c main_v25 (ix2 0 j)) (fun j => V c main_v26 (ix2 0 j)) :=
  (dat0 (F := Ideal) V c).arrAt_eq_of_cover 12 (layerAll0 V c) (fun t _ => flushed0_eq V c t) (cover_all0)

end Cert.KernelIdeal.HandValue

end
-- ==== Proof.KPay1.lean ====
/-
  Layer kernel 1's stored block is the specification's layer on the loaded blocks.

  The kernel's stored value is the shared composition of the three affine maps, the gate's mix, the rectifier
  and the row normalisation (the definitions unfold to it); the block's entry (p, q) is then the
  specification's layer on row p of the three loaded blocks, the bias, scale and shift rows read off their
  one-row blocks and the gate off its one-entry block.
-/
import proofs.«160845_j81252191306258_1_alg».proof.Proof.KPayLib

set_option maxRecDepth 16384

noncomputable section

open scoped BigOperators

namespace Cert.KernelIdeal.HandValue

open Cert.KernelIdeal Cert.KernelIdeal.Gen Cert.KernelIdeal.Hand
open Idealize.ShloMosaic Idealize.ShloMosaic.ValueIdx

/-- The stored value is the shared tail on the gated sum. -/
theorem k1_pay1_eq (A H X : FVec Ideal S2000x256 .f32) (σ : FVec Ideal S1x1 .f32) (c : Ideal .f32) (s t : Vec Ideal S1x256 .f32) :
    k1_pay1 A H X σ c s t = knorm (krelu (kmix A H X σ (broadcast S1x1 c))) s t := rfl

/-- The three affine maps are the shared one (the first two after an identity cast of the block). -/
theorem k1_pay2_eq (v : Vec Ideal S2000x256 .f32) (w : Vec Ideal S256x256 .f32) (b : Vec Ideal S1x256 .f32) :
    k1_pay2 v w b = kaff (shapeCast S2000x256 v shapeCasts_S2000x256_S2000x256) w b := rfl
theorem k1_pay3_eq (v : Vec Ideal S2000x256 .f32) (w : Vec Ideal S256x256 .f32) (b : Vec Ideal S1x256 .f32) :
    k1_pay3 v w b = kaff (shapeCast S2000x256 v shapeCasts_S2000x256_S2000x256) w b := rfl
theorem k1_pay4_eq (v : Vec Ideal S2000x256 .f32) (w : Vec Ideal S256x256 .f32) (b : Vec Ideal S1x256 .f32) :
    k1_pay4 v w b = kaff v w b := rfl

/-- The gate's weight is the logistic function of the gate's one entry. -/
theorem k1_pay5_apply (g : Vec Ideal S1x1 .f32) :
    k1_pay5 g (ix2 (0 : Fin 1) (0 : Fin 1)) = Ideal.logistic (g (ix2 (0 : Fin 1) (0 : Fin 1))) := by
  unfold k1_pay5
  show Ideal.logistic (shapeCast S1x1 g shapeCasts_S1x1_S1x1 (ix2 (0 : Fin 1) (0 : Fin 1))) = _
  rw [shapeCast_self]

/-- The scalar word for 1, broadcast to a one-entry matrix. -/
theorem k1_one_apply :
    broadcast (α := Ideal .f32) S1x1 (Scalar.ofBits (F := Ideal) .f32 0x3F800000#32) (ix2 (0 : Fin 1) (0 : Fin 1)) = 1 :=
  Ideal.ofBits_one_f32

/-- The stored block is the specification's layer of the loaded blocks. -/
theorem out1_eq (x0 x1 x2 : Vec Ideal S2000x256 .f32) (x3 : Vec Ideal S256x256 .f32) (x4 : Vec Ideal S1x256 .f32)
    (x5 : Vec Ideal S256x256 .f32) (x6 : Vec Ideal S1x256 .f32) (x7 : Vec Ideal S256x256 .f32) (x8 : Vec Ideal S1x256 .f32)
    (x9 : Vec Ideal S1x1 .f32) (x10 x11 : Vec Ideal S1x256 .f32) :
    out1 x0 x1 x2 x3 x4 x5 x6 x7 x8 x9 x10 x11
      = Cert.Spec.layer (n := 2000) x0 x1 x2 x3 x5 x7 (fun j => x4 (ix2 0 j)) (fun j => x6 (ix2 0 j)) (fun j => x8 (ix2 0 j))
          (x9 (ix2 0 0)) (fun j => x10 (ix2 0 j)) (fun j => x11 (ix2 0 j)) := by
  unfold out1
  rw [View.canon_unit_zero hzL]
  simp only [View.ld_unit_zero (S := S2000x256) hzL, View.ld_unit_zero (S := S256x256) hzL,
    View.ld_unit_zero (S := S1x256) hzL, View.ld_unit_zero (S := S1x1) hzL]
  funext j
  obtain ⟨p, q, rfl⟩ : ∃ (p : Fin 2000) (q : Fin 256), j = ix2 p q := ⟨j 0, j 1, eq_ix2 j⟩
  rw [k1_pay1_eq, ktail_apply]
  refine congrArg (fun ρ => Cert.Spec.norm ρ (fun k => x10 (ix2 (0 : Fin 1) k)) (fun k => x11 (ix2 (0 : Fin 1) k)) q) (funext fun k => ?_)
  rw [k1_pay2_eq, k1_pay3_eq, k1_pay4_eq, kaff_apply, kaff_apply, kaff_apply, k1_pay5_apply, k1_one_apply,
    shapeCast_self, shapeCast_self]
  rfl

end Cert.KernelIdeal.HandValue

end
-- ==== Proof.KFinal1.lean ====
/-
  The second layer over the whole array.

  The layer kernel runs over 50 grid points; point t reads rows 2000·t … 2000·t + 1999 of the aggregated features, of
  the current features and of the input features and writes the same rows of the result, while the three weight
  matrices, the three bias rows, the gate and the normalisation's scale and shift are the same whole arrays at every
  point. The specification's layer is computed row by row from the same row of its three inputs, so what point t
  writes back is block t of the layer of the whole arrays; the 50 blocks of 2000 rows cover the 100000 rows, hence
  the array after the run is that layer.
-/
import proofs.«160845_j81252191306258_1_alg».proof.Proof.KPay1
import proofs.«160845_j81252191306258_1_alg».proof.Proof.KRows
import Idealize.ShloMosaic.Lib.ValueIdx
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

/-! ## The index maps over the grid: the four row windows are at block t, the nine parameter windows at block 0 -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = t.val ∧ win1_12.index t (1 : Fin 2) = 0 :=
  (by decide +kernel : ∀ t : Fin grid1.N, _)

/-! ## Where an entry of each input block sits in its array, against where the output block's entry sits -/

theorem embRow1_0 (t : Fin cfg1.N) (y : ((cfg1.win 12).xblock (grid1.coords t)).Idx) (k : Fin 256) :
    ((cfg1.win 0).blk t).view.emb (ix2 (y 0) k) = ix2 ((((cfg1.win 12).blk t).view.emb y) 0) k := by
  obtain ⟨e0, e1⟩ := idx1_0 t
  obtain ⟨f0, f1⟩ := idx1_12 t
  have hy0 : (y 0).val < 2000 := (y 0).isLt
  funext a; apply Fin.ext
  match a with
  | ⟨0, _⟩ => show win1_0.index t (0 : Fin 2) * 2000 + 1 * (y 0).val = win1_12.index t (0 : Fin 2) * 2000 + 1 * (y 0).val; omega
  | ⟨1, _⟩ => show win1_0.index t (1 : Fin 2) * 256 + 1 * k.val = k.val; omega
theorem embRow1_1 (t : Fin cfg1.N) (y : ((cfg1.win 12).xblock (grid1.coords t)).Idx) (k : Fin 256) :
    ((cfg1.win 1).blk t).view.emb (ix2 (y 0) k) = ix2 ((((cfg1.win 12).blk t).view.emb y) 0) k := by
  obtain ⟨e0, e1⟩ := idx1_1 t
  obtain ⟨f0, f1⟩ := idx1_12 t
  have hy0 : (y 0).val < 2000 := (y 0).isLt
  funext a; apply Fin.ext
  match a with
  | ⟨0, _⟩ => show win1_1.index t (0 : Fin 2) * 2000 + 1 * (y 0).val = win1_12.index t (0 : Fin 2) * 2000 + 1 * (y 0).val; omega
  | ⟨1, _⟩ => show win1_1.index t (1 : Fin 2) * 256 + 1 * k.val = k.val; omega
theorem embRow1_2 (t : Fin cfg1.N) (y : ((cfg1.win 12).xblock (grid1.coords t)).Idx) (k : Fin 256) :
    ((cfg1.win 2).blk t).view.emb (ix2 (y 0) k) = ix2 ((((cfg1.win 12).blk t).view.emb y) 0) k := by
  obtain ⟨e0, e1⟩ := idx1_2 t
  obtain ⟨f0, f1⟩ := idx1_12 t
  have hy0 : (y 0).val < 2000 := (y 0).isLt
  funext a; apply Fin.ext
  match a with
  | ⟨0, _⟩ => show win1_2.index t (0 : Fin 2) * 2000 + 1 * (y 0).val = win1_12.index t (0 : Fin 2) * 2000 + 1 * (y 0).val; omega
  | ⟨1, _⟩ => show win1_2.index t (1 : Fin 2) * 256 + 1 * k.val = k.val; omega
theorem embMat1_3 (t : Fin cfg1.N) (j : S256x256.Idx) : ((cfg1.win 3).blk t).view.emb j = j := by
  obtain ⟨e0, e1⟩ := idx1_3 t
  funext a; apply Fin.ext
  match a with
  | ⟨0, _⟩ => show win1_3.index t (0 : Fin 2) * 256 + 1 * (j 0).val = (j 0).val; omega
  | ⟨1, _⟩ => show win1_3.index t (1 : Fin 2) * 256 + 1 * (j 1).val = (j 1).val; omega
theorem embMat1_5 (t : Fin cfg1.N) (j : S256x256.Idx) : ((cfg1.win 5).blk t).view.emb j = j := by
  obtain ⟨e0, e1⟩ := idx1_5 t
  funext a; apply Fin.ext
  match a with
  | ⟨0, _⟩ => show win1_5.index t (0 : Fin 2) * 256 + 1 * (j 0).val = (j 0).val; omega
  | ⟨1, _⟩ => show win1_5.index t (1 : Fin 2) * 256 + 1 * (j 1).val = (j 1).val; omega
theorem embMat1_7 (t : Fin cfg1.N) (j : S256x256.Idx) : ((cfg1.win 7).blk t).view.emb j = j := by
  obtain ⟨e0, e1⟩ := idx1_7 t
  funext a; apply Fin.ext
  match a with
  | ⟨0, _⟩ => show win1_7.index t (0 : Fin 2) * 256 + 1 * (j 0).val = (j 0).val; omega
  | ⟨1, _⟩ => show win1_7.index t (1 : Fin 2) * 256 + 1 * (j 1).val = (j 1).val; omega
theorem embVec1_4 (t : Fin cfg1.N) (j : Fin 256) : ((cfg1.win 4).blk t).view.emb (ix2 0 j) = ix2 0 j := by
  obtain ⟨e0, e1⟩ := idx1_4 t
  funext a; apply Fin.ext
  match a with
  | ⟨0, _⟩ => show win1_4.index t (0 : Fin 2) * 1 + 1 * 0 = 0; omega
  | ⟨1, _⟩ => show win1_4.index t (1 : Fin 2) * 256 + 1 * j.val = j.val; omega
theorem embVec1_6 (t : Fin cfg1.N) (j : Fin 256) : ((cfg1.win 6).blk t).view.emb (ix2 0 j) = ix2 0 j := by
  obtain ⟨e0, e1⟩ := idx1_6 t
  funext a; apply Fin.ext
  match a with
  | ⟨0, _⟩ => show win1_6.index t (0 : Fin 2) * 1 + 1 * 0 = 0; omega
  | ⟨1, _⟩ => show win1_6.index t (1 : Fin 2) * 256 + 1 * j.val = j.val; omega
theorem embVec1_8 (t : Fin cfg1.N) (j : Fin 256) : ((cfg1.win 8).blk t).view.emb (ix2 0 j) = ix2 0 j := by
  obtain ⟨e0, e1⟩ := idx1_8 t
  funext a; apply Fin.ext
  match a with
  | ⟨0, _⟩ => show win1_8.index t (0 : Fin 2) * 1 + 1 * 0 = 0; omega
  | ⟨1, _⟩ => show win1_8.index t (1 : Fin 2) * 256 + 1 * j.val = j.val; omega
theorem embVec1_10 (t : Fin cfg1.N) (j : Fin 256) : ((cfg1.win 10).blk t).view.emb (ix2 0 j) = ix2 0 j := by
  obtain ⟨e0, e1⟩ := idx1_10 t
  funext a; apply Fin.ext
  match a with
  | ⟨0, _⟩ => show win1_10.index t (0 : Fin 2) * 1 + 1 * 0 = 0; omega
  | ⟨1, _⟩ => show win1_10.index t (1 : Fin 2) * 256 + 1 * j.val = j.val; omega
theorem embVec1_11 (t : Fin cfg1.N) (j : Fin 256) : ((cfg1.win 11).blk t).view.emb (ix2 0 j) = ix2 0 j := by
  obtain ⟨e0, e1⟩ := idx1_11 t
  funext a; apply Fin.ext
  match a with
  | ⟨0, _⟩ => show win1_11.index t (0 : Fin 2) * 1 + 1 * 0 = 0; omega
  | ⟨1, _⟩ => show win1_11.index t (1 : Fin 2) * 256 + 1 * j.val = j.val; omega
theorem embGate1 (t : Fin cfg1.N) : ((cfg1.win 9).blk t).view.emb (ix2 0 0) = ix2 0 0 := by
  obtain ⟨e0, e1⟩ := idx1_9 t
  funext a; apply Fin.ext
  match a with
  | ⟨0, _⟩ => show win1_9.index t (0 : Fin 2) * 1 + 1 * 0 = 0; omega
  | ⟨1, _⟩ => show win1_9.index t (1 : Fin 2) * 1 + 1 * 0 = 0; omega
theorem embCol1 (t : Fin cfg1.N) (y : ((cfg1.win 12).xblock (grid1.coords t)).Idx) : ((((cfg1.win 12).blk t).view.emb y) 1 : Fin 256) = y 1 := by
  obtain ⟨f0, f1⟩ := idx1_12 t
  exact Fin.ext (by show win1_12.index t (1 : Fin 2) * 256 + 1 * (y 1).val = (y 1).val; omega)

variable (V : (c : Dev nD) → (b : Ref sig .tc) → Buf (Elt Ideal) ((c : Thread nD τ).loc b))

/-- The layer of the whole arrays as the region finds them. -/
abbrev layerAll1 (c : Dev nD) : S100000x256.Idx → EReal :=
  Cert.Spec.layer (n := 100000) (V c main_v50) (V c main_v28) (V c main_arg0) (V c main_arg3) (V c main_arg5) (V c main_arg7)
    (fun j => V c main_v51 (ix2 0 j)) (fun j => V c main_v52 (ix2 0 j)) (fun j => V c main_v53 (ix2 0 j)) (V c main_v56 (ix2 0 0))
    (fun j => V c main_v54 (ix2 0 j)) (fun j => V c main_v55 (ix2 0 j))

/-! ## Each argument of the row function, as point t's blocks give it and as the whole arrays give it -/

theorem arg1_0 (c : Dev nD) (t : Fin cfg1.N) (y : ((cfg1.win 12).xblock (grid1.coords t)).Idx) :
    (fun k : Fin 256 => (V c main_v50 (((cfg1.win 0).blk t).view.emb (ix2 (y 0) k)) : EReal)) = fun k => V c main_v50 (ix2 ((((cfg1.win 12).blk t).view.emb y) 0) k) :=
  funext fun k => by rw [embRow1_0 t y k] <;> rfl
theorem arg1_1 (c : Dev nD) (t : Fin cfg1.N) (y : ((cfg1.win 12).xblock (grid1.coords t)).Idx) :
    (fun k : Fin 256 => (V c main_v28 (((cfg1.win 1).blk t).view.emb (ix2 (y 0) k)) : EReal)) = fun k => V c main_v28 (ix2 ((((cfg1.win 12).blk t).view.emb y) 0) k) :=
  funext fun k => by rw [embRow1_1 t y k] <;> rfl
theorem arg1_2 (c : Dev nD) (t : Fin cfg1.N) (y : ((cfg1.win 12).xblock (grid1.coords t)).Idx) :
    (fun k : Fin 256 => (V c main_arg0 (((cfg1.win 2).blk t).view.emb (ix2 (y 0) k)) : EReal)) = fun k => V c main_arg0 (ix2 ((((cfg1.win 12).blk t).view.emb y) 0) k) :=
  funext fun k => by rw [embRow1_2 t y k] <;> rfl
theorem arg1_3 (c : Dev nD) (t : Fin cfg1.N) :
    (fun j : S256x256.Idx => (V c main_arg3 (((cfg1.win 3).blk t).view.emb j) : EReal)) = V c main_arg3 :=
  funext fun j => by rw [embMat1_3 t j] <;> rfl
theorem arg1_5 (c : Dev nD) (t : Fin cfg1.N) :
    (fun j : S256x256.Idx => (V c main_arg5 (((cfg1.win 5).blk t).view.emb j) : EReal)) = V c main_arg5 :=
  funext fun j => by rw [embMat1_5 t j] <;> rfl
theorem arg1_7 (c : Dev nD) (t : Fin cfg1.N) :
    (fun j : S256x256.Idx => (V c main_arg7 (((cfg1.win 7).blk t).view.emb j) : EReal)) = V c main_arg7 :=
  funext fun j => by rw [embMat1_7 t j] <;> rfl
theorem arg1_4 (c : Dev nD) (t : Fin cfg1.N) :
    (fun j : Fin 256 => (V c main_v51 (((cfg1.win 4).blk t).view.emb (ix2 0 j)) : EReal)) = fun j => V c main_v51 (ix2 0 j) :=
  funext fun j => by rw [embVec1_4 t j] <;> rfl
theorem arg1_6 (c : Dev nD) (t : Fin cfg1.N) :
    (fun j : Fin 256 => (V c main_v52 (((cfg1.win 6).blk t).view.emb (ix2 0 j)) : EReal)) = fun j => V c main_v52 (ix2 0 j) :=
  funext fun j => by rw [embVec1_6 t j] <;> rfl
theorem arg1_8 (c : Dev nD) (t : Fin cfg1.N) :
    (fun j : Fin 256 => (V c main_v53 (((cfg1.win 8).blk t).view.emb (ix2 0 j)) : EReal)) = fun j => V c main_v53 (ix2 0 j) :=
  funext fun j => by rw [embVec1_8 t j] <;> rfl
theorem arg1_10 (c : Dev nD) (t : Fin cfg1.N) :
    (fun j : Fin 256 => (V c main_v54 (((cfg1.win 10).blk t).view.emb (ix2 0 j)) : EReal)) = fun j => V c main_v54 (ix2 0 j) :=
  funext fun j => by rw [embVec1_10 t j] <;> rfl
theorem arg1_11 (c : Dev nD) (t : Fin cfg1.N) :
    (fun j : Fin 256 => (V c main_v55 (((cfg1.win 11).blk t).view.emb (ix2 0 j)) : EReal)) = fun j => V c main_v55 (ix2 0 j) :=
  funext fun j => by rw [embVec1_11 t j] <;> rfl
theorem arg1_9 (c : Dev nD) (t : Fin cfg1.N) :
    (V c main_v56 (((cfg1.win 9).blk t).view.emb (ix2 0 0)) : EReal) = V c main_v56 (ix2 0 0) := by
  rw [embGate1 t] <;> rfl

set_option maxHeartbeats 1000000 in
/-- What point t writes back is block t of the whole arrays' layer. -/
theorem flushed1_eq (c : Dev nD) (t : Fin cfg1.N) :
    (dat1 (F := Ideal) V c).flushed 12 t = ((cfg1.win 12).blk t).view.read (Elt Ideal) (layerAll1 V c) := by
  show (cfg1.win 12).cut (grid1.coords t) ((dat1 (F := Ideal) V c).after 12 t) = _
  rw [after1_12]
  rw [out1_eq (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)]
  funext y
  show Cert.Spec.layerRow (fun k => V c main_v50 (((cfg1.win 0).blk t).view.emb (ix2 (y 0) k))) (fun k => V c main_v28 (((cfg1.win 1).blk t).view.emb (ix2 (y 0) k)))
        (fun k => V c main_arg0 (((cfg1.win 2).blk t).view.emb (ix2 (y 0) k)))
        (fun j => V c main_arg3 (((cfg1.win 3).blk t).view.emb j)) (fun j => V c main_arg5 (((cfg1.win 5).blk t).view.emb j)) (fun j => V c main_arg7 (((cfg1.win 7).blk t).view.emb j))
        (fun j => V c main_v51 (((cfg1.win 4).blk t).view.emb (ix2 0 j))) (fun j => V c main_v52 (((cfg1.win 6).blk t).view.emb (ix2 0 j))) (fun j => V c main_v53 (((cfg1.win 8).blk t).view.emb (ix2 0 j)))
        (V c main_v56 (((cfg1.win 9).blk t).view.emb (ix2 0 0)))
        (fun j => V c main_v54 (((cfg1.win 10).blk t).view.emb (ix2 0 j))) (fun j => V c main_v55 (((cfg1.win 11).blk t).view.emb (ix2 0 j))) (y 1)
      = Cert.Spec.layerRow (fun k => V c main_v50 (ix2 ((((cfg1.win 12).blk t).view.emb y) 0) k)) (fun k => V c main_v28 (ix2 ((((cfg1.win 12).blk t).view.emb y) 0) k))
        (fun k => V c main_arg0 (ix2 ((((cfg1.win 12).blk t).view.emb y) 0) k))
        (V c main_arg3) (V c main_arg5) (V c main_arg7)
        (fun j => V c main_v51 (ix2 0 j)) (fun j => V c main_v52 (ix2 0 j)) (fun j => V c main_v53 (ix2 0 j))
        (V c main_v56 (ix2 0 0))
        (fun j => V c main_v54 (ix2 0 j)) (fun j => V c main_v55 (ix2 0 j)) ((((cfg1.win 12).blk t).view.emb y) 1)
  rw [embCol1 t y]
  exact layerRow_congr (y 1) (arg1_0 V c t y) (arg1_1 V c t y) (arg1_2 V c t y) (arg1_3 V c t) (arg1_5 V c t) (arg1_7 V c t)
    (arg1_4 V c t) (arg1_6 V c t) (arg1_8 V c t) (arg1_9 V c t) (arg1_10 V c t) (arg1_11 V c t)

/-- An index of the result array is in point t's block iff each coordinate is in the block's range. -/
theorem mem_blk1 (t : Fin cfg1.N) (i : S100000x256.Idx) :
    i ∈ ((cfg1.win 12).blk t).view.set ↔ ∀ a : Fin 2, win1_12.index t a * S2000x256.size a ≤ (i a).val ∧ (i a).val < win1_12.index t a * S2000x256.size a + S2000x256.size a := by
  show i ∈ ((View.whole main_v57).slice (win1_12.rect t)).set ↔ _
  rw [View.set_slice_whole, Rect.mem_set_unit]
  exact Iff.rfl

/-- Row r of the result is in the block of point r / 2000. -/
theorem cover_all1 (i : S100000x256.Idx) :
    ∃ t : Fin cfg1.N, (cfg1.win 12).flush t = true ∧ i ∈ ((cfg1.win 12).blk t).view.set := by
  have hi0 : (i 0).val < 100000 := (i 0).isLt
  have hi1 : (i 1).val < 256 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨f0, f1⟩ := idx1_12 t
  refine ⟨t, flush1_12 t, ?_⟩
  rw [mem_blk1]
  intro a
  match a with
  | ⟨0, _⟩ => show win1_12.index t (0 : Fin 2) * 2000 ≤ (i 0).val ∧ (i 0).val < win1_12.index t (0 : Fin 2) * 2000 + 2000; omega
  | ⟨1, _⟩ => show win1_12.index t (1 : Fin 2) * 256 ≤ (i 1).val ∧ (i 1).val < win1_12.index t (1 : Fin 2) * 256 + 256; omega

/-- The result array after the second layer kernel's run is the layer of the whole arrays. -/
theorem final1 (c : Dev nD) :
    (dat1 (F := Ideal) V c).arrAt 12 cfg1.N
      = Cert.Spec.layer (n := 100000) (V c main_v50) (V c main_v28) (V c main_arg0) (V c main_arg3) (V c main_arg5) (V c main_arg7)
          (fun j => V c main_v51 (ix2 0 j)) (fun j => V c main_v52 (ix2 0 j)) (fun j => V c main_v53 (ix2 0 j)) (V c main_v56 (ix2 0 0))
          (fun j => V c main_v54 (ix2 0 j)) (fun j => V c main_v55 (ix2 0 j)) :=
  (dat1 (F := Ideal) V c).arrAt_eq_of_cover 12 (layerAll1 V c) (fun t _ => flushed1_eq V c t) (cover_all1)

end Cert.KernelIdeal.HandValue

end
-- ==== Proof.KPay2.lean ====
/-
  The output projection's block, entry by entry.

  The projection kernel loads a block of 2000 feature rows, the whole 128 × 256 weight matrix and the bias row,
  and stores  h · Wᵀ + b : the matrix product is taken after rounding both operands to bf16 (the identity on the
  extended reals) and after transposing the weights, into a zero accumulator. Read at the entry (p, q) of the
  block this is the specification's `projRow`: the sum over the 256 input columns k of h[p,k] · W[q,k], plus b[q].
-/
import proofs.«160845_j81252191306258_1_alg».proof.Proof.KData
import proofs.«160845_j81252191306258_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

open scoped BigOperators

namespace Cert.KernelIdeal.HandValue

open Cert.KernelIdeal Cert.KernelIdeal.Gen Cert.KernelIdeal.Hand
open Idealize.ShloMosaic Idealize.ShloMosaic.ValueIdx

/-- The staging rectangles start at the origin. -/
theorem hz : (![0, 0] : Fin 2 → Nat) = fun _ => 0 := funext fun a => by fin_cases a <;> rfl

/-- The projection's dimension numbers: rows × 256 times 256 × 128. -/
abbrev DP : DotDims S2000x256 S256x128 S2000x128 := dot_S2000x256_S256x128_S2000x128_1_0_0_1_n_n

theorem dp_lhs0 (j : S2000x128.Idx) (k : DP.contr.Idx) : (DP.lhsIdx j k 0 : ℕ) = j 0 := by
  simp [DotDims.lhsIdx, DP, dot_S2000x256_S256x128_S2000x128_1_0_0_1_n_n]; rfl
theorem dp_rhs1 (j : S2000x128.Idx) (k : DP.contr.Idx) : (DP.rhsIdx j k 1 : ℕ) = j 1 := by
  simp [DotDims.rhsIdx, DP, dot_S2000x256_S256x128_S2000x128_1_0_0_1_n_n]; rfl

/-- The product into the zero accumulator at (p, q): the sum over the contracted column. -/
theorem mmP (l : FVec Ideal S2000x256 .bf16) (r : FVec Ideal S256x128 .bf16) (p : Fin 2000) (q : Fin 128) :
    matmul DP none l r (constant (F := Ideal) S2000x128 .f32 0x00000000#32) (ix2 p q)
      = ∑ k : Fin 256, l (ix2 p k) * r (ix2 k q) := by
  refine (Ideal.matmul_constant_zero_apply DP none l r (ix2 p q)).trans ?_
  rw [← Equiv.sum_comp (contrEquiv1 DP 256 rfl rfl).symm]
  refine Finset.sum_congr rfl fun k _ => ?_
  have hl : DP.lhsIdx (ix2 p q) ((contrEquiv1 DP 256 rfl rfl).symm k) = ix2 p k :=
    funext fun a => Fin.ext (match a with
      | ⟨0, _⟩ => dp_lhs0 _ _
      | ⟨1, _⟩ => (DP.lhsIdx_val_of_single (cl := 1) rfl _ _).trans (contrEquiv1_symm_val DP 256 rfl rfl k))
  have hr : DP.rhsIdx (ix2 p q) ((contrEquiv1 DP 256 rfl rfl).symm k) = ix2 k q :=
    funext fun a => Fin.ext (match a with
      | ⟨0, _⟩ => (DP.rhsIdx_val_of_single (cr := 0) rfl _ _).trans (contrEquiv1_symm_val DP 256 rfl rfl k)
      | ⟨1, _⟩ => dp_rhs1 _ _)
  rw [hl, hr]

/-- The projection's payload at (p, q). -/
theorem pay2_apply (x0 : Vec Ideal S2000x256 .f32) (x1 : Vec Ideal S128x256 .f32) (x2 : Vec Ideal S1x128 .f32)
    (p : Fin 2000) (q : Fin 128) :
    k2_pay1 x0 x1 x2 (ix2 p q) = (∑ k : Fin 256, x0 (ix2 p k) * x1 (ix2 q k)) + x2 (ix2 0 q) := by
  unfold k2_pay1
  refine congrArg₂ (· + ·) ?_ ?_
  · refine (mmP _ _ p q).trans ?_
    refine Finset.sum_congr rfl fun k _ => ?_
    refine congrArg₂ (· * ·) ?_ ?_
    · exact congrFun (shapeCast_self x0 shapeCasts_S2000x256_S2000x256) (ix2 p k)
    · exact transpose_ix2_apply (truncf (F := Ideal) (φ := .f32) .bf16 x1 bitsLt_bf16_f32) transposes_S128x256_p1_0_S256x128 k q
  · refine (broadcastTo_1b_ab_apply _ broadcasts_S1x128_S2000x128 p q).trans ?_
    exact congrFun (shapeCast_self x2 shapeCasts_S1x128_S1x128) (ix2 0 q)

/-- The projection's output block is the specification's projection of the loaded blocks. -/
theorem out2_eq (x0 : Vec Ideal S2000x256 .f32) (x1 : Vec Ideal S128x256 .f32) (x2 : Vec Ideal S1x128 .f32) :
    out2 x0 x1 x2 = Cert.Spec.proj (n := 2000) x0 x1 (fun j => x2 (ix2 0 j)) := by
  unfold out2
  rw [View.canon_unit_zero hz]
  simp only [View.ld_unit_zero (S := S2000x256) hz, View.ld_unit_zero (S := S128x256) hz, View.ld_unit_zero (S := S1x128) hz]
  funext j
  obtain ⟨p, q, rfl⟩ : ∃ (p : Fin 2000) (q : Fin 128), j = ix2 p q := ⟨j 0, j 1, eq_ix2 j⟩
  exact pay2_apply x0 x1 x2 p q

end Cert.KernelIdeal.HandValue

end
-- ==== Proof.KFinal2.lean ====
/-
  The output projection over the whole array.

  The projection kernel runs over 50 grid points; point t reads rows 2000·t … 2000·t + 1999 of the features and
  writes the same rows of the result, the weights and the bias being the same whole arrays at every point. The
  specification's projection of a row depends on that row only, so what point t writes back is block t of the
  projection of the whole feature array, and since the 50 blocks of 2000 rows cover the 100000 rows, the array
  after the run is that projection.
-/
import proofs.«160845_j81252191306258_1_alg».proof.Proof.KPay2
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The projection of the whole feature array as the region finds it. -/
abbrev projAll (c : Dev nD) : S100000x128.Idx → EReal :=
  Cert.Spec.proj (n := 100000) (V c main_v57) (V c main_arg21) (fun j => V c main_v58 (ix2 0 j))

/-- The index maps over the grid: the row windows are at block t, the parameter windows at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The projection of a row depends on the row, the weights and the bias entry by entry. -/
theorem projRow_congr {h h' : Cert.Spec.Row} {w w' : Cert.Spec.W128} {b b' : Fin 128 → EReal} {j : Fin 128}
    (hh : ∀ k, h k = h' k) (hw : ∀ i, w i = w' i) (hb : b j = b' j) :
    Cert.Spec.projRow h w b j = Cert.Spec.projRow h' w' b' j := by
  unfold Cert.Spec.projRow
  rw [hb]
  exact congrArg (· + b' j) (Finset.sum_congr rfl fun k _ => by rw [hh k, hw])

/-- What point t writes back is block t of the whole array's projection. -/
theorem flushed2_eq (c : Dev nD) (t : Fin cfg2.N) :
    (dat2 (F := Ideal) V c).flushed 3 t = ((cfg2.win 3).blk t).view.read (Elt Ideal) (projAll V c) := by
  show (cfg2.win 3).cut (grid2.coords t) ((dat2 (F := Ideal) V c).after 3 t) = _
  rw [after2_3]
  rw [out2_eq (iblk2 V c 0 t) (iblk2 V c 1 t) (iblk2 V c 2 t)]
  obtain ⟨e0, e1, e2, e3, e4, e5, e6, e7⟩ := idx_facts2 t
  funext y
  show Cert.Spec.projRow (fun k => V c main_v57 (((cfg2.win 0).blk t).view.emb (ix2 (y 0) k)))
        (fun j => V c main_arg21 (((cfg2.win 1).blk t).view.emb j))
        (fun j => V c main_v58 (((cfg2.win 2).blk t).view.emb (ix2 0 j))) (y 1)
      = Cert.Spec.projRow (fun k => V c main_v57 (ix2 ((((cfg2.win 3).blk t).view.emb y) 0) k))
        (V c main_arg21) (fun j => V c main_v58 (ix2 0 j)) ((((cfg2.win 3).blk t).view.emb y) 1)
  have hy0 : (y 0).val < 2000 := (y 0).isLt
  have hy1 : (y 1).val < 128 := (y 1).isLt
  have h0 : ∀ k : Fin 256, ((cfg2.win 0).blk t).view.emb (ix2 (y 0) k) = ix2 ((((cfg2.win 3).blk t).view.emb y) 0) k := fun k => by
    funext a; apply Fin.ext
    match a with
    | ⟨0, _⟩ => show win2_0.index t (0 : Fin 2) * 2000 + 1 * (y 0).val = win2_3.index t (0 : Fin 2) * 2000 + 1 * (y 0).val; omega
    | ⟨1, _⟩ => show win2_0.index t (1 : Fin 2) * 256 + 1 * k.val = k.val; omega
  have h1 : ∀ j : S128x256.Idx, ((cfg2.win 1).blk t).view.emb j = j := fun j => by
    funext a; apply Fin.ext
    match a with
    | ⟨0, _⟩ => show win2_1.index t (0 : Fin 2) * 128 + 1 * (j 0).val = (j 0).val; omega
    | ⟨1, _⟩ => show win2_1.index t (1 : Fin 2) * 256 + 1 * (j 1).val = (j 1).val; omega
  have h2 : ∀ j : Fin 128, ((cfg2.win 2).blk t).view.emb (ix2 0 j) = ix2 0 j := fun j => by
    funext a; apply Fin.ext
    match a with
    | ⟨0, _⟩ => show win2_2.index t (0 : Fin 2) * 1 + 1 * 0 = 0; omega
    | ⟨1, _⟩ => show win2_2.index t (1 : Fin 2) * 128 + 1 * j.val = j.val; omega
  have h3 : ((((cfg2.win 3).blk t).view.emb y) 1 : Fin 128) = y 1 := Fin.ext (by
    show win2_3.index t (1 : Fin 2) * 128 + 1 * (y 1).val = (y 1).val; omega)
  rw [h3]
  refine projRow_congr (fun k => by rw [h0 k] <;> rfl) (fun j => by rw [h1 j] <;> rfl) (by rw [h2 (y 1)] <;> rfl)

/-- An index of the result array is in point t's block iff each coordinate is in the block's range. -/
theorem mem_blk2 (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v59).slice (win2_3.rect t)).set ↔ _
  rw [View.set_slice_whole, Rect.mem_set_unit]
  exact Iff.rfl

/-- Row r of the result is in the block of point r / 2000. -/
theorem cover_all2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨e0, e1, e2, e3, e4, e5, e6, e7⟩ := idx_facts2 t
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The result array after the projection kernel's run is the projection of the whole feature array. -/
theorem final2 (c : Dev nD) :
    (dat2 (F := Ideal) V c).arrAt 3 cfg2.N
      = Cert.Spec.proj (n := 100000) (V c main_v57) (V c main_arg21) (fun j => V c main_v58 (ix2 0 j)) :=
  (dat2 (F := Ideal) V c).arrAt_eq_of_cover 3 (projAll V c) (fun t _ => flushed2_eq V c t) cover_all2

end Cert.KernelIdeal.HandValue

end
-- ==== Proof.RefOps.lean ====
/-
  The reference program as a list of its host operations.

  @main is a straight line of 217 tensor operations once the six calls it makes (the in-degree's clip, the
  rectifier and the row variance, each once per layer; the variance's own selection inside it) are replaced by
  the called bodies over the buffers of that call. The list is cut where the mathematics is: per layer the
  neighbourhood mean, the gated sum of the three affine maps, the rectifier and the row normalisation; then the
  output projection. Two of the pieces are cut once more where the program text is printed in windows, so that
  each window is a concatenation of whole pieces.

  Proved here: @main is the sequence of that list; no buffer or semaphore of the signature is scoped; every
  operation touches TensorCore buffers only and determines its result.
-/
import proofs.«160845_j81252191306258_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first layer's neighbourhood mean: the edge list's two rows, the wrapped sender indices, the gather of the input rows, their scatter-add at the receivers, the in-degree clipped below at one, and the division (30 operations; the clip's three inline). -/
abbrev ops_agg1 : List (HloOp τ sig (Elt F)) :=
  [ unary main_arg2 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg2 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    nullary main_c (constantI S_ 32 0#32),
    unary main_c main_v4 (broadcastInDim S400000 ![] bcast_S_S400000 : (⟨S_, .i32⟩ : BufTy).Contents (Elt F) → (⟨S400000, .i32⟩ : BufTy).Contents (Elt F)),
    binary main_v3 main_v4 main_v5 (cmpi .slt : (⟨S400000, .i32⟩ : BufTy).Contents (Elt F) → (⟨S400000, .i32⟩ : BufTy).Contents (Elt F) → (⟨S400000, .i1⟩ : BufTy).Contents (Elt F)),
    nullary main_c_0 (constantI S_ 32 100000#32),
    unary main_c_0 main_v6 (broadcastInDim S400000 ![] bcast_S_S400000 : (⟨S_, .i32⟩ : BufTy).Contents (Elt F) → (⟨S400000, .i32⟩ : BufTy).Contents (Elt F)),
    binary main_v3 main_v6 main_v7 (addi : (⟨S400000, .i32⟩ : BufTy).Contents (Elt F) → (⟨S400000, .i32⟩ : BufTy).Contents (Elt F) → (⟨S400000, .i32⟩ : BufTy).Contents (Elt F)),
    ternary main_v5 main_v7 main_v3 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v8 main_v9 (broadcastInDim S400000x1 ![0] bcast_S400000_S400000x1_0 : (⟨S400000, .i32⟩ : BufTy).Contents (Elt F) → (⟨S400000x1, .i32⟩ : BufTy).Contents (Elt F)),
    binary main_arg0 main_v9 main_v10 ((fun x i => Host.gather gather_S100000x256_S400000x1_S400000x256_1_0_n_n_0_1_1256 x i) : (⟨S100000x256, .f32⟩ : BufTy).Contents (Elt F) → (⟨S400000x1, .i32⟩ : BufTy).Contents (Elt F) → (⟨S400000x256, .f32⟩ : BufTy).Contents (Elt F)),
    nullary main_cst (constant S_ .f32 0x00000000#32),
    unary main_cst main_v11 (broadcastInDim S100000x256 ![] bcast_S_S100000x256 : (⟨S_, .f32⟩ : BufTy).Contents (Elt F) → (⟨S100000x256, .f32⟩ : BufTy).Contents (Elt F)),
    unary main_v1 main_v12 (broadcastInDim S400000x1 ![0] bcast_S400000_S400000x1_0 : (⟨S400000, .i32⟩ : BufTy).Contents (Elt F) → (⟨S400000x1, .i32⟩ : BufTy).Contents (Elt F)),
    ternary main_v11 main_v12 main_v10 main_v13 ((fun x i u => Host.scatterAdd scatter_S100000x256_S400000x1_S400000x256_1_0_0_1 x i u) : (⟨S100000x256, .f32⟩ : BufTy).Contents (Elt F) → (⟨S400000x1, .i32⟩ : BufTy).Contents (Elt F) → (⟨S400000x256, .f32⟩ : BufTy).Contents (Elt F) → (⟨S100000x256, .f32⟩ : BufTy).Contents (Elt F)),
    nullary main_cst_1 (constant S_ .f32 0x3F800000#32),
    unary main_cst_1 main_v14 (broadcastInDim S400000 ![] bcast_S_S400000 : (⟨S_, .f32⟩ : BufTy).Contents (Elt F) → (⟨S400000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S400000x1 ![0] bcast_S400000_S400000x1_0 : (⟨S400000, .i32⟩ : BufTy).Contents (Elt F) → (⟨S400000x1, .i32⟩ : BufTy).Contents (Elt F)),
    ternary main_v15 main_v16 main_v14 main_v17 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    nullary main_cst_3 (constant S_ .f32 0x3F800000#32),
    TRef.unary (.of main_cst_3) main_call0.v0 id,
    TRef.unary main_call0.v0 main_call0.v1 (broadcastInDim S100000 ![] bcast_S_S100000),
    TRef.binary main_call0.v1 (.of main_v17) main_call0.v2 maximumf,
    unary main_v18 main_v19 (broadcastInDim S100000x1 ![0] bcast_S100000_S100000x1_0 : (⟨S100000, .f32⟩ : BufTy).Contents (Elt F) → (⟨S100000x1, .f32⟩ : BufTy).Contents (Elt F)),
    unary main_v19 main_v20 (broadcastInDim S100000x256 ![0, 1] bcast_S100000x1_S100000x256_0_1 : (⟨S100000x1, .f32⟩ : BufTy).Contents (Elt F) → (⟨S100000x256, .f32⟩ : BufTy).Contents (Elt F)),
    binary main_v13 main_v20 main_v21 (Host.divf : (⟨S100000x256, .f32⟩ : BufTy).Contents (Elt F) → (⟨S100000x256, .f32⟩ : BufTy).Contents (Elt F) → (⟨S100000x256, .f32⟩ : BufTy).Contents (Elt F)) ]

/-- The first layer's gate weight and the gated sum of its three affine maps (29 operations). -/
abbrev ops_pre1 : List (HloOp τ sig (Elt F)) :=
  [ unary main_arg18 main_v22 (Host.negf : (⟨S_, .f32⟩ : BufTy).Contents (Elt F) → (⟨S_, .f32⟩ : BufTy).Contents (Elt F)),
    unary main_v22 main_v23 (Host.exp : (⟨S_, .f32⟩ : BufTy).Contents (Elt F) → (⟨S_, .f32⟩ : BufTy).Contents (Elt F)),
    nullary main_cst_4 (constant S_ .f32 0x3F800000#32),
    binary main_cst_4 main_v23 main_v24 (addf : (⟨S_, .f32⟩ : BufTy).Contents (Elt F) → (⟨S_, .f32⟩ : BufTy).Contents (Elt F) → (⟨S_, .f32⟩ : BufTy).Contents (Elt F)),
    nullary main_cst_5 (constant S_ .f32 0x3F800000#32),
    binary main_cst_5 main_v24 main_v25 (Host.divf : (⟨S_, .f32⟩ : BufTy).Contents (Elt F) → (⟨S_, .f32⟩ : BufTy).Contents (Elt F) → (⟨S_, .f32⟩ : BufTy).Contents (Elt F)),
    unary main_arg12 main_v26 ((transpose S256x256 [1, 0] · transposes_S256x256_S256x256_1_0) : (⟨S256x256, .f32⟩ : BufTy).Contents (Elt F) → (⟨S256x256, .f32⟩ : BufTy).Contents (Elt F)),
    binary main_v21 main_v26 main_v27 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg13 main_v28 (broadcastInDim S1x256 ![1] bcast_S256_S1x256_1 : (⟨S256, .f32⟩ : BufTy).Contents (Elt F) → (⟨S1x256, .f32⟩ : BufTy).Contents (Elt F)),
    unary main_v28 main_v29 (broadcastInDim S100000x256 ![0, 1] bcast_S1x256_S100000x256_0_1 : (⟨S1x256, .f32⟩ : BufTy).Contents (Elt F) → (⟨S100000x256, .f32⟩ : BufTy).Contents (Elt F)),
    binary main_v27 main_v29 main_v30 (addf : (⟨S100000x256, .f32⟩ : BufTy).Contents (Elt F) → (⟨S100000x256, .f32⟩ : BufTy).Contents (Elt F) → (⟨S100000x256, .f32⟩ : BufTy).Contents (Elt F)),
    nullary main_cst_6 (constant S_ .f32 0x3F800000#32),
    binary main_cst_6 main_v25 main_v31 (subf : (⟨S_, .f32⟩ : BufTy).Contents (Elt F) → (⟨S_, .f32⟩ : BufTy).Contents (Elt F) → (⟨S_, .f32⟩ : BufTy).Contents (Elt F)),
    unary main_arg14 main_v32 ((transpose S256x256 [1, 0] · transposes_S256x256_S256x256_1_0) : (⟨S256x256, .f32⟩ : BufTy).Contents (Elt F) → (⟨S256x256, .f32⟩ : BufTy).Contents (Elt F)),
    binary main_arg0 main_v32 main_v33 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg15 main_v34 (broadcastInDim S1x256 ![1] bcast_S256_S1x256_1 : (⟨S256, .f32⟩ : BufTy).Contents (Elt F) → (⟨S1x256, .f32⟩ : BufTy).Contents (Elt F)),
    unary main_v34 main_v35 (broadcastInDim S100000x256 ![0, 1] bcast_S1x256_S100000x256_0_1 : (⟨S1x256, .f32⟩ : BufTy).Contents (Elt F) → (⟨S100000x256, .f32⟩ : BufTy).Contents (Elt F)),
    binary main_v33 main_v35 main_v36 (addf : (⟨S100000x256, .f32⟩ : BufTy).Contents (Elt F) → (⟨S100000x256, .f32⟩ : BufTy).Contents (Elt F) → (⟨S100000x256, .f32⟩ : BufTy).Contents (Elt F)),
    unary main_v31 main_v37 (broadcastInDim S100000x256 ![] bcast_S_S100000x256 : (⟨S_, .f32⟩ : BufTy).Contents (Elt F) → (⟨S100000x256, .f32⟩ : BufTy).Contents (Elt F)),
    binary main_v37 main_v36 main_v38 (mulf : (⟨S100000x256, .f32⟩ : BufTy).Contents (Elt F) → (⟨S100000x256, .f32⟩ : BufTy).Contents (Elt F) → (⟨S100000x256, .f32⟩ : BufTy).Contents (Elt F)),
    binary main_v30 main_v38 main_v39 (addf : (⟨S100000x256, .f32⟩ : BufTy).Contents (Elt F) → (⟨S100000x256, .f32⟩ : BufTy).Contents (Elt F) → (⟨S100000x256, .f32⟩ : BufTy).Contents (Elt F)),
    unary main_arg16 main_v40 ((transpose S256x256 [1, 0] · transposes_S256x256_S256x256_1_0) : (⟨S256x256, .f32⟩ : BufTy).Contents (Elt F) → (⟨S256x256, .f32⟩ : BufTy).Contents (Elt F)),
    binary main_arg0 main_v40 main_v41 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg17 main_v42 (broadcastInDim S1x256 ![1] bcast_S256_S1x256_1 : (⟨S256, .f32⟩ : BufTy).Contents (Elt F) → (⟨S1x256, .f32⟩ : BufTy).Contents (Elt F)),
    unary main_v42 main_v43 (broadcastInDim S100000x256 ![0, 1] bcast_S1x256_S100000x256_0_1 : (⟨S1x256, .f32⟩ : BufTy).Contents (Elt F) → (⟨S100000x256, .f32⟩ : BufTy).Contents (Elt F)),
    binary main_v41 main_v43 main_v44 (addf : (⟨S100000x256, .f32⟩ : BufTy).Contents (Elt F) → (⟨S100000x256, .f32⟩ : BufTy).Contents (Elt F) → (⟨S100000x256, .f32⟩ : BufTy).Contents (Elt F)),
    unary main_v25 main_v45 (broadcastInDim S100000x256 ![] bcast_S_S100000x256 : (⟨S_, .f32⟩ : BufTy).Contents (Elt F) → (⟨S100000x256, .f32⟩ : BufTy).Contents (Elt F)),
    binary main_v45 main_v44 main_v46 (mulf : (⟨S100000x256, .f32⟩ : BufTy).Contents (Elt F) → (⟨S100000x256, .f32⟩ : BufTy).Contents (Elt F) → (⟨S100000x256, .f32⟩ : BufTy).Contents (Elt F)),
    binary main_v39 main_v46 main_v47 (addf : (⟨S100000x256, .f32⟩ : BufTy).Contents (Elt F) → (⟨S100000x256, .f32⟩ : BufTy).Contents (Elt F) → (⟨S100000x256, .f32⟩ : BufTy).Contents (Elt F)) ]

/-- The first layer's rectifier: the maximum with a zero array (3 operations). -/
abbrev ops_relu1 : List (HloOp τ sig (Elt F)) :=
  [ TRef.nullary main_call1.cst (constant S_ .f32 0x00000000#32),
    TRef.unary main_call1.cst main_call1.v0 (broadcastInDim S100000x256 ![] bcast_S_S100000x256),
    TRef.binary (.of main_v47) main_call1.v0 main_call1.v1 maximumf ]

/-- The first layer's normalisation, its first two operations: the zero and the row sums. -/
abbrev ops_norm1a : List (HloOp τ sig (Elt F)) :=
  [ nullary main_cst_7 (constant S_ .f32 0x00000000#32),
    binary main_v48 main_cst_7 main_v49 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)) ]

/-- The first layer's normalisation, the rest: the row means, the variance (22 operations, the selection's three among them), the centring, the division by the root of variance plus ε, the scale and the shift (42 operations). -/
abbrev ops_norm1b : List (HloOp τ sig (Elt F)) :=
  [ unary main_v49 main_v50 (broadcastInDim S100000x1 ![0] bcast_S100000_S100000x1_0 : (⟨S100000, .f32⟩ : BufTy).Contents (Elt F) → (⟨S100000x1, .f32⟩ : BufTy).Contents (Elt F)),
    nullary main_cst_8 (constant S_ .f32 0x43800000#32),
    unary main_cst_8 main_v51 (broadcastInDim S100000x1 ![] bcast_S_S100000x1 : (⟨S_, .f32⟩ : BufTy).Contents (Elt F) → (⟨S100000x1, .f32⟩ : BufTy).Contents (Elt F)),
    binary main_v50 main_v51 main_v52 (Host.divf : (⟨S100000x1, .f32⟩ : BufTy).Contents (Elt F) → (⟨S100000x1, .f32⟩ : BufTy).Contents (Elt F) → (⟨S100000x1, .f32⟩ : BufTy).Contents (Elt F)),
    nullary main_c_9 (constantI S_ 32 0#32),
    TRef.nullary main_call2.cst (constant S_ .f32 0x00000000#32),
    TRef.binary (.of main_v48) main_call2.cst main_call2.v0 (fun x v => Host.reduceAdd x v reducesTo_S100000x256_S100000_d1 h_S_),
    TRef.unary main_call2.v0 main_call2.v1 (broadcastInDim S100000x1 ![0] bcast_S100000_S100000x1_0),
    TRef.nullary main_call2.cst_0 (constant S_ .f32 0x43800000#32),
    TRef.unary main_call2.cst_0 main_call2.v2 (broadcastInDim S100000x1 ![] bcast_S_S100000x1),
    TRef.binary main_call2.v1 main_call2.v2 main_call2.v3 Host.divf,
    TRef.unary main_call2.v3 main_call2.v4 (broadcastInDim S100000x256 ![0, 1] bcast_S100000x1_S100000x256_0_1),
    TRef.binary (.of main_v48) main_call2.v4 main_call2.v5 subf,
    TRef.binary main_call2.v5 main_call2.v5 main_call2.v6 mulf,
    TRef.unary (.of main_c_9) main_call2.v7 (sitofp .f32),
    TRef.nullary main_call2.cst_1 (constant S_ .f32 0x43800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x256_S100000_d1 h_S_),
    TRef.unary main_call2.v9 main_call2.v10 (broadcastInDim S100000x1 ![0] bcast_S100000_S100000x1_0),
    TRef.unary main_call2.v8 main_call2.v11 (broadcastInDim S100000x1 ![] bcast_S_S100000x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2_call0.v0 id,
    TRef.unary main_call2_call0.v0 main_call2_call0.v1 (broadcastInDim S100000x1 ![] bcast_S_S100000x1),
    TRef.ternary main_call2.v13 main_call2.v12 main_call2_call0.v1 main_call2_call0.v2 (fun p a b => select (broadcastInDim S100000x1 ![] bcast_S_S100000x1 p) a b),
    unary main_v52 main_v54 (broadcastInDim S100000x256 ![0, 1] bcast_S100000x1_S100000x256_0_1 : (⟨S100000x1, .f32⟩ : BufTy).Contents (Elt F) → (⟨S100000x256, .f32⟩ : BufTy).Contents (Elt F)),
    binary main_v48 main_v54 main_v55 (subf : (⟨S100000x256, .f32⟩ : BufTy).Contents (Elt F) → (⟨S100000x256, .f32⟩ : BufTy).Contents (Elt F) → (⟨S100000x256, .f32⟩ : BufTy).Contents (Elt F)),
    nullary main_cst_10 (constant S_ .f32 0x3727C5AC#32),
    unary main_cst_10 main_v56 (broadcastInDim S100000x1 ![] bcast_S_S100000x1 : (⟨S_, .f32⟩ : BufTy).Contents (Elt F) → (⟨S100000x1, .f32⟩ : BufTy).Contents (Elt F)),
    binary main_v53 main_v56 main_v57 (addf : (⟨S100000x1, .f32⟩ : BufTy).Contents (Elt F) → (⟨S100000x1, .f32⟩ : BufTy).Contents (Elt F) → (⟨S100000x1, .f32⟩ : BufTy).Contents (Elt F)),
    unary main_v57 main_v58 (Host.sqrt : (⟨S100000x1, .f32⟩ : BufTy).Contents (Elt F) → (⟨S100000x1, .f32⟩ : BufTy).Contents (Elt F)),
    unary main_v58 main_v59 (broadcastInDim S100000x256 ![0, 1] bcast_S100000x1_S100000x256_0_1 : (⟨S100000x1, .f32⟩ : BufTy).Contents (Elt F) → (⟨S100000x256, .f32⟩ : BufTy).Contents (Elt F)),
    binary main_v55 main_v59 main_v60 (Host.divf : (⟨S100000x256, .f32⟩ : BufTy).Contents (Elt F) → (⟨S100000x256, .f32⟩ : BufTy).Contents (Elt F) → (⟨S100000x256, .f32⟩ : BufTy).Contents (Elt F)),
    unary main_arg19 main_v61 (broadcastInDim S1x256 ![1] bcast_S256_S1x256_1 : (⟨S256, .f32⟩ : BufTy).Contents (Elt F) → (⟨S1x256, .f32⟩ : BufTy).Contents (Elt F)),
    unary main_v61 main_v62 (broadcastInDim S100000x256 ![0, 1] bcast_S1x256_S100000x256_0_1 : (⟨S1x256, .f32⟩ : BufTy).Contents (Elt F) → (⟨S100000x256, .f32⟩ : BufTy).Contents (Elt F)),
    binary main_v60 main_v62 main_v63 (mulf : (⟨S100000x256, .f32⟩ : BufTy).Contents (Elt F) → (⟨S100000x256, .f32⟩ : BufTy).Contents (Elt F) → (⟨S100000x256, .f32⟩ : BufTy).Contents (Elt F)),
    unary main_arg20 main_v64 (broadcastInDim S1x256 ![1] bcast_S256_S1x256_1 : (⟨S256, .f32⟩ : BufTy).Contents (Elt F) → (⟨S1x256, .f32⟩ : BufTy).Contents (Elt F)),
    unary main_v64 main_v65 (broadcastInDim S100000x256 ![0, 1] bcast_S1x256_S100000x256_0_1 : (⟨S1x256, .f32⟩ : BufTy).Contents (Elt F) → (⟨S100000x256, .f32⟩ : BufTy).Contents (Elt F)),
    binary main_v63 main_v65 main_v66 (addf : (⟨S100000x256, .f32⟩ : BufTy).Contents (Elt F) → (⟨S100000x256, .f32⟩ : BufTy).Contents (Elt F) → (⟨S100000x256, .f32⟩ : BufTy).Contents (Elt F)) ]

/-- The second layer's neighbourhood mean, on the first layer's output (30 operations). -/
abbrev ops_agg0 : List (HloOp τ sig (Elt F)) :=
  [ unary main_arg1 main_v67 ((extractStridedSlice S1x400000 ![0, 0] · slices_S2x400000_S1x400000_0_0) : (⟨S2x400000, .i32⟩ : BufTy).Contents (Elt F) → (⟨S1x400000, .i32⟩ : BufTy).Contents (Elt F)),
    reshape main_v67 main_v68 rfl shapeCasts_S1x400000_S400000,
    unary main_arg1 main_v69 ((extractStridedSlice S1x400000 ![1, 0] · slices_S2x400000_S1x400000_1_0) : (⟨S2x400000, .i32⟩ : BufTy).Contents (Elt F) → (⟨S1x400000, .i32⟩ : BufTy).Contents (Elt F)),
    reshape main_v69 main_v70 rfl shapeCasts_S1x400000_S400000,
    nullary main_c_11 (constantI S_ 32 0#32),
    unary main_c_11 main_v71 (broadcastInDim S400000 ![] bcast_S_S400000 : (⟨S_, .i32⟩ : BufTy).Contents (Elt F) → (⟨S400000, .i32⟩ : BufTy).Contents (Elt F)),
    binary main_v70 main_v71 main_v72 (cmpi .slt : (⟨S400000, .i32⟩ : BufTy).Contents (Elt F) → (⟨S400000, .i32⟩ : BufTy).Contents (Elt F) → (⟨S400000, .i1⟩ : BufTy).Contents (Elt F)),
    nullary main_c_12 (constantI S_ 32 100000#32),
    unary main_c_12 main_v73 (broadcastInDim S400000 ![] bcast_S_S400000 : (⟨S_, .i32⟩ : BufTy).Contents (Elt F) → (⟨S400000, .i32⟩ : BufTy).Contents (Elt F)),
    binary main_v70 main_v73 main_v74 (addi : (⟨S400000, .i32⟩ : BufTy).Contents (Elt F) → (⟨S400000, .i32⟩ : BufTy).Contents (Elt F) → (⟨S400000, .i32⟩ : BufTy).Contents (Elt F)),
    ternary main_v72 main_v74 main_v70 main_v75 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v75 main_v76 (broadcastInDim S400000x1 ![0] bcast_S400000_S400000x1_0 : (⟨S400000, .i32⟩ : BufTy).Contents (Elt F) → (⟨S400000x1, .i32⟩ : BufTy).Contents (Elt F)),
    binary main_v66 main_v76 main_v77 ((fun x i => Host.gather gather_S100000x256_S400000x1_S400000x256_1_0_n_n_0_1_1256 x i) : (⟨S100000x256, .f32⟩ : BufTy).Contents (Elt F) → (⟨S400000x1, .i32⟩ : BufTy).Contents (Elt F) → (⟨S400000x256, .f32⟩ : BufTy).Contents (Elt F)),
    nullary main_cst_13 (constant S_ .f32 0x00000000#32),
    unary main_cst_13 main_v78 (broadcastInDim S100000x256 ![] bcast_S_S100000x256 : (⟨S_, .f32⟩ : BufTy).Contents (Elt F) → (⟨S100000x256, .f32⟩ : BufTy).Contents (Elt F)),
    unary main_v68 main_v79 (broadcastInDim S400000x1 ![0] bcast_S400000_S400000x1_0 : (⟨S400000, .i32⟩ : BufTy).Contents (Elt F) → (⟨S400000x1, .i32⟩ : BufTy).Contents (Elt F)),
    ternary main_v78 main_v79 main_v77 main_v80 ((fun x i u => Host.scatterAdd scatter_S100000x256_S400000x1_S400000x256_1_0_0_1 x i u) : (⟨S100000x256, .f32⟩ : BufTy).Contents (Elt F) → (⟨S400000x1, .i32⟩ : BufTy).Contents (Elt F) → (⟨S400000x256, .f32⟩ : BufTy).Contents (Elt F) → (⟨S100000x256, .f32⟩ : BufTy).Contents (Elt F)),
    nullary main_cst_14 (constant S_ .f32 0x3F800000#32),
    unary main_cst_14 main_v81 (broadcastInDim S400000 ![] bcast_S_S400000 : (⟨S_, .f32⟩ : BufTy).Contents (Elt F) → (⟨S400000, .f32⟩ : BufTy).Contents (Elt F)),
    nullary main_cst_15 (constant S_ .f32 0x00000000#32),
    unary main_cst_15 main_v82 (broadcastInDim S100000 ![] bcast_S_S100000 : (⟨S_, .f32⟩ : BufTy).Contents (Elt F) → (⟨S100000, .f32⟩ : BufTy).Contents (Elt F)),
    unary main_v70 main_v83 (broadcastInDim S400000x1 ![0] bcast_S400000_S400000x1_0 : (⟨S400000, .i32⟩ : BufTy).Contents (Elt F) → (⟨S400000x1, .i32⟩ : BufTy).Contents (Elt F)),
    ternary main_v82 main_v83 main_v81 main_v84 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    nullary main_cst_16 (constant S_ .f32 0x3F800000#32),
    TRef.unary (.of main_cst_16) main_call3.v0 id,
    TRef.unary main_call3.v0 main_call3.v1 (broadcastInDim S100000 ![] bcast_S_S100000),
    TRef.binary main_call3.v1 (.of main_v84) main_call3.v2 maximumf,
    unary main_v85 main_v86 (broadcastInDim S100000x1 ![0] bcast_S100000_S100000x1_0 : (⟨S100000, .f32⟩ : BufTy).Contents (Elt F) → (⟨S100000x1, .f32⟩ : BufTy).Contents (Elt F)),
    unary main_v86 main_v87 (broadcastInDim S100000x256 ![0, 1] bcast_S100000x1_S100000x256_0_1 : (⟨S100000x1, .f32⟩ : BufTy).Contents (Elt F) → (⟨S100000x256, .f32⟩ : BufTy).Contents (Elt F)),
    binary main_v80 main_v87 main_v88 (Host.divf : (⟨S100000x256, .f32⟩ : BufTy).Contents (Elt F) → (⟨S100000x256, .f32⟩ : BufTy).Contents (Elt F) → (⟨S100000x256, .f32⟩ : BufTy).Contents (Elt F)) ]

/-- The second layer's gate weight and the first of its affine maps (12 operations). -/
abbrev ops_pre0a : List (HloOp τ sig (Elt F)) :=
  [ unary main_arg9 main_v89 (Host.negf : (⟨S_, .f32⟩ : BufTy).Contents (Elt F) → (⟨S_, .f32⟩ : BufTy).Contents (Elt F)),
    unary main_v89 main_v90 (Host.exp : (⟨S_, .f32⟩ : BufTy).Contents (Elt F) → (⟨S_, .f32⟩ : BufTy).Contents (Elt F)),
    nullary main_cst_17 (constant S_ .f32 0x3F800000#32),
    binary main_cst_17 main_v90 main_v91 (addf : (⟨S_, .f32⟩ : BufTy).Contents (Elt F) → (⟨S_, .f32⟩ : BufTy).Contents (Elt F) → (⟨S_, .f32⟩ : BufTy).Contents (Elt F)),
    nullary main_cst_18 (constant S_ .f32 0x3F800000#32),
    binary main_cst_18 main_v91 main_v92 (Host.divf : (⟨S_, .f32⟩ : BufTy).Contents (Elt F) → (⟨S_, .f32⟩ : BufTy).Contents (Elt F) → (⟨S_, .f32⟩ : BufTy).Contents (Elt F)),
    unary main_arg3 main_v93 ((transpose S256x256 [1, 0] · transposes_S256x256_S256x256_1_0) : (⟨S256x256, .f32⟩ : BufTy).Contents (Elt F) → (⟨S256x256, .f32⟩ : BufTy).Contents (Elt F)),
    binary main_v88 main_v93 main_v94 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg4 main_v95 (broadcastInDim S1x256 ![1] bcast_S256_S1x256_1 : (⟨S256, .f32⟩ : BufTy).Contents (Elt F) → (⟨S1x256, .f32⟩ : BufTy).Contents (Elt F)),
    unary main_v95 main_v96 (broadcastInDim S100000x256 ![0, 1] bcast_S1x256_S100000x256_0_1 : (⟨S1x256, .f32⟩ : BufTy).Contents (Elt F) → (⟨S100000x256, .f32⟩ : BufTy).Contents (Elt F)),
    binary main_v94 main_v96 main_v97 (addf : (⟨S100000x256, .f32⟩ : BufTy).Contents (Elt F) → (⟨S100000x256, .f32⟩ : BufTy).Contents (Elt F) → (⟨S100000x256, .f32⟩ : BufTy).Contents (Elt F)),
    nullary main_cst_19 (constant S_ .f32 0x3F800000#32) ]

/-- The rest of the second layer's gated sum (17 operations). -/
abbrev ops_pre0b : List (HloOp τ sig (Elt F)) :=
  [ binary main_cst_19 main_v92 main_v98 (subf : (⟨S_, .f32⟩ : BufTy).Contents (Elt F) → (⟨S_, .f32⟩ : BufTy).Contents (Elt F) → (⟨S_, .f32⟩ : BufTy).Contents (Elt F)),
    unary main_arg5 main_v99 ((transpose S256x256 [1, 0] · transposes_S256x256_S256x256_1_0) : (⟨S256x256, .f32⟩ : BufTy).Contents (Elt F) → (⟨S256x256, .f32⟩ : BufTy).Contents (Elt F)),
    binary main_v66 main_v99 main_v100 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v101 (broadcastInDim S1x256 ![1] bcast_S256_S1x256_1 : (⟨S256, .f32⟩ : BufTy).Contents (Elt F) → (⟨S1x256, .f32⟩ : BufTy).Contents (Elt F)),
    unary main_v101 main_v102 (broadcastInDim S100000x256 ![0, 1] bcast_S1x256_S100000x256_0_1 : (⟨S1x256, .f32⟩ : BufTy).Contents (Elt F) → (⟨S100000x256, .f32⟩ : BufTy).Contents (Elt F)),
    binary main_v100 main_v102 main_v103 (addf : (⟨S100000x256, .f32⟩ : BufTy).Contents (Elt F) → (⟨S100000x256, .f32⟩ : BufTy).Contents (Elt F) → (⟨S100000x256, .f32⟩ : BufTy).Contents (Elt F)),
    unary main_v98 main_v104 (broadcastInDim S100000x256 ![] bcast_S_S100000x256 : (⟨S_, .f32⟩ : BufTy).Contents (Elt F) → (⟨S100000x256, .f32⟩ : BufTy).Contents (Elt F)),
    binary main_v104 main_v103 main_v105 (mulf : (⟨S100000x256, .f32⟩ : BufTy).Contents (Elt F) → (⟨S100000x256, .f32⟩ : BufTy).Contents (Elt F) → (⟨S100000x256, .f32⟩ : BufTy).Contents (Elt F)),
    binary main_v97 main_v105 main_v106 (addf : (⟨S100000x256, .f32⟩ : BufTy).Contents (Elt F) → (⟨S100000x256, .f32⟩ : BufTy).Contents (Elt F) → (⟨S100000x256, .f32⟩ : BufTy).Contents (Elt F)),
    unary main_arg7 main_v107 ((transpose S256x256 [1, 0] · transposes_S256x256_S256x256_1_0) : (⟨S256x256, .f32⟩ : BufTy).Contents (Elt F) → (⟨S256x256, .f32⟩ : BufTy).Contents (Elt F)),
    binary main_arg0 main_v107 main_v108 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg8 main_v109 (broadcastInDim S1x256 ![1] bcast_S256_S1x256_1 : (⟨S256, .f32⟩ : BufTy).Contents (Elt F) → (⟨S1x256, .f32⟩ : BufTy).Contents (Elt F)),
    unary main_v109 main_v110 (broadcastInDim S100000x256 ![0, 1] bcast_S1x256_S100000x256_0_1 : (⟨S1x256, .f32⟩ : BufTy).Contents (Elt F) → (⟨S100000x256, .f32⟩ : BufTy).Contents (Elt F)),
    binary main_v108 main_v110 main_v111 (addf : (⟨S100000x256, .f32⟩ : BufTy).Contents (Elt F) → (⟨S100000x256, .f32⟩ : BufTy).Contents (Elt F) → (⟨S100000x256, .f32⟩ : BufTy).Contents (Elt F)),
    unary main_v92 main_v112 (broadcastInDim S100000x256 ![] bcast_S_S100000x256 : (⟨S_, .f32⟩ : BufTy).Contents (Elt F) → (⟨S100000x256, .f32⟩ : BufTy).Contents (Elt F)),
    binary main_v112 main_v111 main_v113 (mulf : (⟨S100000x256, .f32⟩ : BufTy).Contents (Elt F) → (⟨S100000x256, .f32⟩ : BufTy).Contents (Elt F) → (⟨S100000x256, .f32⟩ : BufTy).Contents (Elt F)),
    binary main_v106 main_v113 main_v114 (addf : (⟨S100000x256, .f32⟩ : BufTy).Contents (Elt F) → (⟨S100000x256, .f32⟩ : BufTy).Contents (Elt F) → (⟨S100000x256, .f32⟩ : BufTy).Contents (Elt F)) ]

/-- The second layer's rectifier (3 operations). -/
abbrev ops_relu0 : List (HloOp τ sig (Elt F)) :=
  [ TRef.nullary main_call4.cst (constant S_ .f32 0x00000000#32),
    TRef.unary main_call4.cst main_call4.v0 (broadcastInDim S100000x256 ![] bcast_S_S100000x256),
    TRef.binary (.of main_v114) main_call4.v0 main_call4.v1 maximumf ]

/-- The second layer's normalisation (44 operations). -/
abbrev ops_norm0 : List (HloOp τ sig (Elt F)) :=
  [ nullary main_cst_20 (constant S_ .f32 0x00000000#32),
    binary main_v115 main_cst_20 main_v116 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v116 main_v117 (broadcastInDim S100000x1 ![0] bcast_S100000_S100000x1_0 : (⟨S100000, .f32⟩ : BufTy).Contents (Elt F) → (⟨S100000x1, .f32⟩ : BufTy).Contents (Elt F)),
    nullary main_cst_21 (constant S_ .f32 0x43800000#32),
    unary main_cst_21 main_v118 (broadcastInDim S100000x1 ![] bcast_S_S100000x1 : (⟨S_, .f32⟩ : BufTy).Contents (Elt F) → (⟨S100000x1, .f32⟩ : BufTy).Contents (Elt F)),
    binary main_v117 main_v118 main_v119 (Host.divf : (⟨S100000x1, .f32⟩ : BufTy).Contents (Elt F) → (⟨S100000x1, .f32⟩ : BufTy).Contents (Elt F) → (⟨S100000x1, .f32⟩ : BufTy).Contents (Elt F)),
    nullary main_c_22 (constantI S_ 32 0#32),
    TRef.nullary main_call5.cst (constant S_ .f32 0x00000000#32),
    TRef.binary (.of main_v115) main_call5.cst main_call5.v0 (fun x v => Host.reduceAdd x v reducesTo_S100000x256_S100000_d1 h_S_),
    TRef.unary main_call5.v0 main_call5.v1 (broadcastInDim S100000x1 ![0] bcast_S100000_S100000x1_0),
    TRef.nullary main_call5.cst_0 (constant S_ .f32 0x43800000#32),
    TRef.unary main_call5.cst_0 main_call5.v2 (broadcastInDim S100000x1 ![] bcast_S_S100000x1),
    TRef.binary main_call5.v1 main_call5.v2 main_call5.v3 Host.divf,
    TRef.unary main_call5.v3 main_call5.v4 (broadcastInDim S100000x256 ![0, 1] bcast_S100000x1_S100000x256_0_1),
    TRef.binary (.of main_v115) main_call5.v4 main_call5.v5 subf,
    TRef.binary main_call5.v5 main_call5.v5 main_call5.v6 mulf,
    TRef.unary (.of main_c_22) main_call5.v7 (sitofp .f32),
    TRef.nullary main_call5.cst_1 (constant S_ .f32 0x43800000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x256_S100000_d1 h_S_),
    TRef.unary main_call5.v9 main_call5.v10 (broadcastInDim S100000x1 ![0] bcast_S100000_S100000x1_0),
    TRef.unary main_call5.v8 main_call5.v11 (broadcastInDim S100000x1 ![] bcast_S_S100000x1),
    TRef.binary main_call5.v10 main_call5.v11 main_call5.v12 Host.divf,
    TRef.nullary main_call5.cst_3 (constant S_ .f32 0x00000000#32),
    TRef.binary main_call5.v8 main_call5.cst_3 main_call5.v13 (cmpf .ogt),
    TRef.nullary main_call5.cst_4 (constant S_ .f32 0x7FC00000#32),
    TRef.unary main_call5.cst_4 main_call5_call0.v0 id,
    TRef.unary main_call5_call0.v0 main_call5_call0.v1 (broadcastInDim S100000x1 ![] bcast_S_S100000x1),
    TRef.ternary main_call5.v13 main_call5.v12 main_call5_call0.v1 main_call5_call0.v2 (fun p a b => select (broadcastInDim S100000x1 ![] bcast_S_S100000x1 p) a b),
    unary main_v119 main_v121 (broadcastInDim S100000x256 ![0, 1] bcast_S100000x1_S100000x256_0_1 : (⟨S100000x1, .f32⟩ : BufTy).Contents (Elt F) → (⟨S100000x256, .f32⟩ : BufTy).Contents (Elt F)),
    binary main_v115 main_v121 main_v122 (subf : (⟨S100000x256, .f32⟩ : BufTy).Contents (Elt F) → (⟨S100000x256, .f32⟩ : BufTy).Contents (Elt F) → (⟨S100000x256, .f32⟩ : BufTy).Contents (Elt F)),
    nullary main_cst_23 (constant S_ .f32 0x3727C5AC#32),
    unary main_cst_23 main_v123 (broadcastInDim S100000x1 ![] bcast_S_S100000x1 : (⟨S_, .f32⟩ : BufTy).Contents (Elt F) → (⟨S100000x1, .f32⟩ : BufTy).Contents (Elt F)),
    binary main_v120 main_v123 main_v124 (addf : (⟨S100000x1, .f32⟩ : BufTy).Contents (Elt F) → (⟨S100000x1, .f32⟩ : BufTy).Contents (Elt F) → (⟨S100000x1, .f32⟩ : BufTy).Contents (Elt F)),
    unary main_v124 main_v125 (Host.sqrt : (⟨S100000x1, .f32⟩ : BufTy).Contents (Elt F) → (⟨S100000x1, .f32⟩ : BufTy).Contents (Elt F)),
    unary main_v125 main_v126 (broadcastInDim S100000x256 ![0, 1] bcast_S100000x1_S100000x256_0_1 : (⟨S100000x1, .f32⟩ : BufTy).Contents (Elt F) → (⟨S100000x256, .f32⟩ : BufTy).Contents (Elt F)),
    binary main_v122 main_v126 main_v127 (Host.divf : (⟨S100000x256, .f32⟩ : BufTy).Contents (Elt F) → (⟨S100000x256, .f32⟩ : BufTy).Contents (Elt F) → (⟨S100000x256, .f32⟩ : BufTy).Contents (Elt F)),
    unary main_arg10 main_v128 (broadcastInDim S1x256 ![1] bcast_S256_S1x256_1 : (⟨S256, .f32⟩ : BufTy).Contents (Elt F) → (⟨S1x256, .f32⟩ : BufTy).Contents (Elt F)),
    unary main_v128 main_v129 (broadcastInDim S100000x256 ![0, 1] bcast_S1x256_S100000x256_0_1 : (⟨S1x256, .f32⟩ : BufTy).Contents (Elt F) → (⟨S100000x256, .f32⟩ : BufTy).Contents (Elt F)),
    binary main_v127 main_v129 main_v130 (mulf : (⟨S100000x256, .f32⟩ : BufTy).Contents (Elt F) → (⟨S100000x256, .f32⟩ : BufTy).Contents (Elt F) → (⟨S100000x256, .f32⟩ : BufTy).Contents (Elt F)),
    unary main_arg11 main_v131 (broadcastInDim S1x256 ![1] bcast_S256_S1x256_1 : (⟨S256, .f32⟩ : BufTy).Contents (Elt F) → (⟨S1x256, .f32⟩ : BufTy).Contents (Elt F)),
    unary main_v131 main_v132 (broadcastInDim S100000x256 ![0, 1] bcast_S1x256_S100000x256_0_1 : (⟨S1x256, .f32⟩ : BufTy).Contents (Elt F) → (⟨S100000x256, .f32⟩ : BufTy).Contents (Elt F)),
    binary main_v130 main_v132 main_v133 (addf : (⟨S100000x256, .f32⟩ : BufTy).Contents (Elt F) → (⟨S100000x256, .f32⟩ : BufTy).Contents (Elt F) → (⟨S100000x256, .f32⟩ : BufTy).Contents (Elt F)) ]

/-- The output projection: the transposed weight, the product, the bias broadcast and added (5 operations). -/
abbrev ops_proj : List (HloOp τ sig (Elt F)) :=
  [ unary main_arg21 main_v134 ((transpose S256x128 [1, 0] · transposes_S128x256_S256x128_1_0) : (⟨S128x256, .f32⟩ : BufTy).Contents (Elt F) → (⟨S256x128, .f32⟩ : BufTy).Contents (Elt F)),
    binary main_v133 main_v134 main_v135 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg22 main_v136 (broadcastInDim S1x128 ![1] bcast_S128_S1x128_1 : (⟨S128, .f32⟩ : BufTy).Contents (Elt F) → (⟨S1x128, .f32⟩ : BufTy).Contents (Elt F)),
    unary main_v136 main_v137 (broadcastInDim S100000x128 ![0, 1] bcast_S1x128_S100000x128_0_1 : (⟨S1x128, .f32⟩ : BufTy).Contents (Elt F) → (⟨S100000x128, .f32⟩ : BufTy).Contents (Elt F)),
    binary main_v135 main_v137 main_v138 (addf : (⟨S100000x128, .f32⟩ : BufTy).Contents (Elt F) → (⟨S100000x128, .f32⟩ : BufTy).Contents (Elt F) → (⟨S100000x128, .f32⟩ : BufTy).Contents (Elt F)) ]

/-- The operations of the program text's first window (through the first layer's row sums). -/
abbrev ops_part0 : List (HloOp τ sig (Elt F)) := ops_agg1 ++ (ops_pre1 ++ (ops_relu1 ++ ops_norm1a))
/-- The second window's (through the constant before the second layer's gate complement). -/
abbrev ops_part1 : List (HloOp τ sig (Elt F)) := ops_norm1b ++ (ops_agg0 ++ ops_pre0a)
/-- The third window's. -/
abbrev ops_part2 : List (HloOp τ sig (Elt F)) := ops_pre0b ++ (ops_relu0 ++ (ops_norm0 ++ ops_proj))

/-- One layer's normalisation, whole. -/
abbrev ops_norm1 : List (HloOp τ sig (Elt F)) := ops_norm1a ++ ops_norm1b
/-- The second layer's gated sum, whole. -/
abbrev ops_pre0 : List (HloOp τ sig (Elt F)) := ops_pre0a ++ ops_pre0b

/-- @main's 217 operations, in order, by mathematical piece. -/
abbrev ops : List (HloOp τ sig (Elt F)) :=
  ops_agg1 ++ (ops_pre1 ++ (ops_relu1 ++ (ops_norm1 ++ (ops_agg0 ++ (ops_pre0 ++ (ops_relu0 ++ (ops_norm0 ++ ops_proj)))))))

/-- The list by windows is the list by pieces: concatenation is associative. -/
theorem ops_eq_parts : (ops : List (HloOp τ sig (Elt F))) = ops_part0 ++ (ops_part1 ++ ops_part2) := by
  simp only [ops, ops_part0, ops_part1, ops_part2, ops_norm1, ops_pre0, List.append_assoc]

set_option maxRecDepth 8192 in
/-- Each window of the program text is the sequence of its operations: a called function's body unfolds at its
    call, and sequencing a sequence is sequencing its steps. -/
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl

set_option maxRecDepth 8192 in
/-- @main is the sequence of the whole list. -/
theorem main_eq (c : Dev nD) : main (F := F) c = seq ops := by
  rw [ops_eq_parts, seq_append ops_part0 (ops_part1 ++ ops_part2), seq_append ops_part1 ops_part2,
    ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_agg1_sub : (ops_agg1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub ..⟩
set_option maxRecDepth 8192 in
theorem ops_agg1_fresh : (ops_agg1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_pre1_sub : (ops_pre1 : List (HloOp τ sig (Elt F))).Forall fun op => op.bufs ⊆ tcRefs τ sig :=
  ⟨unary_bufs_sub .., unary_bufs_sub .., nullary_bufs_sub .., binary_bufs_sub .., nullary_bufs_sub .., binary_bufs_sub .., unary_bufs_sub .., binary_bufs_sub .., unary_bufs_sub .., unary_bufs_sub .., binary_bufs_sub .., nullary_bufs_sub .., binary_bufs_sub .., unary_bufs_sub .., binary_bufs_sub .., unary_bufs_sub .., unary_bufs_sub .., binary_bufs_sub .., unary_bufs_sub .., binary_bufs_sub .., binary_bufs_sub .., unary_bufs_sub .., binary_bufs_sub .., unary_bufs_sub .., unary_bufs_sub .., binary_bufs_sub .., unary_bufs_sub .., binary_bufs_sub .., binary_bufs_sub ..⟩
set_option maxRecDepth 8192 in
theorem ops_pre1_fresh : (ops_pre1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_relu1_sub : (ops_relu1 : List (HloOp τ sig (Elt F))).Forall fun op => op.bufs ⊆ tcRefs τ sig :=
  ⟨nullary_bufs_sub .., unary_bufs_sub .., binary_bufs_sub ..⟩
set_option maxRecDepth 8192 in
theorem ops_relu1_fresh : (ops_relu1 : List (HloOp τ sig (Elt F))).Forall fun op => op.fresh = ∅ :=
  ⟨rfl, rfl, rfl⟩
set_option maxRecDepth 8192 in
theorem ops_norm1a_sub : (ops_norm1a : List (HloOp τ sig (Elt F))).Forall fun op => op.bufs ⊆ tcRefs τ sig :=
  ⟨nullary_bufs_sub .., binary_bufs_sub ..⟩
set_option maxRecDepth 8192 in
theorem ops_norm1a_fresh : (ops_norm1a : List (HloOp τ sig (Elt F))).Forall fun op => op.fresh = ∅ :=
  ⟨rfl, rfl⟩
set_option maxRecDepth 8192 in
theorem ops_norm1b_sub : (ops_norm1b : List (HloOp τ sig (Elt F))).Forall fun op => op.bufs ⊆ tcRefs τ sig :=
  ⟨unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem ops_norm1b_fresh : (ops_norm1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_agg0_sub : (ops_agg0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub ..⟩
set_option maxRecDepth 8192 in
theorem ops_agg0_fresh : (ops_agg0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_pre0a_sub : (ops_pre0a : List (HloOp τ sig (Elt F))).Forall fun op => op.bufs ⊆ tcRefs τ sig :=
  ⟨unary_bufs_sub .., unary_bufs_sub .., nullary_bufs_sub .., binary_bufs_sub .., nullary_bufs_sub .., binary_bufs_sub .., unary_bufs_sub .., binary_bufs_sub .., unary_bufs_sub .., unary_bufs_sub .., binary_bufs_sub .., nullary_bufs_sub ..⟩
set_option maxRecDepth 8192 in
theorem ops_pre0a_fresh : (ops_pre0a : List (HloOp τ sig (Elt F))).Forall fun op => op.fresh = ∅ :=
  ⟨rfl, rfl, rfl, rfl, rfl, rfl, rfl, rfl, rfl, rfl, rfl, rfl⟩
set_option maxRecDepth 8192 in
theorem ops_pre0b_sub : (ops_pre0b : List (HloOp τ sig (Elt F))).Forall fun op => op.bufs ⊆ tcRefs τ sig :=
  ⟨binary_bufs_sub .., unary_bufs_sub .., binary_bufs_sub .., unary_bufs_sub .., unary_bufs_sub .., binary_bufs_sub .., unary_bufs_sub .., binary_bufs_sub .., binary_bufs_sub .., unary_bufs_sub .., binary_bufs_sub .., unary_bufs_sub .., unary_bufs_sub .., binary_bufs_sub .., unary_bufs_sub .., binary_bufs_sub .., binary_bufs_sub ..⟩
set_option maxRecDepth 8192 in
theorem ops_pre0b_fresh : (ops_pre0b : List (HloOp τ sig (Elt F))).Forall fun op => op.fresh = ∅ :=
  ⟨rfl, rfl, rfl, rfl, rfl, rfl, rfl, rfl, rfl, rfl, rfl, rfl, rfl, rfl, rfl, rfl, rfl⟩
set_option maxRecDepth 8192 in
theorem ops_relu0_sub : (ops_relu0 : List (HloOp τ sig (Elt F))).Forall fun op => op.bufs ⊆ tcRefs τ sig :=
  ⟨nullary_bufs_sub .., unary_bufs_sub .., binary_bufs_sub ..⟩
set_option maxRecDepth 8192 in
theorem ops_relu0_fresh : (ops_relu0 : List (HloOp τ sig (Elt F))).Forall fun op => op.fresh = ∅ :=
  ⟨rfl, rfl, rfl⟩
set_option maxRecDepth 8192 in
theorem ops_norm0_sub : (ops_norm0 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem ops_norm0_fresh : (ops_norm0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_proj_sub : (ops_proj : List (HloOp τ sig (Elt F))).Forall fun op => op.bufs ⊆ tcRefs τ sig :=
  ⟨unary_bufs_sub .., binary_bufs_sub .., unary_bufs_sub .., unary_bufs_sub .., binary_bufs_sub ..⟩
set_option maxRecDepth 8192 in
theorem ops_proj_fresh : (ops_proj : List (HloOp τ sig (Elt F))).Forall fun op => op.fresh = ∅ :=
  ⟨rfl, rfl, rfl, rfl, rfl⟩

/-- A property of every operation of every piece is one of every operation of the list. -/
theorem forall_ops {p : HloOp τ sig (Elt F) → Prop}
    (h0 : (ops_agg1 : List (HloOp τ sig (Elt F))).Forall p) (h1 : (ops_pre1 : List (HloOp τ sig (Elt F))).Forall p) (h2 : (ops_relu1 : List (HloOp τ sig (Elt F))).Forall p) (h3 : (ops_norm1a : List (HloOp τ sig (Elt F))).Forall p) (h4 : (ops_norm1b : List (HloOp τ sig (Elt F))).Forall p) (h5 : (ops_agg0 : List (HloOp τ sig (Elt F))).Forall p) (h6 : (ops_pre0a : List (HloOp τ sig (Elt F))).Forall p) (h7 : (ops_pre0b : List (HloOp τ sig (Elt F))).Forall p) (h8 : (ops_relu0 : List (HloOp τ sig (Elt F))).Forall p) (h9 : (ops_norm0 : List (HloOp τ sig (Elt F))).Forall p) (h10 : (ops_proj : List (HloOp τ sig (Elt F))).Forall p) :
    ∀ op ∈ (ops : List (HloOp τ sig (Elt F))), p op := by
  intro op h
  simp only [ops, ops_norm1, ops_pre0, List.mem_append] at h
  rcases h with h | h | h | (h | h) | h | (h | h) | h | h | h
  · exact List.forall_iff_forall_mem.mp h0 op h
  · exact List.forall_iff_forall_mem.mp h1 op h
  · exact List.forall_iff_forall_mem.mp h2 op h
  · exact List.forall_iff_forall_mem.mp h3 op h
  · exact List.forall_iff_forall_mem.mp h4 op h
  · exact List.forall_iff_forall_mem.mp h5 op h
  · exact List.forall_iff_forall_mem.mp h6 op h
  · exact List.forall_iff_forall_mem.mp h7 op h
  · exact List.forall_iff_forall_mem.mp h8 op h
  · exact List.forall_iff_forall_mem.mp h9 op h
  · exact List.forall_iff_forall_mem.mp h10 op h

/-- Every operation touches TensorCore buffers only. -/
theorem ops_sub : (ops : List (HloOp τ sig (Elt F))).Forall fun op => op.bufs ⊆ tcRefs τ sig :=
  List.forall_iff_forall_mem.mpr (forall_ops ops_agg1_sub ops_pre1_sub ops_relu1_sub ops_norm1a_sub ops_norm1b_sub ops_agg0_sub ops_pre0a_sub ops_pre0b_sub ops_relu0_sub ops_norm0_sub ops_proj_sub)

/-- Every operation determines its result. -/
theorem ops_fresh : ∀ op ∈ (ops : List (HloOp τ sig (Elt F))), op.fresh = ∅ :=
  forall_ops ops_agg1_fresh ops_pre1_fresh ops_relu1_fresh ops_norm1a_fresh ops_norm1b_fresh ops_agg0_fresh ops_pre0a_fresh ops_pre0b_fresh ops_relu0_fresh ops_norm0_fresh ops_proj_fresh

end Cert.ReferenceIdeal.Hand

end
-- ==== Proof.RefRun.lean ====
/-
  The reference program's run.

  The list of @main's operations (RefOps) is folded over the launch contents piece by piece. For each piece
  — a layer's neighbourhood mean, its gated sum, its rectifier, its normalisation; the output projection — the
  buffer the piece ends in holds, whatever the contents W before it, the corresponding function of RefTerm
  (agg, gated, relu, normed, refProj) of W at the buffers the piece reads: each operation's result is its
  function of its operands' contents, and a buffer is written once. A buffer that a piece does not write keeps
  its contents through it. Chaining the nine pieces, the result buffer ends at refOut of the 23 arguments'
  launch contents and every argument is unchanged; the run theorem is this read through the adequacy of the
  sequence rule for a straight line of host operations.
-/
import proofs.«160845_j81252191306258_1_alg».proof.Proof.RefOps
import proofs.«160845_j81252191306258_1_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

/-- The contents of the device's buffers, at the extended reals. -/
abbrev Vl : Type := Valuation τ sig (Elt Ideal)

/-- Folding a concatenation is folding its first part, then its second from there. -/
theorem after_app : ∀ (l₁ l₂ : List (HloOp τ sig (Elt Ideal))) (V : Vl), after (l₁ ++ l₂) V = after l₂ (after l₁ V)
  | [], _, _ => rfl
  | op :: l₁, l₂, V => by rw [List.cons_append, after_cons, after_cons, after_app l₁ l₂]

/-! ## The pieces, each from arbitrary contents -/

/-- The buffers the piece `ops_agg1` writes. -/
abbrev agg1_W : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_call0_v0, main_call0_v1, main_v18, main_v19, main_v20, main_v21]
set_option maxRecDepth 8192 in
theorem ops_agg1_writes : (ops_agg1 : List (HloOp τ sig (Elt Ideal))).Forall fun op => op.writes ⊆ (agg1_W.map (Proc.devRef (τ := τ) .tc)).toFinset := by
  simp only [List.Forall, ops_agg1, List.cons_append, List.nil_append]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the piece does not write keeps its contents through it. -/
theorem agg1_keep (W : Vl) (r : Ref sig .tc) (h : r ∉ agg1_W) :
    after ops_agg1 W (Proc.devRef .tc r : DevRef τ sig) = W (Proc.devRef .tc r : DevRef τ sig) :=
  after_of_writes_sub ops_agg1 W ops_agg1_writes h
set_option maxRecDepth 8192 in
set_option maxHeartbeats 4000000 in
/-- What the piece leaves in `main_v21`, from any contents. -/
theorem agg1_out (W : Vl) :
    after ops_agg1 W (Proc.devRef .tc main_v21 : DevRef τ sig) = agg (W (Proc.devRef .tc main_arg0 : DevRef τ sig)) (W (Proc.devRef .tc main_arg2 : DevRef τ sig)) := by
  simp only [ops_agg1, List.cons_append, List.nil_append]
  after_results_simp
  rfl

/-- The buffers the piece `ops_pre1` writes. -/
abbrev pre1_W : List (Ref sig .tc) := [main_v22, main_v23, main_cst_4, main_v24, main_cst_5, main_v25, main_v26, main_v27, main_v28, main_v29, main_v30, main_cst_6, main_v31, main_v32, main_v33, main_v34, main_v35, main_v36, main_v37, main_v38, main_v39, main_v40, main_v41, main_v42, main_v43, main_v44, main_v45, main_v46, main_v47]
set_option maxRecDepth 8192 in
theorem ops_pre1_writes : (ops_pre1 : List (HloOp τ sig (Elt Ideal))).Forall fun op => op.writes ⊆ (pre1_W.map (Proc.devRef (τ := τ) .tc)).toFinset := by
  simp only [List.Forall, ops_pre1, List.cons_append, List.nil_append]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the piece does not write keeps its contents through it. -/
theorem pre1_keep (W : Vl) (r : Ref sig .tc) (h : r ∉ pre1_W) :
    after ops_pre1 W (Proc.devRef .tc r : DevRef τ sig) = W (Proc.devRef .tc r : DevRef τ sig) :=
  after_of_writes_sub ops_pre1 W ops_pre1_writes h
set_option maxRecDepth 8192 in
set_option maxHeartbeats 4000000 in
/-- What the piece leaves in `main_v47`, from any contents. -/
theorem pre1_out (W : Vl) :
    after ops_pre1 W (Proc.devRef .tc main_v47 : DevRef τ sig) = gated (W (Proc.devRef .tc main_v21 : DevRef τ sig)) (W (Proc.devRef .tc main_arg0 : DevRef τ sig)) (W (Proc.devRef .tc main_arg0 : DevRef τ sig)) (W (Proc.devRef .tc main_arg12 : DevRef τ sig)) (W (Proc.devRef .tc main_arg13 : DevRef τ sig)) (W (Proc.devRef .tc main_arg14 : DevRef τ sig)) (W (Proc.devRef .tc main_arg15 : DevRef τ sig)) (W (Proc.devRef .tc main_arg16 : DevRef τ sig)) (W (Proc.devRef .tc main_arg17 : DevRef τ sig)) (W (Proc.devRef .tc main_arg18 : DevRef τ sig)) := by
  simp only [ops_pre1, List.cons_append, List.nil_append]
  after_results_simp
  rfl

/-- The buffers the piece `ops_relu1` writes. -/
abbrev relu1_W : List (Ref sig .tc) := [main_call1_cst, main_call1_v0, main_v48]
set_option maxRecDepth 8192 in
theorem ops_relu1_writes : (ops_relu1 : List (HloOp τ sig (Elt Ideal))).Forall fun op => op.writes ⊆ (relu1_W.map (Proc.devRef (τ := τ) .tc)).toFinset := by
  simp only [List.Forall, ops_relu1, List.cons_append, List.nil_append]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the piece does not write keeps its contents through it. -/
theorem relu1_keep (W : Vl) (r : Ref sig .tc) (h : r ∉ relu1_W) :
    after ops_relu1 W (Proc.devRef .tc r : DevRef τ sig) = W (Proc.devRef .tc r : DevRef τ sig) :=
  after_of_writes_sub ops_relu1 W ops_relu1_writes h
set_option maxRecDepth 8192 in
set_option maxHeartbeats 4000000 in
/-- What the piece leaves in `main_v48`, from any contents. -/
theorem relu1_out (W : Vl) :
    after ops_relu1 W (Proc.devRef .tc main_v48 : DevRef τ sig) = relu (W (Proc.devRef .tc main_v47 : DevRef τ sig)) := by
  simp only [ops_relu1, List.cons_append, List.nil_append]
  after_results_simp
  rfl

/-- The buffers the piece `ops_norm1` writes. -/
abbrev norm1_W : List (Ref sig .tc) := [main_cst_7, main_v49, main_v50, main_cst_8, main_v51, main_v52, main_c_9, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v53, main_v54, main_v55, main_cst_10, main_v56, main_v57, main_v58, main_v59, main_v60, main_v61, main_v62, main_v63, main_v64, main_v65, main_v66]
set_option maxRecDepth 8192 in
theorem ops_norm1_writes : (ops_norm1 : List (HloOp τ sig (Elt Ideal))).Forall fun op => op.writes ⊆ (norm1_W.map (Proc.devRef (τ := τ) .tc)).toFinset := by
  simp only [List.Forall, ops_norm1, ops_norm1a, ops_norm1b, List.cons_append, List.nil_append]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the piece does not write keeps its contents through it. -/
theorem norm1_keep (W : Vl) (r : Ref sig .tc) (h : r ∉ norm1_W) :
    after ops_norm1 W (Proc.devRef .tc r : DevRef τ sig) = W (Proc.devRef .tc r : DevRef τ sig) :=
  after_of_writes_sub ops_norm1 W ops_norm1_writes h
set_option maxRecDepth 8192 in
set_option maxHeartbeats 4000000 in
/-- What the piece leaves in `main_v66`, from any contents. -/
theorem norm1_out (W : Vl) :
    after ops_norm1 W (Proc.devRef .tc main_v66 : DevRef τ sig) = normed (W (Proc.devRef .tc main_v48 : DevRef τ sig)) (W (Proc.devRef .tc main_arg19 : DevRef τ sig)) (W (Proc.devRef .tc main_arg20 : DevRef τ sig)) := by
  simp only [ops_norm1, ops_norm1a, ops_norm1b, List.cons_append, List.nil_append]
  after_results_simp
  rfl

/-- The buffers the piece `ops_agg0` writes. -/
abbrev agg0_W : List (Ref sig .tc) := [main_v67, main_v68, main_v69, main_v70, main_c_11, main_v71, main_v72, main_c_12, main_v73, main_v74, main_v75, main_v76, main_v77, main_cst_13, main_v78, main_v79, main_v80, main_cst_14, main_v81, main_cst_15, main_v82, main_v83, main_v84, main_cst_16, main_call3_v0, main_call3_v1, main_v85, main_v86, main_v87, main_v88]
set_option maxRecDepth 8192 in
theorem ops_agg0_writes : (ops_agg0 : List (HloOp τ sig (Elt Ideal))).Forall fun op => op.writes ⊆ (agg0_W.map (Proc.devRef (τ := τ) .tc)).toFinset := by
  simp only [List.Forall, ops_agg0, List.cons_append, List.nil_append]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the piece does not write keeps its contents through it. -/
theorem agg0_keep (W : Vl) (r : Ref sig .tc) (h : r ∉ agg0_W) :
    after ops_agg0 W (Proc.devRef .tc r : DevRef τ sig) = W (Proc.devRef .tc r : DevRef τ sig) :=
  after_of_writes_sub ops_agg0 W ops_agg0_writes h
set_option maxRecDepth 8192 in
set_option maxHeartbeats 4000000 in
/-- What the piece leaves in `main_v88`, from any contents. -/
theorem agg0_out (W : Vl) :
    after ops_agg0 W (Proc.devRef .tc main_v88 : DevRef τ sig) = agg (W (Proc.devRef .tc main_v66 : DevRef τ sig)) (W (Proc.devRef .tc main_arg1 : DevRef τ sig)) := by
  simp only [ops_agg0, List.cons_append, List.nil_append]
  after_results_simp
  rfl

/-- The buffers the piece `ops_pre0` writes. -/
abbrev pre0_W : List (Ref sig .tc) := [main_v89, main_v90, main_cst_17, main_v91, main_cst_18, main_v92, main_v93, main_v94, main_v95, main_v96, main_v97, main_cst_19, main_v98, main_v99, main_v100, main_v101, main_v102, main_v103, main_v104, main_v105, main_v106, main_v107, main_v108, main_v109, main_v110, main_v111, main_v112, main_v113, main_v114]
set_option maxRecDepth 8192 in
theorem ops_pre0_writes : (ops_pre0 : List (HloOp τ sig (Elt Ideal))).Forall fun op => op.writes ⊆ (pre0_W.map (Proc.devRef (τ := τ) .tc)).toFinset := by
  simp only [List.Forall, ops_pre0, ops_pre0a, ops_pre0b, List.cons_append, List.nil_append]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the piece does not write keeps its contents through it. -/
theorem pre0_keep (W : Vl) (r : Ref sig .tc) (h : r ∉ pre0_W) :
    after ops_pre0 W (Proc.devRef .tc r : DevRef τ sig) = W (Proc.devRef .tc r : DevRef τ sig) :=
  after_of_writes_sub ops_pre0 W ops_pre0_writes h
set_option maxRecDepth 8192 in
set_option maxHeartbeats 4000000 in
/-- What the piece leaves in `main_v114`, from any contents. -/
theorem pre0_out (W : Vl) :
    after ops_pre0 W (Proc.devRef .tc main_v114 : DevRef τ sig) = gated (W (Proc.devRef .tc main_v88 : DevRef τ sig)) (W (Proc.devRef .tc main_v66 : DevRef τ sig)) (W (Proc.devRef .tc main_arg0 : DevRef τ sig)) (W (Proc.devRef .tc main_arg3 : DevRef τ sig)) (W (Proc.devRef .tc main_arg4 : DevRef τ sig)) (W (Proc.devRef .tc main_arg5 : DevRef τ sig)) (W (Proc.devRef .tc main_arg6 : DevRef τ sig)) (W (Proc.devRef .tc main_arg7 : DevRef τ sig)) (W (Proc.devRef .tc main_arg8 : DevRef τ sig)) (W (Proc.devRef .tc main_arg9 : DevRef τ sig)) := by
  simp only [ops_pre0, ops_pre0a, ops_pre0b, List.cons_append, List.nil_append]
  after_results_simp
  rfl

/-- The buffers the piece `ops_relu0` writes. -/
abbrev relu0_W : List (Ref sig .tc) := [main_call4_cst, main_call4_v0, main_v115]
set_option maxRecDepth 8192 in
theorem ops_relu0_writes : (ops_relu0 : List (HloOp τ sig (Elt Ideal))).Forall fun op => op.writes ⊆ (relu0_W.map (Proc.devRef (τ := τ) .tc)).toFinset := by
  simp only [List.Forall, ops_relu0, List.cons_append, List.nil_append]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the piece does not write keeps its contents through it. -/
theorem relu0_keep (W : Vl) (r : Ref sig .tc) (h : r ∉ relu0_W) :
    after ops_relu0 W (Proc.devRef .tc r : DevRef τ sig) = W (Proc.devRef .tc r : DevRef τ sig) :=
  after_of_writes_sub ops_relu0 W ops_relu0_writes h
set_option maxRecDepth 8192 in
set_option maxHeartbeats 4000000 in
/-- What the piece leaves in `main_v115`, from any contents. -/
theorem relu0_out (W : Vl) :
    after ops_relu0 W (Proc.devRef .tc main_v115 : DevRef τ sig) = relu (W (Proc.devRef .tc main_v114 : DevRef τ sig)) := by
  simp only [ops_relu0, List.cons_append, List.nil_append]
  after_results_simp
  rfl

/-- The buffers the piece `ops_norm0` writes. -/
abbrev norm0_W : List (Ref sig .tc) := [main_cst_20, main_v116, main_v117, main_cst_21, main_v118, main_v119, main_c_22, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v120, main_v121, main_v122, main_cst_23, main_v123, main_v124, main_v125, main_v126, main_v127, main_v128, main_v129, main_v130, main_v131, main_v132, main_v133]
set_option maxRecDepth 8192 in
theorem ops_norm0_writes : (ops_norm0 : List (HloOp τ sig (Elt Ideal))).Forall fun op => op.writes ⊆ (norm0_W.map (Proc.devRef (τ := τ) .tc)).toFinset := by
  simp only [List.Forall, ops_norm0, List.cons_append, List.nil_append]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the piece does not write keeps its contents through it. -/
theorem norm0_keep (W : Vl) (r : Ref sig .tc) (h : r ∉ norm0_W) :
    after ops_norm0 W (Proc.devRef .tc r : DevRef τ sig) = W (Proc.devRef .tc r : DevRef τ sig) :=
  after_of_writes_sub ops_norm0 W ops_norm0_writes h
set_option maxRecDepth 8192 in
set_option maxHeartbeats 4000000 in
/-- What the piece leaves in `main_v133`, from any contents. -/
theorem norm0_out (W : Vl) :
    after ops_norm0 W (Proc.devRef .tc main_v133 : DevRef τ sig) = normed (W (Proc.devRef .tc main_v115 : DevRef τ sig)) (W (Proc.devRef .tc main_arg10 : DevRef τ sig)) (W (Proc.devRef .tc main_arg11 : DevRef τ sig)) := by
  simp only [ops_norm0, List.cons_append, List.nil_append]
  after_results_simp
  rfl

/-- The buffers the piece `ops_proj` writes. -/
abbrev proj_W : List (Ref sig .tc) := [main_v134, main_v135, main_v136, main_v137, main_v138]
set_option maxRecDepth 8192 in
theorem ops_proj_writes : (ops_proj : List (HloOp τ sig (Elt Ideal))).Forall fun op => op.writes ⊆ (proj_W.map (Proc.devRef (τ := τ) .tc)).toFinset := by
  simp only [List.Forall, ops_proj, List.cons_append, List.nil_append]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the piece does not write keeps its contents through it. -/
theorem proj_keep (W : Vl) (r : Ref sig .tc) (h : r ∉ proj_W) :
    after ops_proj W (Proc.devRef .tc r : DevRef τ sig) = W (Proc.devRef .tc r : DevRef τ sig) :=
  after_of_writes_sub ops_proj W ops_proj_writes h
set_option maxRecDepth 8192 in
set_option maxHeartbeats 4000000 in
/-- What the piece leaves in `main_v138`, from any contents. -/
theorem proj_out (W : Vl) :
    after ops_proj W (Proc.devRef .tc main_v138 : DevRef τ sig) = refProj (W (Proc.devRef .tc main_v133 : DevRef τ sig)) (W (Proc.devRef .tc main_arg21 : DevRef τ sig)) (W (Proc.devRef .tc main_arg22 : DevRef τ sig)) := by
  simp only [ops_proj, List.cons_append, List.nil_append]
  after_results_simp
  rfl

/-! ## The contents after each piece, from the launch contents `V` -/

/-- The contents after the first 1 piece. -/
def W1 (V : Vl) : Vl := after ops_agg1 (V)
/-- The contents after the first 2 pieces. -/
def W2 (V : Vl) : Vl := after ops_pre1 (W1 V)
/-- The contents after the first 3 pieces. -/
def W3 (V : Vl) : Vl := after ops_relu1 (W2 V)
/-- The contents after the first 4 pieces. -/
def W4 (V : Vl) : Vl := after ops_norm1 (W3 V)
/-- The contents after the first 5 pieces. -/
def W5 (V : Vl) : Vl := after ops_agg0 (W4 V)
/-- The contents after the first 6 pieces. -/
def W6 (V : Vl) : Vl := after ops_pre0 (W5 V)
/-- The contents after the first 7 pieces. -/
def W7 (V : Vl) : Vl := after ops_relu0 (W6 V)
/-- The contents after the first 8 pieces. -/
def W8 (V : Vl) : Vl := after ops_norm0 (W7 V)
/-- The contents after the first 9 pieces. -/
def W9 (V : Vl) : Vl := after ops_proj (W8 V)

/-- The fold of the whole list is the last of these. -/
theorem after_ops (V : Vl) : after (ops (F := Ideal)) V = W9 V := by
  unfold W9 W8 W7 W6 W5 W4 W3 W2 W1
  rw [ops, after_app ops_agg1, after_app ops_pre1, after_app ops_relu1, after_app ops_norm1, after_app ops_agg0,
    after_app ops_pre0, after_app ops_relu0, after_app ops_norm0]

/-! ### The arguments: no piece writes one -/

theorem W1_main_arg0 (V : Vl) : W1 V (Proc.devRef .tc main_arg0 : DevRef τ sig) = V (Proc.devRef .tc main_arg0 : DevRef τ sig) :=
  (agg1_keep V main_arg0 (by decide))
theorem W1_main_arg1 (V : Vl) : W1 V (Proc.devRef .tc main_arg1 : DevRef τ sig) = V (Proc.devRef .tc main_arg1 : DevRef τ sig) :=
  (agg1_keep V main_arg1 (by decide))
theorem W1_main_arg2 (V : Vl) : W1 V (Proc.devRef .tc main_arg2 : DevRef τ sig) = V (Proc.devRef .tc main_arg2 : DevRef τ sig) :=
  (agg1_keep V main_arg2 (by decide))
theorem W1_main_arg3 (V : Vl) : W1 V (Proc.devRef .tc main_arg3 : DevRef τ sig) = V (Proc.devRef .tc main_arg3 : DevRef τ sig) :=
  (agg1_keep V main_arg3 (by decide))
theorem W1_main_arg4 (V : Vl) : W1 V (Proc.devRef .tc main_arg4 : DevRef τ sig) = V (Proc.devRef .tc main_arg4 : DevRef τ sig) :=
  (agg1_keep V main_arg4 (by decide))
theorem W1_main_arg5 (V : Vl) : W1 V (Proc.devRef .tc main_arg5 : DevRef τ sig) = V (Proc.devRef .tc main_arg5 : DevRef τ sig) :=
  (agg1_keep V main_arg5 (by decide))
theorem W1_main_arg6 (V : Vl) : W1 V (Proc.devRef .tc main_arg6 : DevRef τ sig) = V (Proc.devRef .tc main_arg6 : DevRef τ sig) :=
  (agg1_keep V main_arg6 (by decide))
theorem W1_main_arg7 (V : Vl) : W1 V (Proc.devRef .tc main_arg7 : DevRef τ sig) = V (Proc.devRef .tc main_arg7 : DevRef τ sig) :=
  (agg1_keep V main_arg7 (by decide))
theorem W1_main_arg8 (V : Vl) : W1 V (Proc.devRef .tc main_arg8 : DevRef τ sig) = V (Proc.devRef .tc main_arg8 : DevRef τ sig) :=
  (agg1_keep V main_arg8 (by decide))
theorem W1_main_arg9 (V : Vl) : W1 V (Proc.devRef .tc main_arg9 : DevRef τ sig) = V (Proc.devRef .tc main_arg9 : DevRef τ sig) :=
  (agg1_keep V main_arg9 (by decide))
theorem W1_main_arg10 (V : Vl) : W1 V (Proc.devRef .tc main_arg10 : DevRef τ sig) = V (Proc.devRef .tc main_arg10 : DevRef τ sig) :=
  (agg1_keep V main_arg10 (by decide))
theorem W1_main_arg11 (V : Vl) : W1 V (Proc.devRef .tc main_arg11 : DevRef τ sig) = V (Proc.devRef .tc main_arg11 : DevRef τ sig) :=
  (agg1_keep V main_arg11 (by decide))
theorem W1_main_arg12 (V : Vl) : W1 V (Proc.devRef .tc main_arg12 : DevRef τ sig) = V (Proc.devRef .tc main_arg12 : DevRef τ sig) :=
  (agg1_keep V main_arg12 (by decide))
theorem W1_main_arg13 (V : Vl) : W1 V (Proc.devRef .tc main_arg13 : DevRef τ sig) = V (Proc.devRef .tc main_arg13 : DevRef τ sig) :=
  (agg1_keep V main_arg13 (by decide))
theorem W1_main_arg14 (V : Vl) : W1 V (Proc.devRef .tc main_arg14 : DevRef τ sig) = V (Proc.devRef .tc main_arg14 : DevRef τ sig) :=
  (agg1_keep V main_arg14 (by decide))
theorem W1_main_arg15 (V : Vl) : W1 V (Proc.devRef .tc main_arg15 : DevRef τ sig) = V (Proc.devRef .tc main_arg15 : DevRef τ sig) :=
  (agg1_keep V main_arg15 (by decide))
theorem W1_main_arg16 (V : Vl) : W1 V (Proc.devRef .tc main_arg16 : DevRef τ sig) = V (Proc.devRef .tc main_arg16 : DevRef τ sig) :=
  (agg1_keep V main_arg16 (by decide))
theorem W1_main_arg17 (V : Vl) : W1 V (Proc.devRef .tc main_arg17 : DevRef τ sig) = V (Proc.devRef .tc main_arg17 : DevRef τ sig) :=
  (agg1_keep V main_arg17 (by decide))
theorem W1_main_arg18 (V : Vl) : W1 V (Proc.devRef .tc main_arg18 : DevRef τ sig) = V (Proc.devRef .tc main_arg18 : DevRef τ sig) :=
  (agg1_keep V main_arg18 (by decide))
theorem W1_main_arg19 (V : Vl) : W1 V (Proc.devRef .tc main_arg19 : DevRef τ sig) = V (Proc.devRef .tc main_arg19 : DevRef τ sig) :=
  (agg1_keep V main_arg19 (by decide))
theorem W1_main_arg20 (V : Vl) : W1 V (Proc.devRef .tc main_arg20 : DevRef τ sig) = V (Proc.devRef .tc main_arg20 : DevRef τ sig) :=
  (agg1_keep V main_arg20 (by decide))
theorem W1_main_arg21 (V : Vl) : W1 V (Proc.devRef .tc main_arg21 : DevRef τ sig) = V (Proc.devRef .tc main_arg21 : DevRef τ sig) :=
  (agg1_keep V main_arg21 (by decide))
theorem W1_main_arg22 (V : Vl) : W1 V (Proc.devRef .tc main_arg22 : DevRef τ sig) = V (Proc.devRef .tc main_arg22 : DevRef τ sig) :=
  (agg1_keep V main_arg22 (by decide))
theorem W2_main_arg0 (V : Vl) : W2 V (Proc.devRef .tc main_arg0 : DevRef τ sig) = V (Proc.devRef .tc main_arg0 : DevRef τ sig) :=
  (pre1_keep (W1 V) main_arg0 (by decide)).trans (W1_main_arg0 V)
theorem W2_main_arg1 (V : Vl) : W2 V (Proc.devRef .tc main_arg1 : DevRef τ sig) = V (Proc.devRef .tc main_arg1 : DevRef τ sig) :=
  (pre1_keep (W1 V) main_arg1 (by decide)).trans (W1_main_arg1 V)
theorem W2_main_arg2 (V : Vl) : W2 V (Proc.devRef .tc main_arg2 : DevRef τ sig) = V (Proc.devRef .tc main_arg2 : DevRef τ sig) :=
  (pre1_keep (W1 V) main_arg2 (by decide)).trans (W1_main_arg2 V)
theorem W2_main_arg3 (V : Vl) : W2 V (Proc.devRef .tc main_arg3 : DevRef τ sig) = V (Proc.devRef .tc main_arg3 : DevRef τ sig) :=
  (pre1_keep (W1 V) main_arg3 (by decide)).trans (W1_main_arg3 V)
theorem W2_main_arg4 (V : Vl) : W2 V (Proc.devRef .tc main_arg4 : DevRef τ sig) = V (Proc.devRef .tc main_arg4 : DevRef τ sig) :=
  (pre1_keep (W1 V) main_arg4 (by decide)).trans (W1_main_arg4 V)
theorem W2_main_arg5 (V : Vl) : W2 V (Proc.devRef .tc main_arg5 : DevRef τ sig) = V (Proc.devRef .tc main_arg5 : DevRef τ sig) :=
  (pre1_keep (W1 V) main_arg5 (by decide)).trans (W1_main_arg5 V)
theorem W2_main_arg6 (V : Vl) : W2 V (Proc.devRef .tc main_arg6 : DevRef τ sig) = V (Proc.devRef .tc main_arg6 : DevRef τ sig) :=
  (pre1_keep (W1 V) main_arg6 (by decide)).trans (W1_main_arg6 V)
theorem W2_main_arg7 (V : Vl) : W2 V (Proc.devRef .tc main_arg7 : DevRef τ sig) = V (Proc.devRef .tc main_arg7 : DevRef τ sig) :=
  (pre1_keep (W1 V) main_arg7 (by decide)).trans (W1_main_arg7 V)
theorem W2_main_arg8 (V : Vl) : W2 V (Proc.devRef .tc main_arg8 : DevRef τ sig) = V (Proc.devRef .tc main_arg8 : DevRef τ sig) :=
  (pre1_keep (W1 V) main_arg8 (by decide)).trans (W1_main_arg8 V)
theorem W2_main_arg9 (V : Vl) : W2 V (Proc.devRef .tc main_arg9 : DevRef τ sig) = V (Proc.devRef .tc main_arg9 : DevRef τ sig) :=
  (pre1_keep (W1 V) main_arg9 (by decide)).trans (W1_main_arg9 V)
theorem W2_main_arg10 (V : Vl) : W2 V (Proc.devRef .tc main_arg10 : DevRef τ sig) = V (Proc.devRef .tc main_arg10 : DevRef τ sig) :=
  (pre1_keep (W1 V) main_arg10 (by decide)).trans (W1_main_arg10 V)
theorem W2_main_arg11 (V : Vl) : W2 V (Proc.devRef .tc main_arg11 : DevRef τ sig) = V (Proc.devRef .tc main_arg11 : DevRef τ sig) :=
  (pre1_keep (W1 V) main_arg11 (by decide)).trans (W1_main_arg11 V)
theorem W2_main_arg12 (V : Vl) : W2 V (Proc.devRef .tc main_arg12 : DevRef τ sig) = V (Proc.devRef .tc main_arg12 : DevRef τ sig) :=
  (pre1_keep (W1 V) main_arg12 (by decide)).trans (W1_main_arg12 V)
theorem W2_main_arg13 (V : Vl) : W2 V (Proc.devRef .tc main_arg13 : DevRef τ sig) = V (Proc.devRef .tc main_arg13 : DevRef τ sig) :=
  (pre1_keep (W1 V) main_arg13 (by decide)).trans (W1_main_arg13 V)
theorem W2_main_arg14 (V : Vl) : W2 V (Proc.devRef .tc main_arg14 : DevRef τ sig) = V (Proc.devRef .tc main_arg14 : DevRef τ sig) :=
  (pre1_keep (W1 V) main_arg14 (by decide)).trans (W1_main_arg14 V)
theorem W2_main_arg15 (V : Vl) : W2 V (Proc.devRef .tc main_arg15 : DevRef τ sig) = V (Proc.devRef .tc main_arg15 : DevRef τ sig) :=
  (pre1_keep (W1 V) main_arg15 (by decide)).trans (W1_main_arg15 V)
theorem W2_main_arg16 (V : Vl) : W2 V (Proc.devRef .tc main_arg16 : DevRef τ sig) = V (Proc.devRef .tc main_arg16 : DevRef τ sig) :=
  (pre1_keep (W1 V) main_arg16 (by decide)).trans (W1_main_arg16 V)
theorem W2_main_arg17 (V : Vl) : W2 V (Proc.devRef .tc main_arg17 : DevRef τ sig) = V (Proc.devRef .tc main_arg17 : DevRef τ sig) :=
  (pre1_keep (W1 V) main_arg17 (by decide)).trans (W1_main_arg17 V)
theorem W2_main_arg18 (V : Vl) : W2 V (Proc.devRef .tc main_arg18 : DevRef τ sig) = V (Proc.devRef .tc main_arg18 : DevRef τ sig) :=
  (pre1_keep (W1 V) main_arg18 (by decide)).trans (W1_main_arg18 V)
theorem W2_main_arg19 (V : Vl) : W2 V (Proc.devRef .tc main_arg19 : DevRef τ sig) = V (Proc.devRef .tc main_arg19 : DevRef τ sig) :=
  (pre1_keep (W1 V) main_arg19 (by decide)).trans (W1_main_arg19 V)
theorem W2_main_arg20 (V : Vl) : W2 V (Proc.devRef .tc main_arg20 : DevRef τ sig) = V (Proc.devRef .tc main_arg20 : DevRef τ sig) :=
  (pre1_keep (W1 V) main_arg20 (by decide)).trans (W1_main_arg20 V)
theorem W2_main_arg21 (V : Vl) : W2 V (Proc.devRef .tc main_arg21 : DevRef τ sig) = V (Proc.devRef .tc main_arg21 : DevRef τ sig) :=
  (pre1_keep (W1 V) main_arg21 (by decide)).trans (W1_main_arg21 V)
theorem W2_main_arg22 (V : Vl) : W2 V (Proc.devRef .tc main_arg22 : DevRef τ sig) = V (Proc.devRef .tc main_arg22 : DevRef τ sig) :=
  (pre1_keep (W1 V) main_arg22 (by decide)).trans (W1_main_arg22 V)
theorem W3_main_arg0 (V : Vl) : W3 V (Proc.devRef .tc main_arg0 : DevRef τ sig) = V (Proc.devRef .tc main_arg0 : DevRef τ sig) :=
  (relu1_keep (W2 V) main_arg0 (by decide)).trans (W2_main_arg0 V)
theorem W3_main_arg1 (V : Vl) : W3 V (Proc.devRef .tc main_arg1 : DevRef τ sig) = V (Proc.devRef .tc main_arg1 : DevRef τ sig) :=
  (relu1_keep (W2 V) main_arg1 (by decide)).trans (W2_main_arg1 V)
theorem W3_main_arg2 (V : Vl) : W3 V (Proc.devRef .tc main_arg2 : DevRef τ sig) = V (Proc.devRef .tc main_arg2 : DevRef τ sig) :=
  (relu1_keep (W2 V) main_arg2 (by decide)).trans (W2_main_arg2 V)
theorem W3_main_arg3 (V : Vl) : W3 V (Proc.devRef .tc main_arg3 : DevRef τ sig) = V (Proc.devRef .tc main_arg3 : DevRef τ sig) :=
  (relu1_keep (W2 V) main_arg3 (by decide)).trans (W2_main_arg3 V)
theorem W3_main_arg4 (V : Vl) : W3 V (Proc.devRef .tc main_arg4 : DevRef τ sig) = V (Proc.devRef .tc main_arg4 : DevRef τ sig) :=
  (relu1_keep (W2 V) main_arg4 (by decide)).trans (W2_main_arg4 V)
theorem W3_main_arg5 (V : Vl) : W3 V (Proc.devRef .tc main_arg5 : DevRef τ sig) = V (Proc.devRef .tc main_arg5 : DevRef τ sig) :=
  (relu1_keep (W2 V) main_arg5 (by decide)).trans (W2_main_arg5 V)
theorem W3_main_arg6 (V : Vl) : W3 V (Proc.devRef .tc main_arg6 : DevRef τ sig) = V (Proc.devRef .tc main_arg6 : DevRef τ sig) :=
  (relu1_keep (W2 V) main_arg6 (by decide)).trans (W2_main_arg6 V)
theorem W3_main_arg7 (V : Vl) : W3 V (Proc.devRef .tc main_arg7 : DevRef τ sig) = V (Proc.devRef .tc main_arg7 : DevRef τ sig) :=
  (relu1_keep (W2 V) main_arg7 (by decide)).trans (W2_main_arg7 V)
theorem W3_main_arg8 (V : Vl) : W3 V (Proc.devRef .tc main_arg8 : DevRef τ sig) = V (Proc.devRef .tc main_arg8 : DevRef τ sig) :=
  (relu1_keep (W2 V) main_arg8 (by decide)).trans (W2_main_arg8 V)
theorem W3_main_arg9 (V : Vl) : W3 V (Proc.devRef .tc main_arg9 : DevRef τ sig) = V (Proc.devRef .tc main_arg9 : DevRef τ sig) :=
  (relu1_keep (W2 V) main_arg9 (by decide)).trans (W2_main_arg9 V)
theorem W3_main_arg10 (V : Vl) : W3 V (Proc.devRef .tc main_arg10 : DevRef τ sig) = V (Proc.devRef .tc main_arg10 : DevRef τ sig) :=
  (relu1_keep (W2 V) main_arg10 (by decide)).trans (W2_main_arg10 V)
theorem W3_main_arg11 (V : Vl) : W3 V (Proc.devRef .tc main_arg11 : DevRef τ sig) = V (Proc.devRef .tc main_arg11 : DevRef τ sig) :=
  (relu1_keep (W2 V) main_arg11 (by decide)).trans (W2_main_arg11 V)
theorem W3_main_arg12 (V : Vl) : W3 V (Proc.devRef .tc main_arg12 : DevRef τ sig) = V (Proc.devRef .tc main_arg12 : DevRef τ sig) :=
  (relu1_keep (W2 V) main_arg12 (by decide)).trans (W2_main_arg12 V)
theorem W3_main_arg13 (V : Vl) : W3 V (Proc.devRef .tc main_arg13 : DevRef τ sig) = V (Proc.devRef .tc main_arg13 : DevRef τ sig) :=
  (relu1_keep (W2 V) main_arg13 (by decide)).trans (W2_main_arg13 V)
theorem W3_main_arg14 (V : Vl) : W3 V (Proc.devRef .tc main_arg14 : DevRef τ sig) = V (Proc.devRef .tc main_arg14 : DevRef τ sig) :=
  (relu1_keep (W2 V) main_arg14 (by decide)).trans (W2_main_arg14 V)
theorem W3_main_arg15 (V : Vl) : W3 V (Proc.devRef .tc main_arg15 : DevRef τ sig) = V (Proc.devRef .tc main_arg15 : DevRef τ sig) :=
  (relu1_keep (W2 V) main_arg15 (by decide)).trans (W2_main_arg15 V)
theorem W3_main_arg16 (V : Vl) : W3 V (Proc.devRef .tc main_arg16 : DevRef τ sig) = V (Proc.devRef .tc main_arg16 : DevRef τ sig) :=
  (relu1_keep (W2 V) main_arg16 (by decide)).trans (W2_main_arg16 V)
theorem W3_main_arg17 (V : Vl) : W3 V (Proc.devRef .tc main_arg17 : DevRef τ sig) = V (Proc.devRef .tc main_arg17 : DevRef τ sig) :=
  (relu1_keep (W2 V) main_arg17 (by decide)).trans (W2_main_arg17 V)
theorem W3_main_arg18 (V : Vl) : W3 V (Proc.devRef .tc main_arg18 : DevRef τ sig) = V (Proc.devRef .tc main_arg18 : DevRef τ sig) :=
  (relu1_keep (W2 V) main_arg18 (by decide)).trans (W2_main_arg18 V)
theorem W3_main_arg19 (V : Vl) : W3 V (Proc.devRef .tc main_arg19 : DevRef τ sig) = V (Proc.devRef .tc main_arg19 : DevRef τ sig) :=
  (relu1_keep (W2 V) main_arg19 (by decide)).trans (W2_main_arg19 V)
theorem W3_main_arg20 (V : Vl) : W3 V (Proc.devRef .tc main_arg20 : DevRef τ sig) = V (Proc.devRef .tc main_arg20 : DevRef τ sig) :=
  (relu1_keep (W2 V) main_arg20 (by decide)).trans (W2_main_arg20 V)
theorem W3_main_arg21 (V : Vl) : W3 V (Proc.devRef .tc main_arg21 : DevRef τ sig) = V (Proc.devRef .tc main_arg21 : DevRef τ sig) :=
  (relu1_keep (W2 V) main_arg21 (by decide)).trans (W2_main_arg21 V)
theorem W3_main_arg22 (V : Vl) : W3 V (Proc.devRef .tc main_arg22 : DevRef τ sig) = V (Proc.devRef .tc main_arg22 : DevRef τ sig) :=
  (relu1_keep (W2 V) main_arg22 (by decide)).trans (W2_main_arg22 V)
theorem W4_main_arg0 (V : Vl) : W4 V (Proc.devRef .tc main_arg0 : DevRef τ sig) = V (Proc.devRef .tc main_arg0 : DevRef τ sig) :=
  (norm1_keep (W3 V) main_arg0 (by decide)).trans (W3_main_arg0 V)
theorem W4_main_arg1 (V : Vl) : W4 V (Proc.devRef .tc main_arg1 : DevRef τ sig) = V (Proc.devRef .tc main_arg1 : DevRef τ sig) :=
  (norm1_keep (W3 V) main_arg1 (by decide)).trans (W3_main_arg1 V)
theorem W4_main_arg2 (V : Vl) : W4 V (Proc.devRef .tc main_arg2 : DevRef τ sig) = V (Proc.devRef .tc main_arg2 : DevRef τ sig) :=
  (norm1_keep (W3 V) main_arg2 (by decide)).trans (W3_main_arg2 V)
theorem W4_main_arg3 (V : Vl) : W4 V (Proc.devRef .tc main_arg3 : DevRef τ sig) = V (Proc.devRef .tc main_arg3 : DevRef τ sig) :=
  (norm1_keep (W3 V) main_arg3 (by decide)).trans (W3_main_arg3 V)
theorem W4_main_arg4 (V : Vl) : W4 V (Proc.devRef .tc main_arg4 : DevRef τ sig) = V (Proc.devRef .tc main_arg4 : DevRef τ sig) :=
  (norm1_keep (W3 V) main_arg4 (by decide)).trans (W3_main_arg4 V)
theorem W4_main_arg5 (V : Vl) : W4 V (Proc.devRef .tc main_arg5 : DevRef τ sig) = V (Proc.devRef .tc main_arg5 : DevRef τ sig) :=
  (norm1_keep (W3 V) main_arg5 (by decide)).trans (W3_main_arg5 V)
theorem W4_main_arg6 (V : Vl) : W4 V (Proc.devRef .tc main_arg6 : DevRef τ sig) = V (Proc.devRef .tc main_arg6 : DevRef τ sig) :=
  (norm1_keep (W3 V) main_arg6 (by decide)).trans (W3_main_arg6 V)
theorem W4_main_arg7 (V : Vl) : W4 V (Proc.devRef .tc main_arg7 : DevRef τ sig) = V (Proc.devRef .tc main_arg7 : DevRef τ sig) :=
  (norm1_keep (W3 V) main_arg7 (by decide)).trans (W3_main_arg7 V)
theorem W4_main_arg8 (V : Vl) : W4 V (Proc.devRef .tc main_arg8 : DevRef τ sig) = V (Proc.devRef .tc main_arg8 : DevRef τ sig) :=
  (norm1_keep (W3 V) main_arg8 (by decide)).trans (W3_main_arg8 V)
theorem W4_main_arg9 (V : Vl) : W4 V (Proc.devRef .tc main_arg9 : DevRef τ sig) = V (Proc.devRef .tc main_arg9 : DevRef τ sig) :=
  (norm1_keep (W3 V) main_arg9 (by decide)).trans (W3_main_arg9 V)
theorem W4_main_arg10 (V : Vl) : W4 V (Proc.devRef .tc main_arg10 : DevRef τ sig) = V (Proc.devRef .tc main_arg10 : DevRef τ sig) :=
  (norm1_keep (W3 V) main_arg10 (by decide)).trans (W3_main_arg10 V)
theorem W4_main_arg11 (V : Vl) : W4 V (Proc.devRef .tc main_arg11 : DevRef τ sig) = V (Proc.devRef .tc main_arg11 : DevRef τ sig) :=
  (norm1_keep (W3 V) main_arg11 (by decide)).trans (W3_main_arg11 V)
theorem W4_main_arg12 (V : Vl) : W4 V (Proc.devRef .tc main_arg12 : DevRef τ sig) = V (Proc.devRef .tc main_arg12 : DevRef τ sig) :=
  (norm1_keep (W3 V) main_arg12 (by decide)).trans (W3_main_arg12 V)
theorem W4_main_arg13 (V : Vl) : W4 V (Proc.devRef .tc main_arg13 : DevRef τ sig) = V (Proc.devRef .tc main_arg13 : DevRef τ sig) :=
  (norm1_keep (W3 V) main_arg13 (by decide)).trans (W3_main_arg13 V)
theorem W4_main_arg14 (V : Vl) : W4 V (Proc.devRef .tc main_arg14 : DevRef τ sig) = V (Proc.devRef .tc main_arg14 : DevRef τ sig) :=
  (norm1_keep (W3 V) main_arg14 (by decide)).trans (W3_main_arg14 V)
theorem W4_main_arg15 (V : Vl) : W4 V (Proc.devRef .tc main_arg15 : DevRef τ sig) = V (Proc.devRef .tc main_arg15 : DevRef τ sig) :=
  (norm1_keep (W3 V) main_arg15 (by decide)).trans (W3_main_arg15 V)
theorem W4_main_arg16 (V : Vl) : W4 V (Proc.devRef .tc main_arg16 : DevRef τ sig) = V (Proc.devRef .tc main_arg16 : DevRef τ sig) :=
  (norm1_keep (W3 V) main_arg16 (by decide)).trans (W3_main_arg16 V)
theorem W4_main_arg17 (V : Vl) : W4 V (Proc.devRef .tc main_arg17 : DevRef τ sig) = V (Proc.devRef .tc main_arg17 : DevRef τ sig) :=
  (norm1_keep (W3 V) main_arg17 (by decide)).trans (W3_main_arg17 V)
theorem W4_main_arg18 (V : Vl) : W4 V (Proc.devRef .tc main_arg18 : DevRef τ sig) = V (Proc.devRef .tc main_arg18 : DevRef τ sig) :=
  (norm1_keep (W3 V) main_arg18 (by decide)).trans (W3_main_arg18 V)
theorem W4_main_arg19 (V : Vl) : W4 V (Proc.devRef .tc main_arg19 : DevRef τ sig) = V (Proc.devRef .tc main_arg19 : DevRef τ sig) :=
  (norm1_keep (W3 V) main_arg19 (by decide)).trans (W3_main_arg19 V)
theorem W4_main_arg20 (V : Vl) : W4 V (Proc.devRef .tc main_arg20 : DevRef τ sig) = V (Proc.devRef .tc main_arg20 : DevRef τ sig) :=
  (norm1_keep (W3 V) main_arg20 (by decide)).trans (W3_main_arg20 V)
theorem W4_main_arg21 (V : Vl) : W4 V (Proc.devRef .tc main_arg21 : DevRef τ sig) = V (Proc.devRef .tc main_arg21 : DevRef τ sig) :=
  (norm1_keep (W3 V) main_arg21 (by decide)).trans (W3_main_arg21 V)
theorem W4_main_arg22 (V : Vl) : W4 V (Proc.devRef .tc main_arg22 : DevRef τ sig) = V (Proc.devRef .tc main_arg22 : DevRef τ sig) :=
  (norm1_keep (W3 V) main_arg22 (by decide)).trans (W3_main_arg22 V)
theorem W5_main_arg0 (V : Vl) : W5 V (Proc.devRef .tc main_arg0 : DevRef τ sig) = V (Proc.devRef .tc main_arg0 : DevRef τ sig) :=
  (agg0_keep (W4 V) main_arg0 (by decide)).trans (W4_main_arg0 V)
theorem W5_main_arg1 (V : Vl) : W5 V (Proc.devRef .tc main_arg1 : DevRef τ sig) = V (Proc.devRef .tc main_arg1 : DevRef τ sig) :=
  (agg0_keep (W4 V) main_arg1 (by decide)).trans (W4_main_arg1 V)
theorem W5_main_arg2 (V : Vl) : W5 V (Proc.devRef .tc main_arg2 : DevRef τ sig) = V (Proc.devRef .tc main_arg2 : DevRef τ sig) :=
  (agg0_keep (W4 V) main_arg2 (by decide)).trans (W4_main_arg2 V)
theorem W5_main_arg3 (V : Vl) : W5 V (Proc.devRef .tc main_arg3 : DevRef τ sig) = V (Proc.devRef .tc main_arg3 : DevRef τ sig) :=
  (agg0_keep (W4 V) main_arg3 (by decide)).trans (W4_main_arg3 V)
theorem W5_main_arg4 (V : Vl) : W5 V (Proc.devRef .tc main_arg4 : DevRef τ sig) = V (Proc.devRef .tc main_arg4 : DevRef τ sig) :=
  (agg0_keep (W4 V) main_arg4 (by decide)).trans (W4_main_arg4 V)
theorem W5_main_arg5 (V : Vl) : W5 V (Proc.devRef .tc main_arg5 : DevRef τ sig) = V (Proc.devRef .tc main_arg5 : DevRef τ sig) :=
  (agg0_keep (W4 V) main_arg5 (by decide)).trans (W4_main_arg5 V)
theorem W5_main_arg6 (V : Vl) : W5 V (Proc.devRef .tc main_arg6 : DevRef τ sig) = V (Proc.devRef .tc main_arg6 : DevRef τ sig) :=
  (agg0_keep (W4 V) main_arg6 (by decide)).trans (W4_main_arg6 V)
theorem W5_main_arg7 (V : Vl) : W5 V (Proc.devRef .tc main_arg7 : DevRef τ sig) = V (Proc.devRef .tc main_arg7 : DevRef τ sig) :=
  (agg0_keep (W4 V) main_arg7 (by decide)).trans (W4_main_arg7 V)
theorem W5_main_arg8 (V : Vl) : W5 V (Proc.devRef .tc main_arg8 : DevRef τ sig) = V (Proc.devRef .tc main_arg8 : DevRef τ sig) :=
  (agg0_keep (W4 V) main_arg8 (by decide)).trans (W4_main_arg8 V)
theorem W5_main_arg9 (V : Vl) : W5 V (Proc.devRef .tc main_arg9 : DevRef τ sig) = V (Proc.devRef .tc main_arg9 : DevRef τ sig) :=
  (agg0_keep (W4 V) main_arg9 (by decide)).trans (W4_main_arg9 V)
theorem W5_main_arg10 (V : Vl) : W5 V (Proc.devRef .tc main_arg10 : DevRef τ sig) = V (Proc.devRef .tc main_arg10 : DevRef τ sig) :=
  (agg0_keep (W4 V) main_arg10 (by decide)).trans (W4_main_arg10 V)
theorem W5_main_arg11 (V : Vl) : W5 V (Proc.devRef .tc main_arg11 : DevRef τ sig) = V (Proc.devRef .tc main_arg11 : DevRef τ sig) :=
  (agg0_keep (W4 V) main_arg11 (by decide)).trans (W4_main_arg11 V)
theorem W5_main_arg12 (V : Vl) : W5 V (Proc.devRef .tc main_arg12 : DevRef τ sig) = V (Proc.devRef .tc main_arg12 : DevRef τ sig) :=
  (agg0_keep (W4 V) main_arg12 (by decide)).trans (W4_main_arg12 V)
theorem W5_main_arg13 (V : Vl) : W5 V (Proc.devRef .tc main_arg13 : DevRef τ sig) = V (Proc.devRef .tc main_arg13 : DevRef τ sig) :=
  (agg0_keep (W4 V) main_arg13 (by decide)).trans (W4_main_arg13 V)
theorem W5_main_arg14 (V : Vl) : W5 V (Proc.devRef .tc main_arg14 : DevRef τ sig) = V (Proc.devRef .tc main_arg14 : DevRef τ sig) :=
  (agg0_keep (W4 V) main_arg14 (by decide)).trans (W4_main_arg14 V)
theorem W5_main_arg15 (V : Vl) : W5 V (Proc.devRef .tc main_arg15 : DevRef τ sig) = V (Proc.devRef .tc main_arg15 : DevRef τ sig) :=
  (agg0_keep (W4 V) main_arg15 (by decide)).trans (W4_main_arg15 V)
theorem W5_main_arg16 (V : Vl) : W5 V (Proc.devRef .tc main_arg16 : DevRef τ sig) = V (Proc.devRef .tc main_arg16 : DevRef τ sig) :=
  (agg0_keep (W4 V) main_arg16 (by decide)).trans (W4_main_arg16 V)
theorem W5_main_arg17 (V : Vl) : W5 V (Proc.devRef .tc main_arg17 : DevRef τ sig) = V (Proc.devRef .tc main_arg17 : DevRef τ sig) :=
  (agg0_keep (W4 V) main_arg17 (by decide)).trans (W4_main_arg17 V)
theorem W5_main_arg18 (V : Vl) : W5 V (Proc.devRef .tc main_arg18 : DevRef τ sig) = V (Proc.devRef .tc main_arg18 : DevRef τ sig) :=
  (agg0_keep (W4 V) main_arg18 (by decide)).trans (W4_main_arg18 V)
theorem W5_main_arg19 (V : Vl) : W5 V (Proc.devRef .tc main_arg19 : DevRef τ sig) = V (Proc.devRef .tc main_arg19 : DevRef τ sig) :=
  (agg0_keep (W4 V) main_arg19 (by decide)).trans (W4_main_arg19 V)
theorem W5_main_arg20 (V : Vl) : W5 V (Proc.devRef .tc main_arg20 : DevRef τ sig) = V (Proc.devRef .tc main_arg20 : DevRef τ sig) :=
  (agg0_keep (W4 V) main_arg20 (by decide)).trans (W4_main_arg20 V)
theorem W5_main_arg21 (V : Vl) : W5 V (Proc.devRef .tc main_arg21 : DevRef τ sig) = V (Proc.devRef .tc main_arg21 : DevRef τ sig) :=
  (agg0_keep (W4 V) main_arg21 (by decide)).trans (W4_main_arg21 V)
theorem W5_main_arg22 (V : Vl) : W5 V (Proc.devRef .tc main_arg22 : DevRef τ sig) = V (Proc.devRef .tc main_arg22 : DevRef τ sig) :=
  (agg0_keep (W4 V) main_arg22 (by decide)).trans (W4_main_arg22 V)
theorem W6_main_arg0 (V : Vl) : W6 V (Proc.devRef .tc main_arg0 : DevRef τ sig) = V (Proc.devRef .tc main_arg0 : DevRef τ sig) :=
  (pre0_keep (W5 V) main_arg0 (by decide)).trans (W5_main_arg0 V)
theorem W6_main_arg1 (V : Vl) : W6 V (Proc.devRef .tc main_arg1 : DevRef τ sig) = V (Proc.devRef .tc main_arg1 : DevRef τ sig) :=
  (pre0_keep (W5 V) main_arg1 (by decide)).trans (W5_main_arg1 V)
theorem W6_main_arg2 (V : Vl) : W6 V (Proc.devRef .tc main_arg2 : DevRef τ sig) = V (Proc.devRef .tc main_arg2 : DevRef τ sig) :=
  (pre0_keep (W5 V) main_arg2 (by decide)).trans (W5_main_arg2 V)
theorem W6_main_arg3 (V : Vl) : W6 V (Proc.devRef .tc main_arg3 : DevRef τ sig) = V (Proc.devRef .tc main_arg3 : DevRef τ sig) :=
  (pre0_keep (W5 V) main_arg3 (by decide)).trans (W5_main_arg3 V)
theorem W6_main_arg4 (V : Vl) : W6 V (Proc.devRef .tc main_arg4 : DevRef τ sig) = V (Proc.devRef .tc main_arg4 : DevRef τ sig) :=
  (pre0_keep (W5 V) main_arg4 (by decide)).trans (W5_main_arg4 V)
theorem W6_main_arg5 (V : Vl) : W6 V (Proc.devRef .tc main_arg5 : DevRef τ sig) = V (Proc.devRef .tc main_arg5 : DevRef τ sig) :=
  (pre0_keep (W5 V) main_arg5 (by decide)).trans (W5_main_arg5 V)
theorem W6_main_arg6 (V : Vl) : W6 V (Proc.devRef .tc main_arg6 : DevRef τ sig) = V (Proc.devRef .tc main_arg6 : DevRef τ sig) :=
  (pre0_keep (W5 V) main_arg6 (by decide)).trans (W5_main_arg6 V)
theorem W6_main_arg7 (V : Vl) : W6 V (Proc.devRef .tc main_arg7 : DevRef τ sig) = V (Proc.devRef .tc main_arg7 : DevRef τ sig) :=
  (pre0_keep (W5 V) main_arg7 (by decide)).trans (W5_main_arg7 V)
theorem W6_main_arg8 (V : Vl) : W6 V (Proc.devRef .tc main_arg8 : DevRef τ sig) = V (Proc.devRef .tc main_arg8 : DevRef τ sig) :=
  (pre0_keep (W5 V) main_arg8 (by decide)).trans (W5_main_arg8 V)
theorem W6_main_arg9 (V : Vl) : W6 V (Proc.devRef .tc main_arg9 : DevRef τ sig) = V (Proc.devRef .tc main_arg9 : DevRef τ sig) :=
  (pre0_keep (W5 V) main_arg9 (by decide)).trans (W5_main_arg9 V)
theorem W6_main_arg10 (V : Vl) : W6 V (Proc.devRef .tc main_arg10 : DevRef τ sig) = V (Proc.devRef .tc main_arg10 : DevRef τ sig) :=
  (pre0_keep (W5 V) main_arg10 (by decide)).trans (W5_main_arg10 V)
theorem W6_main_arg11 (V : Vl) : W6 V (Proc.devRef .tc main_arg11 : DevRef τ sig) = V (Proc.devRef .tc main_arg11 : DevRef τ sig) :=
  (pre0_keep (W5 V) main_arg11 (by decide)).trans (W5_main_arg11 V)
theorem W6_main_arg12 (V : Vl) : W6 V (Proc.devRef .tc main_arg12 : DevRef τ sig) = V (Proc.devRef .tc main_arg12 : DevRef τ sig) :=
  (pre0_keep (W5 V) main_arg12 (by decide)).trans (W5_main_arg12 V)
theorem W6_main_arg13 (V : Vl) : W6 V (Proc.devRef .tc main_arg13 : DevRef τ sig) = V (Proc.devRef .tc main_arg13 : DevRef τ sig) :=
  (pre0_keep (W5 V) main_arg13 (by decide)).trans (W5_main_arg13 V)
theorem W6_main_arg14 (V : Vl) : W6 V (Proc.devRef .tc main_arg14 : DevRef τ sig) = V (Proc.devRef .tc main_arg14 : DevRef τ sig) :=
  (pre0_keep (W5 V) main_arg14 (by decide)).trans (W5_main_arg14 V)
theorem W6_main_arg15 (V : Vl) : W6 V (Proc.devRef .tc main_arg15 : DevRef τ sig) = V (Proc.devRef .tc main_arg15 : DevRef τ sig) :=
  (pre0_keep (W5 V) main_arg15 (by decide)).trans (W5_main_arg15 V)
theorem W6_main_arg16 (V : Vl) : W6 V (Proc.devRef .tc main_arg16 : DevRef τ sig) = V (Proc.devRef .tc main_arg16 : DevRef τ sig) :=
  (pre0_keep (W5 V) main_arg16 (by decide)).trans (W5_main_arg16 V)
theorem W6_main_arg17 (V : Vl) : W6 V (Proc.devRef .tc main_arg17 : DevRef τ sig) = V (Proc.devRef .tc main_arg17 : DevRef τ sig) :=
  (pre0_keep (W5 V) main_arg17 (by decide)).trans (W5_main_arg17 V)
theorem W6_main_arg18 (V : Vl) : W6 V (Proc.devRef .tc main_arg18 : DevRef τ sig) = V (Proc.devRef .tc main_arg18 : DevRef τ sig) :=
  (pre0_keep (W5 V) main_arg18 (by decide)).trans (W5_main_arg18 V)
theorem W6_main_arg19 (V : Vl) : W6 V (Proc.devRef .tc main_arg19 : DevRef τ sig) = V (Proc.devRef .tc main_arg19 : DevRef τ sig) :=
  (pre0_keep (W5 V) main_arg19 (by decide)).trans (W5_main_arg19 V)
theorem W6_main_arg20 (V : Vl) : W6 V (Proc.devRef .tc main_arg20 : DevRef τ sig) = V (Proc.devRef .tc main_arg20 : DevRef τ sig) :=
  (pre0_keep (W5 V) main_arg20 (by decide)).trans (W5_main_arg20 V)
theorem W6_main_arg21 (V : Vl) : W6 V (Proc.devRef .tc main_arg21 : DevRef τ sig) = V (Proc.devRef .tc main_arg21 : DevRef τ sig) :=
  (pre0_keep (W5 V) main_arg21 (by decide)).trans (W5_main_arg21 V)
theorem W6_main_arg22 (V : Vl) : W6 V (Proc.devRef .tc main_arg22 : DevRef τ sig) = V (Proc.devRef .tc main_arg22 : DevRef τ sig) :=
  (pre0_keep (W5 V) main_arg22 (by decide)).trans (W5_main_arg22 V)
theorem W7_main_arg0 (V : Vl) : W7 V (Proc.devRef .tc main_arg0 : DevRef τ sig) = V (Proc.devRef .tc main_arg0 : DevRef τ sig) :=
  (relu0_keep (W6 V) main_arg0 (by decide)).trans (W6_main_arg0 V)
theorem W7_main_arg1 (V : Vl) : W7 V (Proc.devRef .tc main_arg1 : DevRef τ sig) = V (Proc.devRef .tc main_arg1 : DevRef τ sig) :=
  (relu0_keep (W6 V) main_arg1 (by decide)).trans (W6_main_arg1 V)
theorem W7_main_arg2 (V : Vl) : W7 V (Proc.devRef .tc main_arg2 : DevRef τ sig) = V (Proc.devRef .tc main_arg2 : DevRef τ sig) :=
  (relu0_keep (W6 V) main_arg2 (by decide)).trans (W6_main_arg2 V)
theorem W7_main_arg3 (V : Vl) : W7 V (Proc.devRef .tc main_arg3 : DevRef τ sig) = V (Proc.devRef .tc main_arg3 : DevRef τ sig) :=
  (relu0_keep (W6 V) main_arg3 (by decide)).trans (W6_main_arg3 V)
theorem W7_main_arg4 (V : Vl) : W7 V (Proc.devRef .tc main_arg4 : DevRef τ sig) = V (Proc.devRef .tc main_arg4 : DevRef τ sig) :=
  (relu0_keep (W6 V) main_arg4 (by decide)).trans (W6_main_arg4 V)
theorem W7_main_arg5 (V : Vl) : W7 V (Proc.devRef .tc main_arg5 : DevRef τ sig) = V (Proc.devRef .tc main_arg5 : DevRef τ sig) :=
  (relu0_keep (W6 V) main_arg5 (by decide)).trans (W6_main_arg5 V)
theorem W7_main_arg6 (V : Vl) : W7 V (Proc.devRef .tc main_arg6 : DevRef τ sig) = V (Proc.devRef .tc main_arg6 : DevRef τ sig) :=
  (relu0_keep (W6 V) main_arg6 (by decide)).trans (W6_main_arg6 V)
theorem W7_main_arg7 (V : Vl) : W7 V (Proc.devRef .tc main_arg7 : DevRef τ sig) = V (Proc.devRef .tc main_arg7 : DevRef τ sig) :=
  (relu0_keep (W6 V) main_arg7 (by decide)).trans (W6_main_arg7 V)
theorem W7_main_arg8 (V : Vl) : W7 V (Proc.devRef .tc main_arg8 : DevRef τ sig) = V (Proc.devRef .tc main_arg8 : DevRef τ sig) :=
  (relu0_keep (W6 V) main_arg8 (by decide)).trans (W6_main_arg8 V)
theorem W7_main_arg9 (V : Vl) : W7 V (Proc.devRef .tc main_arg9 : DevRef τ sig) = V (Proc.devRef .tc main_arg9 : DevRef τ sig) :=
  (relu0_keep (W6 V) main_arg9 (by decide)).trans (W6_main_arg9 V)
theorem W7_main_arg10 (V : Vl) : W7 V (Proc.devRef .tc main_arg10 : DevRef τ sig) = V (Proc.devRef .tc main_arg10 : DevRef τ sig) :=
  (relu0_keep (W6 V) main_arg10 (by decide)).trans (W6_main_arg10 V)
theorem W7_main_arg11 (V : Vl) : W7 V (Proc.devRef .tc main_arg11 : DevRef τ sig) = V (Proc.devRef .tc main_arg11 : DevRef τ sig) :=
  (relu0_keep (W6 V) main_arg11 (by decide)).trans (W6_main_arg11 V)
theorem W7_main_arg12 (V : Vl) : W7 V (Proc.devRef .tc main_arg12 : DevRef τ sig) = V (Proc.devRef .tc main_arg12 : DevRef τ sig) :=
  (relu0_keep (W6 V) main_arg12 (by decide)).trans (W6_main_arg12 V)
theorem W7_main_arg13 (V : Vl) : W7 V (Proc.devRef .tc main_arg13 : DevRef τ sig) = V (Proc.devRef .tc main_arg13 : DevRef τ sig) :=
  (relu0_keep (W6 V) main_arg13 (by decide)).trans (W6_main_arg13 V)
theorem W7_main_arg14 (V : Vl) : W7 V (Proc.devRef .tc main_arg14 : DevRef τ sig) = V (Proc.devRef .tc main_arg14 : DevRef τ sig) :=
  (relu0_keep (W6 V) main_arg14 (by decide)).trans (W6_main_arg14 V)
theorem W7_main_arg15 (V : Vl) : W7 V (Proc.devRef .tc main_arg15 : DevRef τ sig) = V (Proc.devRef .tc main_arg15 : DevRef τ sig) :=
  (relu0_keep (W6 V) main_arg15 (by decide)).trans (W6_main_arg15 V)
theorem W7_main_arg16 (V : Vl) : W7 V (Proc.devRef .tc main_arg16 : DevRef τ sig) = V (Proc.devRef .tc main_arg16 : DevRef τ sig) :=
  (relu0_keep (W6 V) main_arg16 (by decide)).trans (W6_main_arg16 V)
theorem W7_main_arg17 (V : Vl) : W7 V (Proc.devRef .tc main_arg17 : DevRef τ sig) = V (Proc.devRef .tc main_arg17 : DevRef τ sig) :=
  (relu0_keep (W6 V) main_arg17 (by decide)).trans (W6_main_arg17 V)
theorem W7_main_arg18 (V : Vl) : W7 V (Proc.devRef .tc main_arg18 : DevRef τ sig) = V (Proc.devRef .tc main_arg18 : DevRef τ sig) :=
  (relu0_keep (W6 V) main_arg18 (by decide)).trans (W6_main_arg18 V)
theorem W7_main_arg19 (V : Vl) : W7 V (Proc.devRef .tc main_arg19 : DevRef τ sig) = V (Proc.devRef .tc main_arg19 : DevRef τ sig) :=
  (relu0_keep (W6 V) main_arg19 (by decide)).trans (W6_main_arg19 V)
theorem W7_main_arg20 (V : Vl) : W7 V (Proc.devRef .tc main_arg20 : DevRef τ sig) = V (Proc.devRef .tc main_arg20 : DevRef τ sig) :=
  (relu0_keep (W6 V) main_arg20 (by decide)).trans (W6_main_arg20 V)
theorem W7_main_arg21 (V : Vl) : W7 V (Proc.devRef .tc main_arg21 : DevRef τ sig) = V (Proc.devRef .tc main_arg21 : DevRef τ sig) :=
  (relu0_keep (W6 V) main_arg21 (by decide)).trans (W6_main_arg21 V)
theorem W7_main_arg22 (V : Vl) : W7 V (Proc.devRef .tc main_arg22 : DevRef τ sig) = V (Proc.devRef .tc main_arg22 : DevRef τ sig) :=
  (relu0_keep (W6 V) main_arg22 (by decide)).trans (W6_main_arg22 V)
theorem W8_main_arg0 (V : Vl) : W8 V (Proc.devRef .tc main_arg0 : DevRef τ sig) = V (Proc.devRef .tc main_arg0 : DevRef τ sig) :=
  (norm0_keep (W7 V) main_arg0 (by decide)).trans (W7_main_arg0 V)
theorem W8_main_arg1 (V : Vl) : W8 V (Proc.devRef .tc main_arg1 : DevRef τ sig) = V (Proc.devRef .tc main_arg1 : DevRef τ sig) :=
  (norm0_keep (W7 V) main_arg1 (by decide)).trans (W7_main_arg1 V)
theorem W8_main_arg2 (V : Vl) : W8 V (Proc.devRef .tc main_arg2 : DevRef τ sig) = V (Proc.devRef .tc main_arg2 : DevRef τ sig) :=
  (norm0_keep (W7 V) main_arg2 (by decide)).trans (W7_main_arg2 V)
theorem W8_main_arg3 (V : Vl) : W8 V (Proc.devRef .tc main_arg3 : DevRef τ sig) = V (Proc.devRef .tc main_arg3 : DevRef τ sig) :=
  (norm0_keep (W7 V) main_arg3 (by decide)).trans (W7_main_arg3 V)
theorem W8_main_arg4 (V : Vl) : W8 V (Proc.devRef .tc main_arg4 : DevRef τ sig) = V (Proc.devRef .tc main_arg4 : DevRef τ sig) :=
  (norm0_keep (W7 V) main_arg4 (by decide)).trans (W7_main_arg4 V)
theorem W8_main_arg5 (V : Vl) : W8 V (Proc.devRef .tc main_arg5 : DevRef τ sig) = V (Proc.devRef .tc main_arg5 : DevRef τ sig) :=
  (norm0_keep (W7 V) main_arg5 (by decide)).trans (W7_main_arg5 V)
theorem W8_main_arg6 (V : Vl) : W8 V (Proc.devRef .tc main_arg6 : DevRef τ sig) = V (Proc.devRef .tc main_arg6 : DevRef τ sig) :=
  (norm0_keep (W7 V) main_arg6 (by decide)).trans (W7_main_arg6 V)
theorem W8_main_arg7 (V : Vl) : W8 V (Proc.devRef .tc main_arg7 : DevRef τ sig) = V (Proc.devRef .tc main_arg7 : DevRef τ sig) :=
  (norm0_keep (W7 V) main_arg7 (by decide)).trans (W7_main_arg7 V)
theorem W8_main_arg8 (V : Vl) : W8 V (Proc.devRef .tc main_arg8 : DevRef τ sig) = V (Proc.devRef .tc main_arg8 : DevRef τ sig) :=
  (norm0_keep (W7 V) main_arg8 (by decide)).trans (W7_main_arg8 V)
theorem W8_main_arg9 (V : Vl) : W8 V (Proc.devRef .tc main_arg9 : DevRef τ sig) = V (Proc.devRef .tc main_arg9 : DevRef τ sig) :=
  (norm0_keep (W7 V) main_arg9 (by decide)).trans (W7_main_arg9 V)
theorem W8_main_arg10 (V : Vl) : W8 V (Proc.devRef .tc main_arg10 : DevRef τ sig) = V (Proc.devRef .tc main_arg10 : DevRef τ sig) :=
  (norm0_keep (W7 V) main_arg10 (by decide)).trans (W7_main_arg10 V)
theorem W8_main_arg11 (V : Vl) : W8 V (Proc.devRef .tc main_arg11 : DevRef τ sig) = V (Proc.devRef .tc main_arg11 : DevRef τ sig) :=
  (norm0_keep (W7 V) main_arg11 (by decide)).trans (W7_main_arg11 V)
theorem W8_main_arg12 (V : Vl) : W8 V (Proc.devRef .tc main_arg12 : DevRef τ sig) = V (Proc.devRef .tc main_arg12 : DevRef τ sig) :=
  (norm0_keep (W7 V) main_arg12 (by decide)).trans (W7_main_arg12 V)
theorem W8_main_arg13 (V : Vl) : W8 V (Proc.devRef .tc main_arg13 : DevRef τ sig) = V (Proc.devRef .tc main_arg13 : DevRef τ sig) :=
  (norm0_keep (W7 V) main_arg13 (by decide)).trans (W7_main_arg13 V)
theorem W8_main_arg14 (V : Vl) : W8 V (Proc.devRef .tc main_arg14 : DevRef τ sig) = V (Proc.devRef .tc main_arg14 : DevRef τ sig) :=
  (norm0_keep (W7 V) main_arg14 (by decide)).trans (W7_main_arg14 V)
theorem W8_main_arg15 (V : Vl) : W8 V (Proc.devRef .tc main_arg15 : DevRef τ sig) = V (Proc.devRef .tc main_arg15 : DevRef τ sig) :=
  (norm0_keep (W7 V) main_arg15 (by decide)).trans (W7_main_arg15 V)
theorem W8_main_arg16 (V : Vl) : W8 V (Proc.devRef .tc main_arg16 : DevRef τ sig) = V (Proc.devRef .tc main_arg16 : DevRef τ sig) :=
  (norm0_keep (W7 V) main_arg16 (by decide)).trans (W7_main_arg16 V)
theorem W8_main_arg17 (V : Vl) : W8 V (Proc.devRef .tc main_arg17 : DevRef τ sig) = V (Proc.devRef .tc main_arg17 : DevRef τ sig) :=
  (norm0_keep (W7 V) main_arg17 (by decide)).trans (W7_main_arg17 V)
theorem W8_main_arg18 (V : Vl) : W8 V (Proc.devRef .tc main_arg18 : DevRef τ sig) = V (Proc.devRef .tc main_arg18 : DevRef τ sig) :=
  (norm0_keep (W7 V) main_arg18 (by decide)).trans (W7_main_arg18 V)
theorem W8_main_arg19 (V : Vl) : W8 V (Proc.devRef .tc main_arg19 : DevRef τ sig) = V (Proc.devRef .tc main_arg19 : DevRef τ sig) :=
  (norm0_keep (W7 V) main_arg19 (by decide)).trans (W7_main_arg19 V)
theorem W8_main_arg20 (V : Vl) : W8 V (Proc.devRef .tc main_arg20 : DevRef τ sig) = V (Proc.devRef .tc main_arg20 : DevRef τ sig) :=
  (norm0_keep (W7 V) main_arg20 (by decide)).trans (W7_main_arg20 V)
theorem W8_main_arg21 (V : Vl) : W8 V (Proc.devRef .tc main_arg21 : DevRef τ sig) = V (Proc.devRef .tc main_arg21 : DevRef τ sig) :=
  (norm0_keep (W7 V) main_arg21 (by decide)).trans (W7_main_arg21 V)
theorem W8_main_arg22 (V : Vl) : W8 V (Proc.devRef .tc main_arg22 : DevRef τ sig) = V (Proc.devRef .tc main_arg22 : DevRef τ sig) :=
  (norm0_keep (W7 V) main_arg22 (by decide)).trans (W7_main_arg22 V)
theorem W9_main_arg0 (V : Vl) : W9 V (Proc.devRef .tc main_arg0 : DevRef τ sig) = V (Proc.devRef .tc main_arg0 : DevRef τ sig) :=
  (proj_keep (W8 V) main_arg0 (by decide)).trans (W8_main_arg0 V)
theorem W9_main_arg1 (V : Vl) : W9 V (Proc.devRef .tc main_arg1 : DevRef τ sig) = V (Proc.devRef .tc main_arg1 : DevRef τ sig) :=
  (proj_keep (W8 V) main_arg1 (by decide)).trans (W8_main_arg1 V)
theorem W9_main_arg2 (V : Vl) : W9 V (Proc.devRef .tc main_arg2 : DevRef τ sig) = V (Proc.devRef .tc main_arg2 : DevRef τ sig) :=
  (proj_keep (W8 V) main_arg2 (by decide)).trans (W8_main_arg2 V)
theorem W9_main_arg3 (V : Vl) : W9 V (Proc.devRef .tc main_arg3 : DevRef τ sig) = V (Proc.devRef .tc main_arg3 : DevRef τ sig) :=
  (proj_keep (W8 V) main_arg3 (by decide)).trans (W8_main_arg3 V)
theorem W9_main_arg4 (V : Vl) : W9 V (Proc.devRef .tc main_arg4 : DevRef τ sig) = V (Proc.devRef .tc main_arg4 : DevRef τ sig) :=
  (proj_keep (W8 V) main_arg4 (by decide)).trans (W8_main_arg4 V)
theorem W9_main_arg5 (V : Vl) : W9 V (Proc.devRef .tc main_arg5 : DevRef τ sig) = V (Proc.devRef .tc main_arg5 : DevRef τ sig) :=
  (proj_keep (W8 V) main_arg5 (by decide)).trans (W8_main_arg5 V)
theorem W9_main_arg6 (V : Vl) : W9 V (Proc.devRef .tc main_arg6 : DevRef τ sig) = V (Proc.devRef .tc main_arg6 : DevRef τ sig) :=
  (proj_keep (W8 V) main_arg6 (by decide)).trans (W8_main_arg6 V)
theorem W9_main_arg7 (V : Vl) : W9 V (Proc.devRef .tc main_arg7 : DevRef τ sig) = V (Proc.devRef .tc main_arg7 : DevRef τ sig) :=
  (proj_keep (W8 V) main_arg7 (by decide)).trans (W8_main_arg7 V)
theorem W9_main_arg8 (V : Vl) : W9 V (Proc.devRef .tc main_arg8 : DevRef τ sig) = V (Proc.devRef .tc main_arg8 : DevRef τ sig) :=
  (proj_keep (W8 V) main_arg8 (by decide)).trans (W8_main_arg8 V)
theorem W9_main_arg9 (V : Vl) : W9 V (Proc.devRef .tc main_arg9 : DevRef τ sig) = V (Proc.devRef .tc main_arg9 : DevRef τ sig) :=
  (proj_keep (W8 V) main_arg9 (by decide)).trans (W8_main_arg9 V)
theorem W9_main_arg10 (V : Vl) : W9 V (Proc.devRef .tc main_arg10 : DevRef τ sig) = V (Proc.devRef .tc main_arg10 : DevRef τ sig) :=
  (proj_keep (W8 V) main_arg10 (by decide)).trans (W8_main_arg10 V)
theorem W9_main_arg11 (V : Vl) : W9 V (Proc.devRef .tc main_arg11 : DevRef τ sig) = V (Proc.devRef .tc main_arg11 : DevRef τ sig) :=
  (proj_keep (W8 V) main_arg11 (by decide)).trans (W8_main_arg11 V)
theorem W9_main_arg12 (V : Vl) : W9 V (Proc.devRef .tc main_arg12 : DevRef τ sig) = V (Proc.devRef .tc main_arg12 : DevRef τ sig) :=
  (proj_keep (W8 V) main_arg12 (by decide)).trans (W8_main_arg12 V)
theorem W9_main_arg13 (V : Vl) : W9 V (Proc.devRef .tc main_arg13 : DevRef τ sig) = V (Proc.devRef .tc main_arg13 : DevRef τ sig) :=
  (proj_keep (W8 V) main_arg13 (by decide)).trans (W8_main_arg13 V)
theorem W9_main_arg14 (V : Vl) : W9 V (Proc.devRef .tc main_arg14 : DevRef τ sig) = V (Proc.devRef .tc main_arg14 : DevRef τ sig) :=
  (proj_keep (W8 V) main_arg14 (by decide)).trans (W8_main_arg14 V)
theorem W9_main_arg15 (V : Vl) : W9 V (Proc.devRef .tc main_arg15 : DevRef τ sig) = V (Proc.devRef .tc main_arg15 : DevRef τ sig) :=
  (proj_keep (W8 V) main_arg15 (by decide)).trans (W8_main_arg15 V)
theorem W9_main_arg16 (V : Vl) : W9 V (Proc.devRef .tc main_arg16 : DevRef τ sig) = V (Proc.devRef .tc main_arg16 : DevRef τ sig) :=
  (proj_keep (W8 V) main_arg16 (by decide)).trans (W8_main_arg16 V)
theorem W9_main_arg17 (V : Vl) : W9 V (Proc.devRef .tc main_arg17 : DevRef τ sig) = V (Proc.devRef .tc main_arg17 : DevRef τ sig) :=
  (proj_keep (W8 V) main_arg17 (by decide)).trans (W8_main_arg17 V)
theorem W9_main_arg18 (V : Vl) : W9 V (Proc.devRef .tc main_arg18 : DevRef τ sig) = V (Proc.devRef .tc main_arg18 : DevRef τ sig) :=
  (proj_keep (W8 V) main_arg18 (by decide)).trans (W8_main_arg18 V)
theorem W9_main_arg19 (V : Vl) : W9 V (Proc.devRef .tc main_arg19 : DevRef τ sig) = V (Proc.devRef .tc main_arg19 : DevRef τ sig) :=
  (proj_keep (W8 V) main_arg19 (by decide)).trans (W8_main_arg19 V)
theorem W9_main_arg20 (V : Vl) : W9 V (Proc.devRef .tc main_arg20 : DevRef τ sig) = V (Proc.devRef .tc main_arg20 : DevRef τ sig) :=
  (proj_keep (W8 V) main_arg20 (by decide)).trans (W8_main_arg20 V)
theorem W9_main_arg21 (V : Vl) : W9 V (Proc.devRef .tc main_arg21 : DevRef τ sig) = V (Proc.devRef .tc main_arg21 : DevRef τ sig) :=
  (proj_keep (W8 V) main_arg21 (by decide)).trans (W8_main_arg21 V)
theorem W9_main_arg22 (V : Vl) : W9 V (Proc.devRef .tc main_arg22 : DevRef τ sig) = V (Proc.devRef .tc main_arg22 : DevRef τ sig) :=
  (proj_keep (W8 V) main_arg22 (by decide)).trans (W8_main_arg22 V)

/-! ### The intermediate results -/

/-- The first layer's output as a function of the launch contents. -/
def x1 (V : Vl) : TNode :=
  refLayer (agg (V (Proc.devRef .tc main_arg0 : DevRef τ sig)) (V (Proc.devRef .tc main_arg2 : DevRef τ sig))) (V (Proc.devRef .tc main_arg0 : DevRef τ sig)) (V (Proc.devRef .tc main_arg0 : DevRef τ sig)) (V (Proc.devRef .tc main_arg12 : DevRef τ sig)) (V (Proc.devRef .tc main_arg13 : DevRef τ sig)) (V (Proc.devRef .tc main_arg14 : DevRef τ sig)) (V (Proc.devRef .tc main_arg15 : DevRef τ sig)) (V (Proc.devRef .tc main_arg16 : DevRef τ sig)) (V (Proc.devRef .tc main_arg17 : DevRef τ sig)) (V (Proc.devRef .tc main_arg18 : DevRef τ sig)) (V (Proc.devRef .tc main_arg19 : DevRef τ sig)) (V (Proc.devRef .tc main_arg20 : DevRef τ sig))

theorem W1_main_v21 (V : Vl) : W1 V (Proc.devRef .tc main_v21 : DevRef τ sig) = agg (V (Proc.devRef .tc main_arg0 : DevRef τ sig)) (V (Proc.devRef .tc main_arg2 : DevRef τ sig)) := by
  unfold W1; rw [agg1_out]
theorem W2_main_v47 (V : Vl) : W2 V (Proc.devRef .tc main_v47 : DevRef τ sig) = gated (agg (V (Proc.devRef .tc main_arg0 : DevRef τ sig)) (V (Proc.devRef .tc main_arg2 : DevRef τ sig))) (V (Proc.devRef .tc main_arg0 : DevRef τ sig)) (V (Proc.devRef .tc main_arg0 : DevRef τ sig)) (V (Proc.devRef .tc main_arg12 : DevRef τ sig)) (V (Proc.devRef .tc main_arg13 : DevRef τ sig)) (V (Proc.devRef .tc main_arg14 : DevRef τ sig)) (V (Proc.devRef .tc main_arg15 : DevRef τ sig)) (V (Proc.devRef .tc main_arg16 : DevRef τ sig)) (V (Proc.devRef .tc main_arg17 : DevRef τ sig)) (V (Proc.devRef .tc main_arg18 : DevRef τ sig)) := by
  unfold W2; rw [pre1_out, W1_main_v21 V, W1_main_arg0 V, W1_main_arg12 V, W1_main_arg13 V, W1_main_arg14 V, W1_main_arg15 V, W1_main_arg16 V, W1_main_arg17 V, W1_main_arg18 V]
theorem W3_main_v48 (V : Vl) : W3 V (Proc.devRef .tc main_v48 : DevRef τ sig) = relu (gated (agg (V (Proc.devRef .tc main_arg0 : DevRef τ sig)) (V (Proc.devRef .tc main_arg2 : DevRef τ sig))) (V (Proc.devRef .tc main_arg0 : DevRef τ sig)) (V (Proc.devRef .tc main_arg0 : DevRef τ sig)) (V (Proc.devRef .tc main_arg12 : DevRef τ sig)) (V (Proc.devRef .tc main_arg13 : DevRef τ sig)) (V (Proc.devRef .tc main_arg14 : DevRef τ sig)) (V (Proc.devRef .tc main_arg15 : DevRef τ sig)) (V (Proc.devRef .tc main_arg16 : DevRef τ sig)) (V (Proc.devRef .tc main_arg17 : DevRef τ sig)) (V (Proc.devRef .tc main_arg18 : DevRef τ sig))) := by
  unfold W3; rw [relu1_out, W2_main_v47 V]
theorem W4_main_v66 (V : Vl) : W4 V (Proc.devRef .tc main_v66 : DevRef τ sig) = x1 V := by
  unfold W4; rw [norm1_out, W3_main_v48 V, W3_main_arg19 V, W3_main_arg20 V]; rfl
theorem W5_main_v88 (V : Vl) : W5 V (Proc.devRef .tc main_v88 : DevRef τ sig) = agg (x1 V) (V (Proc.devRef .tc main_arg1 : DevRef τ sig)) := by
  unfold W5; rw [agg0_out, W4_main_v66 V, W4_main_arg1 V]
theorem W5_main_v66 (V : Vl) : W5 V (Proc.devRef .tc main_v66 : DevRef τ sig) = x1 V :=
  (agg0_keep (W4 V) main_v66 (by decide)).trans (W4_main_v66 V)
theorem W6_main_v114 (V : Vl) : W6 V (Proc.devRef .tc main_v114 : DevRef τ sig) = gated (agg (x1 V) (V (Proc.devRef .tc main_arg1 : DevRef τ sig))) (x1 V) (V (Proc.devRef .tc main_arg0 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) := by
  unfold W6; rw [pre0_out, W5_main_v88 V, W5_main_v66 V, W5_main_arg0 V, W5_main_arg3 V, W5_main_arg4 V, W5_main_arg5 V, W5_main_arg6 V, W5_main_arg7 V, W5_main_arg8 V, W5_main_arg9 V]
theorem W7_main_v115 (V : Vl) : W7 V (Proc.devRef .tc main_v115 : DevRef τ sig) = relu (gated (agg (x1 V) (V (Proc.devRef .tc main_arg1 : DevRef τ sig))) (x1 V) (V (Proc.devRef .tc main_arg0 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig))) := by
  unfold W7; rw [relu0_out, W6_main_v114 V]
theorem W8_main_v133 (V : Vl) : W8 V (Proc.devRef .tc main_v133 : DevRef τ sig) = normed (relu (gated (agg (x1 V) (V (Proc.devRef .tc main_arg1 : DevRef τ sig))) (x1 V) (V (Proc.devRef .tc main_arg0 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)))) (V (Proc.devRef .tc main_arg10 : DevRef τ sig)) (V (Proc.devRef .tc main_arg11 : DevRef τ sig)) := by
  unfold W8; rw [norm0_out, W7_main_v115 V, W7_main_arg10 V, W7_main_arg11 V]
/-- The result buffer ends at the whole program's term of the arguments. -/
theorem W9_main_v138 (V : Vl) : W9 V (Proc.devRef .tc main_v138 : DevRef τ sig) = refOut (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) (V (Proc.devRef .tc main_arg13 : DevRef τ sig)) (V (Proc.devRef .tc main_arg14 : DevRef τ sig)) (V (Proc.devRef .tc main_arg15 : DevRef τ sig)) (V (Proc.devRef .tc main_arg16 : DevRef τ sig)) (V (Proc.devRef .tc main_arg17 : DevRef τ sig)) (V (Proc.devRef .tc main_arg18 : DevRef τ sig)) (V (Proc.devRef .tc main_arg19 : DevRef τ sig)) (V (Proc.devRef .tc main_arg20 : DevRef τ sig)) (V (Proc.devRef .tc main_arg21 : DevRef τ sig)) (V (Proc.devRef .tc main_arg22 : DevRef τ sig)) := by
  unfold W9; rw [proj_out, W8_main_v133 V, W8_main_arg21 V, W8_main_arg22 V]; rfl

/-! ## The run -/

/-- From any memory with zero counters, every weakly fair execution of the reference's @main terminates, with the
    result buffer at `refOut` of the arguments' launch contents and every argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v138) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨(h c main_v138).trans (by rw [after_ops]; exact W9_main_v138 (launchContents m c)),
      (h c main_arg0).trans (by rw [after_ops]; exact W9_main_arg0 (launchContents m c)),
      (h c main_arg1).trans (by rw [after_ops]; exact W9_main_arg1 (launchContents m c)),
      (h c main_arg2).trans (by rw [after_ops]; exact W9_main_arg2 (launchContents m c)),
      (h c main_arg3).trans (by rw [after_ops]; exact W9_main_arg3 (launchContents m c)),
      (h c main_arg4).trans (by rw [after_ops]; exact W9_main_arg4 (launchContents m c)),
      (h c main_arg5).trans (by rw [after_ops]; exact W9_main_arg5 (launchContents m c)),
      (h c main_arg6).trans (by rw [after_ops]; exact W9_main_arg6 (launchContents m c)),
      (h c main_arg7).trans (by rw [after_ops]; exact W9_main_arg7 (launchContents m c)),
      (h c main_arg8).trans (by rw [after_ops]; exact W9_main_arg8 (launchContents m c)),
      (h c main_arg9).trans (by rw [after_ops]; exact W9_main_arg9 (launchContents m c)),
      (h c main_arg10).trans (by rw [after_ops]; exact W9_main_arg10 (launchContents m c)),
      (h c main_arg11).trans (by rw [after_ops]; exact W9_main_arg11 (launchContents m c)),
      (h c main_arg12).trans (by rw [after_ops]; exact W9_main_arg12 (launchContents m c)),
      (h c main_arg13).trans (by rw [after_ops]; exact W9_main_arg13 (launchContents m c)),
      (h c main_arg14).trans (by rw [after_ops]; exact W9_main_arg14 (launchContents m c)),
      (h c main_arg15).trans (by rw [after_ops]; exact W9_main_arg15 (launchContents m c)),
      (h c main_arg16).trans (by rw [after_ops]; exact W9_main_arg16 (launchContents m c)),
      (h c main_arg17).trans (by rw [after_ops]; exact W9_main_arg17 (launchContents m c)),
      (h c main_arg18).trans (by rw [after_ops]; exact W9_main_arg18 (launchContents m c)),
      (h c main_arg19).trans (by rw [after_ops]; exact W9_main_arg19 (launchContents m c)),
      (h c main_arg20).trans (by rw [after_ops]; exact W9_main_arg20 (launchContents m c)),
      (h c main_arg21).trans (by rw [after_ops]; exact W9_main_arg21 (launchContents m c)),
      (h c main_arg22).trans (by rw [after_ops]; exact W9_main_arg22 (launchContents m c))⟩)
    (run_seq scopedRefs_eq scopedSems_eq defs main (fun _ => ops) main_eq (fun _ => ops_sub) m ρ (fun _ => ops_fresh))

/-- The frame: the reference runs to the end and leaves its 23 arguments as they were. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => (h c).2) (run m ρ)

end Cert.ReferenceIdeal.Hand

end
-- ==== Proof.RefValueLib.lean ====
/-
  Facts about the extended reals and about array re-indexing that the reading of the reference's value uses.

  Arithmetic. On the extended reals the quotient by a square root is the product with the reciprocal square
  root whenever the argument is positive, `⊤` included: `d / √⊤ = d · ⊤⁻¹ = d · 0` and `rsqrt ⊤ = 0`; at a
  positive real both are `d · (√y)⁻¹`. A square `d · d` is never negative (`⊥ · ⊥ = ⊤ · ⊤ = ⊤`), a quotient of
  a non-negative value by 256 is not negative, so a variance plus a positive ε is positive with no finiteness
  assumption. The words `0x43800000` and `0x3F800000` denote 256 and 1, and `0x3727C5AC` a positive real.

  Re-indexing. A row of length b broadcast to a one-row matrix and then over a rows reads the row's entry at
  the column; a vector of length a made a column and then broadcast over b columns reads the vector's entry at the row.
-/
import Idealize.ShloMosaic.PureOps.Ideal
import Idealize.ShloMosaic.PureOps.Ideal.Laws
import Idealize.ShloMosaic.Lib.IdealHost
import Idealize.ShloMosaic.Lib.ValueIdx
import Idealize.ShloMosaic.Lib.ValueLayout
import Idealize.ShloMosaic.Lib.Pipeline.Value

open scoped BigOperators

namespace Cert.ReferenceIdeal.HandValue

open Idealize.ShloMosaic Idealize.ShloMosaic.ValueIdx

/-! ## Arithmetic on the extended reals -/

/-- The word `0x43800000` denotes 256. -/
theorem c256_eq : Ideal.ofBits .f32 0x43800000#32 = ((256 : ℝ) : EReal) := by
  simp [Ideal.ofBits, Ideal.ieee, -EReal.coe_mul]; norm_num

/-- 256 is positive. -/
theorem c256_pos : (0 : EReal) < Ideal.ofBits .f32 0x43800000#32 := by
  rw [c256_eq]; exact_mod_cast (by norm_num : (0 : ℝ) < 256)

/-- The word `0x3727C5AC` (the f32 nearest 1e-5) denotes a positive real. -/
theorem cEps_pos : (0 : EReal) < Ideal.ofBits .f32 0x3727C5AC#32 := by
  simp [Ideal.ofBits, Ideal.ieee, -EReal.coe_mul]

/-- A square is not negative, at the infinities too. -/
theorem ereal_mul_self_nonneg (d : EReal) : 0 ≤ d * d := by
  induction d using EReal.rec with
  | bot => simp
  | top => simp
  | coe r => exact_mod_cast _root_.mul_self_nonneg r

/-- A quotient of a non-negative value by 256 is not negative. -/
theorem div_c256_nonneg {s : EReal} (hs : 0 ≤ s) : 0 ≤ Ideal.div s (Ideal.ofBits .f32 0x43800000#32) := by
  rw [c256_eq, Ideal.div_coe (by norm_num : (256 : ℝ) ≠ 0)]
  exact mul_nonneg hs (by exact_mod_cast (by norm_num : (0 : ℝ) ≤ 1 / 256))

/-- A non-negative value plus a positive one is positive. -/
theorem add_pos_of_nonneg_of_pos' {a b : EReal} (ha : 0 ≤ a) (hb : 0 < b) : 0 < a + b :=
  lt_of_lt_of_le hb (le_add_of_nonneg_left ha)

/-- The quotient by the square root of a positive value is the product with its reciprocal square root. -/
theorem div_sqrt_eq_mul_rsqrt (d y : EReal) (hy : 0 < y) : Ideal.div d (Ideal.sqrt y) = d * Ideal.rsqrt y := by
  induction y using EReal.rec with
  | bot => exact absurd hy (by simp)
  | top => simp [Ideal.div]
  | coe r =>
    have hr : 0 < r := by exact_mod_cast hy
    have hs : 0 < Real.sqrt r := Real.sqrt_pos.mpr hr
    rw [Ideal.sqrt_coe, Ideal.rsqrt_coe, if_neg (not_lt.mpr hr.le), if_neg (not_lt.mpr hr.le), if_neg hr.ne']
    rw [Ideal.div, if_neg (by exact_mod_cast hs.ne'), ← EReal.coe_inv]

/-- The gate's weight as printed, `1 / (1 + e^(−g))` with the word of 1, is the logistic function. -/
theorem sigm_eq (g : EReal) :
    Ideal.div (Ideal.ofBits .f32 0x3F800000#32) (Ideal.ofBits .f32 0x3F800000#32 + Ideal.exp (-g)) = Ideal.logistic g := by
  rw [Ideal.ofBits_one_f32]; rfl

/-- The variance's divisor as printed, 256 minus the converted integer 0, is 256. -/
theorem ddof_eq : Ideal.ofBits .f32 0x43800000#32 - (((0#32 : BitVec 32).toInt : ℝ) : EReal) = Ideal.ofBits .f32 0x43800000#32 := by
  simp

/-- 256 compares greater than the zero word. -/
theorem cmp_c256 : Ideal.cmp .ogt (Ideal.ofBits .f32 0x43800000#32) (Ideal.ofBits .f32 0x00000000#32) = 1#1 := by
  have h : (0 : EReal) < Ideal.ofBits .f32 0x43800000#32 := c256_pos
  simp [Ideal.cmp, h]

/-! ## Broadcasts read at an index -/

section Layout
variable {α : Type}

/-- A vector of length `b` as a one-row matrix reads, at `(0, c)`, the vector at `c`. -/
theorem bcast_b_1b_apply {b : ℕ} (v : (⟨1, ![b]⟩ : Shape).Idx → α)
    (h : (⟨1, ![b]⟩ : Shape).BroadcastsInDim ⟨2, ![1, b]⟩ ![1]) (c : Fin b) :
    broadcastInDim ⟨2, ![1, b]⟩ ![1] h v (ix2 (0 : Fin 1) c) = v (ix1 c) := by
  refine broadcastInDim_apply _ h v (ix2 (0 : Fin 1) c) (ix1 c) fun ax => ?_
  match ax with
  | ⟨0, _⟩ =>
    show c.val = if b = 1 then 0 else c.val
    split
    · have := c.isLt; omega
    · rfl

/-- A one-row matrix broadcast over `a` rows reads, at `(p, c)`, the row at `c`. -/
theorem bcast_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector of length `a` as a column reads, at `(p, 0)`, the vector at `p`. -/
theorem bcast_a_a1_apply {a : ℕ} (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p (0 : Fin 1)) = v (ix1 p) := by
  refine broadcastInDim_apply _ h v (ix2 p (0 : Fin 1)) (ix1 p) fun ax => ?_
  match ax with
  | ⟨0, _⟩ =>
    show p.val = if a = 1 then 0 else p.val
    split
    · have := p.isLt; omega
    · rfl

/-- A column broadcast over `b` columns reads, at `(p, c)`, the column at `p`. -/
theorem bcast_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Layout

end Cert.ReferenceIdeal.HandValue
-- ==== Proof.RefValue.lean ====
/-
  The reference's layer and output projection, read index by index, are the row-level formulas of the
  specification.

  Stage by stage at the extended reals: the gate's weight is the logistic function; a transpose, a
  dot_general and a broadcast bias are the affine map `∑ k, v k · w j k + b j` on each row; the rectifier is
  the maximum with zero; the row mean is the row sum over 256; the variance, printed with a degrees-of-freedom
  correction of 0 and a selection against a constant word where the divisor is not positive, is the plain
  quotient by 256 because the divisor 256 − 0 is positive; and the division by the square root of the
  variance plus ε is the product with its reciprocal square root, because a sum of squares over 256 is not
  negative and ε is positive, so the argument is positive whatever the inputs, infinite ones included.
-/
import proofs.«160845_j81252191306258_1_alg».proof.Proof.RefTerm
import proofs.«160845_j81252191306258_1_alg».proof.Proof.RefValueLib
import proofs.«160845_j81252191306258_1_alg».proof.Proof.Spec
import Idealize.ShloMosaic.Lib.StackMember

open scoped BigOperators

namespace Cert.ReferenceIdeal.HandValue

open Idealize.ShloMosaic Idealize.ShloMosaic.ValueIdx Cert.ReferenceIdeal Cert.ReferenceIdeal.Hand
open Cert.ReferenceIdeal.Facts₀

variable [Facts₀]

/-- The host's square root at an index is the ideal square root of the element. -/
theorem hostSqrt_apply {s : Shape} {φ : FTy} (a : FVec Ideal s φ) (i : s.Idx) : Host.sqrt a i = Ideal.sqrt (a i) := rfl

/-! ## The stages of one layer -/

/-- The gate's weight is the logistic function of the gate. -/
theorem sigm_apply (gate : TS) : sigm gate ix0 = Ideal.logistic (gate ix0) := sigm_eq (gate ix0)

/-- The affine map at row `i`, column `j`. -/
theorem affine_apply (v : TNode) (w : TW) (b : TB) (i : Fin 100000) (j : Fin 256) :
    affine v w b (ix2 i j) = (∑ k : Fin 256, v (ix2 i k) * w (ix2 j k)) + b (ix1 j) := by
  unfold affine
  rw [addf_apply]
  refine congrArg₂ (· + ·) ?_ ?_
  · refine (StackMember.dotGeneral_plain_apply none v _ i j).trans ?_
    exact Finset.sum_congr rfl fun k _ => congrArg (v (ix2 i k) * ·) (transpose_ix2_apply w _ k j)
  · exact (bcast_1b_ab_apply _ _ i j).trans (bcast_b_1b_apply b _ j)

/-- The gated sum of the three affine maps. -/
theorem gated_apply (a h x : TNode) (wl : TW) (bl : TB) (w0 : TW) (b0 : TB) (w1 : TW) (b1 : TB) (gate : TS)
    (i : Fin 100000) (j : Fin 256) :
    gated a h x wl bl w0 b0 w1 b1 gate (ix2 i j)
      = affine a wl bl (ix2 i j) + (1 - Ideal.logistic (gate ix0)) * affine h w0 b0 (ix2 i j)
        + Ideal.logistic (gate ix0) * affine x w1 b1 (ix2 i j) := by
  unfold gated
  rw [addf_apply, addf_apply, mulf_apply, mulf_apply, broadcastInDim_scalar_apply, broadcastInDim_scalar_apply,
    subf_apply, constant_apply, sigm_apply, Ideal.ofBits_one_f32]

/-- The rectifier. -/
theorem relu_apply (v : TNode) (i : Fin 100000) (j : Fin 256) : relu v (ix2 i j) = max (v (ix2 i j)) 0 := by
  unfold relu
  rw [maximumf_apply, broadcastInDim_scalar_apply, constant_apply, Ideal.ofBits_zero_f32]

/-- A row sum. -/
theorem rowSum_apply (v : TNode) (i : Fin 100000) : rowSum v (ix1 i) = ∑ k : Fin 256, v (ix2 i k) := by
  unfold rowSum
  rw [hostReduceAdd_apply, Ideal.hostReduceAdd_single reducesTo_S100000x256_S100000_d1 (by decide), constant_apply,
    Ideal.ofBits_zero_f32, zero_add]
  refine Finset.sum_congr rfl fun k _ => ?_
  exact congrArg v (funext fun a => Fin.ext (by match a with | ⟨0, _⟩ => rfl | ⟨1, _⟩ => rfl))

/-- The row mean. -/
theorem rowMean_apply (v : TNode) (i : Fin 100000) :
    rowMean v (ix2 i (0 : Fin 1)) = Ideal.div (∑ k : Fin 256, v (ix2 i k)) (Ideal.ofBits .f32 0x43800000#32) := by
  unfold rowMean
  rw [hostDivf_apply, bcast_a_a1_apply, broadcastInDim_scalar_apply, rowSum_apply, constant_apply]

/-- The divisor of the variance is 256. -/
theorem ddofDen_apply : ddofDen ix0 = Ideal.ofBits .f32 0x43800000#32 := ddof_eq

/-- The row variance: the selection takes the quotient, the divisor being positive. -/
theorem rowVar_apply (v : TNode) (i : Fin 100000) :
    rowVar v (ix2 i (0 : Fin 1))
      = Ideal.div (∑ k : Fin 256, (v (ix2 i k) - rowMean v (ix2 i (0 : Fin 1))) * (v (ix2 i k) - rowMean v (ix2 i (0 : Fin 1))))
          (Ideal.ofBits .f32 0x43800000#32) := by
  have hc : broadcastInDim S100000x1 ![] bcast_S_S100000x1
      (cmpf (F := Ideal) (φ := .f32) .ogt ddofDen (constant (F := Ideal) S_ .f32 0x00000000#32)) (ix2 i (0 : Fin 1)) = 1#1 := by
    rw [broadcastInDim_scalar_apply]
    show Ideal.cmp .ogt (ddofDen ix0) (Ideal.ofBits .f32 0x00000000#32) = 1#1
    rw [ddofDen_apply]; exact cmp_c256
  unfold rowVar
  rw [select_apply, hc, select_one, hostDivf_apply, bcast_a_a1_apply, broadcastInDim_scalar_apply, ddofDen_apply, rowSum_apply]
  refine congrArg (Ideal.div · _) (Finset.sum_congr rfl fun k _ => ?_)
  rw [mulf_apply, subf_apply, bcast_a1_ab_apply]

/-- The normalisation of row `i` is the specification's, on the row read off the array. -/
theorem normed_apply (r : TNode) (lns lnb : TB) (i : Fin 100000) (j : Fin 256) :
    normed r lns lnb (ix2 i j)
      = Cert.Spec.norm (fun k => r (ix2 i k)) (fun k => lns (ix1 k)) (fun k => lnb (ix1 k)) j := by
  have hm : rowMean r (ix2 i (0 : Fin 1)) = Cert.Spec.mean (fun k => r (ix2 i k)) := rowMean_apply r i
  have hv : rowVar r (ix2 i (0 : Fin 1)) = Cert.Spec.var (fun k => r (ix2 i k)) := by
    rw [rowVar_apply, hm]; rfl
  have hpos : 0 < Cert.Spec.var (fun k => r (ix2 i k)) + Cert.Spec.cEps :=
    add_pos_of_nonneg_of_pos' (div_c256_nonneg (Finset.sum_nonneg fun k _ => ereal_mul_self_nonneg _)) cEps_pos
  unfold normed
  rw [addf_apply, mulf_apply, hostDivf_apply, subf_apply, bcast_a1_ab_apply, bcast_a1_ab_apply, hostSqrt_apply, addf_apply,
    broadcastInDim_scalar_apply, constant_apply, hm, hv, div_sqrt_eq_mul_rsqrt _ _ hpos]
  refine congrArg₂ (· + ·) (congrArg₂ (· * ·) rfl ?_) ?_
  · exact (bcast_1b_ab_apply _ _ i j).trans (bcast_b_1b_apply lns _ j)
  · exact (bcast_1b_ab_apply _ _ i j).trans (bcast_b_1b_apply lnb _ j)

/-- After the rectifier, row `i` is the specification's activation of the three rows `i`. -/
theorem act_apply (a h x : TNode) (wl : TW) (bl : TB) (w0 : TW) (b0 : TB) (w1 : TW) (b1 : TB) (gate : TS)
    (i : Fin 100000) (k : Fin 256) :
    relu (gated a h x wl bl w0 b0 w1 b1 gate) (ix2 i k)
      = Cert.Spec.act (Cert.Spec.rowOf (n := 100000) a i) (Cert.Spec.rowOf (n := 100000) h i) (Cert.Spec.rowOf (n := 100000) x i)
          wl w0 w1 (fun j => bl (ix1 j)) (fun j => b0 (ix1 j)) (fun j => b1 (ix1 j)) (gate ix0) k := by
  rw [relu_apply, gated_apply, affine_apply, affine_apply, affine_apply]
  rfl

/-! ## The layer and the projection -/

/-- One layer of the reference is the specification's layer. -/
theorem refLayer_eq (a h x : TNode) (wl : TW) (bl : TB) (w0 : TW) (b0 : TB) (w1 : TW) (b1 : TB) (gate : TS) (lns lnb : TB) :
    refLayer a h x wl bl w0 b0 w1 b1 gate lns lnb
      = Cert.Spec.layer (n := 100000) a h x wl w0 w1 (fun j => bl (ix1 j)) (fun j => b0 (ix1 j)) (fun j => b1 (ix1 j))
          (gate ix0) (fun j => lns (ix1 j)) (fun j => lnb (ix1 j)) := by
  funext idx
  obtain ⟨i, j, rfl⟩ : ∃ (i : Fin 100000) (j : Fin 256), idx = ix2 i j := ⟨idx 0, idx 1, eq_ix2 idx⟩
  unfold refLayer
  rw [normed_apply]
  exact congrArg (fun ρ => Cert.Spec.norm ρ (fun k => lns (ix1 k)) (fun k => lnb (ix1 k)) j)
    (funext fun k => act_apply a h x wl bl w0 b0 w1 b1 gate i k)

/-- The reference's output projection is the specification's. -/
theorem refProj_eq (h : TNode) (wout : (⟨S128x256, .f32⟩ : BufTy).Contents (Elt Ideal))
    (bout : (⟨S128, .f32⟩ : BufTy).Contents (Elt Ideal)) :
    refProj h wout bout = Cert.Spec.proj (n := 100000) h wout (fun j => bout (ix1 j)) := by
  funext idx
  obtain ⟨i, j, rfl⟩ : ∃ (i : Fin 100000) (j : Fin 128), idx = ix2 i j := ⟨idx 0, idx 1, eq_ix2 idx⟩
  unfold refProj
  rw [addf_apply]
  refine congrArg₂ (· + ·) ?_ ?_
  · refine (StackMember.dotGeneral_plain_apply none h _ i j).trans ?_
    exact Finset.sum_congr rfl fun k _ => congrArg (h (ix2 i k) * ·) (transpose_ix2_apply wout _ k j)
  · exact (bcast_1b_ab_apply _ _ i j).trans (bcast_b_1b_apply bout _ j)

end Cert.ReferenceIdeal.HandValue
-- ==== Proof.RefOut.lean ====
/-
  The whole reference program is the specification's two layers and projection around the two
  neighbourhood means: each layer of the reference is the specification's layer on the same three arrays,
  and the output projection is the specification's.
-/
import proofs.«160845_j81252191306258_1_alg».proof.Proof.RefValue

namespace Cert.ReferenceIdeal.HandValue

open Idealize.ShloMosaic Idealize.ShloMosaic.ValueIdx Cert.ReferenceIdeal Cert.ReferenceIdeal.Hand

variable [Facts₀]

/-- The first layer to run (the second parameter set), on the input rows. -/
noncomputable def specH1 (x : TNode) (e1 : TE) (wl1 : TW) (bl1 : TB) (w01 : TW) (b01 : TB) (w11 : TW) (b11 : TB) (gate1 : TS)
    (lns1 lnb1 : TB) : TNode :=
  Cert.Spec.layer (n := 100000) (agg x e1) x x wl1 w01 w11 (fun j => bl1 (ix1 j)) (fun j => b01 (ix1 j)) (fun j => b11 (ix1 j))
    (gate1 ix0) (fun j => lns1 (ix1 j)) (fun j => lnb1 (ix1 j))

/-- The reference's value is the specification's projection of the specification's second layer of the
    specification's first layer, the neighbourhood means left as the program computes them. -/
theorem refOut_eq (x : TNode) (e0 e1 : TE)
    (wl0 : TW) (bl0 : TB) (w00 : TW) (b00 : TB) (w10 : TW) (b10 : TB) (gate0 : TS) (lns0 lnb0 : TB)
    (wl1 : TW) (bl1 : TB) (w01 : TW) (b01 : TB) (w11 : TW) (b11 : TB) (gate1 : TS) (lns1 lnb1 : TB)
    (wout : (⟨S128x256, .f32⟩ : BufTy).Contents (Elt Ideal)) (bout : (⟨S128, .f32⟩ : BufTy).Contents (Elt Ideal)) :
    refOut x e0 e1 wl0 bl0 w00 b00 w10 b10 gate0 lns0 lnb0 wl1 bl1 w01 b01 w11 b11 gate1 lns1 lnb1 wout bout
      = Cert.Spec.proj (n := 100000)
          (Cert.Spec.layer (n := 100000) (agg (specH1 x e1 wl1 bl1 w01 b01 w11 b11 gate1 lns1 lnb1) e0)
            (specH1 x e1 wl1 bl1 w01 b01 w11 b11 gate1 lns1 lnb1) x wl0 w00 w10
            (fun j => bl0 (ix1 j)) (fun j => b00 (ix1 j)) (fun j => b10 (ix1 j)) (gate0 ix0)
            (fun j => lns0 (ix1 j)) (fun j => lnb0 (ix1 j)))
          wout (fun j => bout (ix1 j)) := by
  unfold refOut specH1
  rw [refProj_eq, refLayer_eq, refLayer_eq]

end Cert.ReferenceIdeal.HandValue
-- ==== Proof.KValue.lean ====
/-
  The two programs' results are one function of the arguments. On the kernel side the result array is what the three
  regions' write-backs leave: each region's result is the layer (or the projection) of the arrays its windows read,
  and those arrays are the host's neighbourhood mean, the reshaped parameter rows, the program's arguments and the
  earlier regions' results. On the reference side the result is the same composition by the reference's run. The
  two neighbourhood means are the same composition of the same host operations.
-/
import proofs.«160845_j81252191306258_1_alg».proof.Defs
import proofs.«160845_j81252191306258_1_alg».proof.Proof.KFrame
import proofs.«160845_j81252191306258_1_alg».proof.Proof.KHost
import proofs.«160845_j81252191306258_1_alg».proof.Proof.KFinal0
import proofs.«160845_j81252191306258_1_alg».proof.Proof.KFinal1
import proofs.«160845_j81252191306258_1_alg».proof.Proof.KFinal2
import proofs.«160845_j81252191306258_1_alg».proof.Proof.RefRun
import proofs.«160845_j81252191306258_1_alg».proof.Proof.RefOut

set_option maxRecDepth 16384

noncomputable section

namespace Cert.Bridge

open Idealize.ShloMosaic Idealize.ShloMosaic.TcCoe Idealize.ShloMosaic.ValueIdx Idealize.SL.Sem

/-- A layer of equal arguments is an equal layer. -/
theorem layer_congr {n : Nat} {a a' h h' x x' : (⟨2, ![n, 256]⟩ : Shape).Idx → EReal} {wl wl' w0 w0' w1 w1' : Cert.Spec.W256}
    {bl bl' b0 b0' b1 b1' : Cert.Spec.Row} {g g' : EReal} {s s' t t' : Cert.Spec.Row}
    (ha : a = a') (hh : h = h') (hx : x = x') (hwl : wl = wl') (hw0 : w0 = w0') (hw1 : w1 = w1')
    (hbl : bl = bl') (hb0 : b0 = b0') (hb1 : b1 = b1') (hg : g = g') (hs : s = s') (ht : t = t') :
    Cert.Spec.layer a h x wl w0 w1 bl b0 b1 g s t = Cert.Spec.layer a' h' x' wl' w0' w1' bl' b0' b1' g' s' t' := by
  subst ha hh hx hwl hw0 hw1 hbl hb0 hb1 hg hs ht; rfl

/-- A projection of equal arguments is an equal projection. -/
theorem proj_congr {n : Nat} {h h' : (⟨2, ![n, 256]⟩ : Shape).Idx → EReal} {w w' : Cert.Spec.W128} {b b' : Fin 128 → EReal}
    (hh : h = h') (hw : w = w') (hb : b = b') : Cert.Spec.proj h w b = Cert.Spec.proj h' w' b' := by
  subst hh hw hb; rfl

section Kernel

open Cert.KernelIdeal Cert.KernelIdeal.Gen Cert.KernelIdeal.Hand Cert.KernelIdeal.HandValue

variable [Cert.KernelIdeal.Facts₀]
variable (m : (ℓ : Loc nD τ sig) → Buf (Elt Ideal) ℓ) (c : Dev nD)

/-- The first layer's output, as the specification's layer of the arguments. -/
def H1 : (⟨2, ![100000, 256]⟩ : Shape).Idx → EReal :=
  Cert.Spec.layer (n := 100000) (aggK (arg m c main_arg0) (arg m c main_arg2)) (arg m c main_arg0) (arg m c main_arg0) (arg m c main_arg12) (arg m c main_arg14) (arg m c main_arg16)
    (fun j => arg m c main_arg13 (ix1 j)) (fun j => arg m c main_arg15 (ix1 j)) (fun j => arg m c main_arg17 (ix1 j)) (arg m c main_arg18 ix0) (fun j => arg m c main_arg19 (ix1 j)) (fun j => arg m c main_arg20 (ix1 j))

/-- The second layer's output. -/
def H2 : (⟨2, ![100000, 256]⟩ : Shape).Idx → EReal :=
  Cert.Spec.layer (n := 100000) (aggK (H1 m c) (arg m c main_arg1)) (H1 m c) (arg m c main_arg0) (arg m c main_arg3) (arg m c main_arg5) (arg m c main_arg7)
    (fun j => arg m c main_arg4 (ix1 j)) (fun j => arg m c main_arg6 (ix1 j)) (fun j => arg m c main_arg8 (ix1 j)) (arg m c main_arg9 ix0) (fun j => arg m c main_arg10 (ix1 j)) (fun j => arg m c main_arg11 (ix1 j))

theorem region0_value : (dat0 (E0 m) c).arrAt 12 cfg0.N = H1 m c :=
  (final0 (E0 m) c).trans (layer_congr (E0_v21 m c) (E0_arg0 m c) (E0_arg0 m c) (E0_arg12 m c) (E0_arg14 m c) (E0_arg16 m c)
    (funext (E0_v22 m c)) (funext (E0_v23 m c)) (funext (E0_v24 m c)) (E0_v27 m c) (funext (E0_v25 m c)) (funext (E0_v26 m c)))

theorem region1_value : (dat1 (E1 m) c).arrAt 12 cfg1.N = H2 m c :=
  (final1 (E1 m) c).trans (layer_congr
    ((E1_v50 m c).trans (congrArg (fun z => aggK z (arg m c main_arg1)) ((W4_v28 m c).trans (region0_value m c))))
    ((E1_v28 m c).trans (region0_value m c)) (E1_arg0 m c) (E1_arg3 m c) (E1_arg5 m c) (E1_arg7 m c)
    (funext (E1_v51 m c)) (funext (E1_v52 m c)) (funext (E1_v53 m c)) (E1_v56 m c) (funext (E1_v54 m c)) (funext (E1_v55 m c)))

theorem region2_value : (dat2 (E2 m) c).arrAt 3 cfg2.N
    = Cert.Spec.proj (n := 100000) (H2 m c) (arg m c main_arg21) (fun j => arg m c main_arg22 (ix1 j)) :=
  (final2 (E2 m) c).trans (proj_congr ((E2_v57 m c).trans (region1_value m c)) (E2_arg21 m c) (funext (E2_v58 m c)))

end Kernel

section Bridge

open Cert.KernelIdeal Cert.KernelIdeal.Gen Cert.KernelIdeal.Hand Cert.KernelIdeal.HandValue
open Cert.ReferenceIdeal.Hand Cert.ReferenceIdeal.HandValue

variable [Cert.KernelIdeal.Facts₀] [Cert.ReferenceIdeal.Facts₀]
variable (m : (ℓ : Loc nD τ sig) → Buf (Elt Ideal) ℓ) (c : Dev nD)

/-- The first layer: the kernel side's and the reference side's expressions are the same layer of the same mean. -/
theorem H1_eq : H1 m c = specH1 (arg m c main_arg0) (arg m c main_arg2) (arg m c main_arg12) (arg m c main_arg13) (arg m c main_arg14) (arg m c main_arg15) (arg m c main_arg16) (arg m c main_arg17) (arg m c main_arg18) (arg m c main_arg19) (arg m c main_arg20) := by
  unfold H1 specH1
  exact layer_congr (aggK_eq _ _) rfl rfl rfl rfl rfl rfl rfl rfl rfl rfl rfl

/-- The kernel program's result is the reference's closed term of the same arguments. -/
theorem bridge : (dat2 (E2 m) c).arrAt 3 cfg2.N
    = refOut (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) := by
  refine (region2_value m c).trans (Eq.trans ?_ (refOut_eq _ _ _ _ _ _ _ _ _ _ _ _ _ _ _ _ _ _ _ _ _ _ _).symm)
  refine proj_congr ?_ rfl rfl
  unfold H2
  exact layer_congr ((aggK_eq _ _).trans (congrArg (fun z => Cert.ReferenceIdeal.Hand.agg z _) (H1_eq m c))) (H1_eq m c) rfl rfl rfl rfl rfl rfl rfl rfl rfl rfl

end Bridge

/-- The reference's closed term at equal arguments. -/
theorem refOut_congr [Cert.ReferenceIdeal.Facts₀] {a0 b0 : Cert.ReferenceIdeal.Hand.TNode} {a1 b1 : Cert.ReferenceIdeal.Hand.TE} {a2 b2 : Cert.ReferenceIdeal.Hand.TE} {a3 b3 : Cert.ReferenceIdeal.Hand.TW} {a4 b4 : Cert.ReferenceIdeal.Hand.TB} {a5 b5 : Cert.ReferenceIdeal.Hand.TW} {a6 b6 : Cert.ReferenceIdeal.Hand.TB} {a7 b7 : Cert.ReferenceIdeal.Hand.TW} {a8 b8 : Cert.ReferenceIdeal.Hand.TB} {a9 b9 : Cert.ReferenceIdeal.Hand.TS} {a10 b10 : Cert.ReferenceIdeal.Hand.TB} {a11 b11 : Cert.ReferenceIdeal.Hand.TB} {a12 b12 : Cert.ReferenceIdeal.Hand.TW} {a13 b13 : Cert.ReferenceIdeal.Hand.TB} {a14 b14 : Cert.ReferenceIdeal.Hand.TW} {a15 b15 : Cert.ReferenceIdeal.Hand.TB} {a16 b16 : Cert.ReferenceIdeal.Hand.TW} {a17 b17 : Cert.ReferenceIdeal.Hand.TB} {a18 b18 : Cert.ReferenceIdeal.Hand.TS} {a19 b19 : Cert.ReferenceIdeal.Hand.TB} {a20 b20 : Cert.ReferenceIdeal.Hand.TB} {a21 b21 : (⟨Cert.ReferenceIdeal.S128x256, .f32⟩ : BufTy).Contents (Elt Ideal)} {a22 b22 : (⟨Cert.ReferenceIdeal.S128, .f32⟩ : BufTy).Contents (Elt Ideal)}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) :
    Cert.ReferenceIdeal.Hand.refOut a0 a1 a2 a3 a4 a5 a6 a7 a8 a9 a10 a11 a12 a13 a14 a15 a16 a17 a18 a19 a20 a21 a22 = Cert.ReferenceIdeal.Hand.refOut b0 b1 b2 b3 b4 b5 b6 b7 b8 b9 b10 b11 b12 b13 b14 b15 b16 b17 b18 b19 b20 b21 b22 := by
  subst h0 h1 h2 h3 h4 h5 h6 h7 h8 h9 h10 h11 h12 h13 h14 h15 h16 h17 h18 h19 h20 h21 h22; rfl

/-- The kernel's and the reference's results agree. -/
theorem algebraic [hKernelIdeal : Cert.KernelIdeal.Facts] [hReferenceIdeal : Cert.ReferenceIdeal.Facts] [hPre_finite_inputs : Cert.Pre_finite_inputs.Facts] :
    Cert.algebraic_KernelIdeal_ReferenceIdeal := by
  intro m ρ m' ρ' _ hagree
  refine ⟨fun c => Cert.ReferenceIdeal.Hand.refOut (Cert.KernelIdeal.Hand.arg m c Cert.KernelIdeal.main_arg0) (Cert.KernelIdeal.Hand.arg m c Cert.KernelIdeal.main_arg1) (Cert.KernelIdeal.Hand.arg m c Cert.KernelIdeal.main_arg2) (Cert.KernelIdeal.Hand.arg m c Cert.KernelIdeal.main_arg3) (Cert.KernelIdeal.Hand.arg m c Cert.KernelIdeal.main_arg4) (Cert.KernelIdeal.Hand.arg m c Cert.KernelIdeal.main_arg5) (Cert.KernelIdeal.Hand.arg m c Cert.KernelIdeal.main_arg6) (Cert.KernelIdeal.Hand.arg m c Cert.KernelIdeal.main_arg7) (Cert.KernelIdeal.Hand.arg m c Cert.KernelIdeal.main_arg8) (Cert.KernelIdeal.Hand.arg m c Cert.KernelIdeal.main_arg9) (Cert.KernelIdeal.Hand.arg m c Cert.KernelIdeal.main_arg10) (Cert.KernelIdeal.Hand.arg m c Cert.KernelIdeal.main_arg11) (Cert.KernelIdeal.Hand.arg m c Cert.KernelIdeal.main_arg12) (Cert.KernelIdeal.Hand.arg m c Cert.KernelIdeal.main_arg13) (Cert.KernelIdeal.Hand.arg m c Cert.KernelIdeal.main_arg14) (Cert.KernelIdeal.Hand.arg m c Cert.KernelIdeal.main_arg15) (Cert.KernelIdeal.Hand.arg m c Cert.KernelIdeal.main_arg16) (Cert.KernelIdeal.Hand.arg m c Cert.KernelIdeal.main_arg17) (Cert.KernelIdeal.Hand.arg m c Cert.KernelIdeal.main_arg18) (Cert.KernelIdeal.Hand.arg m c Cert.KernelIdeal.main_arg19) (Cert.KernelIdeal.Hand.arg m c Cert.KernelIdeal.main_arg20) (Cert.KernelIdeal.Hand.arg m c Cert.KernelIdeal.main_arg21) (Cert.KernelIdeal.Hand.arg m c Cert.KernelIdeal.main_arg22), ?_, ?_⟩
  · exact (θ_run (Cert.KernelIdeal.defs (F := Ideal)) _ _).mono (fun r h c => ⟨(h c).1.trans (bridge m c), (h c).2⟩) (Cert.KernelIdeal.Hand.value m ρ)
  · refine (θ_run (Cert.ReferenceIdeal.defs (F := Ideal)) _ _).mono (fun r h c => ⟨(h c).1.trans ?_, (h c).2⟩) (Cert.ReferenceIdeal.Hand.run m' ρ')
    obtain ⟨e0, e1, e2, e3, e4, e5, e6, e7, e8, e9, e10, e11, e12, e13, e14, e15, e16, e17, e18, e19, e20, e21, e22⟩ := hagree c
    exact refOut_congr e0 e1 e2 e3 e4 e5 e6 e7 e8 e9 e10 e11 e12 e13 e14 e15 e16 e17 e18 e19 e20 e21 e22

end Cert.Bridge

end
-- ==== Proof.lean ====
/-
  The certificate's five claims.

  Both programs compute a two-layer message-passing network followed by a linear projection. One layer takes, for
  every node, three rows of 256 features — the mean of the neighbours' current features, the node's current features
  and its input features —, applies an affine map to each, mixes them with a gate weight σ(g) = 1 / (1 + e^(−g)) as
  first + (1 − σ) · second + σ · third, rectifies, and normalises the row: subtract the row mean, multiply by
  (variance + ε)^(−1/2), scale and shift. The kernel program does the affine maps, the mixing and the normalisation in
  a tiled kernel over blocks of 2000 rows and multiplies by the reciprocal square root; the reference does the same
  on whole arrays and divides by the square root. On the extended reals the two agree entry by entry: a block's rows
  depend only on the same rows of the inputs; a contraction, a row sum and their tilings are the same finite sums;
  and d / √y = d · y^(−1/2) for every d as soon as 0 < y, which holds for y = variance + ε because a sum of squares is
  never negative. No finiteness of the inputs is used. The neighbourhood mean is computed on the host by the same
  operations in both programs.

  The frames: each program runs to the end from any memory, faults nowhere, and leaves its argument arrays as
  launched, because no host operation and no kernel region writes an argument array. The idealised kernel program is
  the kernel program's own text read at the extended reals (no rewrite was applied), so there is nothing to preserve.
-/
import proofs.«160845_j81252191306258_1_alg».proof.Defs
import proofs.«160845_j81252191306258_1_alg».proof.Proof.Gen.Kernel
import proofs.«160845_j81252191306258_1_alg».proof.Proof.Gen.Kernel.Skeleton
import proofs.«160845_j81252191306258_1_alg».proof.Proof.Gen.Kernel.Launch
import proofs.«160845_j81252191306258_1_alg».proof.Proof.Gen.Kernel.Regions
import proofs.«160845_j81252191306258_1_alg».proof.Proof.Gen.Kernel.Points
import proofs.«160845_j81252191306258_1_alg».proof.Proof.Gen.KernelIdeal
import proofs.«160845_j81252191306258_1_alg».proof.Proof.Gen.KernelIdeal.Skeleton
import proofs.«160845_j81252191306258_1_alg».proof.Proof.Gen.KernelIdeal.Launch
import proofs.«160845_j81252191306258_1_alg».proof.Proof.Gen.KernelIdeal.Regions
import proofs.«160845_j81252191306258_1_alg».proof.Proof.Gen.KernelIdeal.Points
import proofs.«160845_j81252191306258_1_alg».proof.Proof.Gen.ReferenceIdeal
import proofs.«160845_j81252191306258_1_alg».proof.Proof.Gen.Pre_finite_inputs
import proofs.«160845_j81252191306258_1_alg».proof.Proof.KFrameB
import proofs.«160845_j81252191306258_1_alg».proof.Proof.KValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Hand.frame m ρ,
  trivial,
  Cert.Bridge.algebraic⟩

end Cert.Proof

end
